-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v155)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v155) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v198) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x16 : Shape := ⟨2, ![8192, 16]⟩
abbrev S16384 : Shape := ⟨1, ![16384]⟩
abbrev S2x262144 : Shape := ⟨2, ![2, 262144]⟩
abbrev S8192 : Shape := ⟨1, ![8192]⟩
abbrev S_ : Shape := ⟨0, ![]⟩

class Facts : Prop where
  bcast_S_S8192x16 : S_.BroadcastsInDim S8192x16 (![] : Fin 0 → Fin S8192x16.rank)
  reducesTo_S8192x16_S_d0_1 : S8192x16.ReducesTo [0, 1] S_
  h_S_ : 0 < S_.numel
  bcast_S_S16384 : S_.BroadcastsInDim S16384 (![] : Fin 0 → Fin S16384.rank)
  reducesTo_S16384_S_d0 : S16384.ReducesTo [0] S_

variable [Facts]

def fn_part1 {F : FTy → Type} [FloatOps F] (main_arg4 : FVec F S16384 .f32) (main_v13 : IVec S_ 1) (main_v16 : IVec S16384 1) : IVec S_ 1 :=
  let main_c_5 : IVec S_ 1 := constantI S_ 1 1#1
  let main_v17 : IVec S_ 1 := (fun x v => Host.reduce IntOp.andi x v reducesTo_S16384_S_d0 h_S_) main_v16 main_c_5
  let main_v18 : IVec S_ 1 := andi main_v13 main_v17
  let main_v19 : FVec F S16384 .f32 := Host.absf main_arg4
  let main_cst_6 : FVec F S_ .f32 := constant S_ .f32 0x7F800000#32
  let main_v20 : FVec F S16384 .f32 := broadcastInDim S16384 ![] bcast_S_S16384 main_cst_6
  let main_v21 : IVec S16384 1 := cmpf .olt main_v19 main_v20
  let main_c_7 : IVec S_ 1 := constantI S_ 1 1#1
  let main_v22 : IVec S_ 1 := (fun x v => Host.reduce IntOp.andi x v reducesTo_S16384_S_d0 h_S_) main_v21 main_c_7
  let main_v23 : IVec S_ 1 := andi main_v18 main_v22
  main_v23

def fn {F : FTy → Type} [FloatOps F] (main_arg0 : FVec F S8192x16 .f32) (main_arg1 : FVec F S8192x16 .f32) (main_arg2 : FVec F S8192x16 .f32) (main_arg3 : FVec F S16384 .f32) (main_arg4 : FVec F S16384 .f32) (main_arg5 : IVec S2x262144 32) (main_arg6 : IVec S2x262144 32) (main_arg7 : IVec S8192 32) (main_arg8 : IVec S8192 32) (main_arg9 : IVec S8192 32) : IVec S_ 1 :=
  let main_v0 : FVec F S8192x16 .f32 := Host.absf main_arg0
  let main_cst : FVec F S_ .f32 := constant S_ .f32 0x7F800000#32
  let main_v1 : FVec F S8192x16 .f32 := broadcastInDim S8192x16 ![] bcast_S_S8192x16 main_cst
  let main_v2 : IVec S8192x16 1 := cmpf .olt main_v0 main_v1
  let main_c : IVec S_ 1 := constantI S_ 1 1#1
  let main_v3 : IVec S_ 1 := (fun x v => Host.reduce IntOp.andi x v reducesTo_S8192x16_S_d0_1 h_S_) main_v2 main_c
  let main_v4 : FVec F S8192x16 .f32 := Host.absf main_arg1
  let main_cst_0 : FVec F S_ .f32 := constant S_ .f32 0x7F800000#32
  let main_v5 : FVec F S8192x16 .f32 := broadcastInDim S8192x16 ![] bcast_S_S8192x16 main_cst_0
  let main_v6 : IVec S8192x16 1 := cmpf .olt main_v4 main_v5
  let main_c_1 : IVec S_ 1 := constantI S_ 1 1#1
  let main_v7 : IVec S_ 1 := (fun x v => Host.reduce IntOp.andi x v reducesTo_S8192x16_S_d0_1 h_S_) main_v6 main_c_1
  let main_v8 : IVec S_ 1 := andi main_v3 main_v7
  let main_v9 : FVec F S8192x16 .f32 := Host.absf main_arg2
  let main_cst_2 : FVec F S_ .f32 := constant S_ .f32 0x7F800000#32
  let main_v10 : FVec F S8192x16 .f32 := broadcastInDim S8192x16 ![] bcast_S_S8192x16 main_cst_2
  let main_v11 : IVec S8192x16 1 := cmpf .olt main_v9 main_v10
  let main_c_3 : IVec S_ 1 := constantI S_ 1 1#1
  let main_v12 : IVec S_ 1 := (fun x v => Host.reduce IntOp.andi x v reducesTo_S8192x16_S_d0_1 h_S_) main_v11 main_c_3
  let main_v13 : IVec S_ 1 := andi main_v8 main_v12
  let main_v14 : FVec F S16384 .f32 := Host.absf main_arg3
  let main_cst_4 : FVec F S_ .f32 := constant S_ .f32 0x7F800000#32
  let main_v15 : FVec F S16384 .f32 := broadcastInDim S16384 ![] bcast_S_S16384 main_cst_4
  let main_v16 : IVec S16384 1 := cmpf .olt main_v14 main_v15
  fn_part1 (F := F) main_arg4 main_v13 main_v16
-- ==== Kernel.lean ====
abbrev S8192x16 : Shape := ⟨2, ![8192, 16]⟩
abbrev S16384 : Shape := ⟨1, ![16384]⟩
abbrev S2x262144 : Shape := ⟨2, ![2, 262144]⟩
abbrev S8192 : Shape := ⟨1, ![8192]⟩
abbrev S_ : Shape := ⟨0, ![]⟩
abbrev S8192x1 : Shape := ⟨2, ![8192, 1]⟩
abbrev S1x8192 : Shape := ⟨2, ![1, 8192]⟩
abbrev S1x1 : Shape := ⟨2, ![1, 1]⟩
abbrev S1024x16 : Shape := ⟨2, ![1024, 16]⟩
abbrev S1024x1 : Shape := ⟨2, ![1024, 1]⟩
abbrev S1x1024 : Shape := ⟨2, ![1, 1024]⟩
abbrev S1024 : Shape := ⟨1, ![1024]⟩
abbrev S16x1024 : Shape := ⟨2, ![16, 1024]⟩
abbrev S1024x1024 : Shape := ⟨2, ![1024, 1024]⟩
abbrev S1 : Shape := ⟨1, ![1]⟩
abbrev S1x262144 : Shape := ⟨2, ![1, 262144]⟩
abbrev S262144 : Shape := ⟨1, ![262144]⟩
abbrev S262144x1 : Shape := ⟨2, ![262144, 1]⟩
abbrev S262144x16 : Shape := ⟨2, ![262144, 16]⟩

abbrev nBuf : Space → Nat
  | .hbm => 212
  | .vmem => 20
  | .smem => 0
  | _ => 0

abbrev hbmTy0_0 (i : Nat) : BufTy := match i % 128 with
  | 0 => ⟨S8192x16, .f32⟩
  | 1 => ⟨S8192x16, .f32⟩
  | 2 => ⟨S8192x16, .f32⟩
  | 3 => ⟨S16384, .f32⟩
  | 4 => ⟨S16384, .f32⟩
  | 5 => ⟨S2x262144, .i32⟩
  | 6 => ⟨S2x262144, .i32⟩
  | 7 => ⟨S8192, .i32⟩
  | 8 => ⟨S8192, .i32⟩
  | 9 => ⟨S8192, .i32⟩
  | 10 => ⟨S_, .i32⟩
  | 11 => ⟨S8192, .i32⟩
  | 12 => ⟨S8192, .i1⟩
  | 13 => ⟨S_, .i32⟩
  | 14 => ⟨S8192, .i32⟩
  | 15 => ⟨S8192, .i32⟩
  | 16 => ⟨S8192, .i32⟩
  | 17 => ⟨S8192x1, .i32⟩
  | 18 => ⟨S8192x16, .f32⟩
  | 19 => ⟨S_, .i32⟩
  | 20 => ⟨S8192, .i32⟩
  | 21 => ⟨S8192, .i1⟩
  | 22 => ⟨S_, .i32⟩
  | 23 => ⟨S8192, .i32⟩
  | 24 => ⟨S8192, .i32⟩
  | 25 => ⟨S8192, .i32⟩
  | 26 => ⟨S8192x1, .i32⟩
  | 27 => ⟨S8192x16, .f32⟩
  | 28 => ⟨S_, .i32⟩
  | 29 => ⟨S8192, .i32⟩
  | 30 => ⟨S8192, .i32⟩
  | 31 => ⟨S_, .i32⟩
  | 32 => ⟨S8192, .i32⟩
  | 33 => ⟨S8192, .i1⟩
  | 34 => ⟨S_, .i32⟩
  | 35 => ⟨S8192, .i32⟩
  | 36 => ⟨S8192, .i32⟩
  | 37 => ⟨S8192, .i32⟩
  | 38 => ⟨S8192x1, .i32⟩
  | 39 => ⟨S8192x16, .f32⟩
  | 40 => ⟨S_, .i32⟩
  | 41 => ⟨S8192, .i32⟩
  | 42 => ⟨S8192, .i1⟩
  | 43 => ⟨S_, .i32⟩
  | 44 => ⟨S8192, .i32⟩
  | 45 => ⟨S8192, .i32⟩
  | 46 => ⟨S8192, .i32⟩
  | 47 => ⟨S8192x1, .i32⟩
  | 48 => ⟨S8192, .f32⟩
  | 49 => ⟨S_, .i32⟩
  | 50 => ⟨S8192, .i32⟩
  | 51 => ⟨S8192, .i32⟩
  | 52 => ⟨S_, .i32⟩
  | 53 => ⟨S8192, .i32⟩
  | 54 => ⟨S8192, .i1⟩
  | 55 => ⟨S_, .i32⟩
  | 56 => ⟨S8192, .i32⟩
  | 57 => ⟨S8192, .i32⟩
  | 58 => ⟨S8192, .i32⟩
  | 59 => ⟨S8192x1, .i32⟩
  | 60 => ⟨S8192, .f32⟩
  | 61 => ⟨S_, .i32⟩
  | 62 => ⟨S8192, .i32⟩
  | 63 => ⟨S8192, .i1⟩
  | 64 => ⟨S_, .i32⟩
  | 65 => ⟨S8192, .i32⟩
  | 66 => ⟨S8192, .i32⟩
  | 67 => ⟨S8192, .i32⟩
  | 68 => ⟨S8192x1, .i32⟩
  | 69 => ⟨S8192, .f32⟩
  | 70 => ⟨S_, .i32⟩
  | 71 => ⟨S8192, .i32⟩
  | 72 => ⟨S8192, .i1⟩
  | 73 => ⟨S_, .i32⟩
  | 74 => ⟨S8192, .i32⟩
  | 75 => ⟨S8192, .i32⟩
  | 76 => ⟨S8192, .i32⟩
  | 77 => ⟨S8192x1, .i32⟩
  | 78 => ⟨S8192, .f32⟩
  | 79 => ⟨S8192x1, .f32⟩
  | 80 => ⟨S1x8192, .f32⟩
  | 81 => ⟨S1x1, .f32⟩
  | 82 => ⟨S_, .f32⟩
  | 83 => ⟨S8192x1, .f32⟩
  | 84 => ⟨S1x8192, .f32⟩
  | 85 => ⟨S1x1, .f32⟩
  | 86 => ⟨S_, .f32⟩
  | 87 => ⟨S1x262144, .i32⟩
  | 88 => ⟨S262144, .i32⟩
  | 89 => ⟨S_, .i32⟩
  | 90 => ⟨S262144, .i32⟩
  | 91 => ⟨S262144, .i1⟩
  | 92 => ⟨S_, .i32⟩
  | 93 => ⟨S262144, .i32⟩
  | 94 => ⟨S262144, .i32⟩
  | 95 => ⟨S262144, .i32⟩
  | 96 => ⟨S262144x1, .i32⟩
  | 97 => ⟨S262144, .f32⟩
  | 98 => ⟨S1x262144, .i32⟩
  | 99 => ⟨S262144, .i32⟩
  | 100 => ⟨S_, .i32⟩
  | 101 => ⟨S262144, .i32⟩
  | 102 => ⟨S262144, .i32⟩
  | 103 => ⟨S_, .i32⟩
  | 104 => ⟨S262144, .i32⟩
  | 105 => ⟨S262144, .i1⟩
  | 106 => ⟨S_, .i32⟩
  | 107 => ⟨S262144, .i32⟩
  | 108 => ⟨S262144, .i32⟩
  | 109 => ⟨S262144, .i32⟩
  | 110 => ⟨S262144x1, .i32⟩
  | 111 => ⟨S262144, .f32⟩
  | 112 => ⟨S262144, .f32⟩
  | 113 => ⟨S1x262144, .i32⟩
  | 114 => ⟨S262144, .i32⟩
  | 115 => ⟨S_, .i32⟩
  | 116 => ⟨S262144, .i32⟩
  | 117 => ⟨S262144, .i1⟩
  | 118 => ⟨S_, .i32⟩
  | 119 => ⟨S262144, .i32⟩
  | 120 => ⟨S262144, .i32⟩
  | 121 => ⟨S262144, .i32⟩
  | 122 => ⟨S262144x1, .i32⟩
  | 123 => ⟨S262144x16, .f32⟩
  | 124 => ⟨S1x262144, .i32⟩
  | 125 => ⟨S262144, .i32⟩
  | 126 => ⟨S_, .i32⟩
  | 127 => ⟨S262144, .i32⟩
  | _ => ⟨S8192x16, .f32⟩

abbrev hbmTy0_1 (i : Nat) : BufTy := match i % 128 with
  | 0 => ⟨S262144, .i1⟩
  | 1 => ⟨S_, .i32⟩
  | 2 => ⟨S262144, .i32⟩
  | 3 => ⟨S262144, .i32⟩
  | 4 => ⟨S262144, .i32⟩
  | 5 => ⟨S262144x1, .i32⟩
  | 6 => ⟨S262144x16, .f32⟩
  | 7 => ⟨S262144x16, .f32⟩
  | 8 => ⟨S262144x16, .f32⟩
  | 9 => ⟨S_, .f32⟩
  | 10 => ⟨S262144, .f32⟩
  | 11 => ⟨S262144, .f32⟩
  | 12 => ⟨S262144, .f32⟩
  | 13 => ⟨S_, .f32⟩
  | 14 => ⟨S_, .f32⟩
  | 15 => ⟨S1x262144, .i32⟩
  | 16 => ⟨S262144, .i32⟩
  | 17 => ⟨S_, .i32⟩
  | 18 => ⟨S262144, .i32⟩
  | 19 => ⟨S262144, .i1⟩
  | 20 => ⟨S_, .i32⟩
  | 21 => ⟨S262144, .i32⟩
  | 22 => ⟨S262144, .i32⟩
  | 23 => ⟨S262144, .i32⟩
  | 24 => ⟨S262144x1, .i32⟩
  | 25 => ⟨S262144, .f32⟩
  | 26 => ⟨S1x262144, .i32⟩
  | 27 => ⟨S262144, .i32⟩
  | 28 => ⟨S_, .i32⟩
  | 29 => ⟨S262144, .i32⟩
  | 30 => ⟨S262144, .i1⟩
  | 31 => ⟨S_, .i32⟩
  | 32 => ⟨S262144, .i32⟩
  | 33 => ⟨S262144, .i32⟩
  | 34 => ⟨S262144, .i32⟩
  | 35 => ⟨S262144x1, .i32⟩
  | 36 => ⟨S262144, .f32⟩
  | 37 => ⟨S262144, .f32⟩
  | 38 => ⟨S1x262144, .i32⟩
  | 39 => ⟨S262144, .i32⟩
  | 40 => ⟨S_, .i32⟩
  | 41 => ⟨S262144, .i32⟩
  | 42 => ⟨S262144, .i1⟩
  | 43 => ⟨S_, .i32⟩
  | 44 => ⟨S262144, .i32⟩
  | 45 => ⟨S262144, .i32⟩
  | 46 => ⟨S262144, .i32⟩
  | 47 => ⟨S262144x1, .i32⟩
  | 48 => ⟨S262144x16, .f32⟩
  | 49 => ⟨S1x262144, .i32⟩
  | 50 => ⟨S262144, .i32⟩
  | 51 => ⟨S_, .i32⟩
  | 52 => ⟨S262144, .i32⟩
  | 53 => ⟨S262144, .i32⟩
  | 54 => ⟨S_, .i32⟩
  | 55 => ⟨S262144, .i32⟩
  | 56 => ⟨S262144, .i1⟩
  | 57 => ⟨S_, .i32⟩
  | 58 => ⟨S262144, .i32⟩
  | 59 => ⟨S262144, .i32⟩
  | 60 => ⟨S262144, .i32⟩
  | 61 => ⟨S262144x1, .i32⟩
  | 62 => ⟨S262144x16, .f32⟩
  | 63 => ⟨S262144x16, .f32⟩
  | 64 => ⟨S262144x16, .f32⟩
  | 65 => ⟨S_, .f32⟩
  | 66 => ⟨S262144, .f32⟩
  | 67 => ⟨S262144, .f32⟩
  | 68 => ⟨S262144, .f32⟩
  | 69 => ⟨S_, .f32⟩
  | 70 => ⟨S_, .f32⟩
  | 71 => ⟨S_, .f32⟩
  | 72 => ⟨S_, .f32⟩
  | 73 => ⟨S_, .f32⟩
  | 74 => ⟨S_, .f32⟩
  | 75 => ⟨S_, .f32⟩
  | 76 => ⟨S_, .f32⟩
  | 77 => ⟨S_, .f32⟩
  | 78 => ⟨S_, .f32⟩
  | 79 => ⟨S_, .f32⟩
  | 80 => ⟨S_, .f32⟩
  | 81 => ⟨S_, .f32⟩
  | 82 => ⟨S_, .f32⟩
  | 83 => ⟨S_, .f32⟩
  | _ => ⟨S8192x16, .f32⟩

abbrev hbmTy (i : Nat) : BufTy := match i / 128 with
  | 0 => hbmTy0_0 i
  | 1 => hbmTy0_1 i
  | _ => ⟨S8192x16, .f32⟩

abbrev bufTy : (tb : Table) → Fin (tcTables nBuf tb) → BufTy
  | .hbm, ⟨i, _⟩ => hbmTy i
  | .local _ .vmem, ⟨0, _⟩ => ⟨S1024x16, .f32⟩
  | .local _ .vmem, ⟨1, _⟩ => ⟨S1024x16, .f32⟩
  | .local _ .vmem, ⟨2, _⟩ => ⟨S1024x16, .f32⟩
  | .local _ .vmem, ⟨3, _⟩ => ⟨S1024x16, .f32⟩
  | .local _ .vmem, ⟨4, _⟩ => ⟨S1024x1, .f32⟩
  | .local _ .vmem, ⟨5, _⟩ => ⟨S1024x1, .f32⟩
  | .local _ .vmem, ⟨6, _⟩ => ⟨S1x1024, .f32⟩
  | .local _ .vmem, ⟨7, _⟩ => ⟨S1x1024, .f32⟩
  | .local _ .vmem, ⟨8, _⟩ => ⟨S1x1, .f32⟩
  | .local _ .vmem, ⟨9, _⟩ => ⟨S1x1, .f32⟩
  | .local _ .vmem, ⟨10, _⟩ => ⟨S1024x16, .f32⟩
  | .local _ .vmem, ⟨11, _⟩ => ⟨S1024x16, .f32⟩
  | .local _ .vmem, ⟨12, _⟩ => ⟨S1024x16, .f32⟩
  | .local _ .vmem, ⟨13, _⟩ => ⟨S1024x16, .f32⟩
  | .local _ .vmem, ⟨14, _⟩ => ⟨S1024x1, .f32⟩
  | .local _ .vmem, ⟨15, _⟩ => ⟨S1024x1, .f32⟩
  | .local _ .vmem, ⟨16, _⟩ => ⟨S1x1024, .f32⟩
  | .local _ .vmem, ⟨17, _⟩ => ⟨S1x1024, .f32⟩
  | .local _ .vmem, ⟨18, _⟩ => ⟨S1x1, .f32⟩
  | .local _ .vmem, ⟨19, _⟩ => ⟨S1x1, .f32⟩
  | _, _ => ⟨S8192x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_c_1 : Ref sig .tc := ⟨.hbm, 19, rfl⟩
abbrev main_v7 : Ref sig .tc := ⟨.hbm, 20, rfl⟩
abbrev main_v8 : Ref sig .tc := ⟨.hbm, 21, rfl⟩
abbrev main_c_2 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_c_3 : Ref sig .tc := ⟨.hbm, 28, rfl⟩
abbrev main_v14 : Ref sig .tc := ⟨.hbm, 29, rfl⟩
abbrev main_v15 : Ref sig .tc := ⟨.hbm, 30, rfl⟩
abbrev main_c_4 : Ref sig .tc := ⟨.hbm, 31, rfl⟩
abbrev main_v16 : Ref sig .tc := ⟨.hbm, 32, rfl⟩
abbrev main_v17 : Ref sig .tc := ⟨.hbm, 33, rfl⟩
abbrev main_c_5 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_c_6 : Ref sig .tc := ⟨.hbm, 40, rfl⟩
abbrev main_v23 : Ref sig .tc := ⟨.hbm, 41, rfl⟩
abbrev main_v24 : Ref sig .tc := ⟨.hbm, 42, rfl⟩
abbrev main_c_7 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_c_8 : Ref sig .tc := ⟨.hbm, 49, rfl⟩
abbrev main_v30 : Ref sig .tc := ⟨.hbm, 50, rfl⟩
abbrev main_v31 : Ref sig .tc := ⟨.hbm, 51, rfl⟩
abbrev main_c_9 : Ref sig .tc := ⟨.hbm, 52, rfl⟩
abbrev main_v32 : Ref sig .tc := ⟨.hbm, 53, rfl⟩
abbrev main_v33 : Ref sig .tc := ⟨.hbm, 54, rfl⟩
abbrev main_c_10 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_c_11 : Ref sig .tc := ⟨.hbm, 61, rfl⟩
abbrev main_v39 : Ref sig .tc := ⟨.hbm, 62, rfl⟩
abbrev main_v40 : Ref sig .tc := ⟨.hbm, 63, rfl⟩
abbrev main_c_12 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_c_13 : Ref sig .tc := ⟨.hbm, 70, rfl⟩
abbrev main_v46 : Ref sig .tc := ⟨.hbm, 71, rfl⟩
abbrev main_v47 : Ref sig .tc := ⟨.hbm, 72, rfl⟩
abbrev main_c_14 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_c_15 : Ref sig .tc := ⟨.hbm, 89, rfl⟩
abbrev main_v63 : Ref sig .tc := ⟨.hbm, 90, rfl⟩
abbrev main_v64 : Ref sig .tc := ⟨.hbm, 91, rfl⟩
abbrev main_c_16 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_c_17 : Ref sig .tc := ⟨.hbm, 100, rfl⟩
abbrev main_v72 : Ref sig .tc := ⟨.hbm, 101, rfl⟩
abbrev main_v73 : Ref sig .tc := ⟨.hbm, 102, rfl⟩
abbrev main_c_18 : Ref sig .tc := ⟨.hbm, 103, rfl⟩
abbrev main_v74 : Ref sig .tc := ⟨.hbm, 104, rfl⟩
abbrev main_v75 : Ref sig .tc := ⟨.hbm, 105, rfl⟩
abbrev main_c_19 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_c_20 : Ref sig .tc := ⟨.hbm, 115, rfl⟩
abbrev main_v84 : Ref sig .tc := ⟨.hbm, 116, rfl⟩
abbrev main_v85 : Ref sig .tc := ⟨.hbm, 117, rfl⟩
abbrev main_c_21 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_c_22 : Ref sig .tc := ⟨.hbm, 126, rfl⟩
abbrev main_v93 : Ref sig .tc := ⟨.hbm, 127, rfl⟩
abbrev main_v94 : Ref sig .tc := ⟨.hbm, 128, rfl⟩
abbrev main_c_23 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_call0_v0 : Ref sig .tc := ⟨.hbm, 136, rfl⟩
abbrev main_call0_cst : Ref sig .tc := ⟨.hbm, 137, rfl⟩
abbrev main_call0_v1 : Ref sig .tc := ⟨.hbm, 138, rfl⟩
abbrev main_v101 : Ref sig .tc := ⟨.hbm, 139, rfl⟩
abbrev main_v102 : Ref sig .tc := ⟨.hbm, 140, rfl⟩
abbrev main_cst : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_c_24 : Ref sig .tc := ⟨.hbm, 145, rfl⟩
abbrev main_v106 : Ref sig .tc := ⟨.hbm, 146, rfl⟩
abbrev main_v107 : Ref sig .tc := ⟨.hbm, 147, rfl⟩
abbrev main_c_25 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_c_26 : Ref sig .tc := ⟨.hbm, 156, rfl⟩
abbrev main_v115 : Ref sig .tc := ⟨.hbm, 157, rfl⟩
abbrev main_v116 : Ref sig .tc := ⟨.hbm, 158, rfl⟩
abbrev main_c_27 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_v124 : Ref sig .tc := ⟨.hbm, 167, rfl⟩
abbrev main_c_28 : Ref sig .tc := ⟨.hbm, 168, rfl⟩
abbrev main_v125 : Ref sig .tc := ⟨.hbm, 169, rfl⟩
abbrev main_v126 : Ref sig .tc := ⟨.hbm, 170, rfl⟩
abbrev main_c_29 : Ref sig .tc := ⟨.hbm, 171, rfl⟩
abbrev main_v127 : Ref sig .tc := ⟨.hbm, 172, rfl⟩
abbrev main_v128 : Ref sig .tc := ⟨.hbm, 173, rfl⟩
abbrev main_v129 : Ref sig .tc := ⟨.hbm, 174, rfl⟩
abbrev main_v130 : Ref sig .tc := ⟨.hbm, 175, rfl⟩
abbrev main_v131 : Ref sig .tc := ⟨.hbm, 176, rfl⟩
abbrev main_v132 : Ref sig .tc := ⟨.hbm, 177, rfl⟩
abbrev main_v133 : Ref sig .tc := ⟨.hbm, 178, rfl⟩
abbrev main_c_30 : Ref sig .tc := ⟨.hbm, 179, rfl⟩
abbrev main_v134 : Ref sig .tc := ⟨.hbm, 180, rfl⟩
abbrev main_v135 : Ref sig .tc := ⟨.hbm, 181, rfl⟩
abbrev main_c_31 : Ref sig .tc := ⟨.hbm, 182, rfl⟩
abbrev main_v136 : Ref sig .tc := ⟨.hbm, 183, rfl⟩
abbrev main_v137 : Ref sig .tc := ⟨.hbm, 184, rfl⟩
abbrev main_c_32 : Ref sig .tc := ⟨.hbm, 185, rfl⟩
abbrev main_v138 : Ref sig .tc := ⟨.hbm, 186, rfl⟩
abbrev main_v139 : Ref sig .tc := ⟨.hbm, 187, rfl⟩
abbrev main_v140 : Ref sig .tc := ⟨.hbm, 188, rfl⟩
abbrev main_v141 : Ref sig .tc := ⟨.hbm, 189, rfl⟩
abbrev main_v142 : Ref sig .tc := ⟨.hbm, 190, rfl⟩
abbrev main_v143 : Ref sig .tc := ⟨.hbm, 191, rfl⟩
abbrev main_call1_v0 : Ref sig .tc := ⟨.hbm, 192, rfl⟩
abbrev main_call1_cst : Ref sig .tc := ⟨.hbm, 193, rfl⟩
abbrev main_call1_v1 : Ref sig .tc := ⟨.hbm, 194, rfl⟩
abbrev main_v144 : Ref sig .tc := ⟨.hbm, 195, rfl⟩
abbrev main_v145 : Ref sig .tc := ⟨.hbm, 196, rfl⟩
abbrev main_cst_33 : Ref sig .tc := ⟨.hbm, 197, rfl⟩
abbrev main_v146 : Ref sig .tc := ⟨.hbm, 198, rfl⟩
abbrev main_v147 : Ref sig .tc := ⟨.hbm, 199, rfl⟩
abbrev main_v148 : Ref sig .tc := ⟨.hbm, 200, rfl⟩
abbrev main_v149 : Ref sig .tc := ⟨.hbm, 201, rfl⟩
abbrev main_v150 : Ref sig .tc := ⟨.hbm, 202, rfl⟩
abbrev main_cst_34 : Ref sig .tc := ⟨.hbm, 203, rfl⟩
abbrev main_v151 : Ref sig .tc := ⟨.hbm, 204, rfl⟩
abbrev main_cst_35 : Ref sig .tc := ⟨.hbm, 205, rfl⟩
abbrev main_v152 : Ref sig .tc := ⟨.hbm, 206, rfl⟩
abbrev main_cst_36 : Ref sig .tc := ⟨.hbm, 207, rfl⟩
abbrev main_v153 : Ref sig .tc := ⟨.hbm, 208, rfl⟩
abbrev main_cst_37 : Ref sig .tc := ⟨.hbm, 209, rfl⟩
abbrev main_v154 : Ref sig .tc := ⟨.hbm, 210, rfl⟩
abbrev main_v155 : Ref sig .tc := ⟨.hbm, 211, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_scratch0 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem3_1 : DmaSem sig := 16
abbrev cc1_sem4_0 : DmaSem sig := 17

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg0 : BitVec 32 := BitVec.ofNat 32 (i 0).val
  let c7_i32 : BitVec 32 := 7#32
  let v57 : BitVec 1 := Scalar.cmpi .eq arg0 c7_i32
  let arg1 : BitVec 32 := BitVec.ofNat 32 (i 1).val
  let c7_i32_21 : BitVec 32 := 7#32
  let v58 : BitVec 1 := Scalar.cmpi .eq arg1 c7_i32_21
  let v59 : BitVec 1 := Scalar.andi v57 v58
  let v60 : BitVec 32 := Scalar.extui v59
  let c0_i32_22 : BitVec 32 := 0#32
  let v61 : BitVec 1 := Scalar.cmpi .ne v60 c0_i32_22
  v61

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev grid1 : Pipeline.Grid := ⟨2, ![8, 8], ![false, false]⟩

def k1_cond2 (i : grid1.Coords) : BitVec 1 :=
  let arg0 : BitVec 32 := BitVec.ofNat 32 (i 0).val
  let c7_i32 : BitVec 32 := 7#32
  let v44 : BitVec 1 := Scalar.cmpi .eq arg0 c7_i32
  let arg1 : BitVec 32 := BitVec.ofNat 32 (i 1).val
  let c7_i32_19 : BitVec 32 := 7#32
  let v45 : BitVec 1 := Scalar.cmpi .eq arg1 c7_i32_19
  let v46 : BitVec 1 := Scalar.andi v44 v45
  let v47 : BitVec 32 := Scalar.extui v46
  let c0_i32_20 : BitVec 32 := 0#32
  let v48 : BitVec 1 := Scalar.cmpi .ne v47 c0_i32_20
  v48

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1024x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x16 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 1 → Memref sig .tc .vmem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

class Facts₀ : Prop where
  bcast_S_S8192 : S_.BroadcastsInDim S8192 (![] : Fin 0 → Fin S8192.rank)
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1024x16_S1024x16_0_0 : ∀ a, (![0, 0] : Fin 2 → Nat) a + S1024x16.size a ≤ S1024x16.size a
  h_S1024x16 : 0 < S1024x16.numel
  shapeCasts_S1024x16_S1024x16 : S1024x16.ShapeCasts S1024x16
  reduces_S1024x16_S1024 : S1024x16.Reduces [1] S1024
  shapeCasts_S1024_S1024x1 : S1024.ShapeCasts S1024x1
  shapeCasts_S1024_S1x1024 : S1024.ShapeCasts S1x1024
  transposes_S1024x16_p1_0_S16x1024 : S1024x16.Transposes [1, 0] S16x1024
  broadcasts_S1024x1_S1024x1024 : S1024x1.Broadcasts S1024x1024
  broadcasts_S1x1024_S1024x1024 : S1x1024.Broadcasts S1024x1024
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  iota_S1024x1_d0_w32 : S1024x1.Iotas .tc 32 [0]
  iota_S1x1024_d1_w32 : S1x1024.Iotas .tc 32 [1]
  reduces_S1024x1024_S1024 : S1024x1024.Reduces [1] S1024
  reduces_S1024x1_S1 : S1024x1.Reduces [0] S1
  shapeCasts_S1_S1x1 : S1.ShapeCasts S1x1
  shapeCasts_S1x1_S_ : S1x1.ShapeCasts S_
  slices_S2x262144_S1x262144_0_0 : S2x262144.Slices ![0, 0] S1x262144
  shapeCasts_S1x262144_S262144 : S1x262144.ShapeCasts S262144
  bcast_S_S262144 : S_.BroadcastsInDim S262144 (![] : Fin 0 → Fin S262144.rank)
  bcast_S262144_S262144x1_0 : S262144.BroadcastsInDim S262144x1 (![0] : Fin 1 → Fin S262144x1.rank)
  slices_S2x262144_S1x262144_1_0 : S2x262144.Slices ![1, 0] S1x262144
  reducesTo_S262144x16_S262144_d1 : S262144x16.ReducesTo [1] S262144
  h_S_ : 0 < S_.numel
  reducesTo_S262144_S_d0 : S262144.ReducesTo [0] S_
  gather_S8192x16_S8192x1_S8192x16_1_0_n_n_0_1_116_wf : GatherDims.WF S8192x16 S8192x1 S8192x16 [1] [0] [] [0] [] 1 ![1, 16]
  gather_S16384_S8192x1_S8192_n_0_n_n_0_1_1_wf : GatherDims.WF S16384 S8192x1 S8192 [] [0] [] [0] [] 1 ![1]
  dot_S1024x16_S16x1024_S1024x1024_1_0_0_1_n_n_wf : DotDims.WF S1024x16 S16x1024 S1024x1024 [1] [0] [0] [1] [] []
  gather_S16384_S262144x1_S262144_n_0_n_n_0_1_1_wf : GatherDims.WF S16384 S262144x1 S262144 [] [0] [] [0] [] 1 ![1]
  gather_S8192x16_S262144x1_S262144x16_1_0_n_n_0_1_116_wf : GatherDims.WF S8192x16 S262144x1 S262144x16 [1] [0] [] [0] [] 1 ![1, 16]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x16.size a ≤ S8192x16.size a
  hwx0_0 : ∀ i : grid0.Coords, EltTy.bits .f32 = 32 ∨ (Rect.block (s := S8192x16) S1024x16.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x16.size a ≤ S8192x16.size a
  hwx0_1 : ∀ i : grid0.Coords, EltTy.bits .f32 = 32 ∨ (Rect.block (s := S8192x16) S1024x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .f32 = 32 ∨ (Rect.block (s := S8192x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x8192.size a
  hwx0_3 : ∀ i : grid0.Coords, EltTy.bits .f32 = 32 ∨ (Rect.block (s := S1x8192) S1x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x16.size a ≤ S8192x16.size a
  hwx1_0 : ∀ i : grid1.Coords, EltTy.bits .f32 = 32 ∨ (Rect.block (s := S8192x16) S1024x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x16.size a ≤ S8192x16.size a
  hwx1_1 : ∀ i : grid1.Coords, EltTy.bits .f32 = 32 ∨ (Rect.block (s := S8192x16) S1024x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1.size a ≤ S8192x1.size a
  hwx1_2 : ∀ i : grid1.Coords, EltTy.bits .f32 = 32 ∨ (Rect.block (s := S8192x1) S1024x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024.size a ≤ S1x8192.size a
  hwx1_3 : ∀ i : grid1.Coords, EltTy.bits .f32 = 32 ∨ (Rect.block (s := S1x8192) S1x1024.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1.size a ≤ S1x1.size a
  hwx1_4 : ∀ i : grid1.Coords, EltTy.bits .f32 = 32 ∨ (Rect.block (s := S1x1) S1x1.size (cc1_transform_4 i) (hinb1_4 i)).WholeWords (EltTy.packing .f32)

variable [Facts₀]

def gather_S8192x16_S8192x1_S8192x16_1_0_n_n_0_1_116 : GatherDims S8192x16 S8192x1 S8192x16 where
  offsetDims := [1]
  collapsedSliceDims := [0]
  operandBatchingDims := []
  startIndicesBatchingDims := []
  startIndexMap := [0]
  indexVectorDim := 1
  sliceSizes := ![1, 16]
  wf := gather_S8192x16_S8192x1_S8192x16_1_0_n_n_0_1_116_wf
def gather_S16384_S8192x1_S8192_n_0_n_n_0_1_1 : GatherDims S16384 S8192x1 S8192 where
  offsetDims := []
  collapsedSliceDims := [0]
  operandBatchingDims := []
  startIndicesBatchingDims := []
  startIndexMap := [0]
  indexVectorDim := 1
  sliceSizes := ![1]
  wf := gather_S16384_S8192x1_S8192_n_0_n_n_0_1_1_wf
def dot_S1024x16_S16x1024_S1024x1024_1_0_0_1_n_n : DotDims S1024x16 S16x1024 S1024x1024 where
  lhsContracting := [1]
  rhsContracting := [0]
  lhsNonContracting := [0]
  rhsNonContracting := [1]
  lhsBatch := []
  rhsBatch := []
  wf := dot_S1024x16_S16x1024_S1024x1024_1_0_0_1_n_n_wf
def gather_S16384_S262144x1_S262144_n_0_n_n_0_1_1 : GatherDims S16384 S262144x1 S262144 where
  offsetDims := []
  collapsedSliceDims := [0]
  operandBatchingDims := []
  startIndicesBatchingDims := []
  startIndexMap := [0]
  indexVectorDim := 1
  sliceSizes := ![1]
  wf := gather_S16384_S262144x1_S262144_n_0_n_n_0_1_1_wf
def gather_S8192x16_S262144x1_S262144x16_1_0_n_n_0_1_116 : GatherDims S8192x16 S262144x1 S262144x16 where
  offsetDims := [1]
  collapsedSliceDims := [0]
  operandBatchingDims := []
  startIndicesBatchingDims := []
  startIndexMap := [0]
  indexVectorDim := 1
  sliceSizes := ![1, 16]
  wf := gather_S8192x16_S262144x1_S262144x16_1_0_n_n_0_1_116_wf

abbrev win0_0 : Pipeline.Window sig grid0 :=
  Pipeline.Window.ofSpec (Memref.whole main_v6) S1024x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S1024x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v53) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v54) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v55) S1x1.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

abbrev win1_0 : Pipeline.Window sig grid1 :=
  Pipeline.Window.ofSpec (Memref.whole main_v6) S1024x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v22) S1024x16.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v57) S1024x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v58) S1x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v59) S1x1.size cc1_transform_4 reads1_4 true true 1 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

class Facts : Prop extends Facts₀ where

variable [Facts]
-- ==== ReferenceIdeal.lean ====
abbrev S8192x16 : Shape := ⟨2, ![8192, 16]⟩
abbrev S16384 : Shape := ⟨1, ![16384]⟩
abbrev S2x262144 : Shape := ⟨2, ![2, 262144]⟩
abbrev S8192 : Shape := ⟨1, ![8192]⟩
abbrev S_ : Shape := ⟨0, ![]⟩
abbrev S8192x1 : Shape := ⟨2, ![8192, 1]⟩
abbrev S1x8192 : Shape := ⟨2, ![1, 8192]⟩
abbrev S8192x8192 : Shape := ⟨2, ![8192, 8192]⟩
abbrev S16x8192 : Shape := ⟨2, ![16, 8192]⟩
abbrev S1x262144 : Shape := ⟨2, ![1, 262144]⟩
abbrev S262144 : Shape := ⟨1, ![262144]⟩
abbrev S262144x1 : Shape := ⟨2, ![262144, 1]⟩
abbrev S262144x16 : Shape := ⟨2, ![262144, 16]⟩

abbrev nBuf : Space → Nat
  | .hbm => 273
  | .vmem => 0
  | .smem => 0
  | _ => 0

abbrev hbmTy0_0 (i : Nat) : BufTy := match i % 128 with
  | 0 => ⟨S8192x16, .f32⟩
  | 1 => ⟨S8192x16, .f32⟩
  | 2 => ⟨S8192x16, .f32⟩
  | 3 => ⟨S16384, .f32⟩
  | 4 => ⟨S16384, .f32⟩
  | 5 => ⟨S2x262144, .i32⟩
  | 6 => ⟨S2x262144, .i32⟩
  | 7 => ⟨S8192, .i32⟩
  | 8 => ⟨S8192, .i32⟩
  | 9 => ⟨S8192, .i32⟩
  | 10 => ⟨S_, .i32⟩
  | 11 => ⟨S8192, .i32⟩
  | 12 => ⟨S8192, .i1⟩
  | 13 => ⟨S_, .i32⟩
  | 14 => ⟨S8192, .i32⟩
  | 15 => ⟨S8192, .i32⟩
  | 16 => ⟨S8192, .i32⟩
  | 17 => ⟨S8192x1, .i32⟩
  | 18 => ⟨S8192x16, .f32⟩
  | 19 => ⟨S_, .i32⟩
  | 20 => ⟨S8192, .i32⟩
  | 21 => ⟨S8192, .i1⟩
  | 22 => ⟨S_, .i32⟩
  | 23 => ⟨S8192, .i32⟩
  | 24 => ⟨S8192, .i32⟩
  | 25 => ⟨S8192, .i32⟩
  | 26 => ⟨S8192x1, .i32⟩
  | 27 => ⟨S8192x16, .f32⟩
  | 28 => ⟨S_, .i32⟩
  | 29 => ⟨S8192, .i32⟩
  | 30 => ⟨S8192, .i1⟩
  | 31 => ⟨S_, .i32⟩
  | 32 => ⟨S8192, .i32⟩
  | 33 => ⟨S8192, .i32⟩
  | 34 => ⟨S8192, .i32⟩
  | 35 => ⟨S8192x1, .i32⟩
  | 36 => ⟨S8192, .f32⟩
  | 37 => ⟨S_, .i32⟩
  | 38 => ⟨S8192, .i32⟩
  | 39 => ⟨S8192, .i32⟩
  | 40 => ⟨S_, .i32⟩
  | 41 => ⟨S8192, .i32⟩
  | 42 => ⟨S8192, .i1⟩
  | 43 => ⟨S_, .i32⟩
  | 44 => ⟨S8192, .i32⟩
  | 45 => ⟨S8192, .i32⟩
  | 46 => ⟨S8192, .i32⟩
  | 47 => ⟨S8192x1, .i32⟩
  | 48 => ⟨S8192, .f32⟩
  | 49 => ⟨S8192x1, .f32⟩
  | 50 => ⟨S1x8192, .f32⟩
  | 51 => ⟨S8192x8192, .f32⟩
  | 52 => ⟨S8192x8192, .f32⟩
  | 53 => ⟨S8192x8192, .f32⟩
  | 54 => ⟨S8192x16, .f32⟩
  | 55 => ⟨S_, .f32⟩
  | 56 => ⟨S8192, .f32⟩
  | 57 => ⟨S8192x1, .f32⟩
  | 58 => ⟨S8192x16, .f32⟩
  | 59 => ⟨S_, .f32⟩
  | 60 => ⟨S8192, .f32⟩
  | 61 => ⟨S1x8192, .f32⟩
  | 62 => ⟨S8192x8192, .f32⟩
  | 63 => ⟨S8192x8192, .f32⟩
  | 64 => ⟨S8192x8192, .f32⟩
  | 65 => ⟨S16x8192, .f32⟩
  | 66 => ⟨S8192x8192, .f32⟩
  | 67 => ⟨S_, .f32⟩
  | 68 => ⟨S8192x8192, .f32⟩
  | 69 => ⟨S8192x8192, .f32⟩
  | 70 => ⟨S8192x8192, .f32⟩
  | 71 => ⟨S_, .f32⟩
  | 72 => ⟨S8192x8192, .f32⟩
  | 73 => ⟨S8192x8192, .f32⟩
  | 74 => ⟨S8192x8192, .f32⟩
  | 75 => ⟨S8192x8192, .f32⟩
  | 76 => ⟨S8192x8192, .f32⟩
  | 77 => ⟨S8192x8192, .i32⟩
  | 78 => ⟨S_, .i32⟩
  | 79 => ⟨S8192x8192, .i32⟩
  | 80 => ⟨S8192x8192, .i32⟩
  | 81 => ⟨S8192x8192, .i32⟩
  | 82 => ⟨S8192x8192, .i1⟩
  | 83 => ⟨S_, .f32⟩
  | 84 => ⟨S8192x8192, .f32⟩
  | 85 => ⟨S8192x8192, .f32⟩
  | 86 => ⟨S_, .f32⟩
  | 87 => ⟨S_, .f32⟩
  | 88 => ⟨S1x262144, .i32⟩
  | 89 => ⟨S262144, .i32⟩
  | 90 => ⟨S_, .i32⟩
  | 91 => ⟨S262144, .i32⟩
  | 92 => ⟨S262144, .i1⟩
  | 93 => ⟨S_, .i32⟩
  | 94 => ⟨S262144, .i32⟩
  | 95 => ⟨S262144, .i32⟩
  | 96 => ⟨S262144, .i32⟩
  | 97 => ⟨S262144x1, .i32⟩
  | 98 => ⟨S262144, .f32⟩
  | 99 => ⟨S1x262144, .i32⟩
  | 100 => ⟨S262144, .i32⟩
  | 101 => ⟨S_, .i32⟩
  | 102 => ⟨S262144, .i32⟩
  | 103 => ⟨S262144, .i32⟩
  | 104 => ⟨S_, .i32⟩
  | 105 => ⟨S262144, .i32⟩
  | 106 => ⟨S262144, .i1⟩
  | 107 => ⟨S_, .i32⟩
  | 108 => ⟨S262144, .i32⟩
  | 109 => ⟨S262144, .i32⟩
  | 110 => ⟨S262144, .i32⟩
  | 111 => ⟨S262144x1, .i32⟩
  | 112 => ⟨S262144, .f32⟩
  | 113 => ⟨S262144, .f32⟩
  | 114 => ⟨S1x262144, .i32⟩
  | 115 => ⟨S262144, .i32⟩
  | 116 => ⟨S_, .i32⟩
  | 117 => ⟨S262144, .i32⟩
  | 118 => ⟨S262144, .i1⟩
  | 119 => ⟨S_, .i32⟩
  | 120 => ⟨S262144, .i32⟩
  | 121 => ⟨S262144, .i32⟩
  | 122 => ⟨S262144, .i32⟩
  | 123 => ⟨S262144x1, .i32⟩
  | 124 => ⟨S262144x16, .f32⟩
  | 125 => ⟨S1x262144, .i32⟩
  | 126 => ⟨S262144, .i32⟩
  | 127 => ⟨S_, .i32⟩
  | _ => ⟨S8192x16, .f32⟩

abbrev hbmTy0_1 (i : Nat) : BufTy := match i % 128 with
  | 0 => ⟨S262144, .i32⟩
  | 1 => ⟨S262144, .i1⟩
  | 2 => ⟨S_, .i32⟩
  | 3 => ⟨S262144, .i32⟩
  | 4 => ⟨S262144, .i32⟩
  | 5 => ⟨S262144, .i32⟩
  | 6 => ⟨S262144x1, .i32⟩
  | 7 => ⟨S262144x16, .f32⟩
  | 8 => ⟨S262144x16, .f32⟩
  | 9 => ⟨S262144x16, .f32⟩
  | 10 => ⟨S_, .f32⟩
  | 11 => ⟨S262144, .f32⟩
  | 12 => ⟨S262144, .f32⟩
  | 13 => ⟨S262144, .f32⟩
  | 14 => ⟨S_, .f32⟩
  | 15 => ⟨S_, .f32⟩
  | 16 => ⟨S_, .f32⟩
  | 17 => ⟨S_, .f32⟩
  | 18 => ⟨S_, .i32⟩
  | 19 => ⟨S8192, .i32⟩
  | 20 => ⟨S8192, .i32⟩
  | 21 => ⟨S_, .i32⟩
  | 22 => ⟨S8192, .i32⟩
  | 23 => ⟨S8192, .i1⟩
  | 24 => ⟨S_, .i32⟩
  | 25 => ⟨S8192, .i32⟩
  | 26 => ⟨S8192, .i32⟩
  | 27 => ⟨S8192, .i32⟩
  | 28 => ⟨S8192x1, .i32⟩
  | 29 => ⟨S8192x16, .f32⟩
  | 30 => ⟨S_, .i32⟩
  | 31 => ⟨S8192, .i32⟩
  | 32 => ⟨S8192, .i1⟩
  | 33 => ⟨S_, .i32⟩
  | 34 => ⟨S8192, .i32⟩
  | 35 => ⟨S8192, .i32⟩
  | 36 => ⟨S8192, .i32⟩
  | 37 => ⟨S8192x1, .i32⟩
  | 38 => ⟨S8192, .f32⟩
  | 39 => ⟨S_, .i32⟩
  | 40 => ⟨S8192, .i32⟩
  | 41 => ⟨S8192, .i1⟩
  | 42 => ⟨S_, .i32⟩
  | 43 => ⟨S8192, .i32⟩
  | 44 => ⟨S8192, .i32⟩
  | 45 => ⟨S8192, .i32⟩
  | 46 => ⟨S8192x1, .i32⟩
  | 47 => ⟨S8192, .f32⟩
  | 48 => ⟨S8192x1, .f32⟩
  | 49 => ⟨S1x8192, .f32⟩
  | 50 => ⟨S8192x8192, .f32⟩
  | 51 => ⟨S8192x8192, .f32⟩
  | 52 => ⟨S8192x8192, .f32⟩
  | 53 => ⟨S8192x16, .f32⟩
  | 54 => ⟨S_, .f32⟩
  | 55 => ⟨S8192, .f32⟩
  | 56 => ⟨S8192x1, .f32⟩
  | 57 => ⟨S8192x16, .f32⟩
  | 58 => ⟨S_, .f32⟩
  | 59 => ⟨S8192, .f32⟩
  | 60 => ⟨S1x8192, .f32⟩
  | 61 => ⟨S8192x8192, .f32⟩
  | 62 => ⟨S8192x8192, .f32⟩
  | 63 => ⟨S8192x8192, .f32⟩
  | 64 => ⟨S16x8192, .f32⟩
  | 65 => ⟨S8192x8192, .f32⟩
  | 66 => ⟨S_, .f32⟩
  | 67 => ⟨S8192x8192, .f32⟩
  | 68 => ⟨S8192x8192, .f32⟩
  | 69 => ⟨S8192x8192, .f32⟩
  | 70 => ⟨S_, .f32⟩
  | 71 => ⟨S8192x8192, .f32⟩
  | 72 => ⟨S8192x8192, .f32⟩
  | 73 => ⟨S8192x8192, .f32⟩
  | 74 => ⟨S8192x8192, .f32⟩
  | 75 => ⟨S8192x8192, .f32⟩
  | 76 => ⟨S_, .f32⟩
  | 77 => ⟨S_, .f32⟩
  | 78 => ⟨S1x262144, .i32⟩
  | 79 => ⟨S262144, .i32⟩
  | 80 => ⟨S_, .i32⟩
  | 81 => ⟨S262144, .i32⟩
  | 82 => ⟨S262144, .i1⟩
  | 83 => ⟨S_, .i32⟩
  | 84 => ⟨S262144, .i32⟩
  | 85 => ⟨S262144, .i32⟩
  | 86 => ⟨S262144, .i32⟩
  | 87 => ⟨S262144x1, .i32⟩
  | 88 => ⟨S262144, .f32⟩
  | 89 => ⟨S1x262144, .i32⟩
  | 90 => ⟨S262144, .i32⟩
  | 91 => ⟨S_, .i32⟩
  | 92 => ⟨S262144, .i32⟩
  | 93 => ⟨S262144, .i1⟩
  | 94 => ⟨S_, .i32⟩
  | 95 => ⟨S262144, .i32⟩
  | 96 => ⟨S262144, .i32⟩
  | 97 => ⟨S262144, .i32⟩
  | 98 => ⟨S262144x1, .i32⟩
  | 99 => ⟨S262144, .f32⟩
  | 100 => ⟨S262144, .f32⟩
  | 101 => ⟨S1x262144, .i32⟩
  | 102 => ⟨S262144, .i32⟩
  | 103 => ⟨S_, .i32⟩
  | 104 => ⟨S262144, .i32⟩
  | 105 => ⟨S262144, .i1⟩
  | 106 => ⟨S_, .i32⟩
  | 107 => ⟨S262144, .i32⟩
  | 108 => ⟨S262144, .i32⟩
  | 109 => ⟨S262144, .i32⟩
  | 110 => ⟨S262144x1, .i32⟩
  | 111 => ⟨S262144x16, .f32⟩
  | 112 => ⟨S1x262144, .i32⟩
  | 113 => ⟨S262144, .i32⟩
  | 114 => ⟨S_, .i32⟩
  | 115 => ⟨S262144, .i32⟩
  | 116 => ⟨S262144, .i32⟩
  | 117 => ⟨S_, .i32⟩
  | 118 => ⟨S262144, .i32⟩
  | 119 => ⟨S262144, .i1⟩
  | 120 => ⟨S_, .i32⟩
  | 121 => ⟨S262144, .i32⟩
  | 122 => ⟨S262144, .i32⟩
  | 123 => ⟨S262144, .i32⟩
  | 124 => ⟨S262144x1, .i32⟩
  | 125 => ⟨S262144x16, .f32⟩
  | 126 => ⟨S262144x16, .f32⟩
  | 127 => ⟨S262144x16, .f32⟩
  | _ => ⟨S8192x16, .f32⟩

abbrev hbmTy0_2 (i : Nat) : BufTy := match i % 128 with
  | 0 => ⟨S_, .f32⟩
  | 1 => ⟨S262144, .f32⟩
  | 2 => ⟨S262144, .f32⟩
  | 3 => ⟨S262144, .f32⟩
  | 4 => ⟨S_, .f32⟩
  | 5 => ⟨S_, .f32⟩
  | 6 => ⟨S_, .f32⟩
  | 7 => ⟨S_, .f32⟩
  | 8 => ⟨S_, .f32⟩
  | 9 => ⟨S_, .f32⟩
  | 10 => ⟨S_, .f32⟩
  | 11 => ⟨S_, .f32⟩
  | 12 => ⟨S_, .f32⟩
  | 13 => ⟨S_, .f32⟩
  | 14 => ⟨S_, .f32⟩
  | 15 => ⟨S_, .f32⟩
  | 16 => ⟨S_, .f32⟩
  | _ => ⟨S8192x16, .f32⟩

abbrev hbmTy (i : Nat) : BufTy := match i / 128 with
  | 0 => hbmTy0_0 i
  | 1 => hbmTy0_1 i
  | 2 => hbmTy0_2 i
  | _ => ⟨S8192x16, .f32⟩

abbrev bufTy : (tb : Table) → Fin (tcTables nBuf tb) → BufTy
  | .hbm, ⟨i, _⟩ => hbmTy i
  | _, _ => ⟨S8192x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_c_1 : Ref sig .tc := ⟨.hbm, 19, rfl⟩
abbrev main_v7 : Ref sig .tc := ⟨.hbm, 20, rfl⟩
abbrev main_v8 : Ref sig .tc := ⟨.hbm, 21, rfl⟩
abbrev main_c_2 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_c_3 : Ref sig .tc := ⟨.hbm, 28, rfl⟩
abbrev main_v14 : Ref sig .tc := ⟨.hbm, 29, rfl⟩
abbrev main_v15 : Ref sig .tc := ⟨.hbm, 30, rfl⟩
abbrev main_c_4 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_c_5 : Ref sig .tc := ⟨.hbm, 37, rfl⟩
abbrev main_v21 : Ref sig .tc := ⟨.hbm, 38, rfl⟩
abbrev main_v22 : Ref sig .tc := ⟨.hbm, 39, rfl⟩
abbrev main_c_6 : Ref sig .tc := ⟨.hbm, 40, rfl⟩
abbrev main_v23 : Ref sig .tc := ⟨.hbm, 41, rfl⟩
abbrev main_v24 : Ref sig .tc := ⟨.hbm, 42, rfl⟩
abbrev main_c_7 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_8 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_9 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_10 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_call0_v0 : Ref sig .tc := ⟨.hbm, 77, rfl⟩
abbrev main_call0_c : Ref sig .tc := ⟨.hbm, 78, rfl⟩
abbrev main_call0_v1 : Ref sig .tc := ⟨.hbm, 79, rfl⟩
abbrev main_call0_v2 : Ref sig .tc := ⟨.hbm, 80, rfl⟩
abbrev main_call0_v3 : Ref sig .tc := ⟨.hbm, 81, rfl⟩
abbrev main_call0_v4 : Ref sig .tc := ⟨.hbm, 82, rfl⟩
abbrev main_call0_cst : Ref sig .tc := ⟨.hbm, 83, rfl⟩
abbrev main_call0_v5 : Ref sig .tc := ⟨.hbm, 84, rfl⟩
abbrev main_v54 : Ref sig .tc := ⟨.hbm, 85, rfl⟩
abbrev main_cst_11 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_c_12 : Ref sig .tc := ⟨.hbm, 90, rfl⟩
abbrev main_v58 : Ref sig .tc := ⟨.hbm, 91, rfl⟩
abbrev main_v59 : Ref sig .tc := ⟨.hbm, 92, rfl⟩
abbrev main_c_13 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_c_14 : Ref sig .tc := ⟨.hbm, 101, rfl⟩
abbrev main_v67 : Ref sig .tc := ⟨.hbm, 102, rfl⟩
abbrev main_v68 : Ref sig .tc := ⟨.hbm, 103, rfl⟩
abbrev main_c_15 : Ref sig .tc := ⟨.hbm, 104, rfl⟩
abbrev main_v69 : Ref sig .tc := ⟨.hbm, 105, rfl⟩
abbrev main_v70 : Ref sig .tc := ⟨.hbm, 106, rfl⟩
abbrev main_c_16 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_c_17 : Ref sig .tc := ⟨.hbm, 116, rfl⟩
abbrev main_v79 : Ref sig .tc := ⟨.hbm, 117, rfl⟩
abbrev main_v80 : Ref sig .tc := ⟨.hbm, 118, rfl⟩
abbrev main_c_18 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_c_19 : Ref sig .tc := ⟨.hbm, 127, rfl⟩
abbrev main_v88 : Ref sig .tc := ⟨.hbm, 128, rfl⟩
abbrev main_v89 : Ref sig .tc := ⟨.hbm, 129, rfl⟩
abbrev main_c_20 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_call1_v0 : Ref sig .tc := ⟨.hbm, 137, rfl⟩
abbrev main_call1_cst : Ref sig .tc := ⟨.hbm, 138, rfl⟩
abbrev main_call1_v1 : Ref sig .tc := ⟨.hbm, 139, rfl⟩
abbrev main_v96 : Ref sig .tc := ⟨.hbm, 140, rfl⟩
abbrev main_v97 : Ref sig .tc := ⟨.hbm, 141, rfl⟩
abbrev main_cst_21 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_c_22 : Ref sig .tc := ⟨.hbm, 146, rfl⟩
abbrev main_v101 : Ref sig .tc := ⟨.hbm, 147, rfl⟩
abbrev main_v102 : Ref sig .tc := ⟨.hbm, 148, rfl⟩
abbrev main_c_23 : Ref sig .tc := ⟨.hbm, 149, rfl⟩
abbrev main_v103 : Ref sig .tc := ⟨.hbm, 150, rfl⟩
abbrev main_v104 : Ref sig .tc := ⟨.hbm, 151, rfl⟩
abbrev main_c_24 : Ref sig .tc := ⟨.hbm, 152, rfl⟩
abbrev main_v105 : Ref sig .tc := ⟨.hbm, 153, rfl⟩
abbrev main_v106 : Ref sig .tc := ⟨.hbm, 154, rfl⟩
abbrev main_v107 : Ref sig .tc := ⟨.hbm, 155, rfl⟩
abbrev main_v108 : Ref sig .tc := ⟨.hbm, 156, rfl⟩
abbrev main_v109 : Ref sig .tc := ⟨.hbm, 157, rfl⟩
abbrev main_c_25 : Ref sig .tc := ⟨.hbm, 158, rfl⟩
abbrev main_v110 : Ref sig .tc := ⟨.hbm, 159, rfl⟩
abbrev main_v111 : Ref sig .tc := ⟨.hbm, 160, rfl⟩
abbrev main_c_26 : Ref sig .tc := ⟨.hbm, 161, rfl⟩
abbrev main_v112 : Ref sig .tc := ⟨.hbm, 162, rfl⟩
abbrev main_v113 : Ref sig .tc := ⟨.hbm, 163, rfl⟩
abbrev main_v114 : Ref sig .tc := ⟨.hbm, 164, rfl⟩
abbrev main_v115 : Ref sig .tc := ⟨.hbm, 165, rfl⟩
abbrev main_v116 : Ref sig .tc := ⟨.hbm, 166, rfl⟩
abbrev main_c_27 : Ref sig .tc := ⟨.hbm, 167, rfl⟩
abbrev main_v117 : Ref sig .tc := ⟨.hbm, 168, rfl⟩
abbrev main_v118 : Ref sig .tc := ⟨.hbm, 169, rfl⟩
abbrev main_c_28 : Ref sig .tc := ⟨.hbm, 170, rfl⟩
abbrev main_v119 : Ref sig .tc := ⟨.hbm, 171, rfl⟩
abbrev main_v120 : Ref sig .tc := ⟨.hbm, 172, rfl⟩
abbrev main_v121 : Ref sig .tc := ⟨.hbm, 173, rfl⟩
abbrev main_v122 : Ref sig .tc := ⟨.hbm, 174, rfl⟩
abbrev main_v123 : Ref sig .tc := ⟨.hbm, 175, rfl⟩
abbrev main_v124 : Ref sig .tc := ⟨.hbm, 176, rfl⟩
abbrev main_v125 : Ref sig .tc := ⟨.hbm, 177, rfl⟩
abbrev main_v126 : Ref sig .tc := ⟨.hbm, 178, rfl⟩
abbrev main_v127 : Ref sig .tc := ⟨.hbm, 179, rfl⟩
abbrev main_v128 : Ref sig .tc := ⟨.hbm, 180, rfl⟩
abbrev main_v129 : Ref sig .tc := ⟨.hbm, 181, rfl⟩
abbrev main_cst_29 : Ref sig .tc := ⟨.hbm, 182, rfl⟩
abbrev main_v130 : Ref sig .tc := ⟨.hbm, 183, rfl⟩
abbrev main_v131 : Ref sig .tc := ⟨.hbm, 184, rfl⟩
abbrev main_v132 : Ref sig .tc := ⟨.hbm, 185, rfl⟩
abbrev main_cst_30 : Ref sig .tc := ⟨.hbm, 186, rfl⟩
abbrev main_v133 : Ref sig .tc := ⟨.hbm, 187, rfl⟩
abbrev main_v134 : Ref sig .tc := ⟨.hbm, 188, rfl⟩
abbrev main_v135 : Ref sig .tc := ⟨.hbm, 189, rfl⟩
abbrev main_v136 : Ref sig .tc := ⟨.hbm, 190, rfl⟩
abbrev main_v137 : Ref sig .tc := ⟨.hbm, 191, rfl⟩
abbrev main_v138 : Ref sig .tc := ⟨.hbm, 192, rfl⟩
abbrev main_v139 : Ref sig .tc := ⟨.hbm, 193, rfl⟩
abbrev main_cst_31 : Ref sig .tc := ⟨.hbm, 194, rfl⟩
abbrev main_v140 : Ref sig .tc := ⟨.hbm, 195, rfl⟩
abbrev main_v141 : Ref sig .tc := ⟨.hbm, 196, rfl⟩
abbrev main_v142 : Ref sig .tc := ⟨.hbm, 197, rfl⟩
abbrev main_cst_32 : Ref sig .tc := ⟨.hbm, 198, rfl⟩
abbrev main_v143 : Ref sig .tc := ⟨.hbm, 199, rfl⟩
abbrev main_v144 : Ref sig .tc := ⟨.hbm, 200, rfl⟩
abbrev main_v145 : Ref sig .tc := ⟨.hbm, 201, rfl⟩
abbrev main_v146 : Ref sig .tc := ⟨.hbm, 202, rfl⟩
abbrev main_v147 : Ref sig .tc := ⟨.hbm, 203, rfl⟩
abbrev main_cst_33 : Ref sig .tc := ⟨.hbm, 204, rfl⟩
abbrev main_v148 : Ref sig .tc := ⟨.hbm, 205, rfl⟩
abbrev main_v149 : Ref sig .tc := ⟨.hbm, 206, rfl⟩
abbrev main_v150 : Ref sig .tc := ⟨.hbm, 207, rfl⟩
abbrev main_c_34 : Ref sig .tc := ⟨.hbm, 208, rfl⟩
abbrev main_v151 : Ref sig .tc := ⟨.hbm, 209, rfl⟩
abbrev main_v152 : Ref sig .tc := ⟨.hbm, 210, rfl⟩
abbrev main_c_35 : Ref sig .tc := ⟨.hbm, 211, rfl⟩
abbrev main_v153 : Ref sig .tc := ⟨.hbm, 212, rfl⟩
abbrev main_v154 : Ref sig .tc := ⟨.hbm, 213, rfl⟩
abbrev main_v155 : Ref sig .tc := ⟨.hbm, 214, rfl⟩
abbrev main_v156 : Ref sig .tc := ⟨.hbm, 215, rfl⟩
abbrev main_v157 : Ref sig .tc := ⟨.hbm, 216, rfl⟩
abbrev main_v158 : Ref sig .tc := ⟨.hbm, 217, rfl⟩
abbrev main_v159 : Ref sig .tc := ⟨.hbm, 218, rfl⟩
abbrev main_c_36 : Ref sig .tc := ⟨.hbm, 219, rfl⟩
abbrev main_v160 : Ref sig .tc := ⟨.hbm, 220, rfl⟩
abbrev main_v161 : Ref sig .tc := ⟨.hbm, 221, rfl⟩
abbrev main_c_37 : Ref sig .tc := ⟨.hbm, 222, rfl⟩
abbrev main_v162 : Ref sig .tc := ⟨.hbm, 223, rfl⟩
abbrev main_v163 : Ref sig .tc := ⟨.hbm, 224, rfl⟩
abbrev main_v164 : Ref sig .tc := ⟨.hbm, 225, rfl⟩
abbrev main_v165 : Ref sig .tc := ⟨.hbm, 226, rfl⟩
abbrev main_v166 : Ref sig .tc := ⟨.hbm, 227, rfl⟩
abbrev main_v167 : Ref sig .tc := ⟨.hbm, 228, rfl⟩
abbrev main_v168 : Ref sig .tc := ⟨.hbm, 229, rfl⟩
abbrev main_v169 : Ref sig .tc := ⟨.hbm, 230, rfl⟩
abbrev main_c_38 : Ref sig .tc := ⟨.hbm, 231, rfl⟩
abbrev main_v170 : Ref sig .tc := ⟨.hbm, 232, rfl⟩
abbrev main_v171 : Ref sig .tc := ⟨.hbm, 233, rfl⟩
abbrev main_c_39 : Ref sig .tc := ⟨.hbm, 234, rfl⟩
abbrev main_v172 : Ref sig .tc := ⟨.hbm, 235, rfl⟩
abbrev main_v173 : Ref sig .tc := ⟨.hbm, 236, rfl⟩
abbrev main_v174 : Ref sig .tc := ⟨.hbm, 237, rfl⟩
abbrev main_v175 : Ref sig .tc := ⟨.hbm, 238, rfl⟩
abbrev main_v176 : Ref sig .tc := ⟨.hbm, 239, rfl⟩
abbrev main_v177 : Ref sig .tc := ⟨.hbm, 240, rfl⟩
abbrev main_v178 : Ref sig .tc := ⟨.hbm, 241, rfl⟩
abbrev main_c_40 : Ref sig .tc := ⟨.hbm, 242, rfl⟩
abbrev main_v179 : Ref sig .tc := ⟨.hbm, 243, rfl⟩
abbrev main_v180 : Ref sig .tc := ⟨.hbm, 244, rfl⟩
abbrev main_c_41 : Ref sig .tc := ⟨.hbm, 245, rfl⟩
abbrev main_v181 : Ref sig .tc := ⟨.hbm, 246, rfl⟩
abbrev main_v182 : Ref sig .tc := ⟨.hbm, 247, rfl⟩
abbrev main_c_42 : Ref sig .tc := ⟨.hbm, 248, rfl⟩
abbrev main_v183 : Ref sig .tc := ⟨.hbm, 249, rfl⟩
abbrev main_v184 : Ref sig .tc := ⟨.hbm, 250, rfl⟩
abbrev main_v185 : Ref sig .tc := ⟨.hbm, 251, rfl⟩
abbrev main_v186 : Ref sig .tc := ⟨.hbm, 252, rfl⟩
abbrev main_v187 : Ref sig .tc := ⟨.hbm, 253, rfl⟩
abbrev main_v188 : Ref sig .tc := ⟨.hbm, 254, rfl⟩
abbrev main_call2_v0 : Ref sig .tc := ⟨.hbm, 255, rfl⟩
abbrev main_call2_cst : Ref sig .tc := ⟨.hbm, 256, rfl⟩
abbrev main_call2_v1 : Ref sig .tc := ⟨.hbm, 257, rfl⟩
abbrev main_v189 : Ref sig .tc := ⟨.hbm, 258, rfl⟩
abbrev main_v190 : Ref sig .tc := ⟨.hbm, 259, rfl⟩
abbrev main_cst_43 : Ref sig .tc := ⟨.hbm, 260, rfl⟩
abbrev main_v191 : Ref sig .tc := ⟨.hbm, 261, rfl⟩
abbrev main_v192 : Ref sig .tc := ⟨.hbm, 262, rfl⟩
abbrev main_v193 : Ref sig .tc := ⟨.hbm, 263, rfl⟩
abbrev main_cst_44 : Ref sig .tc := ⟨.hbm, 264, rfl⟩
abbrev main_v194 : Ref sig .tc := ⟨.hbm, 265, rfl⟩
abbrev main_cst_45 : Ref sig .tc := ⟨.hbm, 266, rfl⟩
abbrev main_v195 : Ref sig .tc := ⟨.hbm, 267, rfl⟩
abbrev main_cst_46 : Ref sig .tc := ⟨.hbm, 268, rfl⟩
abbrev main_v196 : Ref sig .tc := ⟨.hbm, 269, rfl⟩
abbrev main_cst_47 : Ref sig .tc := ⟨.hbm, 270, rfl⟩
abbrev main_v197 : Ref sig .tc := ⟨.hbm, 271, rfl⟩
abbrev main_v198 : Ref sig .tc := ⟨.hbm, 272, rfl⟩

abbrev nD : Nat := 1
abbrev τ : Topo := Topo.v7x

variable {F : FTy → Type} [FloatOps F]

class Facts₀ : Prop where
  bcast_S_S8192 : S_.BroadcastsInDim S8192 (![] : Fin 0 → Fin S8192.rank)
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  reducesTo_S8192x16_S8192_d1 : S8192x16.ReducesTo [1] S8192
  h_S_ : 0 < S_.numel
  transposes_S8192x16_S16x8192_1_0 : S8192x16.Transposes [1, 0] S16x8192
  bcast_S_S8192x8192 : S_.BroadcastsInDim S8192x8192 (![] : Fin 0 → Fin S8192x8192.rank)
  reducesTo_S8192x8192_S_d0_1 : S8192x8192.ReducesTo [0, 1] S_
  slices_S2x262144_S1x262144_0_0 : S2x262144.Slices ![0, 0] S1x262144
  shapeCasts_S1x262144_S262144 : S1x262144.ShapeCasts S262144
  bcast_S_S262144 : S_.BroadcastsInDim S262144 (![] : Fin 0 → Fin S262144.rank)
  bcast_S262144_S262144x1_0 : S262144.BroadcastsInDim S262144x1 (![0] : Fin 1 → Fin S262144x1.rank)
  slices_S2x262144_S1x262144_1_0 : S2x262144.Slices ![1, 0] S1x262144
  reducesTo_S262144x16_S262144_d1 : S262144x16.ReducesTo [1] S262144
  reducesTo_S262144_S_d0 : S262144.ReducesTo [0] S_
  gather_S8192x16_S8192x1_S8192x16_1_0_n_n_0_1_116_wf : GatherDims.WF S8192x16 S8192x1 S8192x16 [1] [0] [] [0] [] 1 ![1, 16]
  gather_S16384_S8192x1_S8192_n_0_n_n_0_1_1_wf : GatherDims.WF S16384 S8192x1 S8192 [] [0] [] [0] [] 1 ![1]
  dot_S8192x16_S16x8192_S8192x8192_1_0_0_1_n_n_wf : DotDims.WF S8192x16 S16x8192 S8192x8192 [1] [0] [0] [1] [] []
  gather_S16384_S262144x1_S262144_n_0_n_n_0_1_1_wf : GatherDims.WF S16384 S262144x1 S262144 [] [0] [] [0] [] 1 ![1]
  gather_S8192x16_S262144x1_S262144x16_1_0_n_n_0_1_116_wf : GatherDims.WF S8192x16 S262144x1 S262144x16 [1] [0] [] [0] [] 1 ![1, 16]

variable [Facts₀]

def gather_S8192x16_S8192x1_S8192x16_1_0_n_n_0_1_116 : GatherDims S8192x16 S8192x1 S8192x16 where
  offsetDims := [1]
  collapsedSliceDims := [0]
  operandBatchingDims := []
  startIndicesBatchingDims := []
  startIndexMap := [0]
  indexVectorDim := 1
  sliceSizes := ![1, 16]
  wf := gather_S8192x16_S8192x1_S8192x16_1_0_n_n_0_1_116_wf
def gather_S16384_S8192x1_S8192_n_0_n_n_0_1_1 : GatherDims S16384 S8192x1 S8192 where
  offsetDims := []
  collapsedSliceDims := [0]
  operandBatchingDims := []
  startIndicesBatchingDims := []
  startIndexMap := [0]
  indexVectorDim := 1
  sliceSizes := ![1]
  wf := gather_S16384_S8192x1_S8192_n_0_n_n_0_1_1_wf
def dot_S8192x16_S16x8192_S8192x8192_1_0_0_1_n_n : DotDims S8192x16 S16x8192 S8192x8192 where
  lhsContracting := [1]
  rhsContracting := [0]
  lhsNonContracting := [0]
  rhsNonContracting := [1]
  lhsBatch := []
  rhsBatch := []
  wf := dot_S8192x16_S16x8192_S8192x8192_1_0_0_1_n_n_wf
def gather_S16384_S262144x1_S262144_n_0_n_n_0_1_1 : GatherDims S16384 S262144x1 S262144 where
  offsetDims := []
  collapsedSliceDims := [0]
  operandBatchingDims := []
  startIndicesBatchingDims := []
  startIndexMap := [0]
  indexVectorDim := 1
  sliceSizes := ![1]
  wf := gather_S16384_S262144x1_S262144_n_0_n_n_0_1_1_wf
def gather_S8192x16_S262144x1_S262144x16_1_0_n_n_0_1_116 : GatherDims S8192x16 S262144x1 S262144x16 where
  offsetDims := [1]
  collapsedSliceDims := [0]
  operandBatchingDims := []
  startIndicesBatchingDims := []
  startIndexMap := [0]
  indexVectorDim := 1
  sliceSizes := ![1, 16]
  wf := gather_S8192x16_S262144x1_S262144x16_1_0_n_n_0_1_116_wf

class Facts : Prop extends Facts₀ where

variable [Facts]
-- ==== Proof.Body0.lean ====
/-
  The pairwise kernel of the first dense term, one grid point at a time.

  The grid is 8 × 8 tiles of 1024 × 1024 pairs.  At a point (i, j) the body reads a block of 1024 rows of
  each point set, a column block and a row block of the two bias vectors, forms the tile
  exp (bx r + by c − sqrt (max (‖x r‖² + ‖y c‖² − 2 ⟨x r, y c⟩, 0))) kept where the global row index is
  below the global column index, sums the tile, and adds the sum into a one-entry accumulator that lives
  across the whole grid.  Three control cases exhaust the grid: the first point clears the accumulator
  before adding, a middle point only adds, the last point adds and then copies the accumulator into the
  one-entry result block.  This module runs the body once per case on arbitrary whole buffers.
-/
import proofs.«117720_j19447611916775_1_alg».proof.Proof.Gen.KernelIdeal.Launch
import proofs.«117720_j19447611916775_1_alg».proof.Proof.Gen.KernelIdeal.Skeleton
import proofs.«117720_j19447611916775_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions over the grid -/

/-- The accumulator is cleared exactly when both grid coordinates are zero. -/
abbrev isFirst0 (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1

/-- The result block is written exactly when both grid coordinates are seven. -/
abbrev isLast0 (i : grid0.Coords) : Prop := k0_cond2 i = 1#1

/-- In row-major order the first condition holds at point 0 only. -/
theorem isFirst0_iff : ∀ t : Fin cfg0.N, isFirst0 (grid0.coords t) ↔ t.val = 0 :=
  (by decide +kernel : ∀ t : Fin grid0.N, isFirst0 (grid0.coords t) ↔ t.val = 0)

/-- In row-major order the second condition holds at point 63 only. -/
theorem isLast0_iff : ∀ t : Fin cfg0.N, isLast0 (grid0.coords t) ↔ t.val = 63 :=
  (by decide +kernel : ∀ t : Fin grid0.N, isLast0 (grid0.coords t) ↔ t.val = 63)

/-! ## The body, case by case

Each run is stated on six whole buffers: four inputs at known contents, the result block, the accumulator.
What the body leaves in a buffer it stores into is a list of written pieces (last store first) that the
symbolic run itself produces; the later modules read those pieces back as values. -/

set_option maxHeartbeats 4000000 in
/-- FIRST POINT: the accumulator may hold anything on entry; the body clears it, adds the tile sum, and leaves
    the result block untouched. -/
noncomputable def runFirst0 (c : Dev nD) (i : grid0.Coords)
    (a2 : Memref sig .tc .vmem S1024x16 .f32) (h2 : a2.IsWhole) (a3 : Memref sig .tc .vmem S1024x16 .f32) (h3 : a3.IsWhole)
    (a4 : Memref sig .tc .vmem S1024x1 .f32) (h4 : a4.IsWhole) (a5 : Memref sig .tc .vmem S1x1024 .f32) (h5 : a5.IsWhole)
    (a6 : Memref sig .tc .vmem S1x1 .f32) (h6 : a6.IsWhole) (a7 : Memref sig .tc .vmem S1x1 .f32) (h7 : a7.IsWhole)
    (hf : isFirst0 i) (hl : ¬isLast0 i)
    (x0 : Vec F S1024x16 .f32) (x1 : Vec F S1024x16 .f32) (x2 : Vec F S1024x1 .f32) (x3 : Vec F S1x1024 .f32) :
    { LS : List (View.Piece (Elt F) S1x1 .f32) //
      ∀ (xo : Vec F S1x1 .f32) (E : Set ℕ) (K : PUnit → sProp 𝕄),
        iprop(owns (c : Thread nD τ) a2 fullShare x0 ∗ owns (c : Thread nD τ) a3 fullShare x1 ∗ owns (c : Thread nD τ) a4 fullShare x2
            ∗ owns (c : Thread nD τ) a5 fullShare x3 ∗ owns (c : Thread nD τ) a6 fullShare xo ∗ (∃ d, owns (c : Thread nD τ) a7 fullShare d)
            ∗ (iprop(owns (c : Thread nD τ) a2 fullShare x0 ∗ owns (c : Thread nD τ) a3 fullShare x1 ∗ owns (c : Thread nD τ) a4 fullShare x2
                ∗ owns (c : Thread nD τ) a5 fullShare x3 ∗ owns (c : Thread nD τ) a6 fullShare xo
                ∗ (∃ f, a7.view.loc (c : Thread nD τ) ↦[a7.view.set]{fullShare} a7.view.writes (Elt F) f LS)) -∗ K ⟨⟩))
          ⊢ wp frame (wpE (defs₀ (F := F)) Variants.none c none) E (cc0__pairwise_masked_sum_kernel i a2 h2 a3 h3 a4 h4 a5 h5 a6 h6 a7 h7) K } := by
  refine ⟨?_, fun xo E K => ?run⟩
  case run =>
    simp only [cc0__pairwise_masked_sum_kernel_eq_skeleton]; unfold cc0__pairwise_masked_sum_kernel_skel
    unfold owns
    iintro ⟨⟨%f0, %hf0, H0⟩, ⟨%f1, %hf1, H1⟩, ⟨%f2, %hf2, H2⟩, ⟨%f3, %hf3, H3⟩, ⟨%fo, %hfo, HO⟩, ⟨%ds, %fs, -, HS⟩, Hk⟩
    obtain rfl := h2.eq_unread hf0; obtain rfl := h3.eq_unread hf1; obtain rfl := h4.eq_unread hf2
    obtain rfl := h5.eq_unread hf3; obtain rfl := h6.eq_unread hfo
    sl_exec (disch := first | exact hf | exact hl)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [HO]
    · iexists _; isplitr; · ipureintro; exact h6.read_unread _
      iexact HO
    iexists _; iexact HS

set_option maxHeartbeats 4000000 in
/-- MIDDLE POINT: the accumulator holds `xs` on entry; the body adds the tile sum into it and leaves the result
    block untouched. -/
noncomputable def runMid0 (c : Dev nD) (i : grid0.Coords)
    (a2 : Memref sig .tc .vmem S1024x16 .f32) (h2 : a2.IsWhole) (a3 : Memref sig .tc .vmem S1024x16 .f32) (h3 : a3.IsWhole)
    (a4 : Memref sig .tc .vmem S1024x1 .f32) (h4 : a4.IsWhole) (a5 : Memref sig .tc .vmem S1x1024 .f32) (h5 : a5.IsWhole)
    (a6 : Memref sig .tc .vmem S1x1 .f32) (h6 : a6.IsWhole) (a7 : Memref sig .tc .vmem S1x1 .f32) (h7 : a7.IsWhole)
    (hf : ¬isFirst0 i) (hl : ¬isLast0 i)
    (x0 : Vec F S1024x16 .f32) (x1 : Vec F S1024x16 .f32) (x2 : Vec F S1024x1 .f32) (x3 : Vec F S1x1024 .f32) (xs : Vec F S1x1 .f32) :
    { LS : List (View.Piece (Elt F) S1x1 .f32) //
      ∀ (xo : Vec F S1x1 .f32) (E : Set ℕ) (K : PUnit → sProp 𝕄),
        iprop(owns (c : Thread nD τ) a2 fullShare x0 ∗ owns (c : Thread nD τ) a3 fullShare x1 ∗ owns (c : Thread nD τ) a4 fullShare x2
            ∗ owns (c : Thread nD τ) a5 fullShare x3 ∗ owns (c : Thread nD τ) a6 fullShare xo ∗ owns (c : Thread nD τ) a7 fullShare xs
            ∗ (iprop(owns (c : Thread nD τ) a2 fullShare x0 ∗ owns (c : Thread nD τ) a3 fullShare x1 ∗ owns (c : Thread nD τ) a4 fullShare x2
            ∗ owns (c : Thread nD τ) a5 fullShare x3 ∗ owns (c : Thread nD τ) a6 fullShare xo
                ∗ (∃ f, a7.view.loc (c : Thread nD τ) ↦[a7.view.set]{fullShare} a7.view.writes (Elt F) f LS)) -∗ K ⟨⟩))
          ⊢ wp frame (wpE (defs₀ (F := F)) Variants.none c none) E (cc0__pairwise_masked_sum_kernel i a2 h2 a3 h3 a4 h4 a5 h5 a6 h6 a7 h7) K } := by
  refine ⟨?_, fun xo E K => ?run⟩
  case run =>
    simp only [cc0__pairwise_masked_sum_kernel_eq_skeleton]; unfold cc0__pairwise_masked_sum_kernel_skel
    unfold owns
    iintro ⟨⟨%f0, %hf0, H0⟩, ⟨%f1, %hf1, H1⟩, ⟨%f2, %hf2, H2⟩, ⟨%f3, %hf3, H3⟩, ⟨%fo, %hfo, HO⟩, ⟨%fs, %hfs, HS⟩, Hk⟩
    obtain rfl := h2.eq_unread hf0; obtain rfl := h3.eq_unread hf1; obtain rfl := h4.eq_unread hf2
    obtain rfl := h5.eq_unread hf3; obtain rfl := h6.eq_unread hfo; obtain rfl := h7.eq_unread hfs
    sl_exec (disch := first | exact hf | exact hl)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [HO]
    · iexists _; isplitr; · ipureintro; exact h6.read_unread _
      iexact HO
    iexists _; iexact HS

set_option maxHeartbeats 4000000 in
/-- LAST POINT: the accumulator holds `xs` on entry; the body adds the tile sum into it and then copies it into the
    result block, whose earlier contents do not matter. -/
noncomputable def runLast0 (c : Dev nD) (i : grid0.Coords)
    (a2 : Memref sig .tc .vmem S1024x16 .f32) (h2 : a2.IsWhole) (a3 : Memref sig .tc .vmem S1024x16 .f32) (h3 : a3.IsWhole)
    (a4 : Memref sig .tc .vmem S1024x1 .f32) (h4 : a4.IsWhole) (a5 : Memref sig .tc .vmem S1x1024 .f32) (h5 : a5.IsWhole)
    (a6 : Memref sig .tc .vmem S1x1 .f32) (h6 : a6.IsWhole) (a7 : Memref sig .tc .vmem S1x1 .f32) (h7 : a7.IsWhole)
    (hf : ¬isFirst0 i) (hl : isLast0 i)
    (x0 : Vec F S1024x16 .f32) (x1 : Vec F S1024x16 .f32) (x2 : Vec F S1024x1 .f32) (x3 : Vec F S1x1024 .f32) (xs : Vec F S1x1 .f32) :
    Σ' (LO : List (View.Piece (Elt F) S1x1 .f32)), { LS : List (View.Piece (Elt F) S1x1 .f32) //
      ∀ (E : Set ℕ) (K : PUnit → sProp 𝕄),
        iprop(owns (c : Thread nD τ) a2 fullShare x0 ∗ owns (c : Thread nD τ) a3 fullShare x1 ∗ owns (c : Thread nD τ) a4 fullShare x2
            ∗ owns (c : Thread nD τ) a5 fullShare x3 ∗ (∃ d, owns (c : Thread nD τ) a6 fullShare d) ∗ owns (c : Thread nD τ) a7 fullShare xs
            ∗ (iprop(owns (c : Thread nD τ) a2 fullShare x0 ∗ owns (c : Thread nD τ) a3 fullShare x1 ∗ owns (c : Thread nD τ) a4 fullShare x2
            ∗ owns (c : Thread nD τ) a5 fullShare x3
                ∗ (∃ f, a6.view.loc (c : Thread nD τ) ↦[a6.view.set]{fullShare} a6.view.writes (Elt F) f LO)
                ∗ (∃ f, a7.view.loc (c : Thread nD τ) ↦[a7.view.set]{fullShare} a7.view.writes (Elt F) f LS)) -∗ K ⟨⟩))
          ⊢ wp frame (wpE (defs₀ (F := F)) Variants.none c none) E (cc0__pairwise_masked_sum_kernel i a2 h2 a3 h3 a4 h4 a5 h5 a6 h6 a7 h7) K } := by
  refine ⟨?_, ?_, fun E K => ?run⟩
  case run =>
    simp only [cc0__pairwise_masked_sum_kernel_eq_skeleton]; unfold cc0__pairwise_masked_sum_kernel_skel
    unfold owns
    iintro ⟨⟨%f0, %hf0, H0⟩, ⟨%f1, %hf1, H1⟩, ⟨%f2, %hf2, H2⟩, ⟨%f3, %hf3, H3⟩, ⟨%dO, %fo, -, HO⟩, ⟨%fs, %hfs, HS⟩, Hk⟩
    obtain rfl := h2.eq_unread hf0; obtain rfl := h3.eq_unread hf1; obtain rfl := h4.eq_unread hf2
    obtain rfl := h5.eq_unread hf3; obtain rfl := h7.eq_unread hfs
    sl_exec (disch := first | exact hf | exact hl)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [HO]; · iexists _; iexact HO
    iexists _; iexact HS

end Cert.KernelIdeal.Hand

end
-- ==== Proof.Region0.lean ====
/-
  The first dense term's region as the pipeline runs it: 64 grid points in row-major order.

  The one-entry accumulator is a buffer of the kernel's own that no transfer touches, so what it holds after point n
  is a recursion on n: the first point's run over the blocks at point 0, then each later point's run over that
  point's blocks and what the point before left.  The result block's staging buffer is stored into at the last
  point only, and that is also the only point whose block is written back; everywhere else it is handed back as
  found.  The region's invariant is therefore: before the first point, every buffer of the kernel's own at
  anything; after point n, the accumulator at the recursion's value and the other such buffers at anything.
-/
import proofs.«117720_j19447611916775_1_alg».proof.Proof.Body0
import Idealize.ShloMosaic.Lib.Pipeline.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- The buffer contents the region is entered with, per core: a parameter, fixed when the regions are composed.
variable (V : (c : Dev nD) → (b : Ref sig .tc) → Buf (Elt F) ((c : Thread nD τ).loc b))

/-! ## Blocks and buffers at a point -/

/-- Window `w`'s block at point `t` of the array the region finds. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The staging buffer each window is on at point `t`, as the pipeline passes it to the body. -/
abbrev sb0_0 (t : Fin cfg0.N) : Memref sig .tc .vmem S1024x16 .f32 := win0_0.stage (cfg0.slots t 0)
abbrev wb0_0 (t : Fin cfg0.N) : (sb0_0 t).IsWhole := hstage0_0 ((cfg0.slots t 0).cast nbuf0_0)
abbrev sb0_1 (t : Fin cfg0.N) : Memref sig .tc .vmem S1024x16 .f32 := win0_1.stage (cfg0.slots t 1)
abbrev wb0_1 (t : Fin cfg0.N) : (sb0_1 t).IsWhole := hstage0_1 ((cfg0.slots t 1).cast nbuf0_1)
abbrev sb0_2 (t : Fin cfg0.N) : Memref sig .tc .vmem S1024x1 .f32 := win0_2.stage (cfg0.slots t 2)
abbrev wb0_2 (t : Fin cfg0.N) : (sb0_2 t).IsWhole := hstage0_2 ((cfg0.slots t 2).cast nbuf0_2)
abbrev sb0_3 (t : Fin cfg0.N) : Memref sig .tc .vmem S1x1024 .f32 := win0_3.stage (cfg0.slots t 3)
abbrev wb0_3 (t : Fin cfg0.N) : (sb0_3 t).IsWhole := hstage0_3 ((cfg0.slots t 3).cast nbuf0_3)
abbrev sb0_4 (t : Fin cfg0.N) : Memref sig .tc .vmem S1x1 .f32 := win0_4.stage (cfg0.slots t 4)
abbrev wb0_4 (t : Fin cfg0.N) : (sb0_4 t).IsWhole := hstage0_4 ((cfg0.slots t 4).cast nbuf0_4)
/-- The accumulator. -/
abbrev acc0 : Memref sig .tc .vmem S1x1 .f32 := Memref.whole cc0_scratch0
abbrev accView0 : View sig .tc .vmem S1x1 .f32 := (acc0).view
abbrev outView0 : View sig .tc .vmem S1x1 .f32 := (Memref.whole cc0_stg4_0 : Memref sig .tc .vmem S1x1 .f32).view

/-! ## What each case leaves, read back as a value -/

section Cases
variable (c : Dev nD) (t : Fin cfg0.N)

/-- The accumulator after the first point: the first run's pieces read back. -/
def accFirst0 (hf : isFirst0 (grid0.coords t)) (hl : ¬isLast0 (grid0.coords t))
    (x0 : Vec F S1024x16 .f32) (x1 : Vec F S1024x16 .f32) (x2 : Vec F S1024x1 .f32) (x3 : Vec F S1x1024 .f32) : Vec F S1x1 .f32 :=
  accView0.read (Elt F) (accView0.writes (Elt F) accView0.junk
    (runFirst0 c (grid0.coords t) (sb0_0 t) (wb0_0 t) (sb0_1 t) (wb0_1 t) (sb0_2 t) (wb0_2 t) (sb0_3 t) (wb0_3 t) (sb0_4 t) (wb0_4 t) acc0 (Memref.isWhole_whole _) hf hl x0 x1 x2 x3).1)

theorem accFirst0_cover (hf : isFirst0 (grid0.coords t)) (hl : ¬isLast0 (grid0.coords t))
    (x0 : Vec F S1024x16 .f32) (x1 : Vec F S1024x16 .f32) (x2 : Vec F S1024x1 .f32) (x3 : Vec F S1x1024 .f32) (y : S1x1.Idx) :
    ∃ pc ∈ (runFirst0 c (grid0.coords t) (sb0_0 t) (wb0_0 t) (sb0_1 t) (wb0_1 t) (sb0_2 t) (wb0_2 t) (sb0_3 t) (wb0_3 t) (sb0_4 t) (wb0_4 t) acc0 (Memref.isWhole_whole _) hf hl x0 x1 x2 x3).1, y ∈ pc.1.set :=
  View.cover_of_tiledL _ S1x1.size (by sl_kernel_rfl) y

/-- The accumulator after a middle point, from what the point before left. -/
def accMid0 (hf : ¬isFirst0 (grid0.coords t)) (hl : ¬isLast0 (grid0.coords t))
    (x0 : Vec F S1024x16 .f32) (x1 : Vec F S1024x16 .f32) (x2 : Vec F S1024x1 .f32) (x3 : Vec F S1x1024 .f32) (xs : Vec F S1x1 .f32) : Vec F S1x1 .f32 :=
  accView0.read (Elt F) (accView0.writes (Elt F) accView0.junk
    (runMid0 c (grid0.coords t) (sb0_0 t) (wb0_0 t) (sb0_1 t) (wb0_1 t) (sb0_2 t) (wb0_2 t) (sb0_3 t) (wb0_3 t) (sb0_4 t) (wb0_4 t) acc0 (Memref.isWhole_whole _) hf hl x0 x1 x2 x3 xs).1)

theorem accMid0_cover (hf : ¬isFirst0 (grid0.coords t)) (hl : ¬isLast0 (grid0.coords t))
    (x0 : Vec F S1024x16 .f32) (x1 : Vec F S1024x16 .f32) (x2 : Vec F S1024x1 .f32) (x3 : Vec F S1x1024 .f32) (xs : Vec F S1x1 .f32) (y : S1x1.Idx) :
    ∃ pc ∈ (runMid0 c (grid0.coords t) (sb0_0 t) (wb0_0 t) (sb0_1 t) (wb0_1 t) (sb0_2 t) (wb0_2 t) (sb0_3 t) (wb0_3 t) (sb0_4 t) (wb0_4 t) acc0 (Memref.isWhole_whole _) hf hl x0 x1 x2 x3 xs).1, y ∈ pc.1.set :=
  View.cover_of_tiledL _ S1x1.size (by sl_kernel_rfl) y

/-- The accumulator after the last point. -/
def accLast0 (hf : ¬isFirst0 (grid0.coords t)) (hl : isLast0 (grid0.coords t))
    (x0 : Vec F S1024x16 .f32) (x1 : Vec F S1024x16 .f32) (x2 : Vec F S1024x1 .f32) (x3 : Vec F S1x1024 .f32) (xs : Vec F S1x1 .f32) : Vec F S1x1 .f32 :=
  accView0.read (Elt F) (accView0.writes (Elt F) accView0.junk
    (runLast0 c (grid0.coords t) (sb0_0 t) (wb0_0 t) (sb0_1 t) (wb0_1 t) (sb0_2 t) (wb0_2 t) (sb0_3 t) (wb0_3 t) (sb0_4 t) (wb0_4 t) acc0 (Memref.isWhole_whole _) hf hl x0 x1 x2 x3 xs).2.1)

theorem accLast0_cover (hf : ¬isFirst0 (grid0.coords t)) (hl : isLast0 (grid0.coords t))
    (x0 : Vec F S1024x16 .f32) (x1 : Vec F S1024x16 .f32) (x2 : Vec F S1024x1 .f32) (x3 : Vec F S1x1024 .f32) (xs : Vec F S1x1 .f32) (y : S1x1.Idx) :
    ∃ pc ∈ (runLast0 c (grid0.coords t) (sb0_0 t) (wb0_0 t) (sb0_1 t) (wb0_1 t) (sb0_2 t) (wb0_2 t) (sb0_3 t) (wb0_3 t) (sb0_4 t) (wb0_4 t) acc0 (Memref.isWhole_whole _) hf hl x0 x1 x2 x3 xs).2.1, y ∈ pc.1.set :=
  View.cover_of_tiledL _ S1x1.size (by sl_kernel_rfl) y

/-- The result block's staging buffer after the last point. -/
def outLast0 (hf : ¬isFirst0 (grid0.coords t)) (hl : isLast0 (grid0.coords t))
    (x0 : Vec F S1024x16 .f32) (x1 : Vec F S1024x16 .f32) (x2 : Vec F S1024x1 .f32) (x3 : Vec F S1x1024 .f32) (xs : Vec F S1x1 .f32) : Vec F S1x1 .f32 :=
  outView0.read (Elt F) (outView0.writes (Elt F) outView0.junk
    (runLast0 c (grid0.coords t) (sb0_0 t) (wb0_0 t) (sb0_1 t) (wb0_1 t) (sb0_2 t) (wb0_2 t) (sb0_3 t) (wb0_3 t) (sb0_4 t) (wb0_4 t) acc0 (Memref.isWhole_whole _) hf hl x0 x1 x2 x3 xs).1)

theorem outLast0_cover (hf : ¬isFirst0 (grid0.coords t)) (hl : isLast0 (grid0.coords t))
    (x0 : Vec F S1024x16 .f32) (x1 : Vec F S1024x16 .f32) (x2 : Vec F S1024x1 .f32) (x3 : Vec F S1x1024 .f32) (xs : Vec F S1x1 .f32) (y : S1x1.Idx) :
    ∃ pc ∈ (runLast0 c (grid0.coords t) (sb0_0 t) (wb0_0 t) (sb0_1 t) (wb0_1 t) (sb0_2 t) (wb0_2 t) (sb0_3 t) (wb0_3 t) (sb0_4 t) (wb0_4 t) acc0 (Memref.isWhole_whole _) hf hl x0 x1 x2 x3 xs).1, y ∈ pc.1.set :=
  View.cover_of_tiledL _ S1x1.size (by sl_kernel_rfl) y

end Cases

/-! ## The accumulator and the result block, point by point -/

/-- The grid has 64 points. -/
theorem N0_eq : cfg0.N = 64 := N_0

/-- What the accumulator holds after the body at point `n`: the first run at point 0, then at each later point that
    point's run over what the point before left — the last point's run at point 63, a middle run elsewhere. -/
def accAt0 (c : Dev nD) : (n : ℕ) → n < cfg0.N → Vec F S1x1 .f32
  | 0, hn => accFirst0 c ⟨0, hn⟩ ((isFirst0_iff ⟨0, hn⟩).mpr rfl) (fun h => absurd ((isLast0_iff ⟨0, hn⟩).mp h) (by show ¬ (0 : ℕ) = 63; omega))
      (blk0 V c 0 ⟨0, hn⟩) (blk0 V c 1 ⟨0, hn⟩) (blk0 V c 2 ⟨0, hn⟩) (blk0 V c 3 ⟨0, hn⟩)
  | n + 1, hn =>
    if hl : n + 1 = 63 then
      accLast0 c ⟨n + 1, hn⟩ (fun h => absurd ((isFirst0_iff ⟨n + 1, hn⟩).mp h) (Nat.succ_ne_zero n)) ((isLast0_iff ⟨n + 1, hn⟩).mpr hl)
        (blk0 V c 0 ⟨n + 1, hn⟩) (blk0 V c 1 ⟨n + 1, hn⟩) (blk0 V c 2 ⟨n + 1, hn⟩) (blk0 V c 3 ⟨n + 1, hn⟩) (accAt0 c n (Nat.lt_of_succ_lt hn))
    else
      accMid0 c ⟨n + 1, hn⟩ (fun h => absurd ((isFirst0_iff ⟨n + 1, hn⟩).mp h) (Nat.succ_ne_zero n)) (fun h => hl ((isLast0_iff ⟨n + 1, hn⟩).mp h))
        (blk0 V c 0 ⟨n + 1, hn⟩) (blk0 V c 1 ⟨n + 1, hn⟩) (blk0 V c 2 ⟨n + 1, hn⟩) (blk0 V c 3 ⟨n + 1, hn⟩) (accAt0 c n (Nat.lt_of_succ_lt hn))

/-- The recursion at the first point. -/
theorem accAt0_first (c : Dev nD) (t : Fin cfg0.N) (h0 : t.val = 0) :
    accAt0 V c t.val t.isLt = accFirst0 c t ((isFirst0_iff t).mpr h0) (fun h => absurd ((isLast0_iff t).mp h) (by omega))
      (blk0 V c 0 t) (blk0 V c 1 t) (blk0 V c 2 t) (blk0 V c 3 t) := by
  obtain ⟨n, hn⟩ := t
  cases n with
  | zero => rfl
  | succ n => exact absurd h0 (Nat.succ_ne_zero n)

/-- The recursion at a middle point. -/
theorem accAt0_mid (c : Dev nD) (t : Fin cfg0.N) (h0 : t.val ≠ 0) (hl : t.val ≠ 63) :
    accAt0 V c t.val t.isLt = accMid0 c t (fun h => h0 ((isFirst0_iff t).mp h)) (fun h => hl ((isLast0_iff t).mp h))
      (blk0 V c 0 t) (blk0 V c 1 t) (blk0 V c 2 t) (blk0 V c 3 t) (accAt0 V c (t.val - 1) (Nat.lt_of_le_of_lt (Nat.sub_le _ _) t.isLt)) := by
  obtain ⟨n, hn⟩ := t
  cases n with
  | zero => exact absurd rfl h0
  | succ n => exact (dif_neg hl).trans rfl

/-- The recursion at the last point. -/
theorem accAt0_last (c : Dev nD) (t : Fin cfg0.N) (h0 : t.val ≠ 0) (hl : t.val = 63) :
    accAt0 V c t.val t.isLt = accLast0 c t (fun h => h0 ((isFirst0_iff t).mp h)) ((isLast0_iff t).mpr hl)
      (blk0 V c 0 t) (blk0 V c 1 t) (blk0 V c 2 t) (blk0 V c 3 t) (accAt0 V c (t.val - 1) (Nat.lt_of_le_of_lt (Nat.sub_le _ _) t.isLt)) := by
  obtain ⟨n, hn⟩ := t
  cases n with
  | zero => exact absurd rfl h0
  | succ n => exact (dif_pos hl).trans rfl

/-- What the result block's staging buffer holds after the body at point `n`: the last run's store at point 63; at
    the other points the buffer is not stored into and the value below is never consulted. -/
def outAt0 (c : Dev nD) (n : ℕ) (hn : n < cfg0.N) : Vec F S1x1 .f32 :=
  if hl : n = 63 then
    outLast0 c ⟨n, hn⟩ (fun h => absurd ((isFirst0_iff ⟨n, hn⟩).mp h) (by show ¬ n = 0; omega)) ((isLast0_iff ⟨n, hn⟩).mpr hl)
      (blk0 V c 0 ⟨n, hn⟩) (blk0 V c 1 ⟨n, hn⟩) (blk0 V c 2 ⟨n, hn⟩) (blk0 V c 3 ⟨n, hn⟩) (accAt0 V c (n - 1) (Nat.lt_of_le_of_lt (Nat.sub_le _ _) hn))
  else accAt0 V c n hn

theorem outAt0_last (c : Dev nD) (t : Fin cfg0.N) (hl : t.val = 63) :
    outAt0 V c t.val t.isLt = outLast0 c t (fun h => absurd ((isFirst0_iff t).mp h) (by omega)) ((isLast0_iff t).mpr hl)
      (blk0 V c 0 t) (blk0 V c 1 t) (blk0 V c 2 t) (blk0 V c 3 t) (accAt0 V c (t.val - 1) (Nat.lt_of_le_of_lt (Nat.sub_le _ _) t.isLt)) := by
  unfold outAt0; exact dif_pos hl

/-! ## The invariant -/

/-- The kernel's own buffers other than the accumulator (the second region's staging buffers and accumulator), each
    at some contents: they ride through this region untouched. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_scratch0), ((c : Thread nD τ).loc cc1_scratch0) ↦{fullShare} f))

/-- What the launch hands the region, with the accumulator singled out. -/
theorem entryInv0_eq (c : Dev nD) :
    (Pipeline.ΦA spec0 c : sProp 𝕄)
      = iprop(iprop((∃ d, owns (c : Thread nD τ) acc0 fullShare d) ∗ others0 (F := F) c) ∗ (∃ r, prngReg c r)) := by
  unfold Pipeline.ΦA others0; rw [scopedRest0_eq]; simp only [acc0, owns_whole]; try rfl

/-- The invariant before position `n`. -/
def inv0 (c : Dev nD) : (n : ℕ) → n ≤ cfg0.N → sProp 𝕄
  | 0, _ => Pipeline.ΦA spec0 c
  | n + 1, hn => iprop(iprop(owns (c : Thread nD τ) acc0 fullShare (accAt0 V c n hn) ∗ others0 (F := F) c) ∗ (∃ r, prngReg c r))

theorem inv0_zero (c : Dev nD) (n : ℕ) (h : n ≤ cfg0.N) (hz : n = 0) : inv0 V c n h = Pipeline.ΦA spec0 c := by
  subst hz; rfl

theorem inv0_succ (c : Dev nD) (n : ℕ) (hn : n < cfg0.N) :
    inv0 V c (n + 1) hn = iprop(iprop(owns (c : Thread nD τ) acc0 fullShare (accAt0 V c n hn) ∗ others0 (F := F) c) ∗ (∃ r, prngReg c r)) := rfl

theorem inv0_pos (c : Dev nD) (n : ℕ) (h : n ≤ cfg0.N) (hz : n ≠ 0) :
    inv0 V c n h = iprop(iprop(owns (c : Thread nD τ) acc0 fullShare (accAt0 V c (n - 1) (by omega)) ∗ others0 (F := F) c) ∗ (∃ r, prngReg c r)) := by
  cases n with
  | zero => exact absurd rfl hz
  | succ n => rfl

/-! ## The proof data -/

/-- The region's proof data on core `c`: the arrays as found; after the body each input buffer still at its block,
    the result block's buffer at `outAt0`; the invariant `inv0`; nothing owed; full shares. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => blk0 V c 3 t
    | ⟨4, _⟩ => outAt0 V c t.val t.isLt
  Φ t := inv0 V c t.val (Nat.le_of_lt_succ t.isLt)
  q _ := fullShare
  owed _ := 0

theorem dat0_A (c : Dev nD) (w : Fin cfg0.W) : (dat0 V c).A w = V c (Pipeline.arrRef spec0 w) := by
  dsimp only [dat0]

theorem dat0_inv_castSucc (c : Dev nD) (t : Fin cfg0.N) :
    (dat0 V c).Φ t.castSucc = inv0 V c t.val (Nat.le_of_lt t.isLt) := by
  dsimp only [dat0]; simp only [Fin.coe_castSucc]

theorem dat0_after_0 (c : Dev nD) (t : Fin cfg0.N) : (dat0 V c).after 0 t = blk0 V c 0 t := by dsimp only [dat0]
theorem dat0_after_1 (c : Dev nD) (t : Fin cfg0.N) : (dat0 V c).after 1 t = blk0 V c 1 t := by dsimp only [dat0]
theorem dat0_after_2 (c : Dev nD) (t : Fin cfg0.N) : (dat0 V c).after 2 t = blk0 V c 2 t := by dsimp only [dat0]
theorem dat0_after_3 (c : Dev nD) (t : Fin cfg0.N) : (dat0 V c).after 3 t = blk0 V c 3 t := by dsimp only [dat0]
theorem dat0_after_4 (c : Dev nD) (t : Fin cfg0.N) : (dat0 V c).after 4 t = outAt0 V c t.val t.isLt := by dsimp only [dat0]

/-- An input buffer holds its window's block at every point, fetched there or not: where a window is not fetched its
    block index has not moved since the last fetch. -/
theorem dat0_before_0 (c : Dev nD) (t : Fin cfg0.N) (d) : (dat0 V c).before 0 t d = blk0 V c 0 t :=
  ((dat0 V c).before_in_eq_fetched 0 rfl (fun _ => rfl) (fun _ _ _ => rfl) (fun t => by rw [dat0_after_0]; unfold Dat.blockOf blk0; rw [dat0_A]; try rfl) t d).trans
    (by unfold Dat.fetched Dat.blockOf blk0; rw [dat0_A]; try rfl)
theorem dat0_before_1 (c : Dev nD) (t : Fin cfg0.N) (d) : (dat0 V c).before 1 t d = blk0 V c 1 t :=
  ((dat0 V c).before_in_eq_fetched 1 rfl (fun _ => rfl) (fun _ _ _ => rfl) (fun t => by rw [dat0_after_1]; unfold Dat.blockOf blk0; rw [dat0_A]; try rfl) t d).trans
    (by unfold Dat.fetched Dat.blockOf blk0; rw [dat0_A]; try rfl)
theorem dat0_before_2 (c : Dev nD) (t : Fin cfg0.N) (d) : (dat0 V c).before 2 t d = blk0 V c 2 t :=
  ((dat0 V c).before_in_eq_fetched 2 rfl (fun _ => rfl) (fun _ _ _ => rfl) (fun t => by rw [dat0_after_2]; unfold Dat.blockOf blk0; rw [dat0_A]; try rfl) t d).trans
    (by unfold Dat.fetched Dat.blockOf blk0; rw [dat0_A]; try rfl)
theorem dat0_before_3 (c : Dev nD) (t : Fin cfg0.N) (d) : (dat0 V c).before 3 t d = blk0 V c 3 t :=
  ((dat0 V c).before_in_eq_fetched 3 rfl (fun _ => rfl) (fun _ _ _ => rfl) (fun t => by rw [dat0_after_3]; unfold Dat.blockOf blk0; rw [dat0_A]; try rfl) t d).trans
    (by unfold Dat.fetched Dat.blockOf blk0; rw [dat0_A]; try rfl)

/-! ## Where the result block is live -/

/-- An input window is never idle. -/
theorem live0_0 : ∀ t : Fin cfg0.N, cfg0.idle 0 (grid0.coords t) = false := by decide +kernel
theorem live0_1 : ∀ t : Fin cfg0.N, cfg0.idle 1 (grid0.coords t) = false := by decide +kernel
theorem live0_2 : ∀ t : Fin cfg0.N, cfg0.idle 2 (grid0.coords t) = false := by decide +kernel
theorem live0_3 : ∀ t : Fin cfg0.N, cfg0.idle 3 (grid0.coords t) = false := by decide +kernel
/-- Away from the last point the result block is idle and is not written back. -/
theorem idle0_4 : ∀ t : Fin cfg0.N, ¬isLast0 (grid0.coords t) → cfg0.idle 4 (grid0.coords t) = true := by decide +kernel
theorem noflush0_4 : ∀ t : Fin cfg0.N, ¬isLast0 (grid0.coords t) → (cfg0.win 4).flush t = false := by decide +kernel
/-- At the last point it is live. -/
theorem live0_4 : ∀ t : Fin cfg0.N, isLast0 (grid0.coords t) → cfg0.idle 4 (grid0.coords t) = false := by decide +kernel

/-! ## The body obligation -/

/-- What the body is called with at point `t`, the windows one by one, -/
def pre0 (c : Dev nD) (t : Fin cfg0.N) : sProp 𝕄 :=
  iprop((dat0 V c).Φ t.castSucc ∗ (dat0 V c).owesAt () t.castSucc
    ∗ (∃ d, owns (c : Thread nD τ) (sb0_0 t) fullShare ((dat0 V c).before 0 t d))
    ∗ (∃ d, owns (c : Thread nD τ) (sb0_1 t) fullShare ((dat0 V c).before 1 t d))
    ∗ (∃ d, owns (c : Thread nD τ) (sb0_2 t) fullShare ((dat0 V c).before 2 t d))
    ∗ (∃ d, owns (c : Thread nD τ) (sb0_3 t) fullShare ((dat0 V c).before 3 t d))
    ∗ (∃ d, owns (c : Thread nD τ) (sb0_4 t) fullShare ((dat0 V c).before 4 t d)))

/-- and what it returns. -/
def post0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t
    ∗ (dat0 V c).leavesExact 3 t ∗ (dat0 V c).leavesExact 4 t)

theorem leaves0_0 (c : Dev nD) (t : Fin cfg0.N) : (dat0 V c).leavesExact 0 t = owns (c : Thread nD τ) (sb0_0 t) fullShare (blk0 V c 0 t) := by
  unfold Dat.leavesExact; rw [live0_0 t, dat0_after_0]
theorem leaves0_1 (c : Dev nD) (t : Fin cfg0.N) : (dat0 V c).leavesExact 1 t = owns (c : Thread nD τ) (sb0_1 t) fullShare (blk0 V c 1 t) := by
  unfold Dat.leavesExact; rw [live0_1 t, dat0_after_1]
theorem leaves0_2 (c : Dev nD) (t : Fin cfg0.N) : (dat0 V c).leavesExact 2 t = owns (c : Thread nD τ) (sb0_2 t) fullShare (blk0 V c 2 t) := by
  unfold Dat.leavesExact; rw [live0_2 t, dat0_after_2]
theorem leaves0_3 (c : Dev nD) (t : Fin cfg0.N) : (dat0 V c).leavesExact 3 t = owns (c : Thread nD τ) (sb0_3 t) fullShare (blk0 V c 3 t) := by
  unfold Dat.leavesExact; rw [live0_3 t, dat0_after_3]

set_option maxHeartbeats 4000000 in
/-- The body at any point: the inputs' buffers hold their blocks; the closed forms of the two conditions say which case
    the point is in; the invariant hands the body the accumulator at what the point before left (at anything at the
    first point) and takes it back at this point's value; the core owes nothing throughout. -/
theorem sound0 (c : Dev nD) (t : Fin cfg0.N) :
    pre0 V c t ⊢ wp frame (wpE (defs₀ (F := F)) Variants.none c none) Set.univ (bodyAt0 t) (fun _ => post0 V c t) := by
  unfold pre0 post0 bodyAt0
  simp only [dat0_before_0, dat0_before_1, dat0_before_2, dat0_before_3]
  rw [show (dat0 V c).owesAt () t.succ = (dat0 V c).owesAt () t.castSucc from rfl]
  rw [show (dat0 V c).Φ t.succ = inv0 V c (t.val + 1) t.isLt from rfl, inv0_succ]
  rw [leaves0_0, leaves0_1, leaves0_2, leaves0_3]
  have hN : t.val < 64 := lt_of_lt_of_eq t.isLt N0_eq
  by_cases h0 : t.val = 0
  · -- the first point
    have hf : isFirst0 (grid0.coords t) := (isFirst0_iff t).mpr h0
    have hl : ¬isLast0 (grid0.coords t) := fun h => absurd ((isLast0_iff t).mp h) (by omega)
    rw [Dat.leavesExact_idle (dat0 V c) 4 t (idle0_4 t hl) (noflush0_4 t hl)]
    rw [accAt0_first V c t h0]
    unfold accFirst0
    rw [dat0_inv_castSucc V c t, inv0_zero V c _ _ h0, entryInv0_eq]
    iintro ⟨⟨⟨HS, HR⟩, Hg⟩, Ho, ⟨%d0, H0⟩, ⟨%d1, H1⟩, ⟨%d2, H2⟩, ⟨%d3, H3⟩, ⟨%d4, H4⟩⟩
    iapply ((runFirst0 c (grid0.coords t) _ _ _ _ _ _ _ _ _ _ _ _ hf hl (blk0 V c 0 t) (blk0 V c 1 t) (blk0 V c 2 t) (blk0 V c 3 t)).2 _ Set.univ _)
    isplitl [H0]; · iexact H0
    isplitl [H1]; · iexact H1
    isplitl [H2]; · iexact H2
    isplitl [H3]; · iexact H3
    isplitl [H4]; · iexact H4
    isplitl [HS]; · iexact HS
    iintro ⟨H0, H1, H2, H3, H4, ⟨%es, HS⟩⟩
    isplitl [HS HR Hg]
    · isplitl [HS HR]
      · isplitl [HS]
        · unfold owns; iexists _; isplitr
          swap; · iexact HS
          ipureintro; exact View.read_writes_of_cover _ _ _ _ _ (accFirst0_cover c t hf hl _ _ _ _)
        iexact HR
      iexact Hg
    isplitl [Ho]; · iexact Ho
    isplitl [H0]; · iexact H0
    isplitl [H1]; · iexact H1
    isplitl [H2]; · iexact H2
    isplitl [H3]; · iexact H3
    iexists _; iexact H4
  · by_cases h63 : t.val = 63
    · -- the last point
      have hf : ¬isFirst0 (grid0.coords t) := fun h => h0 ((isFirst0_iff t).mp h)
      have hl : isLast0 (grid0.coords t) := (isLast0_iff t).mpr h63
      rw [show (dat0 V c).leavesExact 4 t = owns (c : Thread nD τ) (sb0_4 t) fullShare ((dat0 V c).after 4 t) from by
        unfold Dat.leavesExact; rw [live0_4 t hl], dat0_after_4]
      rw [outAt0_last V c t h63, accAt0_last V c t h0 h63]
      unfold accLast0 outLast0
      rw [dat0_inv_castSucc V c t, inv0_pos V c _ _ h0]
      iintro ⟨⟨⟨HS, HR⟩, Hg⟩, Ho, ⟨%d0, H0⟩, ⟨%d1, H1⟩, ⟨%d2, H2⟩, ⟨%d3, H3⟩, ⟨%d4, H4⟩⟩
      iapply ((runLast0 c (grid0.coords t) _ _ _ _ _ _ _ _ _ _ _ _ hf hl (blk0 V c 0 t) (blk0 V c 1 t) (blk0 V c 2 t) (blk0 V c 3 t) _).2.2 Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, ⟨%eo, H4⟩, ⟨%es, HS⟩⟩
      isplitl [HS HR Hg]
      · isplitl [HS HR]
        · isplitl [HS]
          · unfold owns; iexists _; isplitr
            swap; · iexact HS
            ipureintro; exact View.read_writes_of_cover _ _ _ _ _ (accLast0_cover c t hf hl _ _ _ _ _)
          iexact HR
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (outLast0_cover c t hf hl _ _ _ _ _)
    · -- a middle point
      have hf : ¬isFirst0 (grid0.coords t) := fun h => h0 ((isFirst0_iff t).mp h)
      have hl : ¬isLast0 (grid0.coords t) := fun h => h63 ((isLast0_iff t).mp h)
      rw [Dat.leavesExact_idle (dat0 V c) 4 t (idle0_4 t hl) (noflush0_4 t hl)]
      rw [accAt0_mid V c t h0 h63]
      unfold accMid0
      rw [dat0_inv_castSucc V c t, inv0_pos V c _ _ h0]
      iintro ⟨⟨⟨HS, HR⟩, Hg⟩, Ho, ⟨%d0, H0⟩, ⟨%d1, H1⟩, ⟨%d2, H2⟩, ⟨%d3, H3⟩, ⟨%d4, H4⟩⟩
      iapply ((runMid0 c (grid0.coords t) _ _ _ _ _ _ _ _ _ _ _ _ hf hl (blk0 V c 0 t) (blk0 V c 1 t) (blk0 V c 2 t) (blk0 V c 3 t) _).2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS HR Hg]
      · isplitl [HS HR]
        · isplitl [HS]
          · unfold owns; iexists _; isplitr
            swap; · iexact HS
            ipureintro; exact View.read_writes_of_cover _ _ _ _ _ (accMid0_cover c t hf hl _ _ _ _ _)
          iexact HR
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem obligation0 (c : Dev nD) : BodyObligation (dat0 (F := F) V c) (defs₀ (F := F)) Variants.none () Set.univ := fun t => by
  rw [bigSep_W0, bigSep_W0]
  exact sound0 V c t

/-- What the launch hands the region is the invariant before the first point. -/
theorem inv0_in (c : Dev nD) : Pipeline.ΦA spec0 c ⊢ (dat0 V c).Φ 0 := by
  rw [show (dat0 V c).Φ 0 = inv0 V c 0 (Nat.zero_le _) from rfl, inv0_zero V c 0 _ rfl]
  try exact Idealize.SL.BI.Entails.refl _

/-- After the last point the invariant gives back what the launch handed over: the accumulator's value is forgotten. -/
theorem inv0_out (c : Dev nD) : (dat0 V c).Φ (Fin.last cfg0.N) ⊢ Pipeline.ΦA spec0 c := by
  rw [show (dat0 V c).Φ (Fin.last cfg0.N) = inv0 V c (Fin.last cfg0.N).val (Nat.le_of_lt_succ (Fin.last cfg0.N).isLt) from rfl,
    inv0_pos V c _ _ (by rw [Fin.val_last]; have : cfg0.N = 64 := N0_eq; omega), entryInv0_eq]
  iintro ⟨⟨HS, HR⟩, Hg⟩
  isplitl [HS HR]
  · isplitl [HS]; · iexists _; iexact HS
    iexact HR
  iexact Hg

end Cert.KernelIdeal.Hand

end
-- ==== Proof.Body1.lean ====
/-
  The pairwise kernel of the second dense term, one grid point at a time.

  The grid is 8 × 8 tiles of 1024 × 1024 pairs.  At a point (i, j) the body reads a block of 1024 rows of
  each point set, a column block and a row block of the two bias vectors, forms the tile
  exp (bx r + by c − sqrt (max (‖x r‖² + ‖y c‖² − 2 ⟨x r, y c⟩, 0))) with no mask, sums the tile, and adds the sum into a one-entry accumulator that lives
  across the whole grid.  Three control cases exhaust the grid: the first point clears the accumulator
  before adding, a middle point only adds, the last point adds and then copies the accumulator into the
  one-entry result block.  This module runs the body once per case on arbitrary whole buffers.
-/
import proofs.«117720_j19447611916775_1_alg».proof.Proof.Gen.KernelIdeal.Launch
import proofs.«117720_j19447611916775_1_alg».proof.Proof.Gen.KernelIdeal.Skeleton
import proofs.«117720_j19447611916775_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions over the grid -/

/-- The accumulator is cleared exactly when both grid coordinates are zero. -/
abbrev isFirst1 (i : grid1.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1

/-- The result block is written exactly when both grid coordinates are seven. -/
abbrev isLast1 (i : grid1.Coords) : Prop := k1_cond2 i = 1#1

/-- In row-major order the first condition holds at point 0 only. -/
theorem isFirst1_iff : ∀ t : Fin cfg1.N, isFirst1 (grid1.coords t) ↔ t.val = 0 :=
  (by decide +kernel : ∀ t : Fin grid1.N, isFirst1 (grid1.coords t) ↔ t.val = 0)

/-- In row-major order the second condition holds at point 63 only. -/
theorem isLast1_iff : ∀ t : Fin cfg1.N, isLast1 (grid1.coords t) ↔ t.val = 63 :=
  (by decide +kernel : ∀ t : Fin grid1.N, isLast1 (grid1.coords t) ↔ t.val = 63)

/-! ## The body, case by case

Each run is stated on six whole buffers: four inputs at known contents, the result block, the accumulator.
What the body leaves in a buffer it stores into is a list of written pieces (last store first) that the
symbolic run itself produces; the later modules read those pieces back as values. -/

set_option maxHeartbeats 4000000 in
/-- FIRST POINT: the accumulator may hold anything on entry; the body clears it, adds the tile sum, and leaves
    the result block untouched. -/
noncomputable def runFirst1 (c : Dev nD) (i : grid1.Coords)
    (a2 : Memref sig .tc .vmem S1024x16 .f32) (h2 : a2.IsWhole) (a3 : Memref sig .tc .vmem S1024x16 .f32) (h3 : a3.IsWhole)
    (a4 : Memref sig .tc .vmem S1024x1 .f32) (h4 : a4.IsWhole) (a5 : Memref sig .tc .vmem S1x1024 .f32) (h5 : a5.IsWhole)
    (a6 : Memref sig .tc .vmem S1x1 .f32) (h6 : a6.IsWhole) (a7 : Memref sig .tc .vmem S1x1 .f32) (h7 : a7.IsWhole)
    (hf : isFirst1 i) (hl : ¬isLast1 i)
    (x0 : Vec F S1024x16 .f32) (x1 : Vec F S1024x16 .f32) (x2 : Vec F S1024x1 .f32) (x3 : Vec F S1x1024 .f32) :
    { LS : List (View.Piece (Elt F) S1x1 .f32) //
      ∀ (xo : Vec F S1x1 .f32) (E : Set ℕ) (K : PUnit → sProp 𝕄),
        iprop(owns (c : Thread nD τ) a2 fullShare x0 ∗ owns (c : Thread nD τ) a3 fullShare x1 ∗ owns (c : Thread nD τ) a4 fullShare x2
            ∗ owns (c : Thread nD τ) a5 fullShare x3 ∗ owns (c : Thread nD τ) a6 fullShare xo ∗ (∃ d, owns (c : Thread nD τ) a7 fullShare d)
            ∗ (iprop(owns (c : Thread nD τ) a2 fullShare x0 ∗ owns (c : Thread nD τ) a3 fullShare x1 ∗ owns (c : Thread nD τ) a4 fullShare x2
                ∗ owns (c : Thread nD τ) a5 fullShare x3 ∗ owns (c : Thread nD τ) a6 fullShare xo
                ∗ (∃ f, a7.view.loc (c : Thread nD τ) ↦[a7.view.set]{fullShare} a7.view.writes (Elt F) f LS)) -∗ K ⟨⟩))
          ⊢ wp frame (wpE (defs₀ (F := F)) Variants.none c none) E (cc1__pairwise_masked_sum_kernel i a2 h2 a3 h3 a4 h4 a5 h5 a6 h6 a7 h7) K } := by
  refine ⟨?_, fun xo E K => ?run⟩
  case run =>
    simp only [cc1__pairwise_masked_sum_kernel_eq_skeleton]; unfold cc1__pairwise_masked_sum_kernel_skel
    unfold owns
    iintro ⟨⟨%f0, %hf0, H0⟩, ⟨%f1, %hf1, H1⟩, ⟨%f2, %hf2, H2⟩, ⟨%f3, %hf3, H3⟩, ⟨%fo, %hfo, HO⟩, ⟨%ds, %fs, -, HS⟩, Hk⟩
    obtain rfl := h2.eq_unread hf0; obtain rfl := h3.eq_unread hf1; obtain rfl := h4.eq_unread hf2
    obtain rfl := h5.eq_unread hf3; obtain rfl := h6.eq_unread hfo
    sl_exec (disch := first | exact hf | exact hl)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [HO]
    · iexists _; isplitr; · ipureintro; exact h6.read_unread _
      iexact HO
    iexists _; iexact HS

set_option maxHeartbeats 4000000 in
/-- MIDDLE POINT: the accumulator holds `xs` on entry; the body adds the tile sum into it and leaves the result
    block untouched. -/
noncomputable def runMid1 (c : Dev nD) (i : grid1.Coords)
    (a2 : Memref sig .tc .vmem S1024x16 .f32) (h2 : a2.IsWhole) (a3 : Memref sig .tc .vmem S1024x16 .f32) (h3 : a3.IsWhole)
    (a4 : Memref sig .tc .vmem S1024x1 .f32) (h4 : a4.IsWhole) (a5 : Memref sig .tc .vmem S1x1024 .f32) (h5 : a5.IsWhole)
    (a6 : Memref sig .tc .vmem S1x1 .f32) (h6 : a6.IsWhole) (a7 : Memref sig .tc .vmem S1x1 .f32) (h7 : a7.IsWhole)
    (hf : ¬isFirst1 i) (hl : ¬isLast1 i)
    (x0 : Vec F S1024x16 .f32) (x1 : Vec F S1024x16 .f32) (x2 : Vec F S1024x1 .f32) (x3 : Vec F S1x1024 .f32) (xs : Vec F S1x1 .f32) :
    { LS : List (View.Piece (Elt F) S1x1 .f32) //
      ∀ (xo : Vec F S1x1 .f32) (E : Set ℕ) (K : PUnit → sProp 𝕄),
        iprop(owns (c : Thread nD τ) a2 fullShare x0 ∗ owns (c : Thread nD τ) a3 fullShare x1 ∗ owns (c : Thread nD τ) a4 fullShare x2
            ∗ owns (c : Thread nD τ) a5 fullShare x3 ∗ owns (c : Thread nD τ) a6 fullShare xo ∗ owns (c : Thread nD τ) a7 fullShare xs
            ∗ (iprop(owns (c : Thread nD τ) a2 fullShare x0 ∗ owns (c : Thread nD τ) a3 fullShare x1 ∗ owns (c : Thread nD τ) a4 fullShare x2
            ∗ owns (c : Thread nD τ) a5 fullShare x3 ∗ owns (c : Thread nD τ) a6 fullShare xo
                ∗ (∃ f, a7.view.loc (c : Thread nD τ) ↦[a7.view.set]{fullShare} a7.view.writes (Elt F) f LS)) -∗ K ⟨⟩))
          ⊢ wp frame (wpE (defs₀ (F := F)) Variants.none c none) E (cc1__pairwise_masked_sum_kernel i a2 h2 a3 h3 a4 h4 a5 h5 a6 h6 a7 h7) K } := by
  refine ⟨?_, fun xo E K => ?run⟩
  case run =>
    simp only [cc1__pairwise_masked_sum_kernel_eq_skeleton]; unfold cc1__pairwise_masked_sum_kernel_skel
    unfold owns
    iintro ⟨⟨%f0, %hf0, H0⟩, ⟨%f1, %hf1, H1⟩, ⟨%f2, %hf2, H2⟩, ⟨%f3, %hf3, H3⟩, ⟨%fo, %hfo, HO⟩, ⟨%fs, %hfs, HS⟩, Hk⟩
    obtain rfl := h2.eq_unread hf0; obtain rfl := h3.eq_unread hf1; obtain rfl := h4.eq_unread hf2
    obtain rfl := h5.eq_unread hf3; obtain rfl := h6.eq_unread hfo; obtain rfl := h7.eq_unread hfs
    sl_exec (disch := first | exact hf | exact hl)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [HO]
    · iexists _; isplitr; · ipureintro; exact h6.read_unread _
      iexact HO
    iexists _; iexact HS

set_option maxHeartbeats 4000000 in
/-- LAST POINT: the accumulator holds `xs` on entry; the body adds the tile sum into it and then copies it into the
    result block, whose earlier contents do not matter. -/
noncomputable def runLast1 (c : Dev nD) (i : grid1.Coords)
    (a2 : Memref sig .tc .vmem S1024x16 .f32) (h2 : a2.IsWhole) (a3 : Memref sig .tc .vmem S1024x16 .f32) (h3 : a3.IsWhole)
    (a4 : Memref sig .tc .vmem S1024x1 .f32) (h4 : a4.IsWhole) (a5 : Memref sig .tc .vmem S1x1024 .f32) (h5 : a5.IsWhole)
    (a6 : Memref sig .tc .vmem S1x1 .f32) (h6 : a6.IsWhole) (a7 : Memref sig .tc .vmem S1x1 .f32) (h7 : a7.IsWhole)
    (hf : ¬isFirst1 i) (hl : isLast1 i)
    (x0 : Vec F S1024x16 .f32) (x1 : Vec F S1024x16 .f32) (x2 : Vec F S1024x1 .f32) (x3 : Vec F S1x1024 .f32) (xs : Vec F S1x1 .f32) :
    Σ' (LO : List (View.Piece (Elt F) S1x1 .f32)), { LS : List (View.Piece (Elt F) S1x1 .f32) //
      ∀ (E : Set ℕ) (K : PUnit → sProp 𝕄),
        iprop(owns (c : Thread nD τ) a2 fullShare x0 ∗ owns (c : Thread nD τ) a3 fullShare x1 ∗ owns (c : Thread nD τ) a4 fullShare x2
            ∗ owns (c : Thread nD τ) a5 fullShare x3 ∗ (∃ d, owns (c : Thread nD τ) a6 fullShare d) ∗ owns (c : Thread nD τ) a7 fullShare xs
            ∗ (iprop(owns (c : Thread nD τ) a2 fullShare x0 ∗ owns (c : Thread nD τ) a3 fullShare x1 ∗ owns (c : Thread nD τ) a4 fullShare x2
            ∗ owns (c : Thread nD τ) a5 fullShare x3
                ∗ (∃ f, a6.view.loc (c : Thread nD τ) ↦[a6.view.set]{fullShare} a6.view.writes (Elt F) f LO)
                ∗ (∃ f, a7.view.loc (c : Thread nD τ) ↦[a7.view.set]{fullShare} a7.view.writes (Elt F) f LS)) -∗ K ⟨⟩))
          ⊢ wp frame (wpE (defs₀ (F := F)) Variants.none c none) E (cc1__pairwise_masked_sum_kernel i a2 h2 a3 h3 a4 h4 a5 h5 a6 h6 a7 h7) K } := by
  refine ⟨?_, ?_, fun E K => ?run⟩
  case run =>
    simp only [cc1__pairwise_masked_sum_kernel_eq_skeleton]; unfold cc1__pairwise_masked_sum_kernel_skel
    unfold owns
    iintro ⟨⟨%f0, %hf0, H0⟩, ⟨%f1, %hf1, H1⟩, ⟨%f2, %hf2, H2⟩, ⟨%f3, %hf3, H3⟩, ⟨%dO, %fo, -, HO⟩, ⟨%fs, %hfs, HS⟩, Hk⟩
    obtain rfl := h2.eq_unread hf0; obtain rfl := h3.eq_unread hf1; obtain rfl := h4.eq_unread hf2
    obtain rfl := h5.eq_unread hf3; obtain rfl := h7.eq_unread hfs
    sl_exec (disch := first | exact hf | exact hl)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [HO]; · iexists _; iexact HO
    iexists _; iexact HS

end Cert.KernelIdeal.Hand

end
-- ==== Proof.Region1.lean ====
/-
  The second dense term's region as the pipeline runs it: 64 grid points in row-major order.

  The one-entry accumulator is a buffer of the kernel's own that no transfer touches, so what it holds after point n
  is a recursion on n: the first point's run over the blocks at point 0, then each later point's run over that
  point's blocks and what the point before left.  The result block's staging buffer is stored into at the last
  point only, and that is also the only point whose block is written back; everywhere else it is handed back as
  found.  The region's invariant is therefore: before the first point, every buffer of the kernel's own at
  anything; after point n, the accumulator at the recursion's value and the other such buffers at anything.
-/
import proofs.«117720_j19447611916775_1_alg».proof.Proof.Body1
import Idealize.ShloMosaic.Lib.Pipeline.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- The buffer contents the region is entered with, per core: a parameter, fixed when the regions are composed.
variable (V : (c : Dev nD) → (b : Ref sig .tc) → Buf (Elt F) ((c : Thread nD τ).loc b))

/-! ## Blocks and buffers at a point -/

/-- Window `w`'s block at point `t` of the array the region finds. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The staging buffer each window is on at point `t`, as the pipeline passes it to the body. -/
abbrev sb1_0 (t : Fin cfg1.N) : Memref sig .tc .vmem S1024x16 .f32 := win1_0.stage (cfg1.slots t 0)
abbrev wb1_0 (t : Fin cfg1.N) : (sb1_0 t).IsWhole := hstage1_0 ((cfg1.slots t 0).cast nbuf1_0)
abbrev sb1_1 (t : Fin cfg1.N) : Memref sig .tc .vmem S1024x16 .f32 := win1_1.stage (cfg1.slots t 1)
abbrev wb1_1 (t : Fin cfg1.N) : (sb1_1 t).IsWhole := hstage1_1 ((cfg1.slots t 1).cast nbuf1_1)
abbrev sb1_2 (t : Fin cfg1.N) : Memref sig .tc .vmem S1024x1 .f32 := win1_2.stage (cfg1.slots t 2)
abbrev wb1_2 (t : Fin cfg1.N) : (sb1_2 t).IsWhole := hstage1_2 ((cfg1.slots t 2).cast nbuf1_2)
abbrev sb1_3 (t : Fin cfg1.N) : Memref sig .tc .vmem S1x1024 .f32 := win1_3.stage (cfg1.slots t 3)
abbrev wb1_3 (t : Fin cfg1.N) : (sb1_3 t).IsWhole := hstage1_3 ((cfg1.slots t 3).cast nbuf1_3)
abbrev sb1_4 (t : Fin cfg1.N) : Memref sig .tc .vmem S1x1 .f32 := win1_4.stage (cfg1.slots t 4)
abbrev wb1_4 (t : Fin cfg1.N) : (sb1_4 t).IsWhole := hstage1_4 ((cfg1.slots t 4).cast nbuf1_4)
/-- The accumulator. -/
abbrev acc1 : Memref sig .tc .vmem S1x1 .f32 := Memref.whole cc1_scratch0
abbrev accView1 : View sig .tc .vmem S1x1 .f32 := (acc1).view
abbrev outView1 : View sig .tc .vmem S1x1 .f32 := (Memref.whole cc1_stg4_0 : Memref sig .tc .vmem S1x1 .f32).view

/-! ## What each case leaves, read back as a value -/

section Cases
variable (c : Dev nD) (t : Fin cfg1.N)

/-- The accumulator after the first point: the first run's pieces read back. -/
def accFirst1 (hf : isFirst1 (grid1.coords t)) (hl : ¬isLast1 (grid1.coords t))
    (x0 : Vec F S1024x16 .f32) (x1 : Vec F S1024x16 .f32) (x2 : Vec F S1024x1 .f32) (x3 : Vec F S1x1024 .f32) : Vec F S1x1 .f32 :=
  accView1.read (Elt F) (accView1.writes (Elt F) accView1.junk
    (runFirst1 c (grid1.coords t) (sb1_0 t) (wb1_0 t) (sb1_1 t) (wb1_1 t) (sb1_2 t) (wb1_2 t) (sb1_3 t) (wb1_3 t) (sb1_4 t) (wb1_4 t) acc1 (Memref.isWhole_whole _) hf hl x0 x1 x2 x3).1)

theorem accFirst1_cover (hf : isFirst1 (grid1.coords t)) (hl : ¬isLast1 (grid1.coords t))
    (x0 : Vec F S1024x16 .f32) (x1 : Vec F S1024x16 .f32) (x2 : Vec F S1024x1 .f32) (x3 : Vec F S1x1024 .f32) (y : S1x1.Idx) :
    ∃ pc ∈ (runFirst1 c (grid1.coords t) (sb1_0 t) (wb1_0 t) (sb1_1 t) (wb1_1 t) (sb1_2 t) (wb1_2 t) (sb1_3 t) (wb1_3 t) (sb1_4 t) (wb1_4 t) acc1 (Memref.isWhole_whole _) hf hl x0 x1 x2 x3).1, y ∈ pc.1.set :=
  View.cover_of_tiledL _ S1x1.size (by sl_kernel_rfl) y

/-- The accumulator after a middle point, from what the point before left. -/
def accMid1 (hf : ¬isFirst1 (grid1.coords t)) (hl : ¬isLast1 (grid1.coords t))
    (x0 : Vec F S1024x16 .f32) (x1 : Vec F S1024x16 .f32) (x2 : Vec F S1024x1 .f32) (x3 : Vec F S1x1024 .f32) (xs : Vec F S1x1 .f32) : Vec F S1x1 .f32 :=
  accView1.read (Elt F) (accView1.writes (Elt F) accView1.junk
    (runMid1 c (grid1.coords t) (sb1_0 t) (wb1_0 t) (sb1_1 t) (wb1_1 t) (sb1_2 t) (wb1_2 t) (sb1_3 t) (wb1_3 t) (sb1_4 t) (wb1_4 t) acc1 (Memref.isWhole_whole _) hf hl x0 x1 x2 x3 xs).1)

theorem accMid1_cover (hf : ¬isFirst1 (grid1.coords t)) (hl : ¬isLast1 (grid1.coords t))
    (x0 : Vec F S1024x16 .f32) (x1 : Vec F S1024x16 .f32) (x2 : Vec F S1024x1 .f32) (x3 : Vec F S1x1024 .f32) (xs : Vec F S1x1 .f32) (y : S1x1.Idx) :
    ∃ pc ∈ (runMid1 c (grid1.coords t) (sb1_0 t) (wb1_0 t) (sb1_1 t) (wb1_1 t) (sb1_2 t) (wb1_2 t) (sb1_3 t) (wb1_3 t) (sb1_4 t) (wb1_4 t) acc1 (Memref.isWhole_whole _) hf hl x0 x1 x2 x3 xs).1, y ∈ pc.1.set :=
  View.cover_of_tiledL _ S1x1.size (by sl_kernel_rfl) y

/-- The accumulator after the last point. -/
def accLast1 (hf : ¬isFirst1 (grid1.coords t)) (hl : isLast1 (grid1.coords t))
    (x0 : Vec F S1024x16 .f32) (x1 : Vec F S1024x16 .f32) (x2 : Vec F S1024x1 .f32) (x3 : Vec F S1x1024 .f32) (xs : Vec F S1x1 .f32) : Vec F S1x1 .f32 :=
  accView1.read (Elt F) (accView1.writes (Elt F) accView1.junk
    (runLast1 c (grid1.coords t) (sb1_0 t) (wb1_0 t) (sb1_1 t) (wb1_1 t) (sb1_2 t) (wb1_2 t) (sb1_3 t) (wb1_3 t) (sb1_4 t) (wb1_4 t) acc1 (Memref.isWhole_whole _) hf hl x0 x1 x2 x3 xs).2.1)

theorem accLast1_cover (hf : ¬isFirst1 (grid1.coords t)) (hl : isLast1 (grid1.coords t))
    (x0 : Vec F S1024x16 .f32) (x1 : Vec F S1024x16 .f32) (x2 : Vec F S1024x1 .f32) (x3 : Vec F S1x1024 .f32) (xs : Vec F S1x1 .f32) (y : S1x1.Idx) :
    ∃ pc ∈ (runLast1 c (grid1.coords t) (sb1_0 t) (wb1_0 t) (sb1_1 t) (wb1_1 t) (sb1_2 t) (wb1_2 t) (sb1_3 t) (wb1_3 t) (sb1_4 t) (wb1_4 t) acc1 (Memref.isWhole_whole _) hf hl x0 x1 x2 x3 xs).2.1, y ∈ pc.1.set :=
  View.cover_of_tiledL _ S1x1.size (by sl_kernel_rfl) y

/-- The result block's staging buffer after the last point. -/
def outLast1 (hf : ¬isFirst1 (grid1.coords t)) (hl : isLast1 (grid1.coords t))
    (x0 : Vec F S1024x16 .f32) (x1 : Vec F S1024x16 .f32) (x2 : Vec F S1024x1 .f32) (x3 : Vec F S1x1024 .f32) (xs : Vec F S1x1 .f32) : Vec F S1x1 .f32 :=
  outView1.read (Elt F) (outView1.writes (Elt F) outView1.junk
    (runLast1 c (grid1.coords t) (sb1_0 t) (wb1_0 t) (sb1_1 t) (wb1_1 t) (sb1_2 t) (wb1_2 t) (sb1_3 t) (wb1_3 t) (sb1_4 t) (wb1_4 t) acc1 (Memref.isWhole_whole _) hf hl x0 x1 x2 x3 xs).1)

theorem outLast1_cover (hf : ¬isFirst1 (grid1.coords t)) (hl : isLast1 (grid1.coords t))
    (x0 : Vec F S1024x16 .f32) (x1 : Vec F S1024x16 .f32) (x2 : Vec F S1024x1 .f32) (x3 : Vec F S1x1024 .f32) (xs : Vec F S1x1 .f32) (y : S1x1.Idx) :
    ∃ pc ∈ (runLast1 c (grid1.coords t) (sb1_0 t) (wb1_0 t) (sb1_1 t) (wb1_1 t) (sb1_2 t) (wb1_2 t) (sb1_3 t) (wb1_3 t) (sb1_4 t) (wb1_4 t) acc1 (Memref.isWhole_whole _) hf hl x0 x1 x2 x3 xs).1, y ∈ pc.1.set :=
  View.cover_of_tiledL _ S1x1.size (by sl_kernel_rfl) y

end Cases

/-! ## The accumulator and the result block, point by point -/

/-- The grid has 64 points. -/
theorem N1_eq : cfg1.N = 64 := N_1

/-- What the accumulator holds after the body at point `n`: the first run at point 0, then at each later point that
    point's run over what the point before left — the last point's run at point 63, a middle run elsewhere. -/
def accAt1 (c : Dev nD) : (n : ℕ) → n < cfg1.N → Vec F S1x1 .f32
  | 0, hn => accFirst1 c ⟨0, hn⟩ ((isFirst1_iff ⟨0, hn⟩).mpr rfl) (fun h => absurd ((isLast1_iff ⟨0, hn⟩).mp h) (by show ¬ (0 : ℕ) = 63; omega))
      (blk1 V c 0 ⟨0, hn⟩) (blk1 V c 1 ⟨0, hn⟩) (blk1 V c 2 ⟨0, hn⟩) (blk1 V c 3 ⟨0, hn⟩)
  | n + 1, hn =>
    if hl : n + 1 = 63 then
      accLast1 c ⟨n + 1, hn⟩ (fun h => absurd ((isFirst1_iff ⟨n + 1, hn⟩).mp h) (Nat.succ_ne_zero n)) ((isLast1_iff ⟨n + 1, hn⟩).mpr hl)
        (blk1 V c 0 ⟨n + 1, hn⟩) (blk1 V c 1 ⟨n + 1, hn⟩) (blk1 V c 2 ⟨n + 1, hn⟩) (blk1 V c 3 ⟨n + 1, hn⟩) (accAt1 c n (Nat.lt_of_succ_lt hn))
    else
      accMid1 c ⟨n + 1, hn⟩ (fun h => absurd ((isFirst1_iff ⟨n + 1, hn⟩).mp h) (Nat.succ_ne_zero n)) (fun h => hl ((isLast1_iff ⟨n + 1, hn⟩).mp h))
        (blk1 V c 0 ⟨n + 1, hn⟩) (blk1 V c 1 ⟨n + 1, hn⟩) (blk1 V c 2 ⟨n + 1, hn⟩) (blk1 V c 3 ⟨n + 1, hn⟩) (accAt1 c n (Nat.lt_of_succ_lt hn))

/-- The recursion at the first point. -/
theorem accAt1_first (c : Dev nD) (t : Fin cfg1.N) (h0 : t.val = 0) :
    accAt1 V c t.val t.isLt = accFirst1 c t ((isFirst1_iff t).mpr h0) (fun h => absurd ((isLast1_iff t).mp h) (by omega))
      (blk1 V c 0 t) (blk1 V c 1 t) (blk1 V c 2 t) (blk1 V c 3 t) := by
  obtain ⟨n, hn⟩ := t
  cases n with
  | zero => rfl
  | succ n => exact absurd h0 (Nat.succ_ne_zero n)

/-- The recursion at a middle point. -/
theorem accAt1_mid (c : Dev nD) (t : Fin cfg1.N) (h0 : t.val ≠ 0) (hl : t.val ≠ 63) :
    accAt1 V c t.val t.isLt = accMid1 c t (fun h => h0 ((isFirst1_iff t).mp h)) (fun h => hl ((isLast1_iff t).mp h))
      (blk1 V c 0 t) (blk1 V c 1 t) (blk1 V c 2 t) (blk1 V c 3 t) (accAt1 V c (t.val - 1) (Nat.lt_of_le_of_lt (Nat.sub_le _ _) t.isLt)) := by
  obtain ⟨n, hn⟩ := t
  cases n with
  | zero => exact absurd rfl h0
  | succ n => exact (dif_neg hl).trans rfl

/-- The recursion at the last point. -/
theorem accAt1_last (c : Dev nD) (t : Fin cfg1.N) (h0 : t.val ≠ 0) (hl : t.val = 63) :
    accAt1 V c t.val t.isLt = accLast1 c t (fun h => h0 ((isFirst1_iff t).mp h)) ((isLast1_iff t).mpr hl)
      (blk1 V c 0 t) (blk1 V c 1 t) (blk1 V c 2 t) (blk1 V c 3 t) (accAt1 V c (t.val - 1) (Nat.lt_of_le_of_lt (Nat.sub_le _ _) t.isLt)) := by
  obtain ⟨n, hn⟩ := t
  cases n with
  | zero => exact absurd rfl h0
  | succ n => exact (dif_pos hl).trans rfl

/-- What the result block's staging buffer holds after the body at point `n`: the last run's store at point 63; at
    the other points the buffer is not stored into and the value below is never consulted. -/
def outAt1 (c : Dev nD) (n : ℕ) (hn : n < cfg1.N) : Vec F S1x1 .f32 :=
  if hl : n = 63 then
    outLast1 c ⟨n, hn⟩ (fun h => absurd ((isFirst1_iff ⟨n, hn⟩).mp h) (by show ¬ n = 0; omega)) ((isLast1_iff ⟨n, hn⟩).mpr hl)
      (blk1 V c 0 ⟨n, hn⟩) (blk1 V c 1 ⟨n, hn⟩) (blk1 V c 2 ⟨n, hn⟩) (blk1 V c 3 ⟨n, hn⟩) (accAt1 V c (n - 1) (Nat.lt_of_le_of_lt (Nat.sub_le _ _) hn))
  else accAt1 V c n hn

theorem outAt1_last (c : Dev nD) (t : Fin cfg1.N) (hl : t.val = 63) :
    outAt1 V c t.val t.isLt = outLast1 c t (fun h => absurd ((isFirst1_iff t).mp h) (by omega)) ((isLast1_iff t).mpr hl)
      (blk1 V c 0 t) (blk1 V c 1 t) (blk1 V c 2 t) (blk1 V c 3 t) (accAt1 V c (t.val - 1) (Nat.lt_of_le_of_lt (Nat.sub_le _ _) t.isLt)) := by
  unfold outAt1; exact dif_pos hl

/-! ## The invariant -/

/-- The kernel's own buffers (the first region's staging buffers and accumulator, each at some contents) around this
    region's accumulator, which comes last among them and holds `P`. -/
def around1 (c : Dev nD) (P : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_scratch0), ((c : Thread nD τ).loc cc0_scratch0) ↦{fullShare} f) ∗ P)

/-- What the launch hands the region, with the accumulator singled out. -/
theorem entryInv1_eq (c : Dev nD) :
    (Pipeline.ΦA spec1 c : sProp 𝕄)
      = iprop(around1 (F := F) c iprop(∃ d, owns (c : Thread nD τ) acc1 fullShare d) ∗ (∃ r, prngReg c r)) := by
  unfold Pipeline.ΦA around1; rw [scopedRest1_eq]; simp only [acc1, owns_whole]; try rfl

/-- The accumulator's contents may be replaced inside the product. -/
theorem around1_mono (c : Dev nD) (P Q : sProp 𝕄) (h : P ⊢ Q) : around1 (F := F) c P ⊢ around1 (F := F) c Q := by
  unfold around1
  iintro ⟨H0, H1, H2, H3, H4, H5, H6, H7, H8, H9, HP⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iapply h; iexact HP

/-- The accumulator at known contents is the accumulator at some contents. -/
theorem acc1_some (c : Dev nD) (x : Vec F S1x1 .f32) :
    (owns (c : Thread nD τ) acc1 fullShare x : sProp 𝕄) ⊢ iprop(∃ d, owns (c : Thread nD τ) acc1 fullShare d) := by
  iintro HS; iexists _; iexact HS

/-- The invariant before position `n`. -/
def inv1 (c : Dev nD) : (n : ℕ) → n ≤ cfg1.N → sProp 𝕄
  | 0, _ => Pipeline.ΦA spec1 c
  | n + 1, hn => iprop(around1 (F := F) c (owns (c : Thread nD τ) acc1 fullShare (accAt1 V c n hn)) ∗ (∃ r, prngReg c r))

theorem inv1_zero (c : Dev nD) (n : ℕ) (h : n ≤ cfg1.N) (hz : n = 0) : inv1 V c n h = Pipeline.ΦA spec1 c := by
  subst hz; rfl

theorem inv1_succ (c : Dev nD) (n : ℕ) (hn : n < cfg1.N) :
    inv1 V c (n + 1) hn = iprop(around1 (F := F) c (owns (c : Thread nD τ) acc1 fullShare (accAt1 V c n hn)) ∗ (∃ r, prngReg c r)) := rfl

theorem inv1_pos (c : Dev nD) (n : ℕ) (h : n ≤ cfg1.N) (hz : n ≠ 0) :
    inv1 V c n h = iprop(around1 (F := F) c (owns (c : Thread nD τ) acc1 fullShare (accAt1 V c (n - 1) (by omega))) ∗ (∃ r, prngReg c r)) := by
  cases n with
  | zero => exact absurd rfl hz
  | succ n => rfl

/-! ## The proof data -/

/-- The region's proof data on core `c`: the arrays as found; after the body each input buffer still at its block,
    the result block's buffer at `outAt1`; the invariant `inv1`; nothing owed; full shares. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => outAt1 V c t.val t.isLt
  Φ t := inv1 V c t.val (Nat.le_of_lt_succ t.isLt)
  q _ := fullShare
  owed _ := 0

theorem dat1_A (c : Dev nD) (w : Fin cfg1.W) : (dat1 V c).A w = V c (Pipeline.arrRef spec1 w) := by
  dsimp only [dat1]

theorem dat1_inv_castSucc (c : Dev nD) (t : Fin cfg1.N) :
    (dat1 V c).Φ t.castSucc = inv1 V c t.val (Nat.le_of_lt t.isLt) := by
  dsimp only [dat1]; simp only [Fin.coe_castSucc]

theorem dat1_after_0 (c : Dev nD) (t : Fin cfg1.N) : (dat1 V c).after 0 t = blk1 V c 0 t := by dsimp only [dat1]
theorem dat1_after_1 (c : Dev nD) (t : Fin cfg1.N) : (dat1 V c).after 1 t = blk1 V c 1 t := by dsimp only [dat1]
theorem dat1_after_2 (c : Dev nD) (t : Fin cfg1.N) : (dat1 V c).after 2 t = blk1 V c 2 t := by dsimp only [dat1]
theorem dat1_after_3 (c : Dev nD) (t : Fin cfg1.N) : (dat1 V c).after 3 t = blk1 V c 3 t := by dsimp only [dat1]
theorem dat1_after_4 (c : Dev nD) (t : Fin cfg1.N) : (dat1 V c).after 4 t = outAt1 V c t.val t.isLt := by dsimp only [dat1]

/-- An input buffer holds its window's block at every point, fetched there or not: where a window is not fetched its
    block index has not moved since the last fetch. -/
theorem dat1_before_0 (c : Dev nD) (t : Fin cfg1.N) (d) : (dat1 V c).before 0 t d = blk1 V c 0 t :=
  ((dat1 V c).before_in_eq_fetched 0 rfl (fun _ => rfl) (fun _ _ _ => rfl) (fun t => by rw [dat1_after_0]; unfold Dat.blockOf blk1; rw [dat1_A]; try rfl) t d).trans
    (by unfold Dat.fetched Dat.blockOf blk1; rw [dat1_A]; try rfl)
theorem dat1_before_1 (c : Dev nD) (t : Fin cfg1.N) (d) : (dat1 V c).before 1 t d = blk1 V c 1 t :=
  ((dat1 V c).before_in_eq_fetched 1 rfl (fun _ => rfl) (fun _ _ _ => rfl) (fun t => by rw [dat1_after_1]; unfold Dat.blockOf blk1; rw [dat1_A]; try rfl) t d).trans
    (by unfold Dat.fetched Dat.blockOf blk1; rw [dat1_A]; try rfl)
theorem dat1_before_2 (c : Dev nD) (t : Fin cfg1.N) (d) : (dat1 V c).before 2 t d = blk1 V c 2 t :=
  ((dat1 V c).before_in_eq_fetched 2 rfl (fun _ => rfl) (fun _ _ _ => rfl) (fun t => by rw [dat1_after_2]; unfold Dat.blockOf blk1; rw [dat1_A]; try rfl) t d).trans
    (by unfold Dat.fetched Dat.blockOf blk1; rw [dat1_A]; try rfl)
theorem dat1_before_3 (c : Dev nD) (t : Fin cfg1.N) (d) : (dat1 V c).before 3 t d = blk1 V c 3 t :=
  ((dat1 V c).before_in_eq_fetched 3 rfl (fun _ => rfl) (fun _ _ _ => rfl) (fun t => by rw [dat1_after_3]; unfold Dat.blockOf blk1; rw [dat1_A]; try rfl) t d).trans
    (by unfold Dat.fetched Dat.blockOf blk1; rw [dat1_A]; try rfl)

/-! ## Where the result block is live -/

/-- An input window is never idle. -/
theorem live1_0 : ∀ t : Fin cfg1.N, cfg1.idle 0 (grid1.coords t) = false := by decide +kernel
theorem live1_1 : ∀ t : Fin cfg1.N, cfg1.idle 1 (grid1.coords t) = false := by decide +kernel
theorem live1_2 : ∀ t : Fin cfg1.N, cfg1.idle 2 (grid1.coords t) = false := by decide +kernel
theorem live1_3 : ∀ t : Fin cfg1.N, cfg1.idle 3 (grid1.coords t) = false := by decide +kernel
/-- Away from the last point the result block is idle and is not written back. -/
theorem idle1_4 : ∀ t : Fin cfg1.N, ¬isLast1 (grid1.coords t) → cfg1.idle 4 (grid1.coords t) = true := by decide +kernel
theorem noflush1_4 : ∀ t : Fin cfg1.N, ¬isLast1 (grid1.coords t) → (cfg1.win 4).flush t = false := by decide +kernel
/-- At the last point it is live. -/
theorem live1_4 : ∀ t : Fin cfg1.N, isLast1 (grid1.coords t) → cfg1.idle 4 (grid1.coords t) = false := by decide +kernel

/-! ## The body obligation -/

/-- What the body is called with at point `t`, the windows one by one, -/
def pre1 (c : Dev nD) (t : Fin cfg1.N) : sProp 𝕄 :=
  iprop((dat1 V c).Φ t.castSucc ∗ (dat1 V c).owesAt () t.castSucc
    ∗ (∃ d, owns (c : Thread nD τ) (sb1_0 t) fullShare ((dat1 V c).before 0 t d))
    ∗ (∃ d, owns (c : Thread nD τ) (sb1_1 t) fullShare ((dat1 V c).before 1 t d))
    ∗ (∃ d, owns (c : Thread nD τ) (sb1_2 t) fullShare ((dat1 V c).before 2 t d))
    ∗ (∃ d, owns (c : Thread nD τ) (sb1_3 t) fullShare ((dat1 V c).before 3 t d))
    ∗ (∃ d, owns (c : Thread nD τ) (sb1_4 t) fullShare ((dat1 V c).before 4 t d)))

/-- and what it returns. -/
def post1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t
    ∗ (dat1 V c).leavesExact 3 t ∗ (dat1 V c).leavesExact 4 t)

theorem leaves1_0 (c : Dev nD) (t : Fin cfg1.N) : (dat1 V c).leavesExact 0 t = owns (c : Thread nD τ) (sb1_0 t) fullShare (blk1 V c 0 t) := by
  unfold Dat.leavesExact; rw [live1_0 t, dat1_after_0]
theorem leaves1_1 (c : Dev nD) (t : Fin cfg1.N) : (dat1 V c).leavesExact 1 t = owns (c : Thread nD τ) (sb1_1 t) fullShare (blk1 V c 1 t) := by
  unfold Dat.leavesExact; rw [live1_1 t, dat1_after_1]
theorem leaves1_2 (c : Dev nD) (t : Fin cfg1.N) : (dat1 V c).leavesExact 2 t = owns (c : Thread nD τ) (sb1_2 t) fullShare (blk1 V c 2 t) := by
  unfold Dat.leavesExact; rw [live1_2 t, dat1_after_2]
theorem leaves1_3 (c : Dev nD) (t : Fin cfg1.N) : (dat1 V c).leavesExact 3 t = owns (c : Thread nD τ) (sb1_3 t) fullShare (blk1 V c 3 t) := by
  unfold Dat.leavesExact; rw [live1_3 t, dat1_after_3]

set_option maxHeartbeats 4000000 in
/-- The body at any point: the inputs' buffers hold their blocks; the closed forms of the two conditions say which case
    the point is in; the invariant hands the body the accumulator at what the point before left (at anything at the
    first point) and takes it back at this point's value; the core owes nothing throughout. -/
theorem sound1 (c : Dev nD) (t : Fin cfg1.N) :
    pre1 V c t ⊢ wp frame (wpE (defs₀ (F := F)) Variants.none c none) Set.univ (bodyAt1 t) (fun _ => post1 V c t) := by
  unfold pre1 post1 bodyAt1
  simp only [dat1_before_0, dat1_before_1, dat1_before_2, dat1_before_3]
  rw [show (dat1 V c).owesAt () t.succ = (dat1 V c).owesAt () t.castSucc from rfl]
  rw [show (dat1 V c).Φ t.succ = inv1 V c (t.val + 1) t.isLt from rfl, inv1_succ]
  rw [leaves1_0, leaves1_1, leaves1_2, leaves1_3]
  have hN : t.val < 64 := lt_of_lt_of_eq t.isLt N1_eq
  by_cases h0 : t.val = 0
  · -- the first point
    have hf : isFirst1 (grid1.coords t) := (isFirst1_iff t).mpr h0
    have hl : ¬isLast1 (grid1.coords t) := fun h => absurd ((isLast1_iff t).mp h) (by omega)
    rw [Dat.leavesExact_idle (dat1 V c) 4 t (idle1_4 t hl) (noflush1_4 t hl)]
    rw [accAt1_first V c t h0]
    unfold accFirst1
    rw [dat1_inv_castSucc V c t, inv1_zero V c _ _ h0, entryInv1_eq]
    unfold around1
    iintro ⟨⟨⟨K0, K1, K2, K3, K4, K5, K6, K7, K8, K9, HS⟩, Hg⟩, Ho, ⟨%d0, H0⟩, ⟨%d1, H1⟩, ⟨%d2, H2⟩, ⟨%d3, H3⟩, ⟨%d4, H4⟩⟩
    iapply ((runFirst1 c (grid1.coords t) _ _ _ _ _ _ _ _ _ _ _ _ hf hl (blk1 V c 0 t) (blk1 V c 1 t) (blk1 V c 2 t) (blk1 V c 3 t)).2 _ Set.univ _)
    isplitl [H0]; · iexact H0
    isplitl [H1]; · iexact H1
    isplitl [H2]; · iexact H2
    isplitl [H3]; · iexact H3
    isplitl [H4]; · iexact H4
    isplitl [HS]; · iexact HS
    iintro ⟨H0, H1, H2, H3, H4, ⟨%es, HS⟩⟩
    isplitl [K0 K1 K2 K3 K4 K5 K6 K7 K8 K9 HS Hg]
    · isplitl [K0 K1 K2 K3 K4 K5 K6 K7 K8 K9 HS]
      · isplitl [K0]; · iexact K0
        isplitl [K1]; · iexact K1
        isplitl [K2]; · iexact K2
        isplitl [K3]; · iexact K3
        isplitl [K4]; · iexact K4
        isplitl [K5]; · iexact K5
        isplitl [K6]; · iexact K6
        isplitl [K7]; · iexact K7
        isplitl [K8]; · iexact K8
        isplitl [K9]; · iexact K9
        unfold owns; iexists _; isplitr
        swap; · iexact HS
        ipureintro; exact View.read_writes_of_cover _ _ _ _ _ (accFirst1_cover c t hf hl _ _ _ _)
      iexact Hg
    isplitl [Ho]; · iexact Ho
    isplitl [H0]; · iexact H0
    isplitl [H1]; · iexact H1
    isplitl [H2]; · iexact H2
    isplitl [H3]; · iexact H3
    iexists _; iexact H4
  · by_cases h63 : t.val = 63
    · -- the last point
      have hf : ¬isFirst1 (grid1.coords t) := fun h => h0 ((isFirst1_iff t).mp h)
      have hl : isLast1 (grid1.coords t) := (isLast1_iff t).mpr h63
      rw [show (dat1 V c).leavesExact 4 t = owns (c : Thread nD τ) (sb1_4 t) fullShare ((dat1 V c).after 4 t) from by
        unfold Dat.leavesExact; rw [live1_4 t hl], dat1_after_4]
      rw [outAt1_last V c t h63, accAt1_last V c t h0 h63]
      unfold accLast1 outLast1
      rw [dat1_inv_castSucc V c t, inv1_pos V c _ _ h0]
      unfold around1
      iintro ⟨⟨⟨K0, K1, K2, K3, K4, K5, K6, K7, K8, K9, HS⟩, Hg⟩, Ho, ⟨%d0, H0⟩, ⟨%d1, H1⟩, ⟨%d2, H2⟩, ⟨%d3, H3⟩, ⟨%d4, H4⟩⟩
      iapply ((runLast1 c (grid1.coords t) _ _ _ _ _ _ _ _ _ _ _ _ hf hl (blk1 V c 0 t) (blk1 V c 1 t) (blk1 V c 2 t) (blk1 V c 3 t) _).2.2 Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, ⟨%eo, H4⟩, ⟨%es, HS⟩⟩
      isplitl [K0 K1 K2 K3 K4 K5 K6 K7 K8 K9 HS Hg]
      · isplitl [K0 K1 K2 K3 K4 K5 K6 K7 K8 K9 HS]
        · isplitl [K0]; · iexact K0
          isplitl [K1]; · iexact K1
          isplitl [K2]; · iexact K2
          isplitl [K3]; · iexact K3
          isplitl [K4]; · iexact K4
          isplitl [K5]; · iexact K5
          isplitl [K6]; · iexact K6
          isplitl [K7]; · iexact K7
          isplitl [K8]; · iexact K8
          isplitl [K9]; · iexact K9
          unfold owns; iexists _; isplitr
          swap; · iexact HS
          ipureintro; exact View.read_writes_of_cover _ _ _ _ _ (accLast1_cover c t hf hl _ _ _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (outLast1_cover c t hf hl _ _ _ _ _)
    · -- a middle point
      have hf : ¬isFirst1 (grid1.coords t) := fun h => h0 ((isFirst1_iff t).mp h)
      have hl : ¬isLast1 (grid1.coords t) := fun h => h63 ((isLast1_iff t).mp h)
      rw [Dat.leavesExact_idle (dat1 V c) 4 t (idle1_4 t hl) (noflush1_4 t hl)]
      rw [accAt1_mid V c t h0 h63]
      unfold accMid1
      rw [dat1_inv_castSucc V c t, inv1_pos V c _ _ h0]
      unfold around1
      iintro ⟨⟨⟨K0, K1, K2, K3, K4, K5, K6, K7, K8, K9, HS⟩, Hg⟩, Ho, ⟨%d0, H0⟩, ⟨%d1, H1⟩, ⟨%d2, H2⟩, ⟨%d3, H3⟩, ⟨%d4, H4⟩⟩
      iapply ((runMid1 c (grid1.coords t) _ _ _ _ _ _ _ _ _ _ _ _ hf hl (blk1 V c 0 t) (blk1 V c 1 t) (blk1 V c 2 t) (blk1 V c 3 t) _).2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [K0 K1 K2 K3 K4 K5 K6 K7 K8 K9 HS Hg]
      · isplitl [K0 K1 K2 K3 K4 K5 K6 K7 K8 K9 HS]
        · isplitl [K0]; · iexact K0
          isplitl [K1]; · iexact K1
          isplitl [K2]; · iexact K2
          isplitl [K3]; · iexact K3
          isplitl [K4]; · iexact K4
          isplitl [K5]; · iexact K5
          isplitl [K6]; · iexact K6
          isplitl [K7]; · iexact K7
          isplitl [K8]; · iexact K8
          isplitl [K9]; · iexact K9
          unfold owns; iexists _; isplitr
          swap; · iexact HS
          ipureintro; exact View.read_writes_of_cover _ _ _ _ _ (accMid1_cover c t hf hl _ _ _ _ _)
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem obligation1 (c : Dev nD) : BodyObligation (dat1 (F := F) V c) (defs₀ (F := F)) Variants.none () Set.univ := fun t => by
  rw [bigSep_W1, bigSep_W1]
  exact sound1 V c t

/-- What the launch hands the region is the invariant before the first point. -/
theorem inv1_in (c : Dev nD) : Pipeline.ΦA spec1 c ⊢ (dat1 V c).Φ 0 := by
  rw [show (dat1 V c).Φ 0 = inv1 V c 0 (Nat.zero_le _) from rfl, inv1_zero V c 0 _ rfl]
  try exact Idealize.SL.BI.Entails.refl _

/-- After the last point the invariant gives back what the launch handed over: the accumulator's value is forgotten. -/
theorem inv1_out (c : Dev nD) : (dat1 V c).Φ (Fin.last cfg1.N) ⊢ Pipeline.ΦA spec1 c := by
  rw [show (dat1 V c).Φ (Fin.last cfg1.N) = inv1 V c (Fin.last cfg1.N).val (Nat.le_of_lt_succ (Fin.last cfg1.N).isLt) from rfl,
    inv1_pos V c _ _ (by rw [Fin.val_last]; have : cfg1.N = 64 := N1_eq; omega), entryInv1_eq]
  exact sep_mono (around1_mono (F := F) c _ _ (acc1_some c _)) .rfl

end Cert.KernelIdeal.Hand

end
-- ==== Proof.Run.lean ====
/-
  The whole program as a sequence of nine segments: the host operations that gather the three point sets and the four
  bias vectors, the first dense region, three host operations that shape its result and the second region's biases,
  the second dense region, and five stretches of host operations that form the two edge terms and combine everything
  into the one result.

  Between two segments a core holds every buffer that outlives a region at named contents.  A host stretch moves the
  contents forward by its operations; a region replaces the contents of its five windows' arrays by what its
  write-backs leave and keeps every other buffer.  No operation and no write-back touches an argument, so every
  argument ends as launched; and every other buffer's final contents are a named function of the launch memory.
-/
import proofs.«117720_j19447611916775_1_alg».proof.Proof.Region0
import proofs.«117720_j19447611916775_1_alg».proof.Proof.Region1
import Idealize.ShloMosaic.Lib.Pipeline.RegionsLoop
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each host stretch writes -/

/-- The references `hostOps0` writes, in order. -/
abbrev hostOps0_W : List (Ref sig .tc) := [main_c, main_v0, main_v1, main_c_0, main_v2, main_v3, main_v4, main_v5, main_v6, main_c_1, main_v7, main_v8, main_c_2, main_v9, main_v10, main_v11, main_v12, main_v13, main_c_3, main_v14, main_v15, main_c_4, main_v16, main_v17, main_c_5, main_v18, main_v19, main_v20, main_v21, main_v22, main_c_6, main_v23, main_v24, main_c_7, main_v25, main_v26, main_v27, main_v28, main_v29, main_c_8, main_v30, main_v31, main_c_9, main_v32, main_v33, main_c_10, main_v34, main_v35, main_v36, main_v37, main_v38, main_c_11, main_v39, main_v40, main_c_12, main_v41, main_v42, main_v43, main_v44, main_v45, main_c_13, main_v46, main_v47, main_c_14, main_v48, main_v49, main_v50, main_v51, main_v52, main_v53, main_v54]
set_option maxHeartbeats 4000000 in
theorem hostOps0_writes : (hostOps0 : List (HloOp τ sig (Elt F))).Forall fun op => op.writes ⊆ (hostOps0_W.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
theorem hostOps0_fresh : (hostOps0 : List (HloOp τ sig (Elt F))).Forall fun op => op.fresh = ∅ := by
  simp only [List.Forall]; repeat' constructor

/-- The references `hostOps1` writes, in order. -/
abbrev hostOps1_W : List (Ref sig .tc) := [main_v56, main_v57, main_v58]
set_option maxHeartbeats 4000000 in
theorem hostOps1_writes : (hostOps1 : List (HloOp τ sig (Elt F))).Forall fun op => op.writes ⊆ (hostOps1_W.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
theorem hostOps1_fresh : (hostOps1 : List (HloOp τ sig (Elt F))).Forall fun op => op.fresh = ∅ := by
  simp only [List.Forall]; repeat' constructor

/-- The references `hostOps2` writes, in order. -/
abbrev hostOps2_W : List (Ref sig .tc) := [main_v60, main_v61, main_v62, main_c_15, main_v63, main_v64, main_c_16, main_v65, main_v66, main_v67, main_v68, main_v69, main_v70, main_v71, main_c_17, main_v72, main_v73, main_c_18, main_v74, main_v75, main_c_19, main_v76, main_v77, main_v78, main_v79, main_v80, main_v81, main_v82, main_v83, main_c_20, main_v84, main_v85, main_c_21, main_v86, main_v87, main_v88, main_v89, main_v90, main_v91, main_v92, main_c_22, main_v93, main_v94, main_c_23, main_v95, main_v96, main_v97, main_v98, main_v99, main_v100]
set_option maxHeartbeats 4000000 in
theorem hostOps2_writes : (hostOps2 : List (HloOp τ sig (Elt F))).Forall fun op => op.writes ⊆ (hostOps2_W.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
theorem hostOps2_fresh : (hostOps2 : List (HloOp τ sig (Elt F))).Forall fun op => op.fresh = ∅ := by
  simp only [List.Forall]; repeat' constructor

/-- The references `hostOps2_1` writes, in order. -/
abbrev hostOps2_1_W : List (Ref sig .tc) := [main_call0_v0, main_call0_cst, main_call0_v1, main_v101]
set_option maxHeartbeats 4000000 in
theorem hostOps2_1_writes : (hostOps2_1 : List (HloOp τ sig (Elt F))).Forall fun op => op.writes ⊆ (hostOps2_1_W.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
theorem hostOps2_1_fresh : (hostOps2_1 : List (HloOp τ sig (Elt F))).Forall fun op => op.fresh = ∅ := by
  simp only [List.Forall]; repeat' constructor

/-- The references `hostOps2_2` writes, in order. -/
abbrev hostOps2_2_W : List (Ref sig .tc) := [main_v102, main_cst, main_v103, main_v104, main_v105, main_c_24, main_v106, main_v107, main_c_25, main_v108, main_v109, main_v110, main_v111, main_v112, main_v113, main_v114, main_c_26, main_v115, main_v116, main_c_27, main_v117, main_v118, main_v119, main_v120, main_v121, main_v122, main_v123, main_v124, main_c_28, main_v125, main_v126, main_c_29, main_v127, main_v128, main_v129, main_v130, main_v131, main_v132, main_v133, main_c_30, main_v134, main_v135, main_c_31, main_v136, main_v137, main_c_32, main_v138, main_v139, main_v140, main_v141, main_v142, main_v143]
set_option maxHeartbeats 4000000 in
theorem hostOps2_2_writes : (hostOps2_2 : List (HloOp τ sig (Elt F))).Forall fun op => op.writes ⊆ (hostOps2_2_W.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
theorem hostOps2_2_fresh : (hostOps2_2 : List (HloOp τ sig (Elt F))).Forall fun op => op.fresh = ∅ := by
  simp only [List.Forall]; repeat' constructor

/-- The references `hostOps2_3` writes, in order. -/
abbrev hostOps2_3_W : List (Ref sig .tc) := [main_call1_v0, main_call1_cst, main_call1_v1, main_v144]
set_option maxHeartbeats 4000000 in
theorem hostOps2_3_writes : (hostOps2_3 : List (HloOp τ sig (Elt F))).Forall fun op => op.writes ⊆ (hostOps2_3_W.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
theorem hostOps2_3_fresh : (hostOps2_3 : List (HloOp τ sig (Elt F))).Forall fun op => op.fresh = ∅ := by
  simp only [List.Forall]; repeat' constructor

/-- The references `hostOps2_4` writes, in order. -/
abbrev hostOps2_4_W : List (Ref sig .tc) := [main_v145, main_cst_33, main_v146, main_v147, main_v148, main_v149, main_v150, main_cst_34, main_v151, main_cst_35, main_v152, main_cst_36, main_v153, main_cst_37, main_v154, main_v155]
set_option maxHeartbeats 4000000 in
theorem hostOps2_4_writes : (hostOps2_4 : List (HloOp τ sig (Elt F))).Forall fun op => op.writes ⊆ (hostOps2_4_W.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
theorem hostOps2_4_fresh : (hostOps2_4 : List (HloOp τ sig (Elt F))).Forall fun op => op.fresh = ∅ := by
  simp only [List.Forall]; repeat' constructor

/-! ## The buffer contents at each boundary -/

/-- At launch. -/
abbrev B0 : Dev nD → Valuation τ sig (Elt F) := fun c b => m (c, b)
/-- After the gathers (the first region's entry). -/
abbrev B1 : Dev nD → Valuation τ sig (Elt F) := fun c => StableHlo.after hostOps0 (B0 m c)
abbrev E1 : (c : Dev nD) → (b : Ref sig .tc) → Buf (Elt F) ((c : Thread nD τ).loc b) := fun c b => B1 m c b
/-- At the first region's exit. -/
def B2 (c : Dev nD) : Valuation τ sig (Elt F) :=
  Pipeline.withArrays spec0 c (B1 m c) fun w => (dat0 (E1 m) c).arrAt w cfg0.N
abbrev E2 : (c : Dev nD) → (b : Ref sig .tc) → Buf (Elt F) ((c : Thread nD τ).loc b) := fun c b => B2 m c b
theorem B2_arr (c : Dev nD) (w : Fin cfg0.W) :
    B2 m c (Proc.devRef .tc (Pipeline.arrRef spec0 w)) = (dat0 (E1 m) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m c (Proc.devRef .tc b) = B1 m c (Proc.devRef .tc b) := by
  unfold B2; exact Pipeline.withArrays_of_ne spec0 c _ _ b hb
theorem left0 (c : Dev nD) (w : Fin cfg0.W) : (dat0 (E1 m) c).arrAt w cfg0.N = E2 m c (Pipeline.arrRef spec0 w) :=
  (B2_arr m c w).symm
theorem kept0 (c : Dev nD) : ∀ b, b ∉ Finset.univ.image (Pipeline.arrRef spec0) → E2 m c b = E1 m c b :=
  fun b hb => B2_of_ne m c b fun w e => hb (Finset.mem_image.mpr ⟨w, Finset.mem_univ _, e⟩)
/-- After the three shaping operations (the second region's entry). -/
abbrev B3 : Dev nD → Valuation τ sig (Elt F) := fun c => StableHlo.after hostOps1 (B2 m c)
abbrev E3 : (c : Dev nD) → (b : Ref sig .tc) → Buf (Elt F) ((c : Thread nD τ).loc b) := fun c b => B3 m c b
/-- At the second region's exit. -/
def B4 (c : Dev nD) : Valuation τ sig (Elt F) :=
  Pipeline.withArrays spec1 c (B3 m c) fun w => (dat1 (E3 m) c).arrAt w cfg1.N
abbrev E4 : (c : Dev nD) → (b : Ref sig .tc) → Buf (Elt F) ((c : Thread nD τ).loc b) := fun c b => B4 m c b
theorem B4_arr (c : Dev nD) (w : Fin cfg1.W) :
    B4 m c (Proc.devRef .tc (Pipeline.arrRef spec1 w)) = (dat1 (E3 m) c).arrAt w cfg1.N := by
  unfold B4; exact Pipeline.withArrays_arr spec1 launch1.win.arr_inj c _ _ w
theorem B4_of_ne (c : Dev nD) (b : Ref sig .tc) (hb : ∀ w, Pipeline.arrRef spec1 w ≠ b) :
    B4 m c (Proc.devRef .tc b) = B3 m c (Proc.devRef .tc b) := by
  unfold B4; exact Pipeline.withArrays_of_ne spec1 c _ _ b hb
theorem left1 (c : Dev nD) (w : Fin cfg1.W) : (dat1 (E3 m) c).arrAt w cfg1.N = E4 m c (Pipeline.arrRef spec1 w) :=
  (B4_arr m c w).symm
theorem kept1 (c : Dev nD) : ∀ b, b ∉ Finset.univ.image (Pipeline.arrRef spec1) → E4 m c b = E3 m c b :=
  fun b hb => B4_of_ne m c b fun w e => hb (Finset.mem_image.mpr ⟨w, Finset.mem_univ _, e⟩)
/-- Through the five closing stretches. -/
abbrev B5 : Dev nD → Valuation τ sig (Elt F) := fun c => StableHlo.after hostOps2 (B4 m c)
abbrev B6 : Dev nD → Valuation τ sig (Elt F) := fun c => StableHlo.after hostOps2_1 (B5 m c)
abbrev B7 : Dev nD → Valuation τ sig (Elt F) := fun c => StableHlo.after hostOps2_2 (B6 m c)
abbrev B8 : Dev nD → Valuation τ sig (Elt F) := fun c => StableHlo.after hostOps2_3 (B7 m c)
abbrev B9 : Dev nD → Valuation τ sig (Elt F) := fun c => StableHlo.after hostOps2_4 (B8 m c)

/-- A buffer that no stretch writes and no region stages ends as launched. -/
theorem B9_untouched (c : Dev nD) (a : Ref sig .tc)
    (h0 : a ∉ hostOps0_W) (h1 : a ∉ hostOps1_W) (h2 : a ∉ hostOps2_W) (h3 : a ∉ hostOps2_1_W) (h4 : a ∉ hostOps2_2_W)
    (h5 : a ∉ hostOps2_3_W) (h6 : a ∉ hostOps2_4_W) (hr0 : ∀ w, Pipeline.arrRef spec0 w ≠ a) (hr1 : ∀ w, Pipeline.arrRef spec1 w ≠ a) :
    B9 m c (Proc.devRef .tc a) = m ((c : Thread nD τ).loc a) :=
  calc B9 m c (Proc.devRef .tc a)
    _ = B8 m c (Proc.devRef .tc a) := StableHlo.after_of_writes_sub hostOps2_4 _ hostOps2_4_writes h6
    _ = B7 m c (Proc.devRef .tc a) := StableHlo.after_of_writes_sub hostOps2_3 _ hostOps2_3_writes h5
    _ = B6 m c (Proc.devRef .tc a) := StableHlo.after_of_writes_sub hostOps2_2 _ hostOps2_2_writes h4
    _ = B5 m c (Proc.devRef .tc a) := StableHlo.after_of_writes_sub hostOps2_1 _ hostOps2_1_writes h3
    _ = B4 m c (Proc.devRef .tc a) := StableHlo.after_of_writes_sub hostOps2 _ hostOps2_writes h2
    _ = B3 m c (Proc.devRef .tc a) := B4_of_ne m c a hr1
    _ = B2 m c (Proc.devRef .tc a) := StableHlo.after_of_writes_sub hostOps1 _ hostOps1_writes h1
    _ = B1 m c (Proc.devRef .tc a) := B2_of_ne m c a hr0
    _ = B0 m c (Proc.devRef .tc a) := StableHlo.after_of_writes_sub hostOps0 _ hostOps0_writes h0
    _ = m ((c : Thread nD τ).loc a) := rfl

theorem B9_main_arg0 (c : Dev nD) : B9 m c (Proc.devRef .tc main_arg0) = m ((c : Thread nD τ).loc main_arg0) :=
  B9_untouched m c main_arg0 (by decide) (by decide) (by decide) (by decide) (by decide) (by decide) (by decide) (by decide) (by decide)
theorem B9_main_arg1 (c : Dev nD) : B9 m c (Proc.devRef .tc main_arg1) = m ((c : Thread nD τ).loc main_arg1) :=
  B9_untouched m c main_arg1 (by decide) (by decide) (by decide) (by decide) (by decide) (by decide) (by decide) (by decide) (by decide)
theorem B9_main_arg2 (c : Dev nD) : B9 m c (Proc.devRef .tc main_arg2) = m ((c : Thread nD τ).loc main_arg2) :=
  B9_untouched m c main_arg2 (by decide) (by decide) (by decide) (by decide) (by decide) (by decide) (by decide) (by decide) (by decide)
theorem B9_main_arg3 (c : Dev nD) : B9 m c (Proc.devRef .tc main_arg3) = m ((c : Thread nD τ).loc main_arg3) :=
  B9_untouched m c main_arg3 (by decide) (by decide) (by decide) (by decide) (by decide) (by decide) (by decide) (by decide) (by decide)
theorem B9_main_arg4 (c : Dev nD) : B9 m c (Proc.devRef .tc main_arg4) = m ((c : Thread nD τ).loc main_arg4) :=
  B9_untouched m c main_arg4 (by decide) (by decide) (by decide) (by decide) (by decide) (by decide) (by decide) (by decide) (by decide)
theorem B9_main_arg5 (c : Dev nD) : B9 m c (Proc.devRef .tc main_arg5) = m ((c : Thread nD τ).loc main_arg5) :=
  B9_untouched m c main_arg5 (by decide) (by decide) (by decide) (by decide) (by decide) (by decide) (by decide) (by decide) (by decide)
theorem B9_main_arg6 (c : Dev nD) : B9 m c (Proc.devRef .tc main_arg6) = m ((c : Thread nD τ).loc main_arg6) :=
  B9_untouched m c main_arg6 (by decide) (by decide) (by decide) (by decide) (by decide) (by decide) (by decide) (by decide) (by decide)
theorem B9_main_arg7 (c : Dev nD) : B9 m c (Proc.devRef .tc main_arg7) = m ((c : Thread nD τ).loc main_arg7) :=
  B9_untouched m c main_arg7 (by decide) (by decide) (by decide) (by decide) (by decide) (by decide) (by decide) (by decide) (by decide)
theorem B9_main_arg8 (c : Dev nD) : B9 m c (Proc.devRef .tc main_arg8) = m ((c : Thread nD τ).loc main_arg8) :=
  B9_untouched m c main_arg8 (by decide) (by decide) (by decide) (by decide) (by decide) (by decide) (by decide) (by decide) (by decide)
theorem B9_main_arg9 (c : Dev nD) : B9 m c (Proc.devRef .tc main_arg9) = m ((c : Thread nD τ).loc main_arg9) :=
  B9_untouched m c main_arg9 (by decide) (by decide) (by decide) (by decide) (by decide) (by decide) (by decide) (by decide) (by decide)

/-! ## Entering and leaving a region's invariant -/

/-- Region 0's invariant before its first point, from what the region rule hands over. -/
theorem enter0 (V : (c : Dev nD) → (b : Ref sig .tc) → Buf (Elt F) ((c : Thread nD τ).loc b)) (c : Dev nD) (P : sProp 𝕄) :
    iprop((∃ r, prngReg c r) ∗ P ∗ Pipeline.scopedRest (Ix := Unit) (Name := ℕ) (U := UR sig nD τ) (Lvl := ℕ) (Val := Elt F) spec0 c) ⊢ (dat0 V c).Φ 0 := by
  refine BI.Entails.trans ?_ (inv0_in V c)
  show (iprop((∃ r, prngReg c r) ∗ P ∗ Pipeline.scopedRest (Ix := Unit) (Name := ℕ) (U := UR sig nD τ) (Lvl := ℕ) (Val := Elt F) spec0 c) : sProp 𝕄) ⊢ Pipeline.ΦA spec0 c
  unfold Pipeline.ΦA
  iintro ⟨Hp, -, Hr⟩
  isplitl [Hr]; · iexact Hr
  iexact Hp

/-- What region 0's invariant gives back after its last point. -/
theorem leave0 (V : (c : Dev nD) → (b : Ref sig .tc) → Buf (Elt F) ((c : Thread nD τ).loc b)) (c : Dev nD) :
    (dat0 V c).Φ (Fin.last cfg0.N) ⊢ iprop((∃ r, prngReg c r) ∗ BI.emp ∗ Pipeline.scopedRest (Ix := Unit) (Name := ℕ) (U := UR sig nD τ) (Lvl := ℕ) (Val := Elt F) spec0 c) := by
  refine BI.Entails.trans (inv0_out V c) ?_
  show (Pipeline.ΦA spec0 c : sProp 𝕄) ⊢ iprop((∃ r, prngReg c r) ∗ BI.emp ∗ Pipeline.scopedRest (Ix := Unit) (Name := ℕ) (U := UR sig nD τ) (Lvl := ℕ) (Val := Elt F) spec0 c)
  unfold Pipeline.ΦA
  iintro ⟨Hr, Hp⟩
  isplitl [Hp]; · iexact Hp
  isplitr; · iempintro
  iexact Hr

/-- Region 1's invariant before its first point, from what the region rule hands over. -/
theorem enter1 (V : (c : Dev nD) → (b : Ref sig .tc) → Buf (Elt F) ((c : Thread nD τ).loc b)) (c : Dev nD) (P : sProp 𝕄) :
    iprop((∃ r, prngReg c r) ∗ P ∗ Pipeline.scopedRest (Ix := Unit) (Name := ℕ) (U := UR sig nD τ) (Lvl := ℕ) (Val := Elt F) spec1 c) ⊢ (dat1 V c).Φ 0 := by
  refine BI.Entails.trans ?_ (inv1_in V c)
  show (iprop((∃ r, prngReg c r) ∗ P ∗ Pipeline.scopedRest (Ix := Unit) (Name := ℕ) (U := UR sig nD τ) (Lvl := ℕ) (Val := Elt F) spec1 c) : sProp 𝕄) ⊢ Pipeline.ΦA spec1 c
  unfold Pipeline.ΦA
  iintro ⟨Hp, -, Hr⟩
  isplitl [Hr]; · iexact Hr
  iexact Hp

/-- What region 1's invariant gives back after its last point. -/
theorem leave1 (V : (c : Dev nD) → (b : Ref sig .tc) → Buf (Elt F) ((c : Thread nD τ).loc b)) (c : Dev nD) :
    (dat1 V c).Φ (Fin.last cfg1.N) ⊢ iprop((∃ r, prngReg c r) ∗ BI.emp ∗ Pipeline.scopedRest (Ix := Unit) (Name := ℕ) (U := UR sig nD τ) (Lvl := ℕ) (Val := Elt F) spec1 c) := by
  refine BI.Entails.trans (inv1_out V c) ?_
  show (Pipeline.ΦA spec1 c : sProp 𝕄) ⊢ iprop((∃ r, prngReg c r) ∗ BI.emp ∗ Pipeline.scopedRest (Ix := Unit) (Name := ℕ) (U := UR sig nD τ) (Lvl := ℕ) (Val := Elt F) spec1 c)
  unfold Pipeline.ΦA
  iintro ⟨Hr, Hp⟩
  isplitl [Hp]; · iexact Hp
  isplitr; · iempintro
  iexact Hr

/-! ## The proof data family, the thread state and the segments -/

abbrev adm : (p : Fin 2) → (pcfgs (F := F) p).Adm := fun p => (cfgs p).toPCfg_adm
/-- Each region's proof data at its entry contents. -/
def pdats : (p : Fin 2) → (c : Dev nD) → Dat τ (Elt F) Unit ℕ (UR sig nD τ) ℕ (Pipeline.pin (pcfgs (F := F)) adm p) c
  | ⟨0, _⟩ => fun c => dat0 (E1 m) c
  | ⟨1, _⟩ => fun c => dat1 (E3 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tlast (c : Dev nD) : sProp 𝕄 := iprop(StableHlo.held (c : Thread nD τ) (Pipeline.ucRefs τ sig) (B9 m c) ∗ ∃ r, prngReg c r)

set_option backward.isDefEq.respectTransparency.types false in
/-- Region 0 as a segment: entered with every unscoped buffer at the boundary's contents, left with the region's
    arrays at what its write-backs leave and every other buffer as entered.  The arrays are split out of the unscoped
    buffers on entry and put back on exit; the generator register goes into the invariant and comes back; the kernel
    has no semaphore of its own and owes nothing. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (obligation0 (E1 m) c).loose
  hwaits := Pipeline.hwaits_of_owed_zero _ _ _ _ L lv 0 fun _ _ => rfl
  pre c := iprop(StableHlo.held (c : Thread nD τ) (Pipeline.ucRefs τ sig) (B1 m c) ∗ R c)
  post c := iprop(StableHlo.held (c : Thread nD τ) (Pipeline.ucRefs τ sig) (B2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := enter0 (E1 m) c _
  hout c := by
    rw [Pipeline.ownSems0_none]
    exact leave0 (E1 m) c
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (left0 m c) (kept0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment: entered with every unscoped buffer at the boundary's contents, left with the region's
    arrays at what its write-backs leave and every other buffer as entered.  The arrays are split out of the unscoped
    buffers on entry and put back on exit; the generator register goes into the invariant and comes back; the kernel
    has no semaphore of its own and owes nothing. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (obligation1 (E3 m) c).loose
  hwaits := Pipeline.hwaits_of_owed_zero _ _ _ _ L lv 1 fun _ _ => rfl
  pre c := iprop(StableHlo.held (c : Thread nD τ) (Pipeline.ucRefs τ sig) (B3 m c) ∗ R c)
  post c := iprop(StableHlo.held (c : Thread nD τ) (Pipeline.ucRefs τ sig) (B4 m c) ∗ R c)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := enter1 (E3 m) c _
  hout c := by
    rw [Pipeline.ownSems0_none]
    exact leave1 (E3 m) c
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E3 m c) (E4 m c) ((pdats m 1 c).arrAt · cfg1.N) (left1 m c) (kept1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The last segment's thread state is the last thread state beside the core owing nothing. -/
theorem last_link (c : Dev nD) :
    iprop(StableHlo.held (c : Thread nD τ) (Pipeline.ucRefs τ sig) (B9 m c) ∗ R (F := F) c)
      ⊢ iprop(Tlast m c ∗ ∃ W, owes (c : Thread nD τ) (0 : CellTallies nD τ sig Unit) W) := by
  iintro ⟨H, Hp, HO⟩
  isplitl [H Hp]
  · isplitl [H]; · iexact H
    iexact Hp
  iexact HO

/-- The program's nine segments in order. -/
abbrev segs : List (Pipeline.Seg (pcfgs (F := F)) adm (pdats m) () defs₀ 𝒱₀ L lv) :=
  [ .host (hseg hostOps0 hostOps0_sub hostOps0_fresh (B0 m)),
    .region (reg0 m),
    .host (hseg hostOps1 hostOps1_sub hostOps1_fresh (B2 m)),
    .region (reg1 m),
    .host (hseg hostOps2 hostOps2_sub hostOps2_fresh (B4 m)),
    .host (hseg hostOps2_1 hostOps2_1_sub hostOps2_1_fresh (B5 m)),
    .host (hseg hostOps2_2 hostOps2_2_sub hostOps2_2_fresh (B6 m)),
    .host (hseg hostOps2_3 hostOps2_3_sub hostOps2_3_fresh (B7 m)),
    .host (hseg hostOps2_4 hostOps2_4_sub hostOps2_4_fresh (B8 m)) ]

theorem main_is_segs (c : Dev nD) : main (F := F) c = Pipeline.Seg.run (segs m) := (main_chain c).trans (by chain_rfl)

set_option backward.isDefEq.respectTransparency.types false in
set_option maxHeartbeats 4000000 in
/-- THE RUN: from any memory with zero counters every weakly fair execution of the program terminates, nothing faulting,
    and in every final state each buffer that outlives the regions holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B9 m c b) :=
  Pipeline.θ_run_regions_kit (pcfgs (F := F)) adm (pdats m) () cellOf_inj emb₁ defs₀ 𝒱₀ L lv m ρ main (segs m)
    (fun c Q => by rw [main_is_segs m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ R c)) (Tₙ := Tlast m)
    (hch := ⟨fun _ => .rfl, fun _ => .rfl, fun _ => .rfl, fun _ => .rfl, fun _ => .rfl, fun _ => .rfl, fun _ => .rfl, fun _ => .rfl, fun _ => .rfl,
      fun c => last_link m c⟩)
    (hinit := by
      refine Pipeline.initEach L lv fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B9 m c b)
    (hfin := fun c s' => by
      iintro ⟨⟨Hh, -⟩, HSI⟩
      unfold StableHlo.held
      imodintro
      iapply (pointsTo_read_all (Pipeline.ucRefs τ sig) (fun b => (((c : Thread nD τ)).1, b)) (B9 m c) s')
      isplitl [Hh] <;> iassumption)
    (hQ := fun s h c => h c)

/-- THE FRAME: every argument array ends holding its launch contents. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
    ⟨(h c _ (mem_uc main_arg0 (by decide))).trans (B9_main_arg0 m c),
     (h c _ (mem_uc main_arg1 (by decide))).trans (B9_main_arg1 m c),
     (h c _ (mem_uc main_arg2 (by decide))).trans (B9_main_arg2 m c),
     (h c _ (mem_uc main_arg3 (by decide))).trans (B9_main_arg3 m c),
     (h c _ (mem_uc main_arg4 (by decide))).trans (B9_main_arg4 m c),
     (h c _ (mem_uc main_arg5 (by decide))).trans (B9_main_arg5 m c),
     (h c _ (mem_uc main_arg6 (by decide))).trans (B9_main_arg6 m c),
     (h c _ (mem_uc main_arg7 (by decide))).trans (B9_main_arg7 m c),
     (h c _ (mem_uc main_arg8 (by decide))).trans (B9_main_arg8 m c),
     (h c _ (mem_uc main_arg9 (by decide))).trans (B9_main_arg9 m c)⟩) (run_all m ρ)

end Cert.KernelIdeal.Hand

end
-- ==== Proof.KBody0.lean ====
/-
  The pairwise kernel of the first dense term, one grid point at a time.

  The grid is 8 × 8 tiles of 1024 × 1024 pairs.  At a point (i, j) the body reads a block of 1024 rows of
  each point set, a column block and a row block of the two bias vectors, forms the tile
  exp (bx r + by c − sqrt (max (‖x r‖² + ‖y c‖² − 2 ⟨x r, y c⟩, 0))) kept where the global row index is
  below the global column index, sums the tile, and adds the sum into a one-entry accumulator that lives
  across the whole grid.  Three control cases exhaust the grid: the first point clears the accumulator
  before adding, a middle point only adds, the last point adds and then copies the accumulator into the
  one-entry result block.  This module runs the body once per case on arbitrary whole buffers.
-/
import proofs.«117720_j19447611916775_1_alg».proof.Proof.Gen.Kernel.Launch
import proofs.«117720_j19447611916775_1_alg».proof.Proof.Gen.Kernel.Skeleton
import proofs.«117720_j19447611916775_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions over the grid -/

/-- The accumulator is cleared exactly when both grid coordinates are zero. -/
abbrev isFirst0 (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1

/-- The result block is written exactly when both grid coordinates are seven. -/
abbrev isLast0 (i : grid0.Coords) : Prop := k0_cond2 i = 1#1

/-- In row-major order the first condition holds at point 0 only. -/
theorem isFirst0_iff : ∀ t : Fin cfg0.N, isFirst0 (grid0.coords t) ↔ t.val = 0 :=
  (by decide +kernel : ∀ t : Fin grid0.N, isFirst0 (grid0.coords t) ↔ t.val = 0)

/-- In row-major order the second condition holds at point 63 only. -/
theorem isLast0_iff : ∀ t : Fin cfg0.N, isLast0 (grid0.coords t) ↔ t.val = 63 :=
  (by decide +kernel : ∀ t : Fin grid0.N, isLast0 (grid0.coords t) ↔ t.val = 63)

/-! ## The body, case by case

Each run is stated on six whole buffers: four inputs at known contents, the result block, the accumulator.
What the body leaves in a buffer it stores into is a list of written pieces (last store first) that the
symbolic run itself produces; the later modules read those pieces back as values. -/

set_option maxHeartbeats 4000000 in
/-- FIRST POINT: the accumulator may hold anything on entry; the body clears it, adds the tile sum, and leaves
    the result block untouched. -/
noncomputable def runFirst0 (c : Dev nD) (i : grid0.Coords)
    (a2 : Memref sig .tc .vmem S1024x16 .f32) (h2 : a2.IsWhole) (a3 : Memref sig .tc .vmem S1024x16 .f32) (h3 : a3.IsWhole)
    (a4 : Memref sig .tc .vmem S1024x1 .f32) (h4 : a4.IsWhole) (a5 : Memref sig .tc .vmem S1x1024 .f32) (h5 : a5.IsWhole)
    (a6 : Memref sig .tc .vmem S1x1 .f32) (h6 : a6.IsWhole) (a7 : Memref sig .tc .vmem S1x1 .f32) (h7 : a7.IsWhole)
    (hf : isFirst0 i) (hl : ¬isLast0 i)
    (x0 : Vec F S1024x16 .f32) (x1 : Vec F S1024x16 .f32) (x2 : Vec F S1024x1 .f32) (x3 : Vec F S1x1024 .f32) :
    { LS : List (View.Piece (Elt F) S1x1 .f32) //
      ∀ (xo : Vec F S1x1 .f32) (E : Set ℕ) (K : PUnit → sProp 𝕄),
        iprop(owns (c : Thread nD τ) a2 fullShare x0 ∗ owns (c : Thread nD τ) a3 fullShare x1 ∗ owns (c : Thread nD τ) a4 fullShare x2
            ∗ owns (c : Thread nD τ) a5 fullShare x3 ∗ owns (c : Thread nD τ) a6 fullShare xo ∗ (∃ d, owns (c : Thread nD τ) a7 fullShare d)
            ∗ (iprop(owns (c : Thread nD τ) a2 fullShare x0 ∗ owns (c : Thread nD τ) a3 fullShare x1 ∗ owns (c : Thread nD τ) a4 fullShare x2
                ∗ owns (c : Thread nD τ) a5 fullShare x3 ∗ owns (c : Thread nD τ) a6 fullShare xo
                ∗ (∃ f, a7.view.loc (c : Thread nD τ) ↦[a7.view.set]{fullShare} a7.view.writes (Elt F) f LS)) -∗ K ⟨⟩))
          ⊢ wp frame (wpE (defs₀ (F := F)) Variants.none c none) E (cc0__pairwise_masked_sum_kernel i a2 h2 a3 h3 a4 h4 a5 h5 a6 h6 a7 h7) K } := by
  refine ⟨?_, fun xo E K => ?run⟩
  case run =>
    simp only [cc0__pairwise_masked_sum_kernel_eq_skeleton]; unfold cc0__pairwise_masked_sum_kernel_skel
    unfold owns
    iintro ⟨⟨%f0, %hf0, H0⟩, ⟨%f1, %hf1, H1⟩, ⟨%f2, %hf2, H2⟩, ⟨%f3, %hf3, H3⟩, ⟨%fo, %hfo, HO⟩, ⟨%ds, %fs, -, HS⟩, Hk⟩
    obtain rfl := h2.eq_unread hf0; obtain rfl := h3.eq_unread hf1; obtain rfl := h4.eq_unread hf2
    obtain rfl := h5.eq_unread hf3; obtain rfl := h6.eq_unread hfo
    sl_exec (disch := first | exact hf | exact hl)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [HO]
    · iexists _; isplitr; · ipureintro; exact h6.read_unread _
      iexact HO
    iexists _; iexact HS

set_option maxHeartbeats 4000000 in
/-- MIDDLE POINT: the accumulator holds `xs` on entry; the body adds the tile sum into it and leaves the result
    block untouched. -/
noncomputable def runMid0 (c : Dev nD) (i : grid0.Coords)
    (a2 : Memref sig .tc .vmem S1024x16 .f32) (h2 : a2.IsWhole) (a3 : Memref sig .tc .vmem S1024x16 .f32) (h3 : a3.IsWhole)
    (a4 : Memref sig .tc .vmem S1024x1 .f32) (h4 : a4.IsWhole) (a5 : Memref sig .tc .vmem S1x1024 .f32) (h5 : a5.IsWhole)
    (a6 : Memref sig .tc .vmem S1x1 .f32) (h6 : a6.IsWhole) (a7 : Memref sig .tc .vmem S1x1 .f32) (h7 : a7.IsWhole)
    (hf : ¬isFirst0 i) (hl : ¬isLast0 i)
    (x0 : Vec F S1024x16 .f32) (x1 : Vec F S1024x16 .f32) (x2 : Vec F S1024x1 .f32) (x3 : Vec F S1x1024 .f32) (xs : Vec F S1x1 .f32) :
    { LS : List (View.Piece (Elt F) S1x1 .f32) //
      ∀ (xo : Vec F S1x1 .f32) (E : Set ℕ) (K : PUnit → sProp 𝕄),
        iprop(owns (c : Thread nD τ) a2 fullShare x0 ∗ owns (c : Thread nD τ) a3 fullShare x1 ∗ owns (c : Thread nD τ) a4 fullShare x2
            ∗ owns (c : Thread nD τ) a5 fullShare x3 ∗ owns (c : Thread nD τ) a6 fullShare xo ∗ owns (c : Thread nD τ) a7 fullShare xs
            ∗ (iprop(owns (c : Thread nD τ) a2 fullShare x0 ∗ owns (c : Thread nD τ) a3 fullShare x1 ∗ owns (c : Thread nD τ) a4 fullShare x2
            ∗ owns (c : Thread nD τ) a5 fullShare x3 ∗ owns (c : Thread nD τ) a6 fullShare xo
                ∗ (∃ f, a7.view.loc (c : Thread nD τ) ↦[a7.view.set]{fullShare} a7.view.writes (Elt F) f LS)) -∗ K ⟨⟩))
          ⊢ wp frame (wpE (defs₀ (F := F)) Variants.none c none) E (cc0__pairwise_masked_sum_kernel i a2 h2 a3 h3 a4 h4 a5 h5 a6 h6 a7 h7) K } := by
  refine ⟨?_, fun xo E K => ?run⟩
  case run =>
    simp only [cc0__pairwise_masked_sum_kernel_eq_skeleton]; unfold cc0__pairwise_masked_sum_kernel_skel
    unfold owns
    iintro ⟨⟨%f0, %hf0, H0⟩, ⟨%f1, %hf1, H1⟩, ⟨%f2, %hf2, H2⟩, ⟨%f3, %hf3, H3⟩, ⟨%fo, %hfo, HO⟩, ⟨%fs, %hfs, HS⟩, Hk⟩
    obtain rfl := h2.eq_unread hf0; obtain rfl := h3.eq_unread hf1; obtain rfl := h4.eq_unread hf2
    obtain rfl := h5.eq_unread hf3; obtain rfl := h6.eq_unread hfo; obtain rfl := h7.eq_unread hfs
    sl_exec (disch := first | exact hf | exact hl)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [HO]
    · iexists _; isplitr; · ipureintro; exact h6.read_unread _
      iexact HO
    iexists _; iexact HS

set_option maxHeartbeats 4000000 in
/-- LAST POINT: the accumulator holds `xs` on entry; the body adds the tile sum into it and then copies it into the
    result block, whose earlier contents do not matter. -/
noncomputable def runLast0 (c : Dev nD) (i : grid0.Coords)
    (a2 : Memref sig .tc .vmem S1024x16 .f32) (h2 : a2.IsWhole) (a3 : Memref sig .tc .vmem S1024x16 .f32) (h3 : a3.IsWhole)
    (a4 : Memref sig .tc .vmem S1024x1 .f32) (h4 : a4.IsWhole) (a5 : Memref sig .tc .vmem S1x1024 .f32) (h5 : a5.IsWhole)
    (a6 : Memref sig .tc .vmem S1x1 .f32) (h6 : a6.IsWhole) (a7 : Memref sig .tc .vmem S1x1 .f32) (h7 : a7.IsWhole)
    (hf : ¬isFirst0 i) (hl : isLast0 i)
    (x0 : Vec F S1024x16 .f32) (x1 : Vec F S1024x16 .f32) (x2 : Vec F S1024x1 .f32) (x3 : Vec F S1x1024 .f32) (xs : Vec F S1x1 .f32) :
    Σ' (LO : List (View.Piece (Elt F) S1x1 .f32)), { LS : List (View.Piece (Elt F) S1x1 .f32) //
      ∀ (E : Set ℕ) (K : PUnit → sProp 𝕄),
        iprop(owns (c : Thread nD τ) a2 fullShare x0 ∗ owns (c : Thread nD τ) a3 fullShare x1 ∗ owns (c : Thread nD τ) a4 fullShare x2
            ∗ owns (c : Thread nD τ) a5 fullShare x3 ∗ (∃ d, owns (c : Thread nD τ) a6 fullShare d) ∗ owns (c : Thread nD τ) a7 fullShare xs
            ∗ (iprop(owns (c : Thread nD τ) a2 fullShare x0 ∗ owns (c : Thread nD τ) a3 fullShare x1 ∗ owns (c : Thread nD τ) a4 fullShare x2
            ∗ owns (c : Thread nD τ) a5 fullShare x3
                ∗ (∃ f, a6.view.loc (c : Thread nD τ) ↦[a6.view.set]{fullShare} a6.view.writes (Elt F) f LO)
                ∗ (∃ f, a7.view.loc (c : Thread nD τ) ↦[a7.view.set]{fullShare} a7.view.writes (Elt F) f LS)) -∗ K ⟨⟩))
          ⊢ wp frame (wpE (defs₀ (F := F)) Variants.none c none) E (cc0__pairwise_masked_sum_kernel i a2 h2 a3 h3 a4 h4 a5 h5 a6 h6 a7 h7) K } := by
  refine ⟨?_, ?_, fun E K => ?run⟩
  case run =>
    simp only [cc0__pairwise_masked_sum_kernel_eq_skeleton]; unfold cc0__pairwise_masked_sum_kernel_skel
    unfold owns
    iintro ⟨⟨%f0, %hf0, H0⟩, ⟨%f1, %hf1, H1⟩, ⟨%f2, %hf2, H2⟩, ⟨%f3, %hf3, H3⟩, ⟨%dO, %fo, -, HO⟩, ⟨%fs, %hfs, HS⟩, Hk⟩
    obtain rfl := h2.eq_unread hf0; obtain rfl := h3.eq_unread hf1; obtain rfl := h4.eq_unread hf2
    obtain rfl := h5.eq_unread hf3; obtain rfl := h7.eq_unread hfs
    sl_exec (disch := first | exact hf | exact hl)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [HO]; · iexists _; iexact HO
    iexists _; iexact HS

end Cert.Kernel.Hand

end
-- ==== Proof.KRegion0.lean ====
/-
  The first dense term's region as the pipeline runs it: 64 grid points in row-major order.

  The one-entry accumulator is a buffer of the kernel's own that no transfer touches, so what it holds after point n
  is a recursion on n: the first point's run over the blocks at point 0, then each later point's run over that
  point's blocks and what the point before left.  The result block's staging buffer is stored into at the last
  point only, and that is also the only point whose block is written back; everywhere else it is handed back as
  found.  The region's invariant is therefore: before the first point, every buffer of the kernel's own at
  anything; after point n, the accumulator at the recursion's value and the other such buffers at anything.
-/
import proofs.«117720_j19447611916775_1_alg».proof.Proof.KBody0
import Idealize.ShloMosaic.Lib.Pipeline.Frame

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- The buffer contents the region is entered with, per core: a parameter, fixed when the regions are composed.
variable (V : (c : Dev nD) → (b : Ref sig .tc) → Buf (Elt F) ((c : Thread nD τ).loc b))

/-! ## Blocks and buffers at a point -/

/-- Window `w`'s block at point `t` of the array the region finds. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The staging buffer each window is on at point `t`, as the pipeline passes it to the body. -/
abbrev sb0_0 (t : Fin cfg0.N) : Memref sig .tc .vmem S1024x16 .f32 := win0_0.stage (cfg0.slots t 0)
abbrev wb0_0 (t : Fin cfg0.N) : (sb0_0 t).IsWhole := hstage0_0 ((cfg0.slots t 0).cast nbuf0_0)
abbrev sb0_1 (t : Fin cfg0.N) : Memref sig .tc .vmem S1024x16 .f32 := win0_1.stage (cfg0.slots t 1)
abbrev wb0_1 (t : Fin cfg0.N) : (sb0_1 t).IsWhole := hstage0_1 ((cfg0.slots t 1).cast nbuf0_1)
abbrev sb0_2 (t : Fin cfg0.N) : Memref sig .tc .vmem S1024x1 .f32 := win0_2.stage (cfg0.slots t 2)
abbrev wb0_2 (t : Fin cfg0.N) : (sb0_2 t).IsWhole := hstage0_2 ((cfg0.slots t 2).cast nbuf0_2)
abbrev sb0_3 (t : Fin cfg0.N) : Memref sig .tc .vmem S1x1024 .f32 := win0_3.stage (cfg0.slots t 3)
abbrev wb0_3 (t : Fin cfg0.N) : (sb0_3 t).IsWhole := hstage0_3 ((cfg0.slots t 3).cast nbuf0_3)
abbrev sb0_4 (t : Fin cfg0.N) : Memref sig .tc .vmem S1x1 .f32 := win0_4.stage (cfg0.slots t 4)
abbrev wb0_4 (t : Fin cfg0.N) : (sb0_4 t).IsWhole := hstage0_4 ((cfg0.slots t 4).cast nbuf0_4)
/-- The accumulator. -/
abbrev acc0 : Memref sig .tc .vmem S1x1 .f32 := Memref.whole cc0_scratch0
abbrev accView0 : View sig .tc .vmem S1x1 .f32 := (acc0).view
abbrev outView0 : View sig .tc .vmem S1x1 .f32 := (Memref.whole cc0_stg4_0 : Memref sig .tc .vmem S1x1 .f32).view

/-! ## What each case leaves, read back as a value -/

section Cases
variable (c : Dev nD) (t : Fin cfg0.N)

/-- The accumulator after the first point: the first run's pieces read back. -/
def accFirst0 (hf : isFirst0 (grid0.coords t)) (hl : ¬isLast0 (grid0.coords t))
    (x0 : Vec F S1024x16 .f32) (x1 : Vec F S1024x16 .f32) (x2 : Vec F S1024x1 .f32) (x3 : Vec F S1x1024 .f32) : Vec F S1x1 .f32 :=
  accView0.read (Elt F) (accView0.writes (Elt F) accView0.junk
    (runFirst0 c (grid0.coords t) (sb0_0 t) (wb0_0 t) (sb0_1 t) (wb0_1 t) (sb0_2 t) (wb0_2 t) (sb0_3 t) (wb0_3 t) (sb0_4 t) (wb0_4 t) acc0 (Memref.isWhole_whole _) hf hl x0 x1 x2 x3).1)

theorem accFirst0_cover (hf : isFirst0 (grid0.coords t)) (hl : ¬isLast0 (grid0.coords t))
    (x0 : Vec F S1024x16 .f32) (x1 : Vec F S1024x16 .f32) (x2 : Vec F S1024x1 .f32) (x3 : Vec F S1x1024 .f32) (y : S1x1.Idx) :
    ∃ pc ∈ (runFirst0 c (grid0.coords t) (sb0_0 t) (wb0_0 t) (sb0_1 t) (wb0_1 t) (sb0_2 t) (wb0_2 t) (sb0_3 t) (wb0_3 t) (sb0_4 t) (wb0_4 t) acc0 (Memref.isWhole_whole _) hf hl x0 x1 x2 x3).1, y ∈ pc.1.set :=
  View.cover_of_tiledL _ S1x1.size (by sl_kernel_rfl) y

/-- The accumulator after a middle point, from what the point before left. -/
def accMid0 (hf : ¬isFirst0 (grid0.coords t)) (hl : ¬isLast0 (grid0.coords t))
    (x0 : Vec F S1024x16 .f32) (x1 : Vec F S1024x16 .f32) (x2 : Vec F S1024x1 .f32) (x3 : Vec F S1x1024 .f32) (xs : Vec F S1x1 .f32) : Vec F S1x1 .f32 :=
  accView0.read (Elt F) (accView0.writes (Elt F) accView0.junk
    (runMid0 c (grid0.coords t) (sb0_0 t) (wb0_0 t) (sb0_1 t) (wb0_1 t) (sb0_2 t) (wb0_2 t) (sb0_3 t) (wb0_3 t) (sb0_4 t) (wb0_4 t) acc0 (Memref.isWhole_whole _) hf hl x0 x1 x2 x3 xs).1)

theorem accMid0_cover (hf : ¬isFirst0 (grid0.coords t)) (hl : ¬isLast0 (grid0.coords t))
    (x0 : Vec F S1024x16 .f32) (x1 : Vec F S1024x16 .f32) (x2 : Vec F S1024x1 .f32) (x3 : Vec F S1x1024 .f32) (xs : Vec F S1x1 .f32) (y : S1x1.Idx) :
    ∃ pc ∈ (runMid0 c (grid0.coords t) (sb0_0 t) (wb0_0 t) (sb0_1 t) (wb0_1 t) (sb0_2 t) (wb0_2 t) (sb0_3 t) (wb0_3 t) (sb0_4 t) (wb0_4 t) acc0 (Memref.isWhole_whole _) hf hl x0 x1 x2 x3 xs).1, y ∈ pc.1.set :=
  View.cover_of_tiledL _ S1x1.size (by sl_kernel_rfl) y

/-- The accumulator after the last point. -/
def accLast0 (hf : ¬isFirst0 (grid0.coords t)) (hl : isLast0 (grid0.coords t))
    (x0 : Vec F S1024x16 .f32) (x1 : Vec F S1024x16 .f32) (x2 : Vec F S1024x1 .f32) (x3 : Vec F S1x1024 .f32) (xs : Vec F S1x1 .f32) : Vec F S1x1 .f32 :=
  accView0.read (Elt F) (accView0.writes (Elt F) accView0.junk
    (runLast0 c (grid0.coords t) (sb0_0 t) (wb0_0 t) (sb0_1 t) (wb0_1 t) (sb0_2 t) (wb0_2 t) (sb0_3 t) (wb0_3 t) (sb0_4 t) (wb0_4 t) acc0 (Memref.isWhole_whole _) hf hl x0 x1 x2 x3 xs).2.1)

theorem accLast0_cover (hf : ¬isFirst0 (grid0.coords t)) (hl : isLast0 (grid0.coords t))
    (x0 : Vec F S1024x16 .f32) (x1 : Vec F S1024x16 .f32) (x2 : Vec F S1024x1 .f32) (x3 : Vec F S1x1024 .f32) (xs : Vec F S1x1 .f32) (y : S1x1.Idx) :
    ∃ pc ∈ (runLast0 c (grid0.coords t) (sb0_0 t) (wb0_0 t) (sb0_1 t) (wb0_1 t) (sb0_2 t) (wb0_2 t) (sb0_3 t) (wb0_3 t) (sb0_4 t) (wb0_4 t) acc0 (Memref.isWhole_whole _) hf hl x0 x1 x2 x3 xs).2.1, y ∈ pc.1.set :=
  View.cover_of_tiledL _ S1x1.size (by sl_kernel_rfl) y

/-- The result block's staging buffer after the last point. -/
def outLast0 (hf : ¬isFirst0 (grid0.coords t)) (hl : isLast0 (grid0.coords t))
    (x0 : Vec F S1024x16 .f32) (x1 : Vec F S1024x16 .f32) (x2 : Vec F S1024x1 .f32) (x3 : Vec F S1x1024 .f32) (xs : Vec F S1x1 .f32) : Vec F S1x1 .f32 :=
  outView0.read (Elt F) (outView0.writes (Elt F) outView0.junk
    (runLast0 c (grid0.coords t) (sb0_0 t) (wb0_0 t) (sb0_1 t) (wb0_1 t) (sb0_2 t) (wb0_2 t) (sb0_3 t) (wb0_3 t) (sb0_4 t) (wb0_4 t) acc0 (Memref.isWhole_whole _) hf hl x0 x1 x2 x3 xs).1)

theorem outLast0_cover (hf : ¬isFirst0 (grid0.coords t)) (hl : isLast0 (grid0.coords t))
    (x0 : Vec F S1024x16 .f32) (x1 : Vec F S1024x16 .f32) (x2 : Vec F S1024x1 .f32) (x3 : Vec F S1x1024 .f32) (xs : Vec F S1x1 .f32) (y : S1x1.Idx) :
    ∃ pc ∈ (runLast0 c (grid0.coords t) (sb0_0 t) (wb0_0 t) (sb0_1 t) (wb0_1 t) (sb0_2 t) (wb0_2 t) (sb0_3 t) (wb0_3 t) (sb0_4 t) (wb0_4 t) acc0 (Memref.isWhole_whole _) hf hl x0 x1 x2 x3 xs).1, y ∈ pc.1.set :=
  View.cover_of_tiledL _ S1x1.size (by sl_kernel_rfl) y

end Cases

/-! ## The accumulator and the result block, point by point -/

/-- The grid has 64 points. -/
theorem N0_eq : cfg0.N = 64 := N_0

/-- What the accumulator holds after the body at point `n`: the first run at point 0, then at each later point that
    point's run over what the point before left — the last point's run at point 63, a middle run elsewhere. -/
def accAt0 (c : Dev nD) : (n : ℕ) → n < cfg0.N → Vec F S1x1 .f32
  | 0, hn => accFirst0 c ⟨0, hn⟩ ((isFirst0_iff ⟨0, hn⟩).mpr rfl) (fun h => absurd ((isLast0_iff ⟨0, hn⟩).mp h) (by show ¬ (0 : ℕ) = 63; omega))
      (blk0 V c 0 ⟨0, hn⟩) (blk0 V c 1 ⟨0, hn⟩) (blk0 V c 2 ⟨0, hn⟩) (blk0 V c 3 ⟨0, hn⟩)
  | n + 1, hn =>
    if hl : n + 1 = 63 then
      accLast0 c ⟨n + 1, hn⟩ (fun h => absurd ((isFirst0_iff ⟨n + 1, hn⟩).mp h) (Nat.succ_ne_zero n)) ((isLast0_iff ⟨n + 1, hn⟩).mpr hl)
        (blk0 V c 0 ⟨n + 1, hn⟩) (blk0 V c 1 ⟨n + 1, hn⟩) (blk0 V c 2 ⟨n + 1, hn⟩) (blk0 V c 3 ⟨n + 1, hn⟩) (accAt0 c n (Nat.lt_of_succ_lt hn))
    else
      accMid0 c ⟨n + 1, hn⟩ (fun h => absurd ((isFirst0_iff ⟨n + 1, hn⟩).mp h) (Nat.succ_ne_zero n)) (fun h => hl ((isLast0_iff ⟨n + 1, hn⟩).mp h))
        (blk0 V c 0 ⟨n + 1, hn⟩) (blk0 V c 1 ⟨n + 1, hn⟩) (blk0 V c 2 ⟨n + 1, hn⟩) (blk0 V c 3 ⟨n + 1, hn⟩) (accAt0 c n (Nat.lt_of_succ_lt hn))

/-- The recursion at the first point. -/
theorem accAt0_first (c : Dev nD) (t : Fin cfg0.N) (h0 : t.val = 0) :
    accAt0 V c t.val t.isLt = accFirst0 c t ((isFirst0_iff t).mpr h0) (fun h => absurd ((isLast0_iff t).mp h) (by omega))
      (blk0 V c 0 t) (blk0 V c 1 t) (blk0 V c 2 t) (blk0 V c 3 t) := by
  obtain ⟨n, hn⟩ := t
  cases n with
  | zero => rfl
  | succ n => exact absurd h0 (Nat.succ_ne_zero n)

/-- The recursion at a middle point. -/
theorem accAt0_mid (c : Dev nD) (t : Fin cfg0.N) (h0 : t.val ≠ 0) (hl : t.val ≠ 63) :
    accAt0 V c t.val t.isLt = accMid0 c t (fun h => h0 ((isFirst0_iff t).mp h)) (fun h => hl ((isLast0_iff t).mp h))
      (blk0 V c 0 t) (blk0 V c 1 t) (blk0 V c 2 t) (blk0 V c 3 t) (accAt0 V c (t.val - 1) (Nat.lt_of_le_of_lt (Nat.sub_le _ _) t.isLt)) := by
  obtain ⟨n, hn⟩ := t
  cases n with
  | zero => exact absurd rfl h0
  | succ n => exact (dif_neg hl).trans rfl

/-- The recursion at the last point. -/
theorem accAt0_last (c : Dev nD) (t : Fin cfg0.N) (h0 : t.val ≠ 0) (hl : t.val = 63) :
    accAt0 V c t.val t.isLt = accLast0 c t (fun h => h0 ((isFirst0_iff t).mp h)) ((isLast0_iff t).mpr hl)
      (blk0 V c 0 t) (blk0 V c 1 t) (blk0 V c 2 t) (blk0 V c 3 t) (accAt0 V c (t.val - 1) (Nat.lt_of_le_of_lt (Nat.sub_le _ _) t.isLt)) := by
  obtain ⟨n, hn⟩ := t
  cases n with
  | zero => exact absurd rfl h0
  | succ n => exact (dif_pos hl).trans rfl

/-- What the result block's staging buffer holds after the body at point `n`: the last run's store at point 63; at
    the other points the buffer is not stored into and the value below is never consulted. -/
def outAt0 (c : Dev nD) (n : ℕ) (hn : n < cfg0.N) : Vec F S1x1 .f32 :=
  if hl : n = 63 then
    outLast0 c ⟨n, hn⟩ (fun h => absurd ((isFirst0_iff ⟨n, hn⟩).mp h) (by show ¬ n = 0; omega)) ((isLast0_iff ⟨n, hn⟩).mpr hl)
      (blk0 V c 0 ⟨n, hn⟩) (blk0 V c 1 ⟨n, hn⟩) (blk0 V c 2 ⟨n, hn⟩) (blk0 V c 3 ⟨n, hn⟩) (accAt0 V c (n - 1) (Nat.lt_of_le_of_lt (Nat.sub_le _ _) hn))
  else accAt0 V c n hn

theorem outAt0_last (c : Dev nD) (t : Fin cfg0.N) (hl : t.val = 63) :
    outAt0 V c t.val t.isLt = outLast0 c t (fun h => absurd ((isFirst0_iff t).mp h) (by omega)) ((isLast0_iff t).mpr hl)
      (blk0 V c 0 t) (blk0 V c 1 t) (blk0 V c 2 t) (blk0 V c 3 t) (accAt0 V c (t.val - 1) (Nat.lt_of_le_of_lt (Nat.sub_le _ _) t.isLt)) := by
  unfold outAt0; exact dif_pos hl

/-! ## The invariant -/

/-- The kernel's own buffers other than the accumulator (the second region's staging buffers and accumulator), each
    at some contents: they ride through this region untouched. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_scratch0), ((c : Thread nD τ).loc cc1_scratch0) ↦{fullShare} f))

/-- What the launch hands the region, with the accumulator singled out. -/
theorem entryInv0_eq (c : Dev nD) :
    (Pipeline.ΦA spec0 c : sProp 𝕄)
      = iprop(iprop((∃ d, owns (c : Thread nD τ) acc0 fullShare d) ∗ others0 (F := F) c) ∗ (∃ r, prngReg c r)) := by
  unfold Pipeline.ΦA others0; rw [scopedRest0_eq]; simp only [acc0, owns_whole]; try rfl

/-- The invariant before position `n`. -/
def inv0 (c : Dev nD) : (n : ℕ) → n ≤ cfg0.N → sProp 𝕄
  | 0, _ => Pipeline.ΦA spec0 c
  | n + 1, hn => iprop(iprop(owns (c : Thread nD τ) acc0 fullShare (accAt0 V c n hn) ∗ others0 (F := F) c) ∗ (∃ r, prngReg c r))

theorem inv0_zero (c : Dev nD) (n : ℕ) (h : n ≤ cfg0.N) (hz : n = 0) : inv0 V c n h = Pipeline.ΦA spec0 c := by
  subst hz; rfl

theorem inv0_succ (c : Dev nD) (n : ℕ) (hn : n < cfg0.N) :
    inv0 V c (n + 1) hn = iprop(iprop(owns (c : Thread nD τ) acc0 fullShare (accAt0 V c n hn) ∗ others0 (F := F) c) ∗ (∃ r, prngReg c r)) := rfl

theorem inv0_pos (c : Dev nD) (n : ℕ) (h : n ≤ cfg0.N) (hz : n ≠ 0) :
    inv0 V c n h = iprop(iprop(owns (c : Thread nD τ) acc0 fullShare (accAt0 V c (n - 1) (by omega)) ∗ others0 (F := F) c) ∗ (∃ r, prngReg c r)) := by
  cases n with
  | zero => exact absurd rfl hz
  | succ n => rfl

/-! ## The proof data -/

/-- The region's proof data on core `c`: the arrays as found; after the body each input buffer still at its block,
    the result block's buffer at `outAt0`; the invariant `inv0`; nothing owed; full shares. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => blk0 V c 3 t
    | ⟨4, _⟩ => outAt0 V c t.val t.isLt
  Φ t := inv0 V c t.val (Nat.le_of_lt_succ t.isLt)
  q _ := fullShare
  owed _ := 0

theorem dat0_A (c : Dev nD) (w : Fin cfg0.W) : (dat0 V c).A w = V c (Pipeline.arrRef spec0 w) := by
  dsimp only [dat0]

theorem dat0_inv_castSucc (c : Dev nD) (t : Fin cfg0.N) :
    (dat0 V c).Φ t.castSucc = inv0 V c t.val (Nat.le_of_lt t.isLt) := by
  dsimp only [dat0]; simp only [Fin.coe_castSucc]

theorem dat0_after_0 (c : Dev nD) (t : Fin cfg0.N) : (dat0 V c).after 0 t = blk0 V c 0 t := by dsimp only [dat0]
theorem dat0_after_1 (c : Dev nD) (t : Fin cfg0.N) : (dat0 V c).after 1 t = blk0 V c 1 t := by dsimp only [dat0]
theorem dat0_after_2 (c : Dev nD) (t : Fin cfg0.N) : (dat0 V c).after 2 t = blk0 V c 2 t := by dsimp only [dat0]
theorem dat0_after_3 (c : Dev nD) (t : Fin cfg0.N) : (dat0 V c).after 3 t = blk0 V c 3 t := by dsimp only [dat0]
theorem dat0_after_4 (c : Dev nD) (t : Fin cfg0.N) : (dat0 V c).after 4 t = outAt0 V c t.val t.isLt := by dsimp only [dat0]

/-- An input buffer holds its window's block at every point, fetched there or not: where a window is not fetched its
    block index has not moved since the last fetch. -/
theorem dat0_before_0 (c : Dev nD) (t : Fin cfg0.N) (d) : (dat0 V c).before 0 t d = blk0 V c 0 t :=
  ((dat0 V c).before_in_eq_fetched 0 rfl (fun _ => rfl) (fun _ _ _ => rfl) (fun t => by rw [dat0_after_0]; unfold Dat.blockOf blk0; rw [dat0_A]; try rfl) t d).trans
    (by unfold Dat.fetched Dat.blockOf blk0; rw [dat0_A]; try rfl)
theorem dat0_before_1 (c : Dev nD) (t : Fin cfg0.N) (d) : (dat0 V c).before 1 t d = blk0 V c 1 t :=
  ((dat0 V c).before_in_eq_fetched 1 rfl (fun _ => rfl) (fun _ _ _ => rfl) (fun t => by rw [dat0_after_1]; unfold Dat.blockOf blk0; rw [dat0_A]; try rfl) t d).trans
    (by unfold Dat.fetched Dat.blockOf blk0; rw [dat0_A]; try rfl)
theorem dat0_before_2 (c : Dev nD) (t : Fin cfg0.N) (d) : (dat0 V c).before 2 t d = blk0 V c 2 t :=
  ((dat0 V c).before_in_eq_fetched 2 rfl (fun _ => rfl) (fun _ _ _ => rfl) (fun t => by rw [dat0_after_2]; unfold Dat.blockOf blk0; rw [dat0_A]; try rfl) t d).trans
    (by unfold Dat.fetched Dat.blockOf blk0; rw [dat0_A]; try rfl)
theorem dat0_before_3 (c : Dev nD) (t : Fin cfg0.N) (d) : (dat0 V c).before 3 t d = blk0 V c 3 t :=
  ((dat0 V c).before_in_eq_fetched 3 rfl (fun _ => rfl) (fun _ _ _ => rfl) (fun t => by rw [dat0_after_3]; unfold Dat.blockOf blk0; rw [dat0_A]; try rfl) t d).trans
    (by unfold Dat.fetched Dat.blockOf blk0; rw [dat0_A]; try rfl)

/-! ## Where the result block is live -/

/-- An input window is never idle. -/
theorem live0_0 : ∀ t : Fin cfg0.N, cfg0.idle 0 (grid0.coords t) = false := by decide +kernel
theorem live0_1 : ∀ t : Fin cfg0.N, cfg0.idle 1 (grid0.coords t) = false := by decide +kernel
theorem live0_2 : ∀ t : Fin cfg0.N, cfg0.idle 2 (grid0.coords t) = false := by decide +kernel
theorem live0_3 : ∀ t : Fin cfg0.N, cfg0.idle 3 (grid0.coords t) = false := by decide +kernel
/-- Away from the last point the result block is idle and is not written back. -/
theorem idle0_4 : ∀ t : Fin cfg0.N, ¬isLast0 (grid0.coords t) → cfg0.idle 4 (grid0.coords t) = true := by decide +kernel
theorem noflush0_4 : ∀ t : Fin cfg0.N, ¬isLast0 (grid0.coords t) → (cfg0.win 4).flush t = false := by decide +kernel
/-- At the last point it is live. -/
theorem live0_4 : ∀ t : Fin cfg0.N, isLast0 (grid0.coords t) → cfg0.idle 4 (grid0.coords t) = false := by decide +kernel

/-! ## The body obligation -/

/-- What the body is called with at point `t`, the windows one by one, -/
def pre0 (c : Dev nD) (t : Fin cfg0.N) : sProp 𝕄 :=
  iprop((dat0 V c).Φ t.castSucc ∗ (dat0 V c).owesAt () t.castSucc
    ∗ (∃ d, owns (c : Thread nD τ) (sb0_0 t) fullShare ((dat0 V c).before 0 t d))
    ∗ (∃ d, owns (c : Thread nD τ) (sb0_1 t) fullShare ((dat0 V c).before 1 t d))
    ∗ (∃ d, owns (c : Thread nD τ) (sb0_2 t) fullShare ((dat0 V c).before 2 t d))
    ∗ (∃ d, owns (c : Thread nD τ) (sb0_3 t) fullShare ((dat0 V c).before 3 t d))
    ∗ (∃ d, owns (c : Thread nD τ) (sb0_4 t) fullShare ((dat0 V c).before 4 t d)))

/-- and what it returns. -/
def post0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t
    ∗ (dat0 V c).leavesExact 3 t ∗ (dat0 V c).leavesExact 4 t)

theorem leaves0_0 (c : Dev nD) (t : Fin cfg0.N) : (dat0 V c).leavesExact 0 t = owns (c : Thread nD τ) (sb0_0 t) fullShare (blk0 V c 0 t) := by
  unfold Dat.leavesExact; rw [live0_0 t, dat0_after_0]
theorem leaves0_1 (c : Dev nD) (t : Fin cfg0.N) : (dat0 V c).leavesExact 1 t = owns (c : Thread nD τ) (sb0_1 t) fullShare (blk0 V c 1 t) := by
  unfold Dat.leavesExact; rw [live0_1 t, dat0_after_1]
theorem leaves0_2 (c : Dev nD) (t : Fin cfg0.N) : (dat0 V c).leavesExact 2 t = owns (c : Thread nD τ) (sb0_2 t) fullShare (blk0 V c 2 t) := by
  unfold Dat.leavesExact; rw [live0_2 t, dat0_after_2]
theorem leaves0_3 (c : Dev nD) (t : Fin cfg0.N) : (dat0 V c).leavesExact 3 t = owns (c : Thread nD τ) (sb0_3 t) fullShare (blk0 V c 3 t) := by
  unfold Dat.leavesExact; rw [live0_3 t, dat0_after_3]

set_option maxHeartbeats 4000000 in
/-- The body at any point: the inputs' buffers hold their blocks; the closed forms of the two conditions say which case
    the point is in; the invariant hands the body the accumulator at what the point before left (at anything at the
    first point) and takes it back at this point's value; the core owes nothing throughout. -/
theorem sound0 (c : Dev nD) (t : Fin cfg0.N) :
    pre0 V c t ⊢ wp frame (wpE (defs₀ (F := F)) Variants.none c none) Set.univ (bodyAt0 t) (fun _ => post0 V c t) := by
  unfold pre0 post0 bodyAt0
  simp only [dat0_before_0, dat0_before_1, dat0_before_2, dat0_before_3]
  rw [show (dat0 V c).owesAt () t.succ = (dat0 V c).owesAt () t.castSucc from rfl]
  rw [show (dat0 V c).Φ t.succ = inv0 V c (t.val + 1) t.isLt from rfl, inv0_succ]
  rw [leaves0_0, leaves0_1, leaves0_2, leaves0_3]
  have hN : t.val < 64 := lt_of_lt_of_eq t.isLt N0_eq
  by_cases h0 : t.val = 0
  · -- the first point
    have hf : isFirst0 (grid0.coords t) := (isFirst0_iff t).mpr h0
    have hl : ¬isLast0 (grid0.coords t) := fun h => absurd ((isLast0_iff t).mp h) (by omega)
    rw [Dat.leavesExact_idle (dat0 V c) 4 t (idle0_4 t hl) (noflush0_4 t hl)]
    rw [accAt0_first V c t h0]
    unfold accFirst0
    rw [dat0_inv_castSucc V c t, inv0_zero V c _ _ h0, entryInv0_eq]
    iintro ⟨⟨⟨HS, HR⟩, Hg⟩, Ho, ⟨%d0, H0⟩, ⟨%d1, H1⟩, ⟨%d2, H2⟩, ⟨%d3, H3⟩, ⟨%d4, H4⟩⟩
    iapply ((runFirst0 c (grid0.coords t) _ _ _ _ _ _ _ _ _ _ _ _ hf hl (blk0 V c 0 t) (blk0 V c 1 t) (blk0 V c 2 t) (blk0 V c 3 t)).2 _ Set.univ _)
    isplitl [H0]; · iexact H0
    isplitl [H1]; · iexact H1
    isplitl [H2]; · iexact H2
    isplitl [H3]; · iexact H3
    isplitl [H4]; · iexact H4
    isplitl [HS]; · iexact HS
    iintro ⟨H0, H1, H2, H3, H4, ⟨%es, HS⟩⟩
    isplitl [HS HR Hg]
    · isplitl [HS HR]
      · isplitl [HS]
        · unfold owns; iexists _; isplitr
          swap; · iexact HS
          ipureintro; exact View.read_writes_of_cover _ _ _ _ _ (accFirst0_cover c t hf hl _ _ _ _)
        iexact HR
      iexact Hg
    isplitl [Ho]; · iexact Ho
    isplitl [H0]; · iexact H0
    isplitl [H1]; · iexact H1
    isplitl [H2]; · iexact H2
    isplitl [H3]; · iexact H3
    iexists _; iexact H4
  · by_cases h63 : t.val = 63
    · -- the last point
      have hf : ¬isFirst0 (grid0.coords t) := fun h => h0 ((isFirst0_iff t).mp h)
      have hl : isLast0 (grid0.coords t) := (isLast0_iff t).mpr h63
      rw [show (dat0 V c).leavesExact 4 t = owns (c : Thread nD τ) (sb0_4 t) fullShare ((dat0 V c).after 4 t) from by
        unfold Dat.leavesExact; rw [live0_4 t hl], dat0_after_4]
      rw [outAt0_last V c t h63, accAt0_last V c t h0 h63]
      unfold accLast0 outLast0
      rw [dat0_inv_castSucc V c t, inv0_pos V c _ _ h0]
      iintro ⟨⟨⟨HS, HR⟩, Hg⟩, Ho, ⟨%d0, H0⟩, ⟨%d1, H1⟩, ⟨%d2, H2⟩, ⟨%d3, H3⟩, ⟨%d4, H4⟩⟩
      iapply ((runLast0 c (grid0.coords t) _ _ _ _ _ _ _ _ _ _ _ _ hf hl (blk0 V c 0 t) (blk0 V c 1 t) (blk0 V c 2 t) (blk0 V c 3 t) _).2.2 Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, ⟨%eo, H4⟩, ⟨%es, HS⟩⟩
      isplitl [HS HR Hg]
      · isplitl [HS HR]
        · isplitl [HS]
          · unfold owns; iexists _; isplitr
            swap; · iexact HS
            ipureintro; exact View.read_writes_of_cover _ _ _ _ _ (accLast0_cover c t hf hl _ _ _ _ _)
          iexact HR
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (outLast0_cover c t hf hl _ _ _ _ _)
    · -- a middle point
      have hf : ¬isFirst0 (grid0.coords t) := fun h => h0 ((isFirst0_iff t).mp h)
      have hl : ¬isLast0 (grid0.coords t) := fun h => h63 ((isLast0_iff t).mp h)
      rw [Dat.leavesExact_idle (dat0 V c) 4 t (idle0_4 t hl) (noflush0_4 t hl)]
      rw [accAt0_mid V c t h0 h63]
      unfold accMid0
      rw [dat0_inv_castSucc V c t, inv0_pos V c _ _ h0]
      iintro ⟨⟨⟨HS, HR⟩, Hg⟩, Ho, ⟨%d0, H0⟩, ⟨%d1, H1⟩, ⟨%d2, H2⟩, ⟨%d3, H3⟩, ⟨%d4, H4⟩⟩
      iapply ((runMid0 c (grid0.coords t) _ _ _ _ _ _ _ _ _ _ _ _ hf hl (blk0 V c 0 t) (blk0 V c 1 t) (blk0 V c 2 t) (blk0 V c 3 t) _).2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS HR Hg]
      · isplitl [HS HR]
        · isplitl [HS]
          · unfold owns; iexists _; isplitr
            swap; · iexact HS
            ipureintro; exact View.read_writes_of_cover _ _ _ _ _ (accMid0_cover c t hf hl _ _ _ _ _)
          iexact HR
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem obligation0 (c : Dev nD) : BodyObligation (dat0 (F := F) V c) (defs₀ (F := F)) Variants.none () Set.univ := fun t => by
  rw [bigSep_W0, bigSep_W0]
  exact sound0 V c t

/-- What the launch hands the region is the invariant before the first point. -/
theorem inv0_in (c : Dev nD) : Pipeline.ΦA spec0 c ⊢ (dat0 V c).Φ 0 := by
  rw [show (dat0 V c).Φ 0 = inv0 V c 0 (Nat.zero_le _) from rfl, inv0_zero V c 0 _ rfl]
  try exact Idealize.SL.BI.Entails.refl _

/-- After the last point the invariant gives back what the launch handed over: the accumulator's value is forgotten. -/
theorem inv0_out (c : Dev nD) : (dat0 V c).Φ (Fin.last cfg0.N) ⊢ Pipeline.ΦA spec0 c := by
  rw [show (dat0 V c).Φ (Fin.last cfg0.N) = inv0 V c (Fin.last cfg0.N).val (Nat.le_of_lt_succ (Fin.last cfg0.N).isLt) from rfl,
    inv0_pos V c _ _ (by rw [Fin.val_last]; have : cfg0.N = 64 := N0_eq; omega), entryInv0_eq]
  iintro ⟨⟨HS, HR⟩, Hg⟩
  isplitl [HS HR]
  · isplitl [HS]; · iexists _; iexact HS
    iexact HR
  iexact Hg

end Cert.Kernel.Hand

end
-- ==== Proof.KBody1.lean ====
/-
  The pairwise kernel of the second dense term, one grid point at a time.

  The grid is 8 × 8 tiles of 1024 × 1024 pairs.  At a point (i, j) the body reads a block of 1024 rows of
  each point set, a column block and a row block of the two bias vectors, forms the tile
  exp (bx r + by c − sqrt (max (‖x r‖² + ‖y c‖² − 2 ⟨x r, y c⟩, 0))) with no mask, sums the tile, and adds the sum into a one-entry accumulator that lives
  across the whole grid.  Three control cases exhaust the grid: the first point clears the accumulator
  before adding, a middle point only adds, the last point adds and then copies the accumulator into the
  one-entry result block.  This module runs the body once per case on arbitrary whole buffers.
-/
import proofs.«117720_j19447611916775_1_alg».proof.Proof.Gen.Kernel.Launch
import proofs.«117720_j19447611916775_1_alg».proof.Proof.Gen.Kernel.Skeleton
import proofs.«117720_j19447611916775_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions over the grid -/

/-- The accumulator is cleared exactly when both grid coordinates are zero. -/
abbrev isFirst1 (i : grid1.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1

/-- The result block is written exactly when both grid coordinates are seven. -/
abbrev isLast1 (i : grid1.Coords) : Prop := k1_cond2 i = 1#1

/-- In row-major order the first condition holds at point 0 only. -/
theorem isFirst1_iff : ∀ t : Fin cfg1.N, isFirst1 (grid1.coords t) ↔ t.val = 0 :=
  (by decide +kernel : ∀ t : Fin grid1.N, isFirst1 (grid1.coords t) ↔ t.val = 0)

/-- In row-major order the second condition holds at point 63 only. -/
theorem isLast1_iff : ∀ t : Fin cfg1.N, isLast1 (grid1.coords t) ↔ t.val = 63 :=
  (by decide +kernel : ∀ t : Fin grid1.N, isLast1 (grid1.coords t) ↔ t.val = 63)

/-! ## The body, case by case

Each run is stated on six whole buffers: four inputs at known contents, the result block, the accumulator.
What the body leaves in a buffer it stores into is a list of written pieces (last store first) that the
symbolic run itself produces; the later modules read those pieces back as values. -/

set_option maxHeartbeats 4000000 in
/-- FIRST POINT: the accumulator may hold anything on entry; the body clears it, adds the tile sum, and leaves
    the result block untouched. -/
noncomputable def runFirst1 (c : Dev nD) (i : grid1.Coords)
    (a2 : Memref sig .tc .vmem S1024x16 .f32) (h2 : a2.IsWhole) (a3 : Memref sig .tc .vmem S1024x16 .f32) (h3 : a3.IsWhole)
    (a4 : Memref sig .tc .vmem S1024x1 .f32) (h4 : a4.IsWhole) (a5 : Memref sig .tc .vmem S1x1024 .f32) (h5 : a5.IsWhole)
    (a6 : Memref sig .tc .vmem S1x1 .f32) (h6 : a6.IsWhole) (a7 : Memref sig .tc .vmem S1x1 .f32) (h7 : a7.IsWhole)
    (hf : isFirst1 i) (hl : ¬isLast1 i)
    (x0 : Vec F S1024x16 .f32) (x1 : Vec F S1024x16 .f32) (x2 : Vec F S1024x1 .f32) (x3 : Vec F S1x1024 .f32) :
    { LS : List (View.Piece (Elt F) S1x1 .f32) //
      ∀ (xo : Vec F S1x1 .f32) (E : Set ℕ) (K : PUnit → sProp 𝕄),
        iprop(owns (c : Thread nD τ) a2 fullShare x0 ∗ owns (c : Thread nD τ) a3 fullShare x1 ∗ owns (c : Thread nD τ) a4 fullShare x2
            ∗ owns (c : Thread nD τ) a5 fullShare x3 ∗ owns (c : Thread nD τ) a6 fullShare xo ∗ (∃ d, owns (c : Thread nD τ) a7 fullShare d)
            ∗ (iprop(owns (c : Thread nD τ) a2 fullShare x0 ∗ owns (c : Thread nD τ) a3 fullShare x1 ∗ owns (c : Thread nD τ) a4 fullShare x2
                ∗ owns (c : Thread nD τ) a5 fullShare x3 ∗ owns (c : Thread nD τ) a6 fullShare xo
                ∗ (∃ f, a7.view.loc (c : Thread nD τ) ↦[a7.view.set]{fullShare} a7.view.writes (Elt F) f LS)) -∗ K ⟨⟩))
          ⊢ wp frame (wpE (defs₀ (F := F)) Variants.none c none) E (cc1__pairwise_masked_sum_kernel i a2 h2 a3 h3 a4 h4 a5 h5 a6 h6 a7 h7) K } := by
  refine ⟨?_, fun xo E K => ?run⟩
  case run =>
    simp only [cc1__pairwise_masked_sum_kernel_eq_skeleton]; unfold cc1__pairwise_masked_sum_kernel_skel
    unfold owns
    iintro ⟨⟨%f0, %hf0, H0⟩, ⟨%f1, %hf1, H1⟩, ⟨%f2, %hf2, H2⟩, ⟨%f3, %hf3, H3⟩, ⟨%fo, %hfo, HO⟩, ⟨%ds, %fs, -, HS⟩, Hk⟩
    obtain rfl := h2.eq_unread hf0; obtain rfl := h3.eq_unread hf1; obtain rfl := h4.eq_unread hf2
    obtain rfl := h5.eq_unread hf3; obtain rfl := h6.eq_unread hfo
    sl_exec (disch := first | exact hf | exact hl)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [HO]
    · iexists _; isplitr; · ipureintro; exact h6.read_unread _
      iexact HO
    iexists _; iexact HS

set_option maxHeartbeats 4000000 in
/-- MIDDLE POINT: the accumulator holds `xs` on entry; the body adds the tile sum into it and leaves the result
    block untouched. -/
noncomputable def runMid1 (c : Dev nD) (i : grid1.Coords)
    (a2 : Memref sig .tc .vmem S1024x16 .f32) (h2 : a2.IsWhole) (a3 : Memref sig .tc .vmem S1024x16 .f32) (h3 : a3.IsWhole)
    (a4 : Memref sig .tc .vmem S1024x1 .f32) (h4 : a4.IsWhole) (a5 : Memref sig .tc .vmem S1x1024 .f32) (h5 : a5.IsWhole)
    (a6 : Memref sig .tc .vmem S1x1 .f32) (h6 : a6.IsWhole) (a7 : Memref sig .tc .vmem S1x1 .f32) (h7 : a7.IsWhole)
    (hf : ¬isFirst1 i) (hl : ¬isLast1 i)
    (x0 : Vec F S1024x16 .f32) (x1 : Vec F S1024x16 .f32) (x2 : Vec F S1024x1 .f32) (x3 : Vec F S1x1024 .f32) (xs : Vec F S1x1 .f32) :
    { LS : List (View.Piece (Elt F) S1x1 .f32) //
      ∀ (xo : Vec F S1x1 .f32) (E : Set ℕ) (K : PUnit → sProp 𝕄),
        iprop(owns (c : Thread nD τ) a2 fullShare x0 ∗ owns (c : Thread nD τ) a3 fullShare x1 ∗ owns (c : Thread nD τ) a4 fullShare x2
            ∗ owns (c : Thread nD τ) a5 fullShare x3 ∗ owns (c : Thread nD τ) a6 fullShare xo ∗ owns (c : Thread nD τ) a7 fullShare xs
            ∗ (iprop(owns (c : Thread nD τ) a2 fullShare x0 ∗ owns (c : Thread nD τ) a3 fullShare x1 ∗ owns (c : Thread nD τ) a4 fullShare x2
            ∗ owns (c : Thread nD τ) a5 fullShare x3 ∗ owns (c : Thread nD τ) a6 fullShare xo
                ∗ (∃ f, a7.view.loc (c : Thread nD τ) ↦[a7.view.set]{fullShare} a7.view.writes (Elt F) f LS)) -∗ K ⟨⟩))
          ⊢ wp frame (wpE (defs₀ (F := F)) Variants.none c none) E (cc1__pairwise_masked_sum_kernel i a2 h2 a3 h3 a4 h4 a5 h5 a6 h6 a7 h7) K } := by
  refine ⟨?_, fun xo E K => ?run⟩
  case run =>
    simp only [cc1__pairwise_masked_sum_kernel_eq_skeleton]; unfold cc1__pairwise_masked_sum_kernel_skel
    unfold owns
    iintro ⟨⟨%f0, %hf0, H0⟩, ⟨%f1, %hf1, H1⟩, ⟨%f2, %hf2, H2⟩, ⟨%f3, %hf3, H3⟩, ⟨%fo, %hfo, HO⟩, ⟨%fs, %hfs, HS⟩, Hk⟩
    obtain rfl := h2.eq_unread hf0; obtain rfl := h3.eq_unread hf1; obtain rfl := h4.eq_unread hf2
    obtain rfl := h5.eq_unread hf3; obtain rfl := h6.eq_unread hfo; obtain rfl := h7.eq_unread hfs
    sl_exec (disch := first | exact hf | exact hl)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [HO]
    · iexists _; isplitr; · ipureintro; exact h6.read_unread _
      iexact HO
    iexists _; iexact HS

set_option maxHeartbeats 4000000 in
/-- LAST POINT: the accumulator holds `xs` on entry; the body adds the tile sum into it and then copies it into the
    result block, whose earlier contents do not matter. -/
noncomputable def runLast1 (c : Dev nD) (i : grid1.Coords)
    (a2 : Memref sig .tc .vmem S1024x16 .f32) (h2 : a2.IsWhole) (a3 : Memref sig .tc .vmem S1024x16 .f32) (h3 : a3.IsWhole)
    (a4 : Memref sig .tc .vmem S1024x1 .f32) (h4 : a4.IsWhole) (a5 : Memref sig .tc .vmem S1x1024 .f32) (h5 : a5.IsWhole)
    (a6 : Memref sig .tc .vmem S1x1 .f32) (h6 : a6.IsWhole) (a7 : Memref sig .tc .vmem S1x1 .f32) (h7 : a7.IsWhole)
    (hf : ¬isFirst1 i) (hl : isLast1 i)
    (x0 : Vec F S1024x16 .f32) (x1 : Vec F S1024x16 .f32) (x2 : Vec F S1024x1 .f32) (x3 : Vec F S1x1024 .f32) (xs : Vec F S1x1 .f32) :
    Σ' (LO : List (View.Piece (Elt F) S1x1 .f32)), { LS : List (View.Piece (Elt F) S1x1 .f32) //
      ∀ (E : Set ℕ) (K : PUnit → sProp 𝕄),
        iprop(owns (c : Thread nD τ) a2 fullShare x0 ∗ owns (c : Thread nD τ) a3 fullShare x1 ∗ owns (c : Thread nD τ) a4 fullShare x2
            ∗ owns (c : Thread nD τ) a5 fullShare x3 ∗ (∃ d, owns (c : Thread nD τ) a6 fullShare d) ∗ owns (c : Thread nD τ) a7 fullShare xs
            ∗ (iprop(owns (c : Thread nD τ) a2 fullShare x0 ∗ owns (c : Thread nD τ) a3 fullShare x1 ∗ owns (c : Thread nD τ) a4 fullShare x2
            ∗ owns (c : Thread nD τ) a5 fullShare x3
                ∗ (∃ f, a6.view.loc (c : Thread nD τ) ↦[a6.view.set]{fullShare} a6.view.writes (Elt F) f LO)
                ∗ (∃ f, a7.view.loc (c : Thread nD τ) ↦[a7.view.set]{fullShare} a7.view.writes (Elt F) f LS)) -∗ K ⟨⟩))
          ⊢ wp frame (wpE (defs₀ (F := F)) Variants.none c none) E (cc1__pairwise_masked_sum_kernel i a2 h2 a3 h3 a4 h4 a5 h5 a6 h6 a7 h7) K } := by
  refine ⟨?_, ?_, fun E K => ?run⟩
  case run =>
    simp only [cc1__pairwise_masked_sum_kernel_eq_skeleton]; unfold cc1__pairwise_masked_sum_kernel_skel
    unfold owns
    iintro ⟨⟨%f0, %hf0, H0⟩, ⟨%f1, %hf1, H1⟩, ⟨%f2, %hf2, H2⟩, ⟨%f3, %hf3, H3⟩, ⟨%dO, %fo, -, HO⟩, ⟨%fs, %hfs, HS⟩, Hk⟩
    obtain rfl := h2.eq_unread hf0; obtain rfl := h3.eq_unread hf1; obtain rfl := h4.eq_unread hf2
    obtain rfl := h5.eq_unread hf3; obtain rfl := h7.eq_unread hfs
    sl_exec (disch := first | exact hf | exact hl)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [HO]; · iexists _; iexact HO
    iexists _; iexact HS

end Cert.Kernel.Hand

end
-- ==== Proof.KRegion1.lean ====
/-
  The second dense term's region as the pipeline runs it: 64 grid points in row-major order.

  The one-entry accumulator is a buffer of the kernel's own that no transfer touches, so what it holds after point n
  is a recursion on n: the first point's run over the blocks at point 0, then each later point's run over that
  point's blocks and what the point before left.  The result block's staging buffer is stored into at the last
  point only, and that is also the only point whose block is written back; everywhere else it is handed back as
  found.  The region's invariant is therefore: before the first point, every buffer of the kernel's own at
  anything; after point n, the accumulator at the recursion's value and the other such buffers at anything.
-/
import proofs.«117720_j19447611916775_1_alg».proof.Proof.KBody1
import Idealize.ShloMosaic.Lib.Pipeline.Frame

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- The buffer contents the region is entered with, per core: a parameter, fixed when the regions are composed.
variable (V : (c : Dev nD) → (b : Ref sig .tc) → Buf (Elt F) ((c : Thread nD τ).loc b))

/-! ## Blocks and buffers at a point -/

/-- Window `w`'s block at point `t` of the array the region finds. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The staging buffer each window is on at point `t`, as the pipeline passes it to the body. -/
abbrev sb1_0 (t : Fin cfg1.N) : Memref sig .tc .vmem S1024x16 .f32 := win1_0.stage (cfg1.slots t 0)
abbrev wb1_0 (t : Fin cfg1.N) : (sb1_0 t).IsWhole := hstage1_0 ((cfg1.slots t 0).cast nbuf1_0)
abbrev sb1_1 (t : Fin cfg1.N) : Memref sig .tc .vmem S1024x16 .f32 := win1_1.stage (cfg1.slots t 1)
abbrev wb1_1 (t : Fin cfg1.N) : (sb1_1 t).IsWhole := hstage1_1 ((cfg1.slots t 1).cast nbuf1_1)
abbrev sb1_2 (t : Fin cfg1.N) : Memref sig .tc .vmem S1024x1 .f32 := win1_2.stage (cfg1.slots t 2)
abbrev wb1_2 (t : Fin cfg1.N) : (sb1_2 t).IsWhole := hstage1_2 ((cfg1.slots t 2).cast nbuf1_2)
abbrev sb1_3 (t : Fin cfg1.N) : Memref sig .tc .vmem S1x1024 .f32 := win1_3.stage (cfg1.slots t 3)
abbrev wb1_3 (t : Fin cfg1.N) : (sb1_3 t).IsWhole := hstage1_3 ((cfg1.slots t 3).cast nbuf1_3)
abbrev sb1_4 (t : Fin cfg1.N) : Memref sig .tc .vmem S1x1 .f32 := win1_4.stage (cfg1.slots t 4)
abbrev wb1_4 (t : Fin cfg1.N) : (sb1_4 t).IsWhole := hstage1_4 ((cfg1.slots t 4).cast nbuf1_4)
/-- The accumulator. -/
abbrev acc1 : Memref sig .tc .vmem S1x1 .f32 := Memref.whole cc1_scratch0
abbrev accView1 : View sig .tc .vmem S1x1 .f32 := (acc1).view
abbrev outView1 : View sig .tc .vmem S1x1 .f32 := (Memref.whole cc1_stg4_0 : Memref sig .tc .vmem S1x1 .f32).view

/-! ## What each case leaves, read back as a value -/

section Cases
variable (c : Dev nD) (t : Fin cfg1.N)

/-- The accumulator after the first point: the first run's pieces read back. -/
def accFirst1 (hf : isFirst1 (grid1.coords t)) (hl : ¬isLast1 (grid1.coords t))
    (x0 : Vec F S1024x16 .f32) (x1 : Vec F S1024x16 .f32) (x2 : Vec F S1024x1 .f32) (x3 : Vec F S1x1024 .f32) : Vec F S1x1 .f32 :=
  accView1.read (Elt F) (accView1.writes (Elt F) accView1.junk
    (runFirst1 c (grid1.coords t) (sb1_0 t) (wb1_0 t) (sb1_1 t) (wb1_1 t) (sb1_2 t) (wb1_2 t) (sb1_3 t) (wb1_3 t) (sb1_4 t) (wb1_4 t) acc1 (Memref.isWhole_whole _) hf hl x0 x1 x2 x3).1)

theorem accFirst1_cover (hf : isFirst1 (grid1.coords t)) (hl : ¬isLast1 (grid1.coords t))
    (x0 : Vec F S1024x16 .f32) (x1 : Vec F S1024x16 .f32) (x2 : Vec F S1024x1 .f32) (x3 : Vec F S1x1024 .f32) (y : S1x1.Idx) :
    ∃ pc ∈ (runFirst1 c (grid1.coords t) (sb1_0 t) (wb1_0 t) (sb1_1 t) (wb1_1 t) (sb1_2 t) (wb1_2 t) (sb1_3 t) (wb1_3 t) (sb1_4 t) (wb1_4 t) acc1 (Memref.isWhole_whole _) hf hl x0 x1 x2 x3).1, y ∈ pc.1.set :=
  View.cover_of_tiledL _ S1x1.size (by sl_kernel_rfl) y

/-- The accumulator after a middle point, from what the point before left. -/
def accMid1 (hf : ¬isFirst1 (grid1.coords t)) (hl : ¬isLast1 (grid1.coords t))
    (x0 : Vec F S1024x16 .f32) (x1 : Vec F S1024x16 .f32) (x2 : Vec F S1024x1 .f32) (x3 : Vec F S1x1024 .f32) (xs : Vec F S1x1 .f32) : Vec F S1x1 .f32 :=
  accView1.read (Elt F) (accView1.writes (Elt F) accView1.junk
    (runMid1 c (grid1.coords t) (sb1_0 t) (wb1_0 t) (sb1_1 t) (wb1_1 t) (sb1_2 t) (wb1_2 t) (sb1_3 t) (wb1_3 t) (sb1_4 t) (wb1_4 t) acc1 (Memref.isWhole_whole _) hf hl x0 x1 x2 x3 xs).1)

theorem accMid1_cover (hf : ¬isFirst1 (grid1.coords t)) (hl : ¬isLast1 (grid1.coords t))
    (x0 : Vec F S1024x16 .f32) (x1 : Vec F S1024x16 .f32) (x2 : Vec F S1024x1 .f32) (x3 : Vec F S1x1024 .f32) (xs : Vec F S1x1 .f32) (y : S1x1.Idx) :
    ∃ pc ∈ (runMid1 c (grid1.coords t) (sb1_0 t) (wb1_0 t) (sb1_1 t) (wb1_1 t) (sb1_2 t) (wb1_2 t) (sb1_3 t) (wb1_3 t) (sb1_4 t) (wb1_4 t) acc1 (Memref.isWhole_whole _) hf hl x0 x1 x2 x3 xs).1, y ∈ pc.1.set :=
  View.cover_of_tiledL _ S1x1.size (by sl_kernel_rfl) y

/-- The accumulator after the last point. -/
def accLast1 (hf : ¬isFirst1 (grid1.coords t)) (hl : isLast1 (grid1.coords t))
    (x0 : Vec F S1024x16 .f32) (x1 : Vec F S1024x16 .f32) (x2 : Vec F S1024x1 .f32) (x3 : Vec F S1x1024 .f32) (xs : Vec F S1x1 .f32) : Vec F S1x1 .f32 :=
  accView1.read (Elt F) (accView1.writes (Elt F) accView1.junk
    (runLast1 c (grid1.coords t) (sb1_0 t) (wb1_0 t) (sb1_1 t) (wb1_1 t) (sb1_2 t) (wb1_2 t) (sb1_3 t) (wb1_3 t) (sb1_4 t) (wb1_4 t) acc1 (Memref.isWhole_whole _) hf hl x0 x1 x2 x3 xs).2.1)

theorem accLast1_cover (hf : ¬isFirst1 (grid1.coords t)) (hl : isLast1 (grid1.coords t))
    (x0 : Vec F S1024x16 .f32) (x1 : Vec F S1024x16 .f32) (x2 : Vec F S1024x1 .f32) (x3 : Vec F S1x1024 .f32) (xs : Vec F S1x1 .f32) (y : S1x1.Idx) :
    ∃ pc ∈ (runLast1 c (grid1.coords t) (sb1_0 t) (wb1_0 t) (sb1_1 t) (wb1_1 t) (sb1_2 t) (wb1_2 t) (sb1_3 t) (wb1_3 t) (sb1_4 t) (wb1_4 t) acc1 (Memref.isWhole_whole _) hf hl x0 x1 x2 x3 xs).2.1, y ∈ pc.1.set :=
  View.cover_of_tiledL _ S1x1.size (by sl_kernel_rfl) y

/-- The result block's staging buffer after the last point. -/
def outLast1 (hf : ¬isFirst1 (grid1.coords t)) (hl : isLast1 (grid1.coords t))
    (x0 : Vec F S1024x16 .f32) (x1 : Vec F S1024x16 .f32) (x2 : Vec F S1024x1 .f32) (x3 : Vec F S1x1024 .f32) (xs : Vec F S1x1 .f32) : Vec F S1x1 .f32 :=
  outView1.read (Elt F) (outView1.writes (Elt F) outView1.junk
    (runLast1 c (grid1.coords t) (sb1_0 t) (wb1_0 t) (sb1_1 t) (wb1_1 t) (sb1_2 t) (wb1_2 t) (sb1_3 t) (wb1_3 t) (sb1_4 t) (wb1_4 t) acc1 (Memref.isWhole_whole _) hf hl x0 x1 x2 x3 xs).1)

theorem outLast1_cover (hf : ¬isFirst1 (grid1.coords t)) (hl : isLast1 (grid1.coords t))
    (x0 : Vec F S1024x16 .f32) (x1 : Vec F S1024x16 .f32) (x2 : Vec F S1024x1 .f32) (x3 : Vec F S1x1024 .f32) (xs : Vec F S1x1 .f32) (y : S1x1.Idx) :
    ∃ pc ∈ (runLast1 c (grid1.coords t) (sb1_0 t) (wb1_0 t) (sb1_1 t) (wb1_1 t) (sb1_2 t) (wb1_2 t) (sb1_3 t) (wb1_3 t) (sb1_4 t) (wb1_4 t) acc1 (Memref.isWhole_whole _) hf hl x0 x1 x2 x3 xs).1, y ∈ pc.1.set :=
  View.cover_of_tiledL _ S1x1.size (by sl_kernel_rfl) y

end Cases

/-! ## The accumulator and the result block, point by point -/

/-- The grid has 64 points. -/
theorem N1_eq : cfg1.N = 64 := N_1

/-- What the accumulator holds after the body at point `n`: the first run at point 0, then at each later point that
    point's run over what the point before left — the last point's run at point 63, a middle run elsewhere. -/
def accAt1 (c : Dev nD) : (n : ℕ) → n < cfg1.N → Vec F S1x1 .f32
  | 0, hn => accFirst1 c ⟨0, hn⟩ ((isFirst1_iff ⟨0, hn⟩).mpr rfl) (fun h => absurd ((isLast1_iff ⟨0, hn⟩).mp h) (by show ¬ (0 : ℕ) = 63; omega))
      (blk1 V c 0 ⟨0, hn⟩) (blk1 V c 1 ⟨0, hn⟩) (blk1 V c 2 ⟨0, hn⟩) (blk1 V c 3 ⟨0, hn⟩)
  | n + 1, hn =>
    if hl : n + 1 = 63 then
      accLast1 c ⟨n + 1, hn⟩ (fun h => absurd ((isFirst1_iff ⟨n + 1, hn⟩).mp h) (Nat.succ_ne_zero n)) ((isLast1_iff ⟨n + 1, hn⟩).mpr hl)
        (blk1 V c 0 ⟨n + 1, hn⟩) (blk1 V c 1 ⟨n + 1, hn⟩) (blk1 V c 2 ⟨n + 1, hn⟩) (blk1 V c 3 ⟨n + 1, hn⟩) (accAt1 c n (Nat.lt_of_succ_lt hn))
    else
      accMid1 c ⟨n + 1, hn⟩ (fun h => absurd ((isFirst1_iff ⟨n + 1, hn⟩).mp h) (Nat.succ_ne_zero n)) (fun h => hl ((isLast1_iff ⟨n + 1, hn⟩).mp h))
        (blk1 V c 0 ⟨n + 1, hn⟩) (blk1 V c 1 ⟨n + 1, hn⟩) (blk1 V c 2 ⟨n + 1, hn⟩) (blk1 V c 3 ⟨n + 1, hn⟩) (accAt1 c n (Nat.lt_of_succ_lt hn))

/-- The recursion at the first point. -/
theorem accAt1_first (c : Dev nD) (t : Fin cfg1.N) (h0 : t.val = 0) :
    accAt1 V c t.val t.isLt = accFirst1 c t ((isFirst1_iff t).mpr h0) (fun h => absurd ((isLast1_iff t).mp h) (by omega))
      (blk1 V c 0 t) (blk1 V c 1 t) (blk1 V c 2 t) (blk1 V c 3 t) := by
  obtain ⟨n, hn⟩ := t
  cases n with
  | zero => rfl
  | succ n => exact absurd h0 (Nat.succ_ne_zero n)

/-- The recursion at a middle point. -/
theorem accAt1_mid (c : Dev nD) (t : Fin cfg1.N) (h0 : t.val ≠ 0) (hl : t.val ≠ 63) :
    accAt1 V c t.val t.isLt = accMid1 c t (fun h => h0 ((isFirst1_iff t).mp h)) (fun h => hl ((isLast1_iff t).mp h))
      (blk1 V c 0 t) (blk1 V c 1 t) (blk1 V c 2 t) (blk1 V c 3 t) (accAt1 V c (t.val - 1) (Nat.lt_of_le_of_lt (Nat.sub_le _ _) t.isLt)) := by
  obtain ⟨n, hn⟩ := t
  cases n with
  | zero => exact absurd rfl h0
  | succ n => exact (dif_neg hl).trans rfl

/-- The recursion at the last point. -/
theorem accAt1_last (c : Dev nD) (t : Fin cfg1.N) (h0 : t.val ≠ 0) (hl : t.val = 63) :
    accAt1 V c t.val t.isLt = accLast1 c t (fun h => h0 ((isFirst1_iff t).mp h)) ((isLast1_iff t).mpr hl)
      (blk1 V c 0 t) (blk1 V c 1 t) (blk1 V c 2 t) (blk1 V c 3 t) (accAt1 V c (t.val - 1) (Nat.lt_of_le_of_lt (Nat.sub_le _ _) t.isLt)) := by
  obtain ⟨n, hn⟩ := t
  cases n with
  | zero => exact absurd rfl h0
  | succ n => exact (dif_pos hl).trans rfl

/-- What the result block's staging buffer holds after the body at point `n`: the last run's store at point 63; at
    the other points the buffer is not stored into and the value below is never consulted. -/
def outAt1 (c : Dev nD) (n : ℕ) (hn : n < cfg1.N) : Vec F S1x1 .f32 :=
  if hl : n = 63 then
    outLast1 c ⟨n, hn⟩ (fun h => absurd ((isFirst1_iff ⟨n, hn⟩).mp h) (by show ¬ n = 0; omega)) ((isLast1_iff ⟨n, hn⟩).mpr hl)
      (blk1 V c 0 ⟨n, hn⟩) (blk1 V c 1 ⟨n, hn⟩) (blk1 V c 2 ⟨n, hn⟩) (blk1 V c 3 ⟨n, hn⟩) (accAt1 V c (n - 1) (Nat.lt_of_le_of_lt (Nat.sub_le _ _) hn))
  else accAt1 V c n hn

theorem outAt1_last (c : Dev nD) (t : Fin cfg1.N) (hl : t.val = 63) :
    outAt1 V c t.val t.isLt = outLast1 c t (fun h => absurd ((isFirst1_iff t).mp h) (by omega)) ((isLast1_iff t).mpr hl)
      (blk1 V c 0 t) (blk1 V c 1 t) (blk1 V c 2 t) (blk1 V c 3 t) (accAt1 V c (t.val - 1) (Nat.lt_of_le_of_lt (Nat.sub_le _ _) t.isLt)) := by
  unfold outAt1; exact dif_pos hl

/-! ## The invariant -/

/-- The kernel's own buffers (the first region's staging buffers and accumulator, each at some contents) around this
    region's accumulator, which comes last among them and holds `P`. -/
def around1 (c : Dev nD) (P : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_scratch0), ((c : Thread nD τ).loc cc0_scratch0) ↦{fullShare} f) ∗ P)

/-- What the launch hands the region, with the accumulator singled out. -/
theorem entryInv1_eq (c : Dev nD) :
    (Pipeline.ΦA spec1 c : sProp 𝕄)
      = iprop(around1 (F := F) c iprop(∃ d, owns (c : Thread nD τ) acc1 fullShare d) ∗ (∃ r, prngReg c r)) := by
  unfold Pipeline.ΦA around1; rw [scopedRest1_eq]; simp only [acc1, owns_whole]; try rfl

/-- The accumulator's contents may be replaced inside the product. -/
theorem around1_mono (c : Dev nD) (P Q : sProp 𝕄) (h : P ⊢ Q) : around1 (F := F) c P ⊢ around1 (F := F) c Q := by
  unfold around1
  iintro ⟨H0, H1, H2, H3, H4, H5, H6, H7, H8, H9, HP⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iapply h; iexact HP

/-- The accumulator at known contents is the accumulator at some contents. -/
theorem acc1_some (c : Dev nD) (x : Vec F S1x1 .f32) :
    (owns (c : Thread nD τ) acc1 fullShare x : sProp 𝕄) ⊢ iprop(∃ d, owns (c : Thread nD τ) acc1 fullShare d) := by
  iintro HS; iexists _; iexact HS

/-- The invariant before position `n`. -/
def inv1 (c : Dev nD) : (n : ℕ) → n ≤ cfg1.N → sProp 𝕄
  | 0, _ => Pipeline.ΦA spec1 c
  | n + 1, hn => iprop(around1 (F := F) c (owns (c : Thread nD τ) acc1 fullShare (accAt1 V c n hn)) ∗ (∃ r, prngReg c r))

theorem inv1_zero (c : Dev nD) (n : ℕ) (h : n ≤ cfg1.N) (hz : n = 0) : inv1 V c n h = Pipeline.ΦA spec1 c := by
  subst hz; rfl

theorem inv1_succ (c : Dev nD) (n : ℕ) (hn : n < cfg1.N) :
    inv1 V c (n + 1) hn = iprop(around1 (F := F) c (owns (c : Thread nD τ) acc1 fullShare (accAt1 V c n hn)) ∗ (∃ r, prngReg c r)) := rfl

theorem inv1_pos (c : Dev nD) (n : ℕ) (h : n ≤ cfg1.N) (hz : n ≠ 0) :
    inv1 V c n h = iprop(around1 (F := F) c (owns (c : Thread nD τ) acc1 fullShare (accAt1 V c (n - 1) (by omega))) ∗ (∃ r, prngReg c r)) := by
  cases n with
  | zero => exact absurd rfl hz
  | succ n => rfl

/-! ## The proof data -/

/-- The region's proof data on core `c`: the arrays as found; after the body each input buffer still at its block,
    the result block's buffer at `outAt1`; the invariant `inv1`; nothing owed; full shares. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => outAt1 V c t.val t.isLt
  Φ t := inv1 V c t.val (Nat.le_of_lt_succ t.isLt)
  q _ := fullShare
  owed _ := 0

theorem dat1_A (c : Dev nD) (w : Fin cfg1.W) : (dat1 V c).A w = V c (Pipeline.arrRef spec1 w) := by
  dsimp only [dat1]

theorem dat1_inv_castSucc (c : Dev nD) (t : Fin cfg1.N) :
    (dat1 V c).Φ t.castSucc = inv1 V c t.val (Nat.le_of_lt t.isLt) := by
  dsimp only [dat1]; simp only [Fin.coe_castSucc]

theorem dat1_after_0 (c : Dev nD) (t : Fin cfg1.N) : (dat1 V c).after 0 t = blk1 V c 0 t := by dsimp only [dat1]
theorem dat1_after_1 (c : Dev nD) (t : Fin cfg1.N) : (dat1 V c).after 1 t = blk1 V c 1 t := by dsimp only [dat1]
theorem dat1_after_2 (c : Dev nD) (t : Fin cfg1.N) : (dat1 V c).after 2 t = blk1 V c 2 t := by dsimp only [dat1]
theorem dat1_after_3 (c : Dev nD) (t : Fin cfg1.N) : (dat1 V c).after 3 t = blk1 V c 3 t := by dsimp only [dat1]
theorem dat1_after_4 (c : Dev nD) (t : Fin cfg1.N) : (dat1 V c).after 4 t = outAt1 V c t.val t.isLt := by dsimp only [dat1]

/-- An input buffer holds its window's block at every point, fetched there or not: where a window is not fetched its
    block index has not moved since the last fetch. -/
theorem dat1_before_0 (c : Dev nD) (t : Fin cfg1.N) (d) : (dat1 V c).before 0 t d = blk1 V c 0 t :=
  ((dat1 V c).before_in_eq_fetched 0 rfl (fun _ => rfl) (fun _ _ _ => rfl) (fun t => by rw [dat1_after_0]; unfold Dat.blockOf blk1; rw [dat1_A]; try rfl) t d).trans
    (by unfold Dat.fetched Dat.blockOf blk1; rw [dat1_A]; try rfl)
theorem dat1_before_1 (c : Dev nD) (t : Fin cfg1.N) (d) : (dat1 V c).before 1 t d = blk1 V c 1 t :=
  ((dat1 V c).before_in_eq_fetched 1 rfl (fun _ => rfl) (fun _ _ _ => rfl) (fun t => by rw [dat1_after_1]; unfold Dat.blockOf blk1; rw [dat1_A]; try rfl) t d).trans
    (by unfold Dat.fetched Dat.blockOf blk1; rw [dat1_A]; try rfl)
theorem dat1_before_2 (c : Dev nD) (t : Fin cfg1.N) (d) : (dat1 V c).before 2 t d = blk1 V c 2 t :=
  ((dat1 V c).before_in_eq_fetched 2 rfl (fun _ => rfl) (fun _ _ _ => rfl) (fun t => by rw [dat1_after_2]; unfold Dat.blockOf blk1; rw [dat1_A]; try rfl) t d).trans
    (by unfold Dat.fetched Dat.blockOf blk1; rw [dat1_A]; try rfl)
theorem dat1_before_3 (c : Dev nD) (t : Fin cfg1.N) (d) : (dat1 V c).before 3 t d = blk1 V c 3 t :=
  ((dat1 V c).before_in_eq_fetched 3 rfl (fun _ => rfl) (fun _ _ _ => rfl) (fun t => by rw [dat1_after_3]; unfold Dat.blockOf blk1; rw [dat1_A]; try rfl) t d).trans
    (by unfold Dat.fetched Dat.blockOf blk1; rw [dat1_A]; try rfl)

/-! ## Where the result block is live -/

/-- An input window is never idle. -/
theorem live1_0 : ∀ t : Fin cfg1.N, cfg1.idle 0 (grid1.coords t) = false := by decide +kernel
theorem live1_1 : ∀ t : Fin cfg1.N, cfg1.idle 1 (grid1.coords t) = false := by decide +kernel
theorem live1_2 : ∀ t : Fin cfg1.N, cfg1.idle 2 (grid1.coords t) = false := by decide +kernel
theorem live1_3 : ∀ t : Fin cfg1.N, cfg1.idle 3 (grid1.coords t) = false := by decide +kernel
/-- Away from the last point the result block is idle and is not written back. -/
theorem idle1_4 : ∀ t : Fin cfg1.N, ¬isLast1 (grid1.coords t) → cfg1.idle 4 (grid1.coords t) = true := by decide +kernel
theorem noflush1_4 : ∀ t : Fin cfg1.N, ¬isLast1 (grid1.coords t) → (cfg1.win 4).flush t = false := by decide +kernel
/-- At the last point it is live. -/
theorem live1_4 : ∀ t : Fin cfg1.N, isLast1 (grid1.coords t) → cfg1.idle 4 (grid1.coords t) = false := by decide +kernel

/-! ## The body obligation -/

/-- What the body is called with at point `t`, the windows one by one, -/
def pre1 (c : Dev nD) (t : Fin cfg1.N) : sProp 𝕄 :=
  iprop((dat1 V c).Φ t.castSucc ∗ (dat1 V c).owesAt () t.castSucc
    ∗ (∃ d, owns (c : Thread nD τ) (sb1_0 t) fullShare ((dat1 V c).before 0 t d))
    ∗ (∃ d, owns (c : Thread nD τ) (sb1_1 t) fullShare ((dat1 V c).before 1 t d))
    ∗ (∃ d, owns (c : Thread nD τ) (sb1_2 t) fullShare ((dat1 V c).before 2 t d))
    ∗ (∃ d, owns (c : Thread nD τ) (sb1_3 t) fullShare ((dat1 V c).before 3 t d))
    ∗ (∃ d, owns (c : Thread nD τ) (sb1_4 t) fullShare ((dat1 V c).before 4 t d)))

/-- and what it returns. -/
def post1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t
    ∗ (dat1 V c).leavesExact 3 t ∗ (dat1 V c).leavesExact 4 t)

theorem leaves1_0 (c : Dev nD) (t : Fin cfg1.N) : (dat1 V c).leavesExact 0 t = owns (c : Thread nD τ) (sb1_0 t) fullShare (blk1 V c 0 t) := by
  unfold Dat.leavesExact; rw [live1_0 t, dat1_after_0]
theorem leaves1_1 (c : Dev nD) (t : Fin cfg1.N) : (dat1 V c).leavesExact 1 t = owns (c : Thread nD τ) (sb1_1 t) fullShare (blk1 V c 1 t) := by
  unfold Dat.leavesExact; rw [live1_1 t, dat1_after_1]
theorem leaves1_2 (c : Dev nD) (t : Fin cfg1.N) : (dat1 V c).leavesExact 2 t = owns (c : Thread nD τ) (sb1_2 t) fullShare (blk1 V c 2 t) := by
  unfold Dat.leavesExact; rw [live1_2 t, dat1_after_2]
theorem leaves1_3 (c : Dev nD) (t : Fin cfg1.N) : (dat1 V c).leavesExact 3 t = owns (c : Thread nD τ) (sb1_3 t) fullShare (blk1 V c 3 t) := by
  unfold Dat.leavesExact; rw [live1_3 t, dat1_after_3]

set_option maxHeartbeats 4000000 in
/-- The body at any point: the inputs' buffers hold their blocks; the closed forms of the two conditions say which case
    the point is in; the invariant hands the body the accumulator at what the point before left (at anything at the
    first point) and takes it back at this point's value; the core owes nothing throughout. -/
theorem sound1 (c : Dev nD) (t : Fin cfg1.N) :
    pre1 V c t ⊢ wp frame (wpE (defs₀ (F := F)) Variants.none c none) Set.univ (bodyAt1 t) (fun _ => post1 V c t) := by
  unfold pre1 post1 bodyAt1
  simp only [dat1_before_0, dat1_before_1, dat1_before_2, dat1_before_3]
  rw [show (dat1 V c).owesAt () t.succ = (dat1 V c).owesAt () t.castSucc from rfl]
  rw [show (dat1 V c).Φ t.succ = inv1 V c (t.val + 1) t.isLt from rfl, inv1_succ]
  rw [leaves1_0, leaves1_1, leaves1_2, leaves1_3]
  have hN : t.val < 64 := lt_of_lt_of_eq t.isLt N1_eq
  by_cases h0 : t.val = 0
  · -- the first point
    have hf : isFirst1 (grid1.coords t) := (isFirst1_iff t).mpr h0
    have hl : ¬isLast1 (grid1.coords t) := fun h => absurd ((isLast1_iff t).mp h) (by omega)
    rw [Dat.leavesExact_idle (dat1 V c) 4 t (idle1_4 t hl) (noflush1_4 t hl)]
    rw [accAt1_first V c t h0]
    unfold accFirst1
    rw [dat1_inv_castSucc V c t, inv1_zero V c _ _ h0, entryInv1_eq]
    unfold around1
    iintro ⟨⟨⟨K0, K1, K2, K3, K4, K5, K6, K7, K8, K9, HS⟩, Hg⟩, Ho, ⟨%d0, H0⟩, ⟨%d1, H1⟩, ⟨%d2, H2⟩, ⟨%d3, H3⟩, ⟨%d4, H4⟩⟩
    iapply ((runFirst1 c (grid1.coords t) _ _ _ _ _ _ _ _ _ _ _ _ hf hl (blk1 V c 0 t) (blk1 V c 1 t) (blk1 V c 2 t) (blk1 V c 3 t)).2 _ Set.univ _)
    isplitl [H0]; · iexact H0
    isplitl [H1]; · iexact H1
    isplitl [H2]; · iexact H2
    isplitl [H3]; · iexact H3
    isplitl [H4]; · iexact H4
    isplitl [HS]; · iexact HS
    iintro ⟨H0, H1, H2, H3, H4, ⟨%es, HS⟩⟩
    isplitl [K0 K1 K2 K3 K4 K5 K6 K7 K8 K9 HS Hg]
    · isplitl [K0 K1 K2 K3 K4 K5 K6 K7 K8 K9 HS]
      · isplitl [K0]; · iexact K0
        isplitl [K1]; · iexact K1
        isplitl [K2]; · iexact K2
        isplitl [K3]; · iexact K3
        isplitl [K4]; · iexact K4
        isplitl [K5]; · iexact K5
        isplitl [K6]; · iexact K6
        isplitl [K7]; · iexact K7
        isplitl [K8]; · iexact K8
        isplitl [K9]; · iexact K9
        unfold owns; iexists _; isplitr
        swap; · iexact HS
        ipureintro; exact View.read_writes_of_cover _ _ _ _ _ (accFirst1_cover c t hf hl _ _ _ _)
      iexact Hg
    isplitl [Ho]; · iexact Ho
    isplitl [H0]; · iexact H0
    isplitl [H1]; · iexact H1
    isplitl [H2]; · iexact H2
    isplitl [H3]; · iexact H3
    iexists _; iexact H4
  · by_cases h63 : t.val = 63
    · -- the last point
      have hf : ¬isFirst1 (grid1.coords t) := fun h => h0 ((isFirst1_iff t).mp h)
      have hl : isLast1 (grid1.coords t) := (isLast1_iff t).mpr h63
      rw [show (dat1 V c).leavesExact 4 t = owns (c : Thread nD τ) (sb1_4 t) fullShare ((dat1 V c).after 4 t) from by
        unfold Dat.leavesExact; rw [live1_4 t hl], dat1_after_4]
      rw [outAt1_last V c t h63, accAt1_last V c t h0 h63]
      unfold accLast1 outLast1
      rw [dat1_inv_castSucc V c t, inv1_pos V c _ _ h0]
      unfold around1
      iintro ⟨⟨⟨K0, K1, K2, K3, K4, K5, K6, K7, K8, K9, HS⟩, Hg⟩, Ho, ⟨%d0, H0⟩, ⟨%d1, H1⟩, ⟨%d2, H2⟩, ⟨%d3, H3⟩, ⟨%d4, H4⟩⟩
      iapply ((runLast1 c (grid1.coords t) _ _ _ _ _ _ _ _ _ _ _ _ hf hl (blk1 V c 0 t) (blk1 V c 1 t) (blk1 V c 2 t) (blk1 V c 3 t) _).2.2 Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, ⟨%eo, H4⟩, ⟨%es, HS⟩⟩
      isplitl [K0 K1 K2 K3 K4 K5 K6 K7 K8 K9 HS Hg]
      · isplitl [K0 K1 K2 K3 K4 K5 K6 K7 K8 K9 HS]
        · isplitl [K0]; · iexact K0
          isplitl [K1]; · iexact K1
          isplitl [K2]; · iexact K2
          isplitl [K3]; · iexact K3
          isplitl [K4]; · iexact K4
          isplitl [K5]; · iexact K5
          isplitl [K6]; · iexact K6
          isplitl [K7]; · iexact K7
          isplitl [K8]; · iexact K8
          isplitl [K9]; · iexact K9
          unfold owns; iexists _; isplitr
          swap; · iexact HS
          ipureintro; exact View.read_writes_of_cover _ _ _ _ _ (accLast1_cover c t hf hl _ _ _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (outLast1_cover c t hf hl _ _ _ _ _)
    · -- a middle point
      have hf : ¬isFirst1 (grid1.coords t) := fun h => h0 ((isFirst1_iff t).mp h)
      have hl : ¬isLast1 (grid1.coords t) := fun h => h63 ((isLast1_iff t).mp h)
      rw [Dat.leavesExact_idle (dat1 V c) 4 t (idle1_4 t hl) (noflush1_4 t hl)]
      rw [accAt1_mid V c t h0 h63]
      unfold accMid1
      rw [dat1_inv_castSucc V c t, inv1_pos V c _ _ h0]
      unfold around1
      iintro ⟨⟨⟨K0, K1, K2, K3, K4, K5, K6, K7, K8, K9, HS⟩, Hg⟩, Ho, ⟨%d0, H0⟩, ⟨%d1, H1⟩, ⟨%d2, H2⟩, ⟨%d3, H3⟩, ⟨%d4, H4⟩⟩
      iapply ((runMid1 c (grid1.coords t) _ _ _ _ _ _ _ _ _ _ _ _ hf hl (blk1 V c 0 t) (blk1 V c 1 t) (blk1 V c 2 t) (blk1 V c 3 t) _).2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [K0 K1 K2 K3 K4 K5 K6 K7 K8 K9 HS Hg]
      · isplitl [K0 K1 K2 K3 K4 K5 K6 K7 K8 K9 HS]
        · isplitl [K0]; · iexact K0
          isplitl [K1]; · iexact K1
          isplitl [K2]; · iexact K2
          isplitl [K3]; · iexact K3
          isplitl [K4]; · iexact K4
          isplitl [K5]; · iexact K5
          isplitl [K6]; · iexact K6
          isplitl [K7]; · iexact K7
          isplitl [K8]; · iexact K8
          isplitl [K9]; · iexact K9
          unfold owns; iexists _; isplitr
          swap; · iexact HS
          ipureintro; exact View.read_writes_of_cover _ _ _ _ _ (accMid1_cover c t hf hl _ _ _ _ _)
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem obligation1 (c : Dev nD) : BodyObligation (dat1 (F := F) V c) (defs₀ (F := F)) Variants.none () Set.univ := fun t => by
  rw [bigSep_W1, bigSep_W1]
  exact sound1 V c t

/-- What the launch hands the region is the invariant before the first point. -/
theorem inv1_in (c : Dev nD) : Pipeline.ΦA spec1 c ⊢ (dat1 V c).Φ 0 := by
  rw [show (dat1 V c).Φ 0 = inv1 V c 0 (Nat.zero_le _) from rfl, inv1_zero V c 0 _ rfl]
  try exact Idealize.SL.BI.Entails.refl _

/-- After the last point the invariant gives back what the launch handed over: the accumulator's value is forgotten. -/
theorem inv1_out (c : Dev nD) : (dat1 V c).Φ (Fin.last cfg1.N) ⊢ Pipeline.ΦA spec1 c := by
  rw [show (dat1 V c).Φ (Fin.last cfg1.N) = inv1 V c (Fin.last cfg1.N).val (Nat.le_of_lt_succ (Fin.last cfg1.N).isLt) from rfl,
    inv1_pos V c _ _ (by rw [Fin.val_last]; have : cfg1.N = 64 := N1_eq; omega), entryInv1_eq]
  exact sep_mono (around1_mono (F := F) c _ _ (acc1_some c _)) .rfl

end Cert.Kernel.Hand

end
-- ==== Proof.KRun.lean ====
/-
  The whole program as a sequence of nine segments: the host operations that gather the three point sets and the four
  bias vectors, the first dense region, three host operations that shape its result and the second region's biases,
  the second dense region, and five stretches of host operations that form the two edge terms and combine everything
  into the one result.

  Between two segments a core holds every buffer that outlives a region at named contents.  A host stretch moves the
  contents forward by its operations; a region replaces the contents of its five windows' arrays by what its
  write-backs leave and keeps every other buffer.  No operation and no write-back touches an argument, so every
  argument ends as launched; and every other buffer's final contents are a named function of the launch memory.
-/
import proofs.«117720_j19447611916775_1_alg».proof.Proof.KRegion0
import proofs.«117720_j19447611916775_1_alg».proof.Proof.KRegion1
import Idealize.ShloMosaic.Lib.Pipeline.RegionsLoop
import Idealize.ShloMosaic.Lib.Pipeline.FrameSuffix

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each host stretch writes -/

/-- The references `hostOps0` writes, in order. -/
abbrev hostOps0_W : List (Ref sig .tc) := [main_c, main_v0, main_v1, main_c_0, main_v2, main_v3, main_v4, main_v5, main_v6, main_c_1, main_v7, main_v8, main_c_2, main_v9, main_v10, main_v11, main_v12, main_v13, main_c_3, main_v14, main_v15, main_c_4, main_v16, main_v17, main_c_5, main_v18, main_v19, main_v20, main_v21, main_v22, main_c_6, main_v23, main_v24, main_c_7, main_v25, main_v26, main_v27, main_v28, main_v29, main_c_8, main_v30, main_v31, main_c_9, main_v32, main_v33, main_c_10, main_v34, main_v35, main_v36, main_v37, main_v38, main_c_11, main_v39, main_v40, main_c_12, main_v41, main_v42, main_v43, main_v44, main_v45, main_c_13, main_v46, main_v47, main_c_14, main_v48, main_v49, main_v50, main_v51, main_v52, main_v53, main_v54]
set_option maxHeartbeats 4000000 in
theorem hostOps0_writes : (hostOps0 : List (HloOp τ sig (Elt F))).Forall fun op => op.writes ⊆ (hostOps0_W.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
theorem hostOps0_fresh : (hostOps0 : List (HloOp τ sig (Elt F))).Forall fun op => op.fresh = ∅ := by
  simp only [List.Forall]; repeat' constructor

/-- The references `hostOps1` writes, in order. -/
abbrev hostOps1_W : List (Ref sig .tc) := [main_v56, main_v57, main_v58]
set_option maxHeartbeats 4000000 in
theorem hostOps1_writes : (hostOps1 : List (HloOp τ sig (Elt F))).Forall fun op => op.writes ⊆ (hostOps1_W.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
theorem hostOps1_fresh : (hostOps1 : List (HloOp τ sig (Elt F))).Forall fun op => op.fresh = ∅ := by
  simp only [List.Forall]; repeat' constructor

/-- The references `hostOps2` writes, in order. -/
abbrev hostOps2_W : List (Ref sig .tc) := [main_v60, main_v61, main_v62, main_c_15, main_v63, main_v64, main_c_16, main_v65, main_v66, main_v67, main_v68, main_v69, main_v70, main_v71, main_c_17, main_v72, main_v73, main_c_18, main_v74, main_v75, main_c_19, main_v76, main_v77, main_v78, main_v79, main_v80, main_v81, main_v82, main_v83, main_c_20, main_v84, main_v85, main_c_21, main_v86, main_v87, main_v88, main_v89, main_v90, main_v91, main_v92, main_c_22, main_v93, main_v94, main_c_23, main_v95, main_v96, main_v97, main_v98, main_v99, main_v100]
set_option maxHeartbeats 4000000 in
theorem hostOps2_writes : (hostOps2 : List (HloOp τ sig (Elt F))).Forall fun op => op.writes ⊆ (hostOps2_W.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
theorem hostOps2_fresh : (hostOps2 : List (HloOp τ sig (Elt F))).Forall fun op => op.fresh = ∅ := by
  simp only [List.Forall]; repeat' constructor

/-- The references `hostOps2_1` writes, in order. -/
abbrev hostOps2_1_W : List (Ref sig .tc) := [main_call0_v0, main_call0_cst, main_call0_v1, main_v101]
set_option maxHeartbeats 4000000 in
theorem hostOps2_1_writes : (hostOps2_1 : List (HloOp τ sig (Elt F))).Forall fun op => op.writes ⊆ (hostOps2_1_W.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
theorem hostOps2_1_fresh : (hostOps2_1 : List (HloOp τ sig (Elt F))).Forall fun op => op.fresh = ∅ := by
  simp only [List.Forall]; repeat' constructor

/-- The references `hostOps2_2` writes, in order. -/
abbrev hostOps2_2_W : List (Ref sig .tc) := [main_v102, main_cst, main_v103, main_v104, main_v105, main_c_24, main_v106, main_v107, main_c_25, main_v108, main_v109, main_v110, main_v111, main_v112, main_v113, main_v114, main_c_26, main_v115, main_v116, main_c_27, main_v117, main_v118, main_v119, main_v120, main_v121, main_v122, main_v123, main_v124, main_c_28, main_v125, main_v126, main_c_29, main_v127, main_v128, main_v129, main_v130, main_v131, main_v132, main_v133, main_c_30, main_v134, main_v135, main_c_31, main_v136, main_v137, main_c_32, main_v138, main_v139, main_v140, main_v141, main_v142, main_v143]
set_option maxHeartbeats 4000000 in
theorem hostOps2_2_writes : (hostOps2_2 : List (HloOp τ sig (Elt F))).Forall fun op => op.writes ⊆ (hostOps2_2_W.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
theorem hostOps2_2_fresh : (hostOps2_2 : List (HloOp τ sig (Elt F))).Forall fun op => op.fresh = ∅ := by
  simp only [List.Forall]; repeat' constructor

/-- The references `hostOps2_3` writes, in order. -/
abbrev hostOps2_3_W : List (Ref sig .tc) := [main_call1_v0, main_call1_cst, main_call1_v1, main_v144]
set_option maxHeartbeats 4000000 in
theorem hostOps2_3_writes : (hostOps2_3 : List (HloOp τ sig (Elt F))).Forall fun op => op.writes ⊆ (hostOps2_3_W.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
theorem hostOps2_3_fresh : (hostOps2_3 : List (HloOp τ sig (Elt F))).Forall fun op => op.fresh = ∅ := by
  simp only [List.Forall]; repeat' constructor

/-- The references `hostOps2_4` writes, in order. -/
abbrev hostOps2_4_W : List (Ref sig .tc) := [main_v145, main_cst_33, main_v146, main_v147, main_v148, main_v149, main_v150, main_cst_34, main_v151, main_cst_35, main_v152, main_cst_36, main_v153, main_cst_37, main_v154, main_v155]
set_option maxHeartbeats 4000000 in
theorem hostOps2_4_writes : (hostOps2_4 : List (HloOp τ sig (Elt F))).Forall fun op => op.writes ⊆ (hostOps2_4_W.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
theorem hostOps2_4_fresh : (hostOps2_4 : List (HloOp τ sig (Elt F))).Forall fun op => op.fresh = ∅ := by
  simp only [List.Forall]; repeat' constructor

/-! ## The buffer contents at each boundary -/

/-- At launch. -/
abbrev B0 : Dev nD → Valuation τ sig (Elt F) := fun c b => m (c, b)
/-- After the gathers (the first region's entry). -/
abbrev B1 : Dev nD → Valuation τ sig (Elt F) := fun c => StableHlo.after hostOps0 (B0 m c)
abbrev E1 : (c : Dev nD) → (b : Ref sig .tc) → Buf (Elt F) ((c : Thread nD τ).loc b) := fun c b => B1 m c b
/-- At the first region's exit. -/
def B2 (c : Dev nD) : Valuation τ sig (Elt F) :=
  Pipeline.withArrays spec0 c (B1 m c) fun w => (dat0 (E1 m) c).arrAt w cfg0.N
abbrev E2 : (c : Dev nD) → (b : Ref sig .tc) → Buf (Elt F) ((c : Thread nD τ).loc b) := fun c b => B2 m c b
theorem B2_arr (c : Dev nD) (w : Fin cfg0.W) :
    B2 m c (Proc.devRef .tc (Pipeline.arrRef spec0 w)) = (dat0 (E1 m) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m c (Proc.devRef .tc b) = B1 m c (Proc.devRef .tc b) := by
  unfold B2; exact Pipeline.withArrays_of_ne spec0 c _ _ b hb
theorem left0 (c : Dev nD) (w : Fin cfg0.W) : (dat0 (E1 m) c).arrAt w cfg0.N = E2 m c (Pipeline.arrRef spec0 w) :=
  (B2_arr m c w).symm
theorem kept0 (c : Dev nD) : ∀ b, b ∉ Finset.univ.image (Pipeline.arrRef spec0) → E2 m c b = E1 m c b :=
  fun b hb => B2_of_ne m c b fun w e => hb (Finset.mem_image.mpr ⟨w, Finset.mem_univ _, e⟩)
/-- After the three shaping operations (the second region's entry). -/
abbrev B3 : Dev nD → Valuation τ sig (Elt F) := fun c => StableHlo.after hostOps1 (B2 m c)
abbrev E3 : (c : Dev nD) → (b : Ref sig .tc) → Buf (Elt F) ((c : Thread nD τ).loc b) := fun c b => B3 m c b
/-- At the second region's exit. -/
def B4 (c : Dev nD) : Valuation τ sig (Elt F) :=
  Pipeline.withArrays spec1 c (B3 m c) fun w => (dat1 (E3 m) c).arrAt w cfg1.N
abbrev E4 : (c : Dev nD) → (b : Ref sig .tc) → Buf (Elt F) ((c : Thread nD τ).loc b) := fun c b => B4 m c b
theorem B4_arr (c : Dev nD) (w : Fin cfg1.W) :
    B4 m c (Proc.devRef .tc (Pipeline.arrRef spec1 w)) = (dat1 (E3 m) c).arrAt w cfg1.N := by
  unfold B4; exact Pipeline.withArrays_arr spec1 launch1.win.arr_inj c _ _ w
theorem B4_of_ne (c : Dev nD) (b : Ref sig .tc) (hb : ∀ w, Pipeline.arrRef spec1 w ≠ b) :
    B4 m c (Proc.devRef .tc b) = B3 m c (Proc.devRef .tc b) := by
  unfold B4; exact Pipeline.withArrays_of_ne spec1 c _ _ b hb
theorem left1 (c : Dev nD) (w : Fin cfg1.W) : (dat1 (E3 m) c).arrAt w cfg1.N = E4 m c (Pipeline.arrRef spec1 w) :=
  (B4_arr m c w).symm
theorem kept1 (c : Dev nD) : ∀ b, b ∉ Finset.univ.image (Pipeline.arrRef spec1) → E4 m c b = E3 m c b :=
  fun b hb => B4_of_ne m c b fun w e => hb (Finset.mem_image.mpr ⟨w, Finset.mem_univ _, e⟩)
/-- Through the five closing stretches. -/
abbrev B5 : Dev nD → Valuation τ sig (Elt F) := fun c => StableHlo.after hostOps2 (B4 m c)
abbrev B6 : Dev nD → Valuation τ sig (Elt F) := fun c => StableHlo.after hostOps2_1 (B5 m c)
abbrev B7 : Dev nD → Valuation τ sig (Elt F) := fun c => StableHlo.after hostOps2_2 (B6 m c)
abbrev B8 : Dev nD → Valuation τ sig (Elt F) := fun c => StableHlo.after hostOps2_3 (B7 m c)
abbrev B9 : Dev nD → Valuation τ sig (Elt F) := fun c => StableHlo.after hostOps2_4 (B8 m c)

/-- A buffer that no stretch writes and no region stages ends as launched. -/
theorem B9_untouched (c : Dev nD) (a : Ref sig .tc)
    (h0 : a ∉ hostOps0_W) (h1 : a ∉ hostOps1_W) (h2 : a ∉ hostOps2_W) (h3 : a ∉ hostOps2_1_W) (h4 : a ∉ hostOps2_2_W)
    (h5 : a ∉ hostOps2_3_W) (h6 : a ∉ hostOps2_4_W) (hr0 : ∀ w, Pipeline.arrRef spec0 w ≠ a) (hr1 : ∀ w, Pipeline.arrRef spec1 w ≠ a) :
    B9 m c (Proc.devRef .tc a) = m ((c : Thread nD τ).loc a) :=
  calc B9 m c (Proc.devRef .tc a)
    _ = B8 m c (Proc.devRef .tc a) := StableHlo.after_of_writes_sub hostOps2_4 _ hostOps2_4_writes h6
    _ = B7 m c (Proc.devRef .tc a) := StableHlo.after_of_writes_sub hostOps2_3 _ hostOps2_3_writes h5
    _ = B6 m c (Proc.devRef .tc a) := StableHlo.after_of_writes_sub hostOps2_2 _ hostOps2_2_writes h4
    _ = B5 m c (Proc.devRef .tc a) := StableHlo.after_of_writes_sub hostOps2_1 _ hostOps2_1_writes h3
    _ = B4 m c (Proc.devRef .tc a) := StableHlo.after_of_writes_sub hostOps2 _ hostOps2_writes h2
    _ = B3 m c (Proc.devRef .tc a) := B4_of_ne m c a hr1
    _ = B2 m c (Proc.devRef .tc a) := StableHlo.after_of_writes_sub hostOps1 _ hostOps1_writes h1
    _ = B1 m c (Proc.devRef .tc a) := B2_of_ne m c a hr0
    _ = B0 m c (Proc.devRef .tc a) := StableHlo.after_of_writes_sub hostOps0 _ hostOps0_writes h0
    _ = m ((c : Thread nD τ).loc a) := rfl

theorem B9_main_arg0 (c : Dev nD) : B9 m c (Proc.devRef .tc main_arg0) = m ((c : Thread nD τ).loc main_arg0) :=
  B9_untouched m c main_arg0 (by decide) (by decide) (by decide) (by decide) (by decide) (by decide) (by decide) (by decide) (by decide)
theorem B9_main_arg1 (c : Dev nD) : B9 m c (Proc.devRef .tc main_arg1) = m ((c : Thread nD τ).loc main_arg1) :=
  B9_untouched m c main_arg1 (by decide) (by decide) (by decide) (by decide) (by decide) (by decide) (by decide) (by decide) (by decide)
theorem B9_main_arg2 (c : Dev nD) : B9 m c (Proc.devRef .tc main_arg2) = m ((c : Thread nD τ).loc main_arg2) :=
  B9_untouched m c main_arg2 (by decide) (by decide) (by decide) (by decide) (by decide) (by decide) (by decide) (by decide) (by decide)
theorem B9_main_arg3 (c : Dev nD) : B9 m c (Proc.devRef .tc main_arg3) = m ((c : Thread nD τ).loc main_arg3) :=
  B9_untouched m c main_arg3 (by decide) (by decide) (by decide) (by decide) (by decide) (by decide) (by decide) (by decide) (by decide)
theorem B9_main_arg4 (c : Dev nD) : B9 m c (Proc.devRef .tc main_arg4) = m ((c : Thread nD τ).loc main_arg4) :=
  B9_untouched m c main_arg4 (by decide) (by decide) (by decide) (by decide) (by decide) (by decide) (by decide) (by decide) (by decide)
theorem B9_main_arg5 (c : Dev nD) : B9 m c (Proc.devRef .tc main_arg5) = m ((c : Thread nD τ).loc main_arg5) :=
  B9_untouched m c main_arg5 (by decide) (by decide) (by decide) (by decide) (by decide) (by decide) (by decide) (by decide) (by decide)
theorem B9_main_arg6 (c : Dev nD) : B9 m c (Proc.devRef .tc main_arg6) = m ((c : Thread nD τ).loc main_arg6) :=
  B9_untouched m c main_arg6 (by decide) (by decide) (by decide) (by decide) (by decide) (by decide) (by decide) (by decide) (by decide)
theorem B9_main_arg7 (c : Dev nD) : B9 m c (Proc.devRef .tc main_arg7) = m ((c : Thread nD τ).loc main_arg7) :=
  B9_untouched m c main_arg7 (by decide) (by decide) (by decide) (by decide) (by decide) (by decide) (by decide) (by decide) (by decide)
theorem B9_main_arg8 (c : Dev nD) : B9 m c (Proc.devRef .tc main_arg8) = m ((c : Thread nD τ).loc main_arg8) :=
  B9_untouched m c main_arg8 (by decide) (by decide) (by decide) (by decide) (by decide) (by decide) (by decide) (by decide) (by decide)
theorem B9_main_arg9 (c : Dev nD) : B9 m c (Proc.devRef .tc main_arg9) = m ((c : Thread nD τ).loc main_arg9) :=
  B9_untouched m c main_arg9 (by decide) (by decide) (by decide) (by decide) (by decide) (by decide) (by decide) (by decide) (by decide)

/-! ## Entering and leaving a region's invariant -/

/-- Region 0's invariant before its first point, from what the region rule hands over. -/
theorem enter0 (V : (c : Dev nD) → (b : Ref sig .tc) → Buf (Elt F) ((c : Thread nD τ).loc b)) (c : Dev nD) (P : sProp 𝕄) :
    iprop((∃ r, prngReg c r) ∗ P ∗ Pipeline.scopedRest (Ix := Unit) (Name := ℕ) (U := UR sig nD τ) (Lvl := ℕ) (Val := Elt F) spec0 c) ⊢ (dat0 V c).Φ 0 := by
  refine BI.Entails.trans ?_ (inv0_in V c)
  show (iprop((∃ r, prngReg c r) ∗ P ∗ Pipeline.scopedRest (Ix := Unit) (Name := ℕ) (U := UR sig nD τ) (Lvl := ℕ) (Val := Elt F) spec0 c) : sProp 𝕄) ⊢ Pipeline.ΦA spec0 c
  unfold Pipeline.ΦA
  iintro ⟨Hp, -, Hr⟩
  isplitl [Hr]; · iexact Hr
  iexact Hp

/-- What region 0's invariant gives back after its last point. -/
theorem leave0 (V : (c : Dev nD) → (b : Ref sig .tc) → Buf (Elt F) ((c : Thread nD τ).loc b)) (c : Dev nD) :
    (dat0 V c).Φ (Fin.last cfg0.N) ⊢ iprop((∃ r, prngReg c r) ∗ BI.emp ∗ Pipeline.scopedRest (Ix := Unit) (Name := ℕ) (U := UR sig nD τ) (Lvl := ℕ) (Val := Elt F) spec0 c) := by
  refine BI.Entails.trans (inv0_out V c) ?_
  show (Pipeline.ΦA spec0 c : sProp 𝕄) ⊢ iprop((∃ r, prngReg c r) ∗ BI.emp ∗ Pipeline.scopedRest (Ix := Unit) (Name := ℕ) (U := UR sig nD τ) (Lvl := ℕ) (Val := Elt F) spec0 c)
  unfold Pipeline.ΦA
  iintro ⟨Hr, Hp⟩
  isplitl [Hp]; · iexact Hp
  isplitr; · iempintro
  iexact Hr

/-- Region 1's invariant before its first point, from what the region rule hands over. -/
theorem enter1 (V : (c : Dev nD) → (b : Ref sig .tc) → Buf (Elt F) ((c : Thread nD τ).loc b)) (c : Dev nD) (P : sProp 𝕄) :
    iprop((∃ r, prngReg c r) ∗ P ∗ Pipeline.scopedRest (Ix := Unit) (Name := ℕ) (U := UR sig nD τ) (Lvl := ℕ) (Val := Elt F) spec1 c) ⊢ (dat1 V c).Φ 0 := by
  refine BI.Entails.trans ?_ (inv1_in V c)
  show (iprop((∃ r, prngReg c r) ∗ P ∗ Pipeline.scopedRest (Ix := Unit) (Name := ℕ) (U := UR sig nD τ) (Lvl := ℕ) (Val := Elt F) spec1 c) : sProp 𝕄) ⊢ Pipeline.ΦA spec1 c
  unfold Pipeline.ΦA
  iintro ⟨Hp, -, Hr⟩
  isplitl [Hr]; · iexact Hr
  iexact Hp

/-- What region 1's invariant gives back after its last point. -/
theorem leave1 (V : (c : Dev nD) → (b : Ref sig .tc) → Buf (Elt F) ((c : Thread nD τ).loc b)) (c : Dev nD) :
    (dat1 V c).Φ (Fin.last cfg1.N) ⊢ iprop((∃ r, prngReg c r) ∗ BI.emp ∗ Pipeline.scopedRest (Ix := Unit) (Name := ℕ) (U := UR sig nD τ) (Lvl := ℕ) (Val := Elt F) spec1 c) := by
  refine BI.Entails.trans (inv1_out V c) ?_
  show (Pipeline.ΦA spec1 c : sProp 𝕄) ⊢ iprop((∃ r, prngReg c r) ∗ BI.emp ∗ Pipeline.scopedRest (Ix := Unit) (Name := ℕ) (U := UR sig nD τ) (Lvl := ℕ) (Val := Elt F) spec1 c)
  unfold Pipeline.ΦA
  iintro ⟨Hr, Hp⟩
  isplitl [Hp]; · iexact Hp
  isplitr; · iempintro
  iexact Hr

/-! ## The proof data family, the thread state and the segments -/

abbrev adm : (p : Fin 2) → (pcfgs (F := F) p).Adm := fun p => (cfgs p).toPCfg_adm
/-- Each region's proof data at its entry contents. -/
def pdats : (p : Fin 2) → (c : Dev nD) → Dat τ (Elt F) Unit ℕ (UR sig nD τ) ℕ (Pipeline.pin (pcfgs (F := F)) adm p) c
  | ⟨0, _⟩ => fun c => dat0 (E1 m) c
  | ⟨1, _⟩ => fun c => dat1 (E3 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tlast (c : Dev nD) : sProp 𝕄 := iprop(StableHlo.held (c : Thread nD τ) (Pipeline.ucRefs τ sig) (B9 m c) ∗ ∃ r, prngReg c r)

set_option backward.isDefEq.respectTransparency.types false in
/-- Region 0 as a segment: entered with every unscoped buffer at the boundary's contents, left with the region's
    arrays at what its write-backs leave and every other buffer as entered.  The arrays are split out of the unscoped
    buffers on entry and put back on exit; the generator register goes into the invariant and comes back; the kernel
    has no semaphore of its own and owes nothing. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (obligation0 (E1 m) c).loose
  hwaits := Pipeline.hwaits_of_owed_zero _ _ _ _ L lv 0 fun _ _ => rfl
  pre c := iprop(StableHlo.held (c : Thread nD τ) (Pipeline.ucRefs τ sig) (B1 m c) ∗ R c)
  post c := iprop(StableHlo.held (c : Thread nD τ) (Pipeline.ucRefs τ sig) (B2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := enter0 (E1 m) c _
  hout c := by
    rw [Pipeline.ownSems0_none]
    exact leave0 (E1 m) c
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (left0 m c) (kept0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment: entered with every unscoped buffer at the boundary's contents, left with the region's
    arrays at what its write-backs leave and every other buffer as entered.  The arrays are split out of the unscoped
    buffers on entry and put back on exit; the generator register goes into the invariant and comes back; the kernel
    has no semaphore of its own and owes nothing. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (obligation1 (E3 m) c).loose
  hwaits := Pipeline.hwaits_of_owed_zero _ _ _ _ L lv 1 fun _ _ => rfl
  pre c := iprop(StableHlo.held (c : Thread nD τ) (Pipeline.ucRefs τ sig) (B3 m c) ∗ R c)
  post c := iprop(StableHlo.held (c : Thread nD τ) (Pipeline.ucRefs τ sig) (B4 m c) ∗ R c)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := enter1 (E3 m) c _
  hout c := by
    rw [Pipeline.ownSems0_none]
    exact leave1 (E3 m) c
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E3 m c) (E4 m c) ((pdats m 1 c).arrAt · cfg1.N) (left1 m c) (kept1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The last segment's thread state is the last thread state beside the core owing nothing. -/
theorem last_link (c : Dev nD) :
    iprop(StableHlo.held (c : Thread nD τ) (Pipeline.ucRefs τ sig) (B9 m c) ∗ R (F := F) c)
      ⊢ iprop(Tlast m c ∗ ∃ W, owes (c : Thread nD τ) (0 : CellTallies nD τ sig Unit) W) := by
  iintro ⟨H, Hp, HO⟩
  isplitl [H Hp]
  · isplitl [H]; · iexact H
    iexact Hp
  iexact HO

/-- The program's nine segments in order. -/
abbrev segs : List (Pipeline.Seg (pcfgs (F := F)) adm (pdats m) () defs₀ 𝒱₀ L lv) :=
  [ .host (hseg hostOps0 hostOps0_sub hostOps0_fresh (B0 m)),
    .region (reg0 m),
    .host (hseg hostOps1 hostOps1_sub hostOps1_fresh (B2 m)),
    .region (reg1 m),
    .host (hseg hostOps2 hostOps2_sub hostOps2_fresh (B4 m)),
    .host (hseg hostOps2_1 hostOps2_1_sub hostOps2_1_fresh (B5 m)),
    .host (hseg hostOps2_2 hostOps2_2_sub hostOps2_2_fresh (B6 m)),
    .host (hseg hostOps2_3 hostOps2_3_sub hostOps2_3_fresh (B7 m)),
    .host (hseg hostOps2_4 hostOps2_4_sub hostOps2_4_fresh (B8 m)) ]

theorem main_is_segs (c : Dev nD) : main (F := F) c = Pipeline.Seg.run (segs m) := (main_chain c).trans (by chain_rfl)

set_option backward.isDefEq.respectTransparency.types false in
set_option maxHeartbeats 4000000 in
/-- THE RUN: from any memory with zero counters every weakly fair execution of the program terminates, nothing faulting,
    and in every final state each buffer that outlives the regions holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B9 m c b) :=
  Pipeline.θ_run_regions_kit (pcfgs (F := F)) adm (pdats m) () cellOf_inj emb₁ defs₀ 𝒱₀ L lv m ρ main (segs m)
    (fun c Q => by rw [main_is_segs m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ R c)) (Tₙ := Tlast m)
    (hch := ⟨fun _ => .rfl, fun _ => .rfl, fun _ => .rfl, fun _ => .rfl, fun _ => .rfl, fun _ => .rfl, fun _ => .rfl, fun _ => .rfl, fun _ => .rfl,
      fun c => last_link m c⟩)
    (hinit := by
      refine Pipeline.initEach L lv fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B9 m c b)
    (hfin := fun c s' => by
      iintro ⟨⟨Hh, -⟩, HSI⟩
      unfold StableHlo.held
      imodintro
      iapply (pointsTo_read_all (Pipeline.ucRefs τ sig) (fun b => (((c : Thread nD τ)).1, b)) (B9 m c) s')
      isplitl [Hh] <;> iassumption)
    (hQ := fun s h c => h c)

/-- THE FRAME: every argument array ends holding its launch contents. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
    ⟨(h c _ (mem_uc main_arg0 (by decide))).trans (B9_main_arg0 m c),
     (h c _ (mem_uc main_arg1 (by decide))).trans (B9_main_arg1 m c),
     (h c _ (mem_uc main_arg2 (by decide))).trans (B9_main_arg2 m c),
     (h c _ (mem_uc main_arg3 (by decide))).trans (B9_main_arg3 m c),
     (h c _ (mem_uc main_arg4 (by decide))).trans (B9_main_arg4 m c),
     (h c _ (mem_uc main_arg5 (by decide))).trans (B9_main_arg5 m c),
     (h c _ (mem_uc main_arg6 (by decide))).trans (B9_main_arg6 m c),
     (h c _ (mem_uc main_arg7 (by decide))).trans (B9_main_arg7 m c),
     (h c _ (mem_uc main_arg8 (by decide))).trans (B9_main_arg8 m c),
     (h c _ (mem_uc main_arg9 (by decide))).trans (B9_main_arg9 m c)⟩) (run_all m ρ)

end Cert.Kernel.Hand

end
-- ==== Proof.RefTail.lean ====
/-
  The reference's result as one function of its arguments with the two dense terms singled out.

  The result is  ½ · (−(link_pp − dense_pp)) / 8192 + ½ · (−(link_ap − dense_ap)) / 8192,  where each link term sums, over
  the 262144 edges, the two gathered biases minus the distance between the two gathered rows.  Only the two dense terms
  differ between kernel and reference; everything else is the function `tail` below of the arguments and of the two
  dense values.  The rows and biases the dense terms are taken over are the gathers `rows…`, `bias…`.
-/
import proofs.«117720_j19447611916775_1_alg».proof.Proof.Gen.ReferenceIdeal.Run

set_option maxRecDepth 16384

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Rows of a point set at integer positions (negative positions wrapped once by the extent, then clamped by the gather). -/
def rowsA (a0 : (⟨S8192x16, .f32⟩ : BufTy).Contents (Elt F)) (a7 : (⟨S8192, .i32⟩ : BufTy).Contents (Elt F)) : (⟨S8192x16, .f32⟩ : BufTy).Contents (Elt F) :=
  (Host.gather gather_S8192x16_S8192x1_S8192x16_1_0_n_n_0_1_116 a0 (broadcastInDim S8192x1 ![0] bcast_S8192_S8192x1_0 (select (cmpi .slt a7 (broadcastInDim S8192 ![] bcast_S_S8192 (constantI S_ 32 0#32))) (addi a7 (broadcastInDim S8192 ![] bcast_S_S8192 (constantI S_ 32 8192#32))) a7)))
def rowsB (a1 : (⟨S8192x16, .f32⟩ : BufTy).Contents (Elt F)) (a8 : (⟨S8192, .i32⟩ : BufTy).Contents (Elt F)) : (⟨S8192x16, .f32⟩ : BufTy).Contents (Elt F) :=
  (Host.gather gather_S8192x16_S8192x1_S8192x16_1_0_n_n_0_1_116 a1 (broadcastInDim S8192x1 ![0] bcast_S8192_S8192x1_0 (select (cmpi .slt a8 (broadcastInDim S8192 ![] bcast_S_S8192 (constantI S_ 32 0#32))) (addi a8 (broadcastInDim S8192 ![] bcast_S_S8192 (constantI S_ 32 8192#32))) a8)))
def rowsC (a2 : (⟨S8192x16, .f32⟩ : BufTy).Contents (Elt F)) (a9 : (⟨S8192, .i32⟩ : BufTy).Contents (Elt F)) : (⟨S8192x16, .f32⟩ : BufTy).Contents (Elt F) :=
  (Host.gather gather_S8192x16_S8192x1_S8192x16_1_0_n_n_0_1_116 a2 (broadcastInDim S8192x1 ![0] bcast_S8192_S8192x1_0 (select (cmpi .slt (subi a9 (broadcastInDim S8192 ![] bcast_S_S8192 (constantI S_ 32 8192#32))) (broadcastInDim S8192 ![] bcast_S_S8192 (constantI S_ 32 0#32))) (addi (subi a9 (broadcastInDim S8192 ![] bcast_S_S8192 (constantI S_ 32 8192#32))) (broadcastInDim S8192 ![] bcast_S_S8192 (constantI S_ 32 8192#32))) (subi a9 (broadcastInDim S8192 ![] bcast_S_S8192 (constantI S_ 32 8192#32))))))
/-- Entries of a bias vector at integer positions. -/
def biasA (a4 : (⟨S16384, .f32⟩ : BufTy).Contents (Elt F)) (a7 : (⟨S8192, .i32⟩ : BufTy).Contents (Elt F)) : (⟨S8192, .f32⟩ : BufTy).Contents (Elt F) :=
  (Host.gather gather_S16384_S8192x1_S8192_n_0_n_n_0_1_1 a4 (broadcastInDim S8192x1 ![0] bcast_S8192_S8192x1_0 (select (cmpi .slt a7 (broadcastInDim S8192 ![] bcast_S_S8192 (constantI S_ 32 0#32))) (addi a7 (broadcastInDim S8192 ![] bcast_S_S8192 (constantI S_ 32 16384#32))) a7)))
def biasB (a4 : (⟨S16384, .f32⟩ : BufTy).Contents (Elt F)) (a8 : (⟨S8192, .i32⟩ : BufTy).Contents (Elt F)) : (⟨S8192, .f32⟩ : BufTy).Contents (Elt F) :=
  (Host.gather gather_S16384_S8192x1_S8192_n_0_n_n_0_1_1 a4 (broadcastInDim S8192x1 ![0] bcast_S8192_S8192x1_0 (select (cmpi .slt (addi a8 (broadcastInDim S8192 ![] bcast_S_S8192 (constantI S_ 32 8192#32))) (broadcastInDim S8192 ![] bcast_S_S8192 (constantI S_ 32 0#32))) (addi (addi a8 (broadcastInDim S8192 ![] bcast_S_S8192 (constantI S_ 32 8192#32))) (broadcastInDim S8192 ![] bcast_S_S8192 (constantI S_ 32 16384#32))) (addi a8 (broadcastInDim S8192 ![] bcast_S_S8192 (constantI S_ 32 8192#32))))))
def biasC (a3 : (⟨S16384, .f32⟩ : BufTy).Contents (Elt F)) (a7 : (⟨S8192, .i32⟩ : BufTy).Contents (Elt F)) : (⟨S8192, .f32⟩ : BufTy).Contents (Elt F) :=
  (Host.gather gather_S16384_S8192x1_S8192_n_0_n_n_0_1_1 a3 (broadcastInDim S8192x1 ![0] bcast_S8192_S8192x1_0 (select (cmpi .slt a7 (broadcastInDim S8192 ![] bcast_S_S8192 (constantI S_ 32 0#32))) (addi a7 (broadcastInDim S8192 ![] bcast_S_S8192 (constantI S_ 32 16384#32))) a7)))
def biasD (a3 : (⟨S16384, .f32⟩ : BufTy).Contents (Elt F)) (a9 : (⟨S8192, .i32⟩ : BufTy).Contents (Elt F)) : (⟨S8192, .f32⟩ : BufTy).Contents (Elt F) :=
  (Host.gather gather_S16384_S8192x1_S8192_n_0_n_n_0_1_1 a3 (broadcastInDim S8192x1 ![0] bcast_S8192_S8192x1_0 (select (cmpi .slt a9 (broadcastInDim S8192 ![] bcast_S_S8192 (constantI S_ 32 0#32))) (addi a9 (broadcastInDim S8192 ![] bcast_S_S8192 (constantI S_ 32 16384#32))) a9)))

/-- The reference's dense term over the pairs with row index below column index, as its host operations spell it. -/
def denseUpperOps (X Y : (⟨S8192x16, .f32⟩ : BufTy).Contents (Elt F)) (g1 g2 : (⟨S8192, .f32⟩ : BufTy).Contents (Elt F)) : (⟨S_, .f32⟩ : BufTy).Contents (Elt F) :=
  (Host.reduceAdd (select (cmpi .sge (addi (iotaInDim S8192x8192 32 0) (broadcastInDim S8192x8192 ![] bcast_S_S8192x8192 (constantI S_ 32 0#32))) (iotaInDim S8192x8192 32 1)) (broadcastInDim S8192x8192 ![] bcast_S_S8192x8192 (constant S_ .f32 0x00000000#32)) (Host.exp (subf (addf (broadcastInDim S8192x8192 ![0, 1] bcast_S8192x1_S8192x8192_0_1 (broadcastInDim S8192x1 ![0] bcast_S8192_S8192x1_0 g1)) (broadcastInDim S8192x8192 ![0, 1] bcast_S1x8192_S8192x8192_0_1 (broadcastInDim S1x8192 ![1] bcast_S8192_S1x8192_1 g2))) (Host.sqrt (maximumf (subf (addf (broadcastInDim S8192x8192 ![0, 1] bcast_S8192x1_S8192x8192_0_1 (broadcastInDim S8192x1 ![0] bcast_S8192_S8192x1_0 (Host.reduceAdd (mulf X X) (constant S_ .f32 0x00000000#32) reducesTo_S8192x16_S8192_d1 h_S_))) (broadcastInDim S8192x8192 ![0, 1] bcast_S1x8192_S8192x8192_0_1 (broadcastInDim S1x8192 ![1] bcast_S8192_S1x8192_1 (Host.reduceAdd (mulf Y Y) (constant S_ .f32 0x00000000#32) reducesTo_S8192x16_S8192_d1 h_S_)))) (mulf (broadcastInDim S8192x8192 ![] bcast_S_S8192x8192 (constant S_ .f32 0x40000000#32)) (Host.dotGeneral dot_S8192x16_S16x8192_S8192x8192_1_0_0_1_n_n none X (transpose S16x8192 [1, 0] Y transposes_S8192x16_S16x8192_1_0)))) (broadcastInDim S8192x8192 ![] bcast_S_S8192x8192 (constant S_ .f32 0x00000000#32))))))) (constant S_ .f32 0x00000000#32) reducesTo_S8192x8192_S_d0_1 h_S_)

/-- The reference's dense term over all pairs, as its host operations spell it. -/
def denseAllOps (X Y : (⟨S8192x16, .f32⟩ : BufTy).Contents (Elt F)) (g1 g2 : (⟨S8192, .f32⟩ : BufTy).Contents (Elt F)) : (⟨S_, .f32⟩ : BufTy).Contents (Elt F) :=
  (Host.reduceAdd (Host.exp (subf (addf (broadcastInDim S8192x8192 ![0, 1] bcast_S8192x1_S8192x8192_0_1 (broadcastInDim S8192x1 ![0] bcast_S8192_S8192x1_0 g1)) (broadcastInDim S8192x8192 ![0, 1] bcast_S1x8192_S8192x8192_0_1 (broadcastInDim S1x8192 ![1] bcast_S8192_S1x8192_1 g2))) (Host.sqrt (maximumf (subf (addf (broadcastInDim S8192x8192 ![0, 1] bcast_S8192x1_S8192x8192_0_1 (broadcastInDim S8192x1 ![0] bcast_S8192_S8192x1_0 (Host.reduceAdd (mulf X X) (constant S_ .f32 0x00000000#32) reducesTo_S8192x16_S8192_d1 h_S_))) (broadcastInDim S8192x8192 ![0, 1] bcast_S1x8192_S8192x8192_0_1 (broadcastInDim S1x8192 ![1] bcast_S8192_S1x8192_1 (Host.reduceAdd (mulf Y Y) (constant S_ .f32 0x00000000#32) reducesTo_S8192x16_S8192_d1 h_S_)))) (mulf (broadcastInDim S8192x8192 ![] bcast_S_S8192x8192 (constant S_ .f32 0x40000000#32)) (Host.dotGeneral dot_S8192x16_S16x8192_S8192x8192_1_0_0_1_n_n none X (transpose S16x8192 [1, 0] Y transposes_S8192x16_S16x8192_1_0)))) (broadcastInDim S8192x8192 ![] bcast_S_S8192x8192 (constant S_ .f32 0x00000000#32)))))) (constant S_ .f32 0x00000000#32) reducesTo_S8192x8192_S_d0_1 h_S_)

/-- Everything outside the two dense terms. -/
def tail (a0 a1 a2 : (⟨S8192x16, .f32⟩ : BufTy).Contents (Elt F)) (a3 a4 : (⟨S16384, .f32⟩ : BufTy).Contents (Elt F)) (a5 a6 : (⟨S2x262144, .i32⟩ : BufTy).Contents (Elt F))
    (d0 d1 : (⟨S_, .f32⟩ : BufTy).Contents (Elt F)) : (⟨S_, .f32⟩ : BufTy).Contents (Elt F) :=
  addf (Host.divf (mulf (constant S_ .f32 0x3F000000#32) (Host.negf (subf (Host.reduceAdd (subf (addf (Host.gather gather_S16384_S262144x1_S262144_n_0_n_n_0_1_1 a4 (broadcastInDim S262144x1 ![0] bcast_S262144_S262144x1_0 (select (cmpi .slt (shapeCast _ (extractStridedSlice S1x262144 ![0, 0] a5 slices_S2x262144_S1x262144_0_0) shapeCasts_S1x262144_S262144) (broadcastInDim S262144 ![] bcast_S_S262144 (constantI S_ 32 0#32))) (addi (shapeCast _ (extractStridedSlice S1x262144 ![0, 0] a5 slices_S2x262144_S1x262144_0_0) shapeCasts_S1x262144_S262144) (broadcastInDim S262144 ![] bcast_S_S262144 (constantI S_ 32 16384#32))) (shapeCast _ (extractStridedSlice S1x262144 ![0, 0] a5 slices_S2x262144_S1x262144_0_0) shapeCasts_S1x262144_S262144)))) (Host.gather gather_S16384_S262144x1_S262144_n_0_n_n_0_1_1 a4 (broadcastInDim S262144x1 ![0] bcast_S262144_S262144x1_0 (select (cmpi .slt (addi (shapeCast _ (extractStridedSlice S1x262144 ![1, 0] a5 slices_S2x262144_S1x262144_1_0) shapeCasts_S1x262144_S262144) (broadcastInDim S262144 ![] bcast_S_S262144 (constantI S_ 32 8192#32))) (broadcastInDim S262144 ![] bcast_S_S262144 (constantI S_ 32 0#32))) (addi (addi (shapeCast _ (extractStridedSlice S1x262144 ![1, 0] a5 slices_S2x262144_S1x262144_1_0) shapeCasts_S1x262144_S262144) (broadcastInDim S262144 ![] bcast_S_S262144 (constantI S_ 32 8192#32))) (broadcastInDim S262144 ![] bcast_S_S262144 (constantI S_ 32 16384#32))) (addi (shapeCast _ (extractStridedSlice S1x262144 ![1, 0] a5 slices_S2x262144_S1x262144_1_0) shapeCasts_S1x262144_S262144) (broadcastInDim S262144 ![] bcast_S_S262144 (constantI S_ 32 8192#32))))))) (Host.sqrt (Host.reduceAdd (mulf (subf (Host.gather gather_S8192x16_S262144x1_S262144x16_1_0_n_n_0_1_116 a0 (broadcastInDim S262144x1 ![0] bcast_S262144_S262144x1_0 (select (cmpi .slt (shapeCast _ (extractStridedSlice S1x262144 ![0, 0] a5 slices_S2x262144_S1x262144_0_0) shapeCasts_S1x262144_S262144) (broadcastInDim S262144 ![] bcast_S_S262144 (constantI S_ 32 0#32))) (addi (shapeCast _ (extractStridedSlice S1x262144 ![0, 0] a5 slices_S2x262144_S1x262144_0_0) shapeCasts_S1x262144_S262144) (broadcastInDim S262144 ![] bcast_S_S262144 (constantI S_ 32 8192#32))) (shapeCast _ (extractStridedSlice S1x262144 ![0, 0] a5 slices_S2x262144_S1x262144_0_0) shapeCasts_S1x262144_S262144)))) (Host.gather gather_S8192x16_S262144x1_S262144x16_1_0_n_n_0_1_116 a1 (broadcastInDim S262144x1 ![0] bcast_S262144_S262144x1_0 (select (cmpi .slt (shapeCast _ (extractStridedSlice S1x262144 ![1, 0] a5 slices_S2x262144_S1x262144_1_0) shapeCasts_S1x262144_S262144) (broadcastInDim S262144 ![] bcast_S_S262144 (constantI S_ 32 0#32))) (addi (shapeCast _ (extractStridedSlice S1x262144 ![1, 0] a5 slices_S2x262144_S1x262144_1_0) shapeCasts_S1x262144_S262144) (broadcastInDim S262144 ![] bcast_S_S262144 (constantI S_ 32 8192#32))) (shapeCast _ (extractStridedSlice S1x262144 ![1, 0] a5 slices_S2x262144_S1x262144_1_0) shapeCasts_S1x262144_S262144))))) (subf (Host.gather gather_S8192x16_S262144x1_S262144x16_1_0_n_n_0_1_116 a0 (broadcastInDim S262144x1 ![0] bcast_S262144_S262144x1_0 (select (cmpi .slt (shapeCast _ (extractStridedSlice S1x262144 ![0, 0] a5 slices_S2x262144_S1x262144_0_0) shapeCasts_S1x262144_S262144) (broadcastInDim S262144 ![] bcast_S_S262144 (constantI S_ 32 0#32))) (addi (shapeCast _ (extractStridedSlice S1x262144 ![0, 0] a5 slices_S2x262144_S1x262144_0_0) shapeCasts_S1x262144_S262144) (broadcastInDim S262144 ![] bcast_S_S262144 (constantI S_ 32 8192#32))) (shapeCast _ (extractStridedSlice S1x262144 ![0, 0] a5 slices_S2x262144_S1x262144_0_0) shapeCasts_S1x262144_S262144)))) (Host.gather gather_S8192x16_S262144x1_S262144x16_1_0_n_n_0_1_116 a1 (broadcastInDim S262144x1 ![0] bcast_S262144_S262144x1_0 (select (cmpi .slt (shapeCast _ (extractStridedSlice S1x262144 ![1, 0] a5 slices_S2x262144_S1x262144_1_0) shapeCasts_S1x262144_S262144) (broadcastInDim S262144 ![] bcast_S_S262144 (constantI S_ 32 0#32))) (addi (shapeCast _ (extractStridedSlice S1x262144 ![1, 0] a5 slices_S2x262144_S1x262144_1_0) shapeCasts_S1x262144_S262144) (broadcastInDim S262144 ![] bcast_S_S262144 (constantI S_ 32 8192#32))) (shapeCast _ (extractStridedSlice S1x262144 ![1, 0] a5 slices_S2x262144_S1x262144_1_0) shapeCasts_S1x262144_S262144)))))) (constant S_ .f32 0x00000000#32) reducesTo_S262144x16_S262144_d1 h_S_))) (constant S_ .f32 0x00000000#32) reducesTo_S262144_S_d0 h_S_) d0))) (constant S_ .f32 0x46000000#32)) (Host.divf (mulf (constant S_ .f32 0x3F000000#32) (Host.negf (subf (Host.reduceAdd (subf (addf (Host.gather gather_S16384_S262144x1_S262144_n_0_n_n_0_1_1 a3 (broadcastInDim S262144x1 ![0] bcast_S262144_S262144x1_0 (select (cmpi .slt (shapeCast _ (extractStridedSlice S1x262144 ![0, 0] a6 slices_S2x262144_S1x262144_0_0) shapeCasts_S1x262144_S262144) (broadcastInDim S262144 ![] bcast_S_S262144 (constantI S_ 32 0#32))) (addi (shapeCast _ (extractStridedSlice S1x262144 ![0, 0] a6 slices_S2x262144_S1x262144_0_0) shapeCasts_S1x262144_S262144) (broadcastInDim S262144 ![] bcast_S_S262144 (constantI S_ 32 16384#32))) (shapeCast _ (extractStridedSlice S1x262144 ![0, 0] a6 slices_S2x262144_S1x262144_0_0) shapeCasts_S1x262144_S262144)))) (Host.gather gather_S16384_S262144x1_S262144_n_0_n_n_0_1_1 a3 (broadcastInDim S262144x1 ![0] bcast_S262144_S262144x1_0 (select (cmpi .slt (shapeCast _ (extractStridedSlice S1x262144 ![1, 0] a6 slices_S2x262144_S1x262144_1_0) shapeCasts_S1x262144_S262144) (broadcastInDim S262144 ![] bcast_S_S262144 (constantI S_ 32 0#32))) (addi (shapeCast _ (extractStridedSlice S1x262144 ![1, 0] a6 slices_S2x262144_S1x262144_1_0) shapeCasts_S1x262144_S262144) (broadcastInDim S262144 ![] bcast_S_S262144 (constantI S_ 32 16384#32))) (shapeCast _ (extractStridedSlice S1x262144 ![1, 0] a6 slices_S2x262144_S1x262144_1_0) shapeCasts_S1x262144_S262144))))) (Host.sqrt (Host.reduceAdd (mulf (subf (Host.gather gather_S8192x16_S262144x1_S262144x16_1_0_n_n_0_1_116 a0 (broadcastInDim S262144x1 ![0] bcast_S262144_S262144x1_0 (select (cmpi .slt (shapeCast _ (extractStridedSlice S1x262144 ![0, 0] a6 slices_S2x262144_S1x262144_0_0) shapeCasts_S1x262144_S262144) (broadcastInDim S262144 ![] bcast_S_S262144 (constantI S_ 32 0#32))) (addi (shapeCast _ (extractStridedSlice S1x262144 ![0, 0] a6 slices_S2x262144_S1x262144_0_0) shapeCasts_S1x262144_S262144) (broadcastInDim S262144 ![] bcast_S_S262144 (constantI S_ 32 8192#32))) (shapeCast _ (extractStridedSlice S1x262144 ![0, 0] a6 slices_S2x262144_S1x262144_0_0) shapeCasts_S1x262144_S262144)))) (Host.gather gather_S8192x16_S262144x1_S262144x16_1_0_n_n_0_1_116 a2 (broadcastInDim S262144x1 ![0] bcast_S262144_S262144x1_0 (select (cmpi .slt (subi (shapeCast _ (extractStridedSlice S1x262144 ![1, 0] a6 slices_S2x262144_S1x262144_1_0) shapeCasts_S1x262144_S262144) (broadcastInDim S262144 ![] bcast_S_S262144 (constantI S_ 32 8192#32))) (broadcastInDim S262144 ![] bcast_S_S262144 (constantI S_ 32 0#32))) (addi (subi (shapeCast _ (extractStridedSlice S1x262144 ![1, 0] a6 slices_S2x262144_S1x262144_1_0) shapeCasts_S1x262144_S262144) (broadcastInDim S262144 ![] bcast_S_S262144 (constantI S_ 32 8192#32))) (broadcastInDim S262144 ![] bcast_S_S262144 (constantI S_ 32 8192#32))) (subi (shapeCast _ (extractStridedSlice S1x262144 ![1, 0] a6 slices_S2x262144_S1x262144_1_0) shapeCasts_S1x262144_S262144) (broadcastInDim S262144 ![] bcast_S_S262144 (constantI S_ 32 8192#32))))))) (subf (Host.gather gather_S8192x16_S262144x1_S262144x16_1_0_n_n_0_1_116 a0 (broadcastInDim S262144x1 ![0] bcast_S262144_S262144x1_0 (select (cmpi .slt (shapeCast _ (extractStridedSlice S1x262144 ![0, 0] a6 slices_S2x262144_S1x262144_0_0) shapeCasts_S1x262144_S262144) (broadcastInDim S262144 ![] bcast_S_S262144 (constantI S_ 32 0#32))) (addi (shapeCast _ (extractStridedSlice S1x262144 ![0, 0] a6 slices_S2x262144_S1x262144_0_0) shapeCasts_S1x262144_S262144) (broadcastInDim S262144 ![] bcast_S_S262144 (constantI S_ 32 8192#32))) (shapeCast _ (extractStridedSlice S1x262144 ![0, 0] a6 slices_S2x262144_S1x262144_0_0) shapeCasts_S1x262144_S262144)))) (Host.gather gather_S8192x16_S262144x1_S262144x16_1_0_n_n_0_1_116 a2 (broadcastInDim S262144x1 ![0] bcast_S262144_S262144x1_0 (select (cmpi .slt (subi (shapeCast _ (extractStridedSlice S1x262144 ![1, 0] a6 slices_S2x262144_S1x262144_1_0) shapeCasts_S1x262144_S262144) (broadcastInDim S262144 ![] bcast_S_S262144 (constantI S_ 32 8192#32))) (broadcastInDim S262144 ![] bcast_S_S262144 (constantI S_ 32 0#32))) (addi (subi (shapeCast _ (extractStridedSlice S1x262144 ![1, 0] a6 slices_S2x262144_S1x262144_1_0) shapeCasts_S1x262144_S262144) (broadcastInDim S262144 ![] bcast_S_S262144 (constantI S_ 32 8192#32))) (broadcastInDim S262144 ![] bcast_S_S262144 (constantI S_ 32 8192#32))) (subi (shapeCast _ (extractStridedSlice S1x262144 ![1, 0] a6 slices_S2x262144_S1x262144_1_0) shapeCasts_S1x262144_S262144) (broadcastInDim S262144 ![] bcast_S_S262144 (constantI S_ 32 8192#32)))))))) (constant S_ .f32 0x00000000#32) reducesTo_S262144x16_S262144_d1 h_S_))) (constant S_ .f32 0x00000000#32) reducesTo_S262144_S_d0 h_S_) d1))) (constant S_ .f32 0x46000000#32))

/-- The reference's result is the tail at its own two dense terms. -/
theorem result_eq (m : (ℓ : Loc nD τ sig) → Buf (Elt F) ℓ) (c : Dev nD) :
    Value.res_main_v198 (F := F) m c
      = tail (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) (m ((c.tc : Thread nD τ).loc main_arg6))
          (denseUpperOps (rowsA (m ((c.tc : Thread nD τ).loc main_arg0)) (m ((c.tc : Thread nD τ).loc main_arg7)))
            (rowsB (m ((c.tc : Thread nD τ).loc main_arg1)) (m ((c.tc : Thread nD τ).loc main_arg8)))
            (biasA (m ((c.tc : Thread nD τ).loc main_arg4)) (m ((c.tc : Thread nD τ).loc main_arg7)))
            (biasB (m ((c.tc : Thread nD τ).loc main_arg4)) (m ((c.tc : Thread nD τ).loc main_arg8))))
          (denseAllOps (rowsA (m ((c.tc : Thread nD τ).loc main_arg0)) (m ((c.tc : Thread nD τ).loc main_arg7)))
            (rowsC (m ((c.tc : Thread nD τ).loc main_arg2)) (m ((c.tc : Thread nD τ).loc main_arg9)))
            (biasC (m ((c.tc : Thread nD τ).loc main_arg3)) (m ((c.tc : Thread nD τ).loc main_arg7)))
            (biasD (m ((c.tc : Thread nD τ).loc main_arg3)) (m ((c.tc : Thread nD τ).loc main_arg9)))) := by
  unfold Value.res_main_v198 tail denseUpperOps denseAllOps rowsA rowsB rowsC biasA biasB biasC biasD
  rfl

end Cert.ReferenceIdeal.Hand

end
-- ==== Proof.LibTRef.lean ====
/-
  A typed reference carries a buffer together with the equation between the buffer's type and the value's type;
  contents are moved to the buffer's type and back along that equation. Moving there and back changes nothing.
-/
import Idealize.ShloMosaic.Lib.StableHlo

namespace Cert.LibTRef

open Idealize.ShloMosaic

/-- Contents carried to a typed reference's buffer and back are the contents. -/
theorem ofBuf_toBuf {sg : RefSig} {Vl : EltTy → Type} {T : BufTy} (x : StableHlo.TRef sg T) (v : T.Contents Vl) :
    x.ofBuf (x.toBuf v) = v := by
  obtain ⟨r, rfl, h1, h2⟩ := x
  rfl

end Cert.LibTRef
-- ==== Proof.KerTail.lean ====
/-
  The kernel's closing host operations compute the same function of the arguments and of the two dense values as the
  reference's: the two edge terms and the final combination are the same operations on both sides.
-/
import proofs.«117720_j19447611916775_1_alg».proof.Proof.Run
import proofs.«117720_j19447611916775_1_alg».proof.Proof.RefTail
import proofs.«117720_j19447611916775_1_alg».proof.Proof.LibTRef
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.StableHlo

set_option maxHeartbeats 40000000 in
/-- From any contents `W` of the surviving buffers at the second region's exit, the result buffer ends at the shared tail of
    the arguments as `W` holds them, of the first dense value (already reshaped to a scalar before the second region) and
    of the second dense value as the closing operations reshape it. -/
theorem closing_value (W : Valuation τ sig (Elt F)) :
    StableHlo.after hostOps2_4 (StableHlo.after hostOps2_3 (StableHlo.after hostOps2_2 (StableHlo.after hostOps2_1 (StableHlo.after hostOps2 W))))
        (Proc.devRef .tc main_v155)
      = Cert.ReferenceIdeal.Hand.tail (F := F) (W (Proc.devRef .tc main_arg0)) (W (Proc.devRef .tc main_arg1)) (W (Proc.devRef .tc main_arg2))
          (W (Proc.devRef .tc main_arg3)) (W (Proc.devRef .tc main_arg4)) (W (Proc.devRef .tc main_arg5)) (W (Proc.devRef .tc main_arg6))
          (W (Proc.devRef .tc main_v56)) (StableHlo.after hostOps2 W (Proc.devRef .tc main_v60)) := by
  after_results_simp
  simp only [Cert.LibTRef.ofBuf_toBuf]
  rfl

end Cert.KernelIdeal.Hand

end
-- ==== Proof.Values.lean ====
/-
  What the host operations before each region put in the regions' input arrays: the gathered rows of the three point
  sets and the gathered bias entries laid out as a column and as a row — the same gathers the reference takes its dense
  terms over.
-/
import proofs.«117720_j19447611916775_1_alg».proof.Proof.Run
import proofs.«117720_j19447611916775_1_alg».proof.Proof.RefTail
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.StableHlo
open Cert.ReferenceIdeal.Hand (rowsA rowsB rowsC biasA biasB biasC biasD)

variable (W : Valuation τ sig (Elt F))

set_option maxHeartbeats 40000000 in
theorem gathered_v6 : StableHlo.after hostOps0 W (Proc.devRef .tc main_v6) = rowsA (F := F) (W (Proc.devRef .tc main_arg0)) (W (Proc.devRef .tc main_arg7)) := by
  after_results_simp <;> rfl
set_option maxHeartbeats 40000000 in
theorem gathered_v13 : StableHlo.after hostOps0 W (Proc.devRef .tc main_v13) = rowsB (F := F) (W (Proc.devRef .tc main_arg1)) (W (Proc.devRef .tc main_arg8)) := by
  after_results_simp <;> rfl
set_option maxHeartbeats 40000000 in
theorem gathered_v22 : StableHlo.after hostOps0 W (Proc.devRef .tc main_v22) = rowsC (F := F) (W (Proc.devRef .tc main_arg2)) (W (Proc.devRef .tc main_arg9)) := by
  after_results_simp <;> rfl
set_option maxHeartbeats 40000000 in
theorem gathered_v53 : StableHlo.after hostOps0 W (Proc.devRef .tc main_v53)
    = broadcastInDim S8192x1 ![0] bcast_S8192_S8192x1_0 (biasA (F := F) (W (Proc.devRef .tc main_arg4)) (W (Proc.devRef .tc main_arg7))) := by
  after_results_simp <;> rfl
set_option maxHeartbeats 40000000 in
theorem gathered_v54 : StableHlo.after hostOps0 W (Proc.devRef .tc main_v54)
    = broadcastInDim S1x8192 ![1] bcast_S8192_S1x8192_1 (biasB (F := F) (W (Proc.devRef .tc main_arg4)) (W (Proc.devRef .tc main_arg8))) := by
  after_results_simp <;> rfl
set_option maxHeartbeats 40000000 in
theorem gathered_v45 : StableHlo.after hostOps0 W (Proc.devRef .tc main_v45) = biasC (F := F) (W (Proc.devRef .tc main_arg3)) (W (Proc.devRef .tc main_arg7)) := by
  after_results_simp <;> rfl
set_option maxHeartbeats 40000000 in
theorem gathered_v52 : StableHlo.after hostOps0 W (Proc.devRef .tc main_v52) = biasD (F := F) (W (Proc.devRef .tc main_arg3)) (W (Proc.devRef .tc main_arg9)) := by
  after_results_simp <;> rfl

end Cert.KernelIdeal.Hand

end
-- ==== Proof.Pieces0.lean ====
/-
  What each control case leaves in the accumulator and in the result block, as values.

  Reading the stored pieces back: the first point leaves the tile sum added to a cleared accumulator, every later
  point the tile sum added to what the point before left, and the last point's result block is its accumulator.
  The tile sum and the addition are the body's own arithmetic, named by the generated payload functions.
-/
import proofs.«117720_j19447611916775_1_alg».proof.Proof.Region0
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The offset of a whole-block access. -/
theorem zero2 : (![0, 0] : Fin 2 → ℕ) = fun _ => 0 := by
  funext a; match a with | ⟨0, _⟩ => rfl | ⟨1, _⟩ => rfl

/-- The accumulator after one point's addition, from the point's column coordinate, its four blocks and the
    accumulator before: the tile of pair terms, masked by the global indices, summed, and added. -/
def step0 (i : grid0.Coords) (x0 : Vec F S1024x16 .f32) (x1 : Vec F S1024x16 .f32) (x2 : Vec F S1024x1 .f32) (x3 : Vec F S1x1024 .f32)
    (prev : Vec F S1x1 .f32) : Vec F S1x1 .f32 :=
  k0_pay1 (BitVec.ofNat 32 (i 1).val) (k0_pay3 x0 x1 x2 x3) (k0_pay4 i) (iota .tc S1x1024 32 [1] iota_S1x1024_d1_w32) prev

variable (c : Dev nD) (t : Fin cfg0.N)

theorem accFirst0_eq (hf : isFirst0 (grid0.coords t)) (hl : ¬isLast0 (grid0.coords t))
    (x0 : Vec F S1024x16 .f32) (x1 : Vec F S1024x16 .f32) (x2 : Vec F S1024x1 .f32) (x3 : Vec F S1x1024 .f32) :
    accFirst0 c t hf hl x0 x1 x2 x3 = step0 (grid0.coords t) x0 x1 x2 x3 (k0_pay2 (F := F)) := by
  unfold accFirst0
  rw [View.read_writes_eq_canon _ _ _ (accFirst0_cover c t hf hl x0 x1 x2 x3)]
  unfold runFirst0
  dsimp only
  sl_unfold_words
  rw [View.canon_cons_unit_zero (S := S1x1) zero2]
  simp only [View.readAt_eq_ld, Memref.IsWhole.read_unread, View.ld_unit_zero (S := S1024x16) zero2,
    View.ld_unit_zero (S := S1024x1) zero2, View.ld_unit_zero (S := S1x1024) zero2]
  rw [View.readCov_unit_zero (S := S1x1) _ (off := ![0, 0]) zero2]
  rfl

theorem accMid0_eq (hf : ¬isFirst0 (grid0.coords t)) (hl : ¬isLast0 (grid0.coords t))
    (x0 : Vec F S1024x16 .f32) (x1 : Vec F S1024x16 .f32) (x2 : Vec F S1024x1 .f32) (x3 : Vec F S1x1024 .f32) (xs : Vec F S1x1 .f32) :
    accMid0 c t hf hl x0 x1 x2 x3 xs = step0 (grid0.coords t) x0 x1 x2 x3 xs := by
  unfold accMid0
  rw [View.read_writes_eq_canon _ _ _ (accMid0_cover c t hf hl x0 x1 x2 x3 xs)]
  unfold runMid0
  dsimp only
  sl_unfold_words
  rw [View.canon_unit_zero (S := S1x1) zero2]
  simp only [View.readAt_eq_ld, Memref.IsWhole.read_unread, View.ld_unit_zero (S := S1024x16) zero2,
    View.ld_unit_zero (S := S1024x1) zero2, View.ld_unit_zero (S := S1x1024) zero2, View.ld_unit_zero (S := S1x1) zero2]
  show step0 (grid0.coords t) x0 x1 x2 x3 _ = _
  have h : (acc0 : Memref sig .tc .vmem S1x1 .f32).view.read (Elt F) ((Memref.isWhole_whole cc0_scratch0).unread xs) = xs :=
    (Memref.isWhole_whole cc0_scratch0).read_unread xs
  exact congrArg _ h

theorem accLast0_eq (hf : ¬isFirst0 (grid0.coords t)) (hl : isLast0 (grid0.coords t))
    (x0 : Vec F S1024x16 .f32) (x1 : Vec F S1024x16 .f32) (x2 : Vec F S1024x1 .f32) (x3 : Vec F S1x1024 .f32) (xs : Vec F S1x1 .f32) :
    accLast0 c t hf hl x0 x1 x2 x3 xs = step0 (grid0.coords t) x0 x1 x2 x3 xs := by
  unfold accLast0
  rw [View.read_writes_eq_canon _ _ _ (accLast0_cover c t hf hl x0 x1 x2 x3 xs)]
  unfold runLast0
  dsimp only
  sl_unfold_words
  rw [View.canon_unit_zero (S := S1x1) zero2]
  simp only [View.readAt_eq_ld, Memref.IsWhole.read_unread, View.ld_unit_zero (S := S1024x16) zero2,
    View.ld_unit_zero (S := S1024x1) zero2, View.ld_unit_zero (S := S1x1024) zero2, View.ld_unit_zero (S := S1x1) zero2]
  show step0 (grid0.coords t) x0 x1 x2 x3 _ = _
  have h : (acc0 : Memref sig .tc .vmem S1x1 .f32).view.read (Elt F) ((Memref.isWhole_whole cc0_scratch0).unread xs) = xs :=
    (Memref.isWhole_whole cc0_scratch0).read_unread xs
  exact congrArg _ h

theorem outLast0_eq (hf : ¬isFirst0 (grid0.coords t)) (hl : isLast0 (grid0.coords t))
    (x0 : Vec F S1024x16 .f32) (x1 : Vec F S1024x16 .f32) (x2 : Vec F S1024x1 .f32) (x3 : Vec F S1x1024 .f32) (xs : Vec F S1x1 .f32) :
    outLast0 c t hf hl x0 x1 x2 x3 xs = step0 (grid0.coords t) x0 x1 x2 x3 xs := by
  unfold outLast0
  rw [View.read_writes_eq_canon _ _ _ (outLast0_cover c t hf hl x0 x1 x2 x3 xs)]
  unfold runLast0
  dsimp only
  sl_unfold_words
  rw [View.canon_unit_zero (S := S1x1) zero2, View.readCov_unit_zero (S := S1x1) _ (off := ![0, 0]) zero2]
  simp only [View.readAt_eq_ld, Memref.IsWhole.read_unread, View.ld_unit_zero (S := S1024x16) zero2,
    View.ld_unit_zero (S := S1024x1) zero2, View.ld_unit_zero (S := S1x1024) zero2, View.ld_unit_zero (S := S1x1) zero2]
  show step0 (grid0.coords t) x0 x1 x2 x3 _ = _
  have h : (acc0 : Memref sig .tc .vmem S1x1 .f32).view.read (Elt F) ((Memref.isWhole_whole cc0_scratch0).unread xs) = xs :=
    (Memref.isWhole_whole cc0_scratch0).read_unread xs
  exact congrArg _ h

/-! ## The accumulator as a fold of one step over the points -/

section Fold
variable (V : (c : Dev nD) → (b : Ref sig .tc) → Buf (Elt F) ((c : Thread nD τ).loc b))

/-- One point's step over the blocks of the arrays the region finds. -/
def stepAt0 (c : Dev nD) (t : Fin cfg0.N) (prev : Vec F S1x1 .f32) : Vec F S1x1 .f32 :=
  step0 (grid0.coords t) (blk0 V c 0 t) (blk0 V c 1 t) (blk0 V c 2 t) (blk0 V c 3 t) prev

theorem accAt0_zero (c : Dev nD) (h : 0 < cfg0.N) : accAt0 V c 0 h = stepAt0 V c ⟨0, h⟩ (k0_pay2 (F := F)) :=
  (accAt0_first V c ⟨0, h⟩ rfl).trans (accFirst0_eq c ⟨0, h⟩ _ _ _ _ _ _)

theorem accAt0_succ (c : Dev nD) (n : ℕ) (h : n + 1 < cfg0.N) :
    accAt0 V c (n + 1) h = stepAt0 V c ⟨n + 1, h⟩ (accAt0 V c n (Nat.lt_of_succ_lt h)) := by
  by_cases hl : n + 1 = 63
  · exact (accAt0_last V c ⟨n + 1, h⟩ (Nat.succ_ne_zero n) hl).trans (accLast0_eq c ⟨n + 1, h⟩ _ _ _ _ _ _ _)
  · exact (accAt0_mid V c ⟨n + 1, h⟩ (Nat.succ_ne_zero n) hl).trans (accMid0_eq c ⟨n + 1, h⟩ _ _ _ _ _ _ _)

/-- At the last point the result block's buffer holds the accumulator. -/
theorem outAt0_eq_acc (c : Dev nD) (t : Fin cfg0.N) (hl : t.val = 63) : outAt0 V c t.val t.isLt = accAt0 V c t.val t.isLt := by
  rw [outAt0_last V c t hl, accAt0_last V c t (by omega) hl, outLast0_eq, accLast0_eq]

end Fold

end Cert.KernelIdeal.Hand

end
-- ==== Proof.Out0.lean ====
/-
  What the first dense region leaves in its one-entry result array.

  The result block is written back once, after the last point, and its block is the whole array; so the array ends
  holding what the result block's buffer held then, which is the accumulator after the last point.
-/
import proofs.«117720_j19447611916775_1_alg».proof.Proof.Pieces0
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The result window's block index is (0, 0) at every point. -/
theorem outIdx0 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)

theorem lastPt0 : 63 < cfg0.N := by rw [N0_eq]; decide

theorem accAt0_congr (c : Dev nD) {n n' : ℕ} (e : n = n') (h : n < cfg0.N) (h' : n' < cfg0.N) : accAt0 V c n h = accAt0 V c n' h' := by
  subst e; rfl

/-- The one entry the region leaves: the accumulator after the last point. -/
def result0 (c : Dev nD) : Vec F S1x1 .f32 := accAt0 V c 63 lastPt0

/-- What a point that writes the result block back writes is the whole of `result0`. -/
theorem written0 (c : Dev nD) (t : Fin cfg0.N) (hf : (cfg0.win 4).flush t = true) :
    (dat0 V c).flushed 4 t = ((cfg0.win 4).blk t).view.read (Elt F) (result0 V c) := by
  have h63 : t.val = 63 := by
    have h1 := (flush0_4 t).mp hf
    have h2 : t.val < 64 := lt_of_lt_of_eq t.isLt N0_eq
    omega
  show (cfg0.win 4).cut (grid0.coords t) ((dat0 V c).after 4 t) = _
  rw [dat0_after_4, outAt0_eq_acc V c t h63]
  obtain ⟨e0, e1⟩ := outIdx0 t
  funext j
  show accAt0 V c t.val t.isLt j = result0 V c (((cfg0.win 4).blk t).view.emb j)
  have hj : ((cfg0.win 4).blk t).view.emb j = j := by
    funext a; apply Fin.ext
    match a with
    | ⟨0, _⟩ => show win0_4.index t (0 : Fin 2) * 1 + 1 * (j 0).val = (j 0).val; omega
    | ⟨1, _⟩ => show win0_4.index t (1 : Fin 2) * 1 + 1 * (j 1).val = (j 1).val; omega
  rw [hj]
  exact congrFun (accAt0_congr V c h63 _ _) j

/-- Every index of the result array lies in the last point's block. -/
theorem covered0 (c : Dev nD) (i : S1x1.Idx) :
    ∃ t : Fin cfg0.N, (cfg0.win 4).flush t = true ∧ i ∈ ((cfg0.win 4).blk t).view.set := by
  refine ⟨⟨63, lastPt0⟩, (flush0_4 _).mpr (by decide), ?_⟩
  show i ∈ ((View.whole main_v55).slice (win0_4.rect ⟨63, lastPt0⟩)).set
  rw [View.set_slice_whole, Rect.mem_set_unit]
  obtain ⟨e0, e1⟩ := outIdx0 ⟨63, lastPt0⟩
  intro a
  match a with
  | ⟨0, _⟩ =>
    have hi : (i 0).val < 1 := (i 0).isLt
    show win0_4.index ⟨63, lastPt0⟩ (0 : Fin 2) * 1 ≤ (i 0).val ∧ (i 0).val < win0_4.index ⟨63, lastPt0⟩ (0 : Fin 2) * 1 + 1
    omega
  | ⟨1, _⟩ =>
    have hi : (i 1).val < 1 := (i 1).isLt
    show win0_4.index ⟨63, lastPt0⟩ (1 : Fin 2) * 1 ≤ (i 1).val ∧ (i 1).val < win0_4.index ⟨63, lastPt0⟩ (1 : Fin 2) * 1 + 1
    omega

/-- THE RESULT ARRAY after the region. -/
theorem array0 (c : Dev nD) : (dat0 V c).arrAt 4 cfg0.N = result0 V c :=
  (dat0 V c).arrAt_eq_of_cover 4 (result0 V c) (fun t hf => written0 V c t hf) (covered0 c)

end Cert.KernelIdeal.Hand

end
-- ==== Proof.Pieces1.lean ====
/-
  What each control case leaves in the accumulator and in the result block, as values.

  Reading the stored pieces back: the first point leaves the (unmasked) tile sum added to a cleared accumulator, every later
  point the tile sum added to what the point before left, and the last point's result block is its accumulator.
  The tile sum and the addition are the body's own arithmetic, named by the generated payload functions.
-/
import proofs.«117720_j19447611916775_1_alg».proof.Proof.Region1
import proofs.«117720_j19447611916775_1_alg».proof.Proof.Pieces0
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The accumulator after one point's addition, from the point's four blocks and the accumulator before: the tile of
    pair terms, summed, and added. -/
def step1 (i : grid1.Coords) (x0 : Vec F S1024x16 .f32) (x1 : Vec F S1024x16 .f32) (x2 : Vec F S1024x1 .f32) (x3 : Vec F S1x1024 .f32)
    (prev : Vec F S1x1 .f32) : Vec F S1x1 .f32 :=
  k1_pay1 (k1_pay3 x0 x1 x2 x3) prev

variable (c : Dev nD) (t : Fin cfg1.N)

theorem accFirst1_eq (hf : isFirst1 (grid1.coords t)) (hl : ¬isLast1 (grid1.coords t))
    (x0 : Vec F S1024x16 .f32) (x1 : Vec F S1024x16 .f32) (x2 : Vec F S1024x1 .f32) (x3 : Vec F S1x1024 .f32) :
    accFirst1 c t hf hl x0 x1 x2 x3 = step1 (grid1.coords t) x0 x1 x2 x3 (k1_pay2 (F := F)) := by
  unfold accFirst1
  rw [View.read_writes_eq_canon _ _ _ (accFirst1_cover c t hf hl x0 x1 x2 x3)]
  unfold runFirst1
  dsimp only
  sl_unfold_words
  rw [View.canon_cons_unit_zero (S := S1x1) zero2]
  simp only [View.readAt_eq_ld, Memref.IsWhole.read_unread, View.ld_unit_zero (S := S1024x16) zero2,
    View.ld_unit_zero (S := S1024x1) zero2, View.ld_unit_zero (S := S1x1024) zero2]
  rw [View.readCov_unit_zero (S := S1x1) _ (off := ![0, 0]) zero2]
  rfl

theorem accMid1_eq (hf : ¬isFirst1 (grid1.coords t)) (hl : ¬isLast1 (grid1.coords t))
    (x0 : Vec F S1024x16 .f32) (x1 : Vec F S1024x16 .f32) (x2 : Vec F S1024x1 .f32) (x3 : Vec F S1x1024 .f32) (xs : Vec F S1x1 .f32) :
    accMid1 c t hf hl x0 x1 x2 x3 xs = step1 (grid1.coords t) x0 x1 x2 x3 xs := by
  unfold accMid1
  rw [View.read_writes_eq_canon _ _ _ (accMid1_cover c t hf hl x0 x1 x2 x3 xs)]
  unfold runMid1
  dsimp only
  sl_unfold_words
  rw [View.canon_unit_zero (S := S1x1) zero2]
  simp only [View.readAt_eq_ld, Memref.IsWhole.read_unread, View.ld_unit_zero (S := S1024x16) zero2,
    View.ld_unit_zero (S := S1024x1) zero2, View.ld_unit_zero (S := S1x1024) zero2, View.ld_unit_zero (S := S1x1) zero2]
  show step1 (grid1.coords t) x0 x1 x2 x3 _ = _
  have h : (acc1 : Memref sig .tc .vmem S1x1 .f32).view.read (Elt F) ((Memref.isWhole_whole cc1_scratch0).unread xs) = xs :=
    (Memref.isWhole_whole cc1_scratch0).read_unread xs
  exact congrArg _ h

theorem accLast1_eq (hf : ¬isFirst1 (grid1.coords t)) (hl : isLast1 (grid1.coords t))
    (x0 : Vec F S1024x16 .f32) (x1 : Vec F S1024x16 .f32) (x2 : Vec F S1024x1 .f32) (x3 : Vec F S1x1024 .f32) (xs : Vec F S1x1 .f32) :
    accLast1 c t hf hl x0 x1 x2 x3 xs = step1 (grid1.coords t) x0 x1 x2 x3 xs := by
  unfold accLast1
  rw [View.read_writes_eq_canon _ _ _ (accLast1_cover c t hf hl x0 x1 x2 x3 xs)]
  unfold runLast1
  dsimp only
  sl_unfold_words
  rw [View.canon_unit_zero (S := S1x1) zero2]
  simp only [View.readAt_eq_ld, Memref.IsWhole.read_unread, View.ld_unit_zero (S := S1024x16) zero2,
    View.ld_unit_zero (S := S1024x1) zero2, View.ld_unit_zero (S := S1x1024) zero2, View.ld_unit_zero (S := S1x1) zero2]
  show step1 (grid1.coords t) x0 x1 x2 x3 _ = _
  have h : (acc1 : Memref sig .tc .vmem S1x1 .f32).view.read (Elt F) ((Memref.isWhole_whole cc1_scratch0).unread xs) = xs :=
    (Memref.isWhole_whole cc1_scratch0).read_unread xs
  exact congrArg _ h

theorem outLast1_eq (hf : ¬isFirst1 (grid1.coords t)) (hl : isLast1 (grid1.coords t))
    (x0 : Vec F S1024x16 .f32) (x1 : Vec F S1024x16 .f32) (x2 : Vec F S1024x1 .f32) (x3 : Vec F S1x1024 .f32) (xs : Vec F S1x1 .f32) :
    outLast1 c t hf hl x0 x1 x2 x3 xs = step1 (grid1.coords t) x0 x1 x2 x3 xs := by
  unfold outLast1
  rw [View.read_writes_eq_canon _ _ _ (outLast1_cover c t hf hl x0 x1 x2 x3 xs)]
  unfold runLast1
  dsimp only
  sl_unfold_words
  rw [View.canon_unit_zero (S := S1x1) zero2, View.readCov_unit_zero (S := S1x1) _ (off := ![0, 0]) zero2]
  simp only [View.readAt_eq_ld, Memref.IsWhole.read_unread, View.ld_unit_zero (S := S1024x16) zero2,
    View.ld_unit_zero (S := S1024x1) zero2, View.ld_unit_zero (S := S1x1024) zero2, View.ld_unit_zero (S := S1x1) zero2]
  show step1 (grid1.coords t) x0 x1 x2 x3 _ = _
  have h : (acc1 : Memref sig .tc .vmem S1x1 .f32).view.read (Elt F) ((Memref.isWhole_whole cc1_scratch0).unread xs) = xs :=
    (Memref.isWhole_whole cc1_scratch0).read_unread xs
  exact congrArg _ h

/-! ## The accumulator as a fold of one step over the points -/

section Fold
variable (V : (c : Dev nD) → (b : Ref sig .tc) → Buf (Elt F) ((c : Thread nD τ).loc b))

/-- One point's step over the blocks of the arrays the region finds. -/
def stepAt1 (c : Dev nD) (t : Fin cfg1.N) (prev : Vec F S1x1 .f32) : Vec F S1x1 .f32 :=
  step1 (grid1.coords t) (blk1 V c 0 t) (blk1 V c 1 t) (blk1 V c 2 t) (blk1 V c 3 t) prev

theorem accAt1_zero (c : Dev nD) (h : 0 < cfg1.N) : accAt1 V c 0 h = stepAt1 V c ⟨0, h⟩ (k1_pay2 (F := F)) :=
  (accAt1_first V c ⟨0, h⟩ rfl).trans (accFirst1_eq c ⟨0, h⟩ _ _ _ _ _ _)

theorem accAt1_succ (c : Dev nD) (n : ℕ) (h : n + 1 < cfg1.N) :
    accAt1 V c (n + 1) h = stepAt1 V c ⟨n + 1, h⟩ (accAt1 V c n (Nat.lt_of_succ_lt h)) := by
  by_cases hl : n + 1 = 63
  · exact (accAt1_last V c ⟨n + 1, h⟩ (Nat.succ_ne_zero n) hl).trans (accLast1_eq c ⟨n + 1, h⟩ _ _ _ _ _ _ _)
  · exact (accAt1_mid V c ⟨n + 1, h⟩ (Nat.succ_ne_zero n) hl).trans (accMid1_eq c ⟨n + 1, h⟩ _ _ _ _ _ _ _)

/-- At the last point the result block's buffer holds the accumulator. -/
theorem outAt1_eq_acc (c : Dev nD) (t : Fin cfg1.N) (hl : t.val = 63) : outAt1 V c t.val t.isLt = accAt1 V c t.val t.isLt := by
  rw [outAt1_last V c t hl, accAt1_last V c t (by omega) hl, outLast1_eq, accLast1_eq]

end Fold

end Cert.KernelIdeal.Hand

end
-- ==== Proof.Out1.lean ====
/-
  What the second dense region leaves in its one-entry result array.

  The result block is written back once, after the last point, and its block is the whole array; so the array ends
  holding what the result block's buffer held then, which is the accumulator after the last point.
-/
import proofs.«117720_j19447611916775_1_alg».proof.Proof.Pieces1
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The result window's block index is (0, 0) at every point. -/
theorem outIdx1 : ∀ t : Fin cfg1.N, win1_4.index t (0 : Fin 2) = 0 ∧ win1_4.index t (1 : Fin 2) = 0 :=
  (by decide +kernel : ∀ t : Fin grid1.N, win1_4.index t (0 : Fin 2) = 0 ∧ win1_4.index t (1 : Fin 2) = 0)

theorem lastPt1 : 63 < cfg1.N := by rw [N1_eq]; decide

theorem accAt1_congr (c : Dev nD) {n n' : ℕ} (e : n = n') (h : n < cfg1.N) (h' : n' < cfg1.N) : accAt1 V c n h = accAt1 V c n' h' := by
  subst e; rfl

/-- The one entry the region leaves: the accumulator after the last point. -/
def result1 (c : Dev nD) : Vec F S1x1 .f32 := accAt1 V c 63 lastPt1

/-- What a point that writes the result block back writes is the whole of `result1`. -/
theorem written1 (c : Dev nD) (t : Fin cfg1.N) (hf : (cfg1.win 4).flush t = true) :
    (dat1 V c).flushed 4 t = ((cfg1.win 4).blk t).view.read (Elt F) (result1 V c) := by
  have h63 : t.val = 63 := by
    have h1 := (flush1_4 t).mp hf
    have h2 : t.val < 64 := lt_of_lt_of_eq t.isLt N1_eq
    omega
  show (cfg1.win 4).cut (grid1.coords t) ((dat1 V c).after 4 t) = _
  rw [dat1_after_4, outAt1_eq_acc V c t h63]
  obtain ⟨e0, e1⟩ := outIdx1 t
  funext j
  show accAt1 V c t.val t.isLt j = result1 V c (((cfg1.win 4).blk t).view.emb j)
  have hj : ((cfg1.win 4).blk t).view.emb j = j := by
    funext a; apply Fin.ext
    match a with
    | ⟨0, _⟩ => show win1_4.index t (0 : Fin 2) * 1 + 1 * (j 0).val = (j 0).val; omega
    | ⟨1, _⟩ => show win1_4.index t (1 : Fin 2) * 1 + 1 * (j 1).val = (j 1).val; omega
  rw [hj]
  exact congrFun (accAt1_congr V c h63 _ _) j

/-- Every index of the result array lies in the last point's block. -/
theorem covered1 (c : Dev nD) (i : S1x1.Idx) :
    ∃ t : Fin cfg1.N, (cfg1.win 4).flush t = true ∧ i ∈ ((cfg1.win 4).blk t).view.set := by
  refine ⟨⟨63, lastPt1⟩, (flush1_4 _).mpr (by decide), ?_⟩
  show i ∈ ((View.whole main_v59).slice (win1_4.rect ⟨63, lastPt1⟩)).set
  rw [View.set_slice_whole, Rect.mem_set_unit]
  obtain ⟨e0, e1⟩ := outIdx1 ⟨63, lastPt1⟩
  intro a
  match a with
  | ⟨0, _⟩ =>
    have hi : (i 0).val < 1 := (i 0).isLt
    show win1_4.index ⟨63, lastPt1⟩ (0 : Fin 2) * 1 ≤ (i 0).val ∧ (i 0).val < win1_4.index ⟨63, lastPt1⟩ (0 : Fin 2) * 1 + 1
    omega
  | ⟨1, _⟩ =>
    have hi : (i 1).val < 1 := (i 1).isLt
    show win1_4.index ⟨63, lastPt1⟩ (1 : Fin 2) * 1 ≤ (i 1).val ∧ (i 1).val < win1_4.index ⟨63, lastPt1⟩ (1 : Fin 2) * 1 + 1
    omega

/-- THE RESULT ARRAY after the region. -/
theorem array1 (c : Dev nD) : (dat1 V c).arrAt 4 cfg1.N = result1 V c :=
  (dat1 V c).arrAt_eq_of_cover 4 (result1 V c) (fun t hf => written1 V c t hf) (covered1 c)

end Cert.KernelIdeal.Hand

end
-- ==== Proof.Entry.lean ====
/-
  The arrays each region is entered with, and the two dense values as the closing operations read them.

  The first region finds the gathered rows and the gathered biases the opening operations made.  The second finds the
  same first point set (an input of the first region is never written back), the third point set, and the other two
  bias vectors laid out by the three operations between the regions.  Each region's one-entry result is reshaped to a
  scalar, which leaves its one value.
-/
import proofs.«117720_j19447611916775_1_alg».proof.Proof.Values
import proofs.«117720_j19447611916775_1_alg».proof.Proof.Out0
import proofs.«117720_j19447611916775_1_alg».proof.Proof.Out1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.StableHlo
open Cert.ReferenceIdeal.Hand (rowsA rowsB rowsC biasA biasB biasC biasD)

variable (m : (ℓ : Loc nD τ sig) → Buf (Elt F) ℓ) (c : Dev nD)

/-! ## The first region's inputs -/

theorem entry0_x : E1 m c main_v6 = rowsA (F := F) (m ((c.tc : Thread nD τ).loc main_arg0)) (m ((c.tc : Thread nD τ).loc main_arg7)) := gathered_v6 (B0 m c)
theorem entry0_y : E1 m c main_v13 = rowsB (F := F) (m ((c.tc : Thread nD τ).loc main_arg1)) (m ((c.tc : Thread nD τ).loc main_arg8)) := gathered_v13 (B0 m c)
theorem entry0_bx : E1 m c main_v53 = broadcastInDim S8192x1 ![0] bcast_S8192_S8192x1_0 (biasA (F := F) (m ((c.tc : Thread nD τ).loc main_arg4)) (m ((c.tc : Thread nD τ).loc main_arg7))) := gathered_v53 (B0 m c)
theorem entry0_by : E1 m c main_v54 = broadcastInDim S1x8192 ![1] bcast_S8192_S1x8192_1 (biasB (F := F) (m ((c.tc : Thread nD τ).loc main_arg4)) (m ((c.tc : Thread nD τ).loc main_arg8))) := gathered_v54 (B0 m c)

/-! ## The second region's inputs -/

/-- An input window's array of the first region leaves the region as it entered. -/
theorem B2_input (w : Fin cfg0.W) (hw : (cfg0.win w).isOut = false) :
    B2 m c (Proc.devRef .tc (Pipeline.arrRef spec0 w)) = B1 m c (Proc.devRef .tc (Pipeline.arrRef spec0 w)) :=
  (B2_arr m c w).trans (((dat0 (E1 m) c).arrAt_in w hw _).trans (dat0_A (E1 m) c w))

theorem entry1_x : E3 m c main_v6 = rowsA (F := F) (m ((c.tc : Thread nD τ).loc main_arg0)) (m ((c.tc : Thread nD τ).loc main_arg7)) := by
  show StableHlo.after hostOps1 (B2 m c) (Proc.devRef .tc main_v6) = _
  rw [StableHlo.after_of_writes_sub hostOps1 _ hostOps1_writes (by decide)]
  exact (B2_input m c 0 rfl).trans (gathered_v6 (B0 m c))

theorem entry1_y : E3 m c main_v22 = rowsC (F := F) (m ((c.tc : Thread nD τ).loc main_arg2)) (m ((c.tc : Thread nD τ).loc main_arg9)) := by
  show StableHlo.after hostOps1 (B2 m c) (Proc.devRef .tc main_v22) = _
  rw [StableHlo.after_of_writes_sub hostOps1 _ hostOps1_writes (by decide), B2_of_ne m c main_v22 (by decide)]
  exact gathered_v22 (B0 m c)

theorem between_bx (W : Valuation τ sig (Elt F)) :
    StableHlo.after hostOps1 W (Proc.devRef .tc main_v57) = broadcastInDim S8192x1 ![0] bcast_S8192_S8192x1_0 (W (Proc.devRef .tc main_v45)) := by
  after_results_simp <;> rfl
theorem between_by (W : Valuation τ sig (Elt F)) :
    StableHlo.after hostOps1 W (Proc.devRef .tc main_v58) = broadcastInDim S1x8192 ![1] bcast_S8192_S1x8192_1 (W (Proc.devRef .tc main_v52)) := by
  after_results_simp <;> rfl

theorem entry1_bx : E3 m c main_v57 = broadcastInDim S8192x1 ![0] bcast_S8192_S8192x1_0 (biasC (F := F) (m ((c.tc : Thread nD τ).loc main_arg3)) (m ((c.tc : Thread nD τ).loc main_arg7))) := by
  show StableHlo.after hostOps1 (B2 m c) (Proc.devRef .tc main_v57) = _
  rw [between_bx, B2_of_ne m c main_v45 (by decide)]
  exact congrArg _ (gathered_v45 (B0 m c))
theorem entry1_by : E3 m c main_v58 = broadcastInDim S1x8192 ![1] bcast_S8192_S1x8192_1 (biasD (F := F) (m ((c.tc : Thread nD τ).loc main_arg3)) (m ((c.tc : Thread nD τ).loc main_arg9))) := by
  show StableHlo.after hostOps1 (B2 m c) (Proc.devRef .tc main_v58) = _
  rw [between_by, B2_of_ne m c main_v52 (by decide)]
  exact congrArg _ (gathered_v52 (B0 m c))

/-! ## The two dense values as the closing operations find them -/

theorem reshaped0 (W : Valuation τ sig (Elt F)) (i) :
    StableHlo.after hostOps1 W (Proc.devRef .tc main_v56) i = shapeCast main_v56.ty.shape (W (Proc.devRef .tc main_v55)) shapeCasts_S1x1_S_ i := by
  after_results_simp <;> rfl

/-- The first dense value, a scalar by the time the second region runs, is the one entry the first region left. -/
theorem dense0_found (d : Elt F .f32) (h : result0 (E1 m) c = fun _ => d) :
    B4 m c (Proc.devRef .tc main_v56) = fun _ => d := by
  rw [B4_of_ne m c main_v56 (by decide)]
  funext i
  show StableHlo.after hostOps1 (B2 m c) (Proc.devRef .tc main_v56) i = d
  rw [reshaped0, show B2 m c (Proc.devRef .tc main_v55) = result0 (E1 m) c from (B2_arr m c 4).trans (array0 (E1 m) c), h]
  rfl

theorem reshaped1 (W : Valuation τ sig (Elt F)) (i) :
    StableHlo.after hostOps2 W (Proc.devRef .tc main_v60) i = shapeCast main_v60.ty.shape (W (Proc.devRef .tc main_v59)) shapeCasts_S1x1_S_ i := by
  after_results_simp <;> rfl

/-- The second dense value, reshaped by the first closing operation, is the one entry the second region left. -/
theorem dense1_found (d : Elt F .f32) (h : result1 (E3 m) c = fun _ => d) :
    StableHlo.after hostOps2 (B4 m c) (Proc.devRef .tc main_v60) = fun _ => d := by
  funext i
  rw [reshaped1, show B4 m c (Proc.devRef .tc main_v59) = result1 (E3 m) c from (B4_arr m c 4).trans (array1 (E3 m) c), h]
  rfl

/-- An argument is as launched when the closing operations read it. -/
theorem B4_untouched (a : Ref sig .tc) (h0 : a ∉ hostOps0_W) (h1 : a ∉ hostOps1_W)
    (hr0 : ∀ w, Pipeline.arrRef spec0 w ≠ a) (hr1 : ∀ w, Pipeline.arrRef spec1 w ≠ a) :
    B4 m c (Proc.devRef .tc a) = m ((c : Thread nD τ).loc a) :=
  calc B4 m c (Proc.devRef .tc a)
    _ = B3 m c (Proc.devRef .tc a) := B4_of_ne m c a hr1
    _ = B2 m c (Proc.devRef .tc a) := StableHlo.after_of_writes_sub hostOps1 _ hostOps1_writes h1
    _ = B1 m c (Proc.devRef .tc a) := B2_of_ne m c a hr0
    _ = B0 m c (Proc.devRef .tc a) := StableHlo.after_of_writes_sub hostOps0 _ hostOps0_writes h0
    _ = m ((c : Thread nD τ).loc a) := rfl

end Cert.KernelIdeal.Hand

end
-- ==== Proof.Spec.lean ====
/-
  The dense term, as one function of the two point sets and the two bias vectors.

  For point sets x, y of 8192 rows in dimension 16 and biases a, b of length 8192, the pair (r, c) contributes
      exp ((a r + b c) − sqrt (max ((‖x r‖² + ‖y c‖²) − 2 · ⟨x r, y c⟩, 0))),
  every operation the exact one on the extended reals, and the dense term is the sum of the contributions over all pairs,
  or over the pairs with r < c only.  Squared norms and inner products are plain sums over the 16 coordinates.
-/
import Idealize.ShloMosaic.PureOps.Ideal
import Idealize.ShloMosaic.Lib.ValueIdx

noncomputable section

namespace Cert.Spec

open Idealize.ShloMosaic Idealize.ShloMosaic.ValueIdx

/-- A point set: 8192 rows of 16 coordinates; a bias vector: 8192 entries. -/
abbrev Pts : Type := (⟨2, ![8192, 16]⟩ : Shape).Idx → EReal
abbrev Bias : Type := (⟨1, ![8192]⟩ : Shape).Idx → EReal

/-- The squared norm of row `r`. -/
def sq (x : Pts) (r : Fin 8192) : EReal := ∑ k : Fin 16, x (ix2 r k) * x (ix2 r k)

/-- The inner product of row `r` of `x` with row `c` of `y`. -/
def dot (x y : Pts) (r c : Fin 8192) : EReal := ∑ k : Fin 16, x (ix2 r k) * y (ix2 c k)

/-- The contribution of the pair (r, c). The literal is the float 2. -/
def pair (x y : Pts) (a b : Bias) (r c : Fin 8192) : EReal :=
  Ideal.exp ((a (ix1 r) + b (ix1 c)) - Ideal.sqrt (max ((sq x r + sq y c) - Ideal.ofBits .f32 0x40000000#32 * dot x y r c) 0))

/-- The dense term over all pairs. -/
def denseAll (x y : Pts) (a b : Bias) : EReal := ∑ r : Fin 8192, ∑ c : Fin 8192, pair x y a b r c

/-- The dense term over the pairs with r < c. -/
def denseUpper (x y : Pts) (a b : Bias) : EReal :=
  ∑ r : Fin 8192, ∑ c : Fin 8192, if r.val < c.val then pair x y a b r c else 0

end Cert.Spec

end
-- ==== Proof.LibLayout.lean ====
/-
  Three small readings of layout operations at an index given by coordinates, for the column forms a row reduction
  with kept dimensions produces: a vector of `a` entries cast to one column `[a, 1]`, a column broadcast along
  the rows `[a, 1] → [a, b]`, and the index a row sum inserts on the reduced axis.
-/
import Idealize.ShloMosaic.Lib.ValueLayout
import Idealize.ShloMosaic.PureOps.Ideal.Laws

namespace Cert.Attn.Layout

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index a sum along the rows inserts: row `p` with column `k` put back is `(p, k)`. -/
theorem lift_row {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- A sum along the rows of an `[a, b]` array of extended reals, read at row `p`: the sum of the row's entries. -/
theorem rowSum_apply {a b : ℕ} (src : FVec Ideal ⟨2, ![a, b]⟩ .f32) (h : (⟨2, ![a, b]⟩ : Shape).Reduces [1] (⟨1, ![a]⟩ : Shape))
    (hφ : FKind.Formats .f32) (hacc : (0x00000000#32 : BitVec 32) = FKind.add.neutral .f32 hφ) (p : Fin a) :
    multiReduction .add [1] (⟨1, ![a]⟩ : Shape) src 0x00000000#32 h hφ hacc (ix1 p) = ∑ k : Fin b, src (ix2 p k) := by
  refine (Ideal.multiReduction_add_single src 0x00000000#32 h hφ hacc (ix1 p)).trans ?_
  exact Finset.sum_congr rfl fun k _ => congrArg src (lift_row h p k)

end Cert.Attn.Layout
-- ==== Proof.LibSweepSum.lean ====
/-
  Sums taken block by block, in sweeps that restart.

  A sum over N = B · S consecutive rows is the sum, over the B blocks, of each block's S rows (`sum_blocks`). A running
  total that restarts from zero at every step whose number is a multiple of L, and otherwise adds the step's term to the
  previous total, holds at position k of a sweep the sum of the sweep's first k + 1 terms (`sweep_prefix`). Together:
  two sweeps of 32 steps, each step adding one block of 1024 consecutive rows, end with totals that add up to the sum
  over all 65536 rows (`sweep_total`). Only that addition is commutative and associative with neutral element 0 is
  used.
-/
import Mathlib.Algebra.BigOperators.Fin
import Mathlib.Algebra.BigOperators.Intervals
import Mathlib.Logic.Equiv.Fin.Basic

open scoped BigOperators

namespace Cert.LibSweepSum

/-- Row p of block n of size S lies below B · S. -/
theorem blk_lt {B S : ℕ} (n : Fin B) (p : Fin S) : S * n.val + p.val < B * S :=
  calc S * n.val + p.val < S * n.val + S := Nat.add_lt_add_left p.isLt _
    _ = S * (n.val + 1) := (Nat.mul_succ S n.val).symm
    _ ≤ S * B := Nat.mul_le_mul_left S n.isLt
    _ = B * S := Nat.mul_comm S B

/-- A sum over B · S consecutive rows is the sum over the B blocks of each block's S rows. -/
theorem sum_blocks {M : Type*} [AddCommMonoid M] (B S N : ℕ) (hN : N = B * S) (f : Fin N → M) :
    ∑ r : Fin N, f r = ∑ n : Fin B, ∑ p : Fin S, f ⟨S * n.val + p.val, hN ▸ blk_lt n p⟩ := by
  subst hN
  rw [← Equiv.sum_comp finProdFinEquiv f, Fintype.sum_prod_type]
  refine Finset.sum_congr rfl fun n _ => Finset.sum_congr rfl fun p _ => congrArg f (Fin.ext ?_)
  show (finProdFinEquiv (n, p)).val = S * n.val + p.val
  rw [finProdFinEquiv_apply_val, Nat.add_comm]

/-- A running total `A` that restarts at the multiples of `L` (there it is `0` plus the step's term `g`) and otherwise
    adds the step's term to the previous total: at position `k` of the sweep that starts at `a` it is the sum of that
    sweep's first `k + 1` terms. -/
theorem sweep_prefix {M : Type*} [AddCommMonoid M] (g A : ℕ → M) (L N : ℕ)
    (hfirst : ∀ n, n < N → n % L = 0 → A n = 0 + g n)
    (hnext : ∀ n, n < N → n % L ≠ 0 → A n = A (n - 1) + g n)
    (a : ℕ) (ha : a % L = 0) (k : ℕ) (hk : k < L) (h : a + k < N) :
    A (a + k) = ∑ m ∈ Finset.range (k + 1), g (a + m) := by
  induction k with
  | zero =>
    rw [Nat.add_zero, hfirst a (by omega) ha, zero_add, Finset.sum_range_one, Nat.add_zero]
  | succ k ih =>
    obtain ⟨c, rfl⟩ := Nat.dvd_of_mod_eq_zero ha
    have hne : (L * c + (k + 1)) % L ≠ 0 := by
      rw [Nat.mul_add_mod, Nat.mod_eq_of_lt hk]
      exact Nat.succ_ne_zero k
    rw [hnext _ h hne, show L * c + (k + 1) - 1 = L * c + k from by omega, ih (by omega) (by omega),
      Finset.sum_range_succ _ (k + 1)]

/-- Two sweeps of 32 steps over 64 blocks of 1024 consecutive rows: the running total restarts from zero at steps 0 and
    32 and each step adds its block's sum; the totals after steps 31 and 63 add up to the sum over all 65536 rows. -/
theorem sweep_total {M : Type*} [AddCommMonoid M] (f : Fin 65536 → M) (acc : (n : ℕ) → n < 64 → M)
    (hfirst : ∀ n (hn : n < 64), n % 32 = 0 → acc n hn = 0 + ∑ p : Fin 1024, f ⟨1024 * n + p.val, by omega⟩)
    (hnext : ∀ n (hn : n < 64), n % 32 ≠ 0 →
      acc n hn = acc (n - 1) (by omega) + ∑ p : Fin 1024, f ⟨1024 * n + p.val, by omega⟩) :
    acc 31 (by omega) + acc 63 (by omega) = ∑ r : Fin 65536, f r := by
  -- the step's term and the running total as functions of every natural number
  let g : ℕ → M := fun n => if hn : n < 64 then ∑ p : Fin 1024, f ⟨1024 * n + p.val, by omega⟩ else 0
  let A : ℕ → M := fun n => if hn : n < 64 then acc n hn else 0
  have hg : ∀ n (hn : n < 64), g n = ∑ p : Fin 1024, f ⟨1024 * n + p.val, by omega⟩ := fun n hn => dif_pos hn
  have hA : ∀ n (hn : n < 64), A n = acc n hn := fun n hn => dif_pos hn
  have h0 : ∀ n, n < 64 → n % 32 = 0 → A n = 0 + g n := fun n hn hz => by
    rw [hA n hn, hg n hn]; exact hfirst n hn hz
  have h1 : ∀ n, n < 64 → n % 32 ≠ 0 → A n = A (n - 1) + g n := fun n hn hz => by
    rw [hA n hn, hA (n - 1) (by omega), hg n hn]; exact hnext n hn hz
  have e1 : A 31 = ∑ m ∈ Finset.range 32, g (0 + m) := sweep_prefix g A 32 64 h0 h1 0 rfl 31 (by omega) (by omega)
  have e2 : A 63 = ∑ m ∈ Finset.range 32, g (32 + m) := sweep_prefix g A 32 64 h0 h1 32 rfl 31 (by omega) (by omega)
  rw [← hA 31 (by omega), ← hA 63 (by omega), e1, e2]
  simp only [Nat.zero_add]
  rw [← Finset.sum_range_add g 32 32, ← Fin.sum_univ_eq_sum_range g (32 + 32),
    sum_blocks 64 1024 65536 (by decide) f]
  exact Finset.sum_congr rfl fun n _ => hg n.val n.isLt

end Cert.LibSweepSum
-- ==== Proof.LibTileSum.lean ====
/-
  A sum over a square taken tile by tile.

  A square of side B · S is cut into B × B tiles of side S, the tiles numbered row by row: tile m lies in tile-row
  m / B and tile-column m % B, and its entry (r, c) is the square's entry (S · (m / B) + r, S · (m % B) + c). In any
  additive commutative monoid the sum over the tiles of each tile's S × S entries is the sum over the whole square:
  every entry of the square lies in exactly one tile.
-/
import proofs.«117720_j19447611916775_1_alg».proof.Proof.LibSweepSum

open scoped BigOperators

namespace Cert.LibTileSum

open Cert.LibSweepSum

/-- Row `p` of the tile-row of tile `m` lies in the square. -/
theorem row_lt {B S N : ℕ} (hN : N = B * S) (m : Fin (B * B)) (p : Fin S) : S * (m.val / B) + p.val < N := by
  have h : m.val / B < B := Nat.div_lt_of_lt_mul m.isLt
  subst hN
  exact blk_lt ⟨m.val / B, h⟩ p

/-- Column `p` of the tile-column of tile `m` lies in the square. -/
theorem col_lt {B S N : ℕ} (hN : N = B * S) (m : Fin (B * B)) (p : Fin S) : S * (m.val % B) + p.val < N := by
  have hB : 0 < B := by
    rcases Nat.eq_zero_or_pos B with h | h
    · subst h; exact absurd m.isLt (by simp)
    · exact h
  have h : m.val % B < B := Nat.mod_lt _ hB
  subst hN
  exact blk_lt ⟨m.val % B, h⟩ p

/-- The sum over the B × B tiles, numbered row by row, of each tile's S × S entries is the sum over the square. -/
theorem sum_tiles {M : Type*} [AddCommMonoid M] (B S N : ℕ) (hN : N = B * S) (Q : Fin N → Fin N → M) :
    ∑ m : Fin (B * B), ∑ r : Fin S, ∑ c : Fin S,
        Q ⟨S * (m.val / B) + r.val, row_lt hN m r⟩ ⟨S * (m.val % B) + c.val, col_lt hN m c⟩
      = ∑ R : Fin N, ∑ C : Fin N, Q R C := by
  subst hN
  have hR : ∑ R : Fin (B * S), ∑ C : Fin (B * S), Q R C
      = ∑ a : Fin B, ∑ r : Fin S, ∑ b : Fin B, ∑ c : Fin S, Q ⟨S * a.val + r.val, blk_lt a r⟩ ⟨S * b.val + c.val, blk_lt b c⟩ := by
    rw [sum_blocks B S (B * S) rfl]
    refine Finset.sum_congr rfl fun a _ => Finset.sum_congr rfl fun r _ => ?_
    exact sum_blocks B S (B * S) rfl (fun C => Q _ C)
  rw [hR, sum_blocks B B (B * B) rfl]
  refine Finset.sum_congr rfl fun a _ => ?_
  rw [Finset.sum_comm]
  refine Finset.sum_congr rfl fun r _ => Finset.sum_congr rfl fun b _ => Finset.sum_congr rfl fun c _ => ?_
  have hB : 0 < B := Nat.pos_of_ne_zero fun h => by subst h; exact a.elim0
  have h1 : (B * a.val + b.val) / B = a.val := by
    rw [Nat.mul_add_div hB, Nat.div_eq_of_lt b.isLt, Nat.add_zero]
  have h2 : (B * a.val + b.val) % B = b.val := by
    rw [Nat.mul_add_mod, Nat.mod_eq_of_lt b.isLt]
  exact congrArg₂ Q
    (Fin.ext (by show S * ((B * a.val + b.val) / B) + r.val = S * a.val + r.val; rw [h1]))
    (Fin.ext (by show S * ((B * a.val + b.val) % B) + c.val = S * b.val + c.val; rw [h2]))

end Cert.LibTileSum
-- ==== Proof.KerDense.lean ====
/-
  The kernel's two dense terms are the specification's two functions.

  One grid point adds to the running total the sum over a tile of 1024 x 1024 pair terms (in the first region only
  those whose global row index is below the global column index); the tile's pair terms read the four blocks at the
  point, which are the arrays' entries at the global indices; the 64 points' tiles fill the 8192 x 8192 square once.
-/
import proofs.«117720_j19447611916775_1_alg».proof.Proof.Out0
import proofs.«117720_j19447611916775_1_alg».proof.Proof.Out1
import proofs.«117720_j19447611916775_1_alg».proof.Proof.Spec
import proofs.«117720_j19447611916775_1_alg».proof.Proof.LibLayout
import proofs.«117720_j19447611916775_1_alg».proof.Proof.LibSweepSum
import proofs.«117720_j19447611916775_1_alg».proof.Proof.LibTileSum
import Idealize.ShloMosaic.Lib.ValueLayout
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx Cert.Attn.Layout

/-! ## The tile's arithmetic at an index -/

/-- The pair term of a tile: row `r` of the first block against row `c` of the second, with the two bias blocks. -/
def tileVal (x0 x1 : Vec Ideal S1024x16 .f32) (x2 : Vec Ideal S1024x1 .f32) (x3 : Vec Ideal S1x1024 .f32) (r c : Fin 1024) : EReal :=
  Ideal.exp ((x2 (ix2 r (0 : Fin 1)) + x3 (ix2 (0 : Fin 1) c))
    - Ideal.sqrt (max (((∑ k : Fin 16, x0 (ix2 r k) * x0 (ix2 r k)) + ∑ k : Fin 16, x1 (ix2 c k) * x1 (ix2 c k))
        - Ideal.ofBits .f32 0x40000000#32 * ∑ k : Fin 16, x0 (ix2 r k) * x1 (ix2 c k)) 0))

theorem exp_apply' {s : Shape} (x : FVec Ideal s .f32) (i : s.Idx) : exp x i = Ideal.exp (x i) := rfl
theorem sqrt_apply' {s : Shape} (x : FVec Ideal s .f32) (i : s.Idx) : sqrt x i = Ideal.sqrt (x i) := rfl

/-- The squared norms of the first block's rows, as a column broadcast over the tile. -/
theorem sqcol_apply (u : FVec Ideal S1024x16 .f32) (r c : Fin 1024) :
    broadcastTo S1024x1024 (shapeCast S1024x1 (multiReduction (F := Ideal) .add [1] S1024 (mulf u u) 0x00000000#32 reduces_S1024x16_S1024 (.inl rfl) rfl) shapeCasts_S1024_S1024x1) broadcasts_S1024x1_S1024x1024 (ix2 r c)
      = ∑ k : Fin 16, u (ix2 r k) * u (ix2 r k) := by
  refine (broadcastTo_a1_ab_apply _ broadcasts_S1024x1_S1024x1024 r c).trans ?_
  refine (shapeCast_a_a1_apply _ shapeCasts_S1024_S1024x1 r 0).trans ?_
  exact rowSum_apply (mulf u u) reduces_S1024x16_S1024 (.inl rfl) rfl r

/-- The squared norms of the second block's rows, as a row broadcast over the tile. -/
theorem sqrow_apply (w : FVec Ideal S1024x16 .f32) (r c : Fin 1024) :
    broadcastTo S1024x1024 (shapeCast S1x1024 (multiReduction (F := Ideal) .add [1] S1024 (mulf w w) 0x00000000#32 reduces_S1024x16_S1024 (.inl rfl) rfl) shapeCasts_S1024_S1x1024) broadcasts_S1x1024_S1024x1024 (ix2 r c)
      = ∑ k : Fin 16, w (ix2 c k) * w (ix2 c k) := by
  refine (broadcastTo_1b_ab_apply _ broadcasts_S1x1024_S1024x1024 r c).trans ?_
  refine (shapeCast_a_1a_apply _ shapeCasts_S1024_S1x1024 0 c).trans ?_
  exact rowSum_apply (mulf w w) reduces_S1024x16_S1024 (.inl rfl) rfl c

theorem gram_lhs0 (i : S1024x1024.Idx) (q : dot_S1024x16_S16x1024_S1024x1024_1_0_0_1_n_n.contr.Idx) :
    (dot_S1024x16_S16x1024_S1024x1024_1_0_0_1_n_n.lhsIdx i q 0).val = (i 0).val := by
  unfold DotDims.lhsIdx
  rw [dif_neg (show ¬(0 : Fin S1024x16.rank) ∈ dot_S1024x16_S16x1024_S1024x1024_1_0_0_1_n_n.lhsBatch by decide), dif_pos (show (0 : Fin S1024x16.rank) ∈ dot_S1024x16_S16x1024_S1024x1024_1_0_0_1_n_n.lhsNonContracting by decide)]
  rfl
theorem gram_rhs1 (i : S1024x1024.Idx) (q : dot_S1024x16_S16x1024_S1024x1024_1_0_0_1_n_n.contr.Idx) :
    (dot_S1024x16_S16x1024_S1024x1024_1_0_0_1_n_n.rhsIdx i q 1).val = (i 1).val := by
  unfold DotDims.rhsIdx
  rw [dif_neg (show ¬(1 : Fin S16x1024.rank) ∈ dot_S1024x16_S16x1024_S1024x1024_1_0_0_1_n_n.rhsBatch by decide), dif_pos (show (1 : Fin S16x1024.rank) ∈ dot_S1024x16_S16x1024_S1024x1024_1_0_0_1_n_n.rhsNonContracting by decide)]
  rfl

/-- The product of the first block with the transposed second block at (r, c): the inner product of the two rows. -/
theorem gram_apply (u w : FVec Ideal S1024x16 .f32) (r c : Fin 1024) :
    matmul (F := Ideal) dot_S1024x16_S16x1024_S1024x1024_1_0_0_1_n_n (some .fp32) u (transpose S16x1024 [1, 0] w transposes_S1024x16_p1_0_S16x1024) (constant (F := Ideal) S1024x1024 .f32 0x00000000#32) (ix2 r c)
      = ∑ k : Fin 16, u (ix2 r k) * w (ix2 c k) := by
  refine (Ideal.matmul_constant_zero_apply dot_S1024x16_S16x1024_S1024x1024_1_0_0_1_n_n (some .fp32) u _ (ix2 r c)).trans ?_
  rw [← Equiv.sum_comp (contrEquiv1 dot_S1024x16_S16x1024_S1024x1024_1_0_0_1_n_n 16 rfl rfl).symm]
  refine Finset.sum_congr rfl fun k _ => ?_
  have hk := contrEquiv1_symm_val dot_S1024x16_S16x1024_S1024x1024_1_0_0_1_n_n 16 rfl rfl k
  have el : dot_S1024x16_S16x1024_S1024x1024_1_0_0_1_n_n.lhsIdx (ix2 r c) ((contrEquiv1 dot_S1024x16_S16x1024_S1024x1024_1_0_0_1_n_n 16 rfl rfl).symm k) = ix2 r k := funext fun a => Fin.ext (by
    match a with
    | ⟨0, _⟩ => exact gram_lhs0 _ _
    | ⟨1, _⟩ => exact (dot_S1024x16_S16x1024_S1024x1024_1_0_0_1_n_n.lhsIdx_val_of_single rfl _ _).trans hk)
  have er : dot_S1024x16_S16x1024_S1024x1024_1_0_0_1_n_n.rhsIdx (ix2 r c) ((contrEquiv1 dot_S1024x16_S16x1024_S1024x1024_1_0_0_1_n_n 16 rfl rfl).symm k) = ix2 k c := funext fun a => Fin.ext (by
    match a with
    | ⟨0, _⟩ => exact (dot_S1024x16_S16x1024_S1024x1024_1_0_0_1_n_n.rhsIdx_val_of_single rfl _ _).trans hk
    | ⟨1, _⟩ => exact gram_rhs1 _ _)
  rw [el, er, transpose_ix2_apply w transposes_S1024x16_p1_0_S16x1024 k c]

/-- The tile of the first region's payload at (r, c). -/
theorem pay3_apply (x0 x1 : Vec Ideal S1024x16 .f32) (x2 : Vec Ideal S1024x1 .f32) (x3 : Vec Ideal S1x1024 .f32) (r c : Fin 1024) :
    k0_pay3 (F := Ideal) x0 x1 x2 x3 (ix2 r c) = tileVal x0 x1 x2 x3 r c := by
  unfold k0_pay3
  dsimp only
  simp only [shapeCast_self]
  rw [exp_apply', subf_apply, addf_apply, broadcastTo_a1_ab_apply, broadcastTo_1b_ab_apply, sqrt_apply', maximumf_apply, subf_apply,
    addf_apply, sqcol_apply, sqrow_apply, mulf_apply, broadcast_apply, broadcast_apply, gram_apply]
  show Ideal.exp (_ - Ideal.sqrt (max (_ - Ideal.ofBits .f32 0x40000000#32 * _) (Ideal.ofBits .f32 0x00000000#32))) = _
  rw [Ideal.ofBits_zero_f32]
  rfl

/-! ## The tile's total and the mask -/

/-- The lane sum over the columns and then the sum over the rows, at the one index of the result. -/
theorem total_apply (v : FVec Ideal S1024x1024 .f32) :
    shapeCast S1x1 (multiReduction (F := Ideal) .add [0] S1 (shapeCast S1024x1 (multiReduction (F := Ideal) .add [1] S1024 v 0x00000000#32 reduces_S1024x1024_S1024 (.inl rfl) rfl) shapeCasts_S1024_S1024x1) 0x00000000#32 reduces_S1024x1_S1 (.inl rfl) rfl) shapeCasts_S1_S1x1 (ix2 (0 : Fin 1) (0 : Fin 1))
      = ∑ r : Fin 1024, ∑ c : Fin 1024, v (ix2 r c) := by
  refine (shapeCast_a_a1_apply _ shapeCasts_S1_S1x1 0 0).trans ?_
  refine (Ideal.multiReduction_add_single _ 0x00000000#32 reduces_S1024x1_S1 (.inl rfl) rfl (ix1 0)).trans ?_
  refine Finset.sum_congr rfl fun r _ => ?_
  have e : reduces_S1024x1_S1.lift (ix1 (0 : Fin 1)) r = ix2 (⟨r.val, r.isLt⟩ : Fin 1024) (0 : Fin 1) :=
    funext fun a => Fin.ext (by match a with | ⟨0, _⟩ => rfl | ⟨1, _⟩ => rfl)
  rw [e]
  refine (shapeCast_a_a1_apply _ shapeCasts_S1024_S1024x1 _ 0).trans ?_
  exact rowSum_apply v reduces_S1024x1024_S1024 (.inl rfl) rfl _

/-- A global index below 8192, built as a tile offset plus an index inside the tile in 32-bit words and read signed,
    is the index. -/
theorem word_toInt (a r : ℕ) (ha : a < 8) (hr : r < 1024) :
    (BitVec.ofNat 32 r + BitVec.ofNat 32 a * 1024#32).toInt = ((1024 * a + r : ℕ) : Int) := by
  have h1 : (BitVec.ofNat 32 r + BitVec.ofNat 32 a * 1024#32).toNat = 1024 * a + r := by
    simp only [BitVec.toNat_add, BitVec.toNat_mul, BitVec.toNat_ofNat, Nat.reducePow, Nat.reduceMod]
    omega
  rw [BitVec.toInt_eq_toNat_of_lt (by rw [h1]; omega), h1]

theorem cmpi_apply' {s : Shape} {w : ℕ} (p : CmpIPredicate) (x y : IVec s w) (i : s.Idx) : cmpi p x y i = IntOp.cmpi p (x i) (y i) := rfl
theorem addi_apply' {s : Shape} {w : ℕ} (x y : IVec s w) (i : s.Idx) : addi x y i = IntOp.addi (x i) (y i) := rfl

/-- The mask at (r, c) of the tile at grid point `i`: the global row index below the global column index. -/
theorem kmask_apply (i : grid0.Coords) (r c : Fin 1024) :
    cmpi .slt (broadcastTo S1024x1024 (k0_pay4 i) broadcasts_S1024x1_S1024x1024)
      (broadcastTo S1024x1024 (addi (iota .tc S1x1024 32 [1] iota_S1x1024_d1_w32) (broadcast S1x1024 (Scalar.muli (BitVec.ofNat 32 (i 1).val) 1024#32))) broadcasts_S1x1024_S1024x1024) (ix2 r c)
      = if 1024 * (i 0).val + r.val < 1024 * (i 1).val + c.val then 1#1 else 0#1 := by
  rw [cmpi_apply', broadcastTo_a1_ab_apply, broadcastTo_1b_ab_apply]
  unfold k0_pay4
  dsimp only
  rw [addi_apply', addi_apply', iota_single_apply, iota_single_apply, broadcast_apply, broadcast_apply]
  have h0 : (i 0).val < 8 := (i 0).isLt
  have h1 : (i 1).val < 8 := (i 1).isLt
  show BitVec.ofBool ((BitVec.ofNat 32 r.val + BitVec.ofNat 32 (i 0).val * 1024#32).slt (BitVec.ofNat 32 c.val + BitVec.ofNat 32 (i 1).val * 1024#32)) = _
  have hs : (BitVec.ofNat 32 r.val + BitVec.ofNat 32 (i 0).val * 1024#32).slt (BitVec.ofNat 32 c.val + BitVec.ofNat 32 (i 1).val * 1024#32)
      = decide (1024 * (i 0).val + r.val < 1024 * (i 1).val + c.val) := by
    unfold BitVec.slt
    rw [word_toInt _ _ h0 r.isLt, word_toInt _ _ h1 c.isLt]
    exact decide_eq_decide.2 Int.ofNat_lt
  rw [hs]
  by_cases h : 1024 * (i 0).val + r.val < 1024 * (i 1).val + c.val
  · rw [if_pos h, decide_eq_true h]; rfl
  · rw [if_neg h, decide_eq_false h]; rfl

/-! ## One point's step at the one index -/

/-- The first region's step: the accumulator before plus the tile's pair terms whose global row index is below the
    global column index. -/
theorem step0_apply (i : grid0.Coords) (x0 x1 : Vec Ideal S1024x16 .f32) (x2 : Vec Ideal S1024x1 .f32) (x3 : Vec Ideal S1x1024 .f32)
    (prev : Vec Ideal S1x1 .f32) :
    step0 (F := Ideal) i x0 x1 x2 x3 prev (ix2 (0 : Fin 1) (0 : Fin 1))
      = prev (ix2 (0 : Fin 1) (0 : Fin 1)) + ∑ r : Fin 1024, ∑ c : Fin 1024,
          if 1024 * (i 0).val + r.val < 1024 * (i 1).val + c.val then tileVal x0 x1 x2 x3 r c else 0 := by
  unfold step0 k0_pay1
  dsimp only
  rw [shapeCast_self (s := S1x1), addf_apply, total_apply]
  refine congrArg (prev (ix2 (0 : Fin 1) (0 : Fin 1)) + ·) (Finset.sum_congr rfl fun r _ => Finset.sum_congr rfl fun c _ => ?_)
  rw [select_apply, kmask_apply, pay3_apply, broadcast_apply]
  by_cases h : 1024 * (i 0).val + r.val < 1024 * (i 1).val + c.val
  · rw [if_pos h, if_pos h, select_one]
  · rw [if_neg h, if_neg h, select_zero]; exact Ideal.ofBits_zero_f32

/-- The second region's step: the accumulator before plus all of the tile's pair terms. -/
theorem step1_apply (i : grid1.Coords) (x0 x1 : Vec Ideal S1024x16 .f32) (x2 : Vec Ideal S1024x1 .f32) (x3 : Vec Ideal S1x1024 .f32)
    (prev : Vec Ideal S1x1 .f32) :
    step1 (F := Ideal) i x0 x1 x2 x3 prev (ix2 (0 : Fin 1) (0 : Fin 1))
      = prev (ix2 (0 : Fin 1) (0 : Fin 1)) + ∑ r : Fin 1024, ∑ c : Fin 1024, tileVal x0 x1 x2 x3 r c := by
  unfold step1 k1_pay1 k1_pay3
  dsimp only
  rw [shapeCast_self (s := S1x1), addf_apply, total_apply]
  exact congrArg (prev (ix2 (0 : Fin 1) (0 : Fin 1)) + ·) (Finset.sum_congr rfl fun r _ => Finset.sum_congr rfl fun c _ => pay3_apply x0 x1 x2 x3 r c)

/-- The cleared accumulator holds 0. -/
theorem pay2_0_apply : k0_pay2 (F := Ideal) (ix2 (0 : Fin 1) (0 : Fin 1)) = 0 := by
  unfold k0_pay2; rw [shapeCast_self (s := S1x1), broadcast_apply]; exact Ideal.ofBits_zero_f32
theorem pay2_1_apply : k1_pay2 (F := Ideal) (ix2 (0 : Fin 1) (0 : Fin 1)) = 0 := by
  unfold k1_pay2; rw [shapeCast_self (s := S1x1), broadcast_apply]; exact Ideal.ofBits_zero_f32

/-! ## The blocks at a point are the arrays' entries at the global indices -/

section Blocks0
variable (V : (c : Dev nD) → (b : Ref sig .tc) → Buf (Elt Ideal) ((c : Thread nD τ).loc b))

/-- The printed index maps and the grid's coordinates, decided over the 64 points: point `t` is in tile-row `t / 8` and
    tile-column `t % 8`. -/
theorem idx0_facts : ∀ t : Fin cfg0.N,
    win0_0.index t (0 : Fin 2) = t.val / 8 ∧ win0_0.index t (1 : Fin 2) = 0
    ∧ win0_1.index t (0 : Fin 2) = t.val % 8 ∧ win0_1.index t (1 : Fin 2) = 0
    ∧ win0_2.index t (0 : Fin 2) = t.val / 8 ∧ win0_2.index t (1 : Fin 2) = 0
    ∧ win0_3.index t (0 : Fin 2) = 0 ∧ win0_3.index t (1 : Fin 2) = t.val % 8
    ∧ (grid0.coords t 0).val = t.val / 8 ∧ (grid0.coords t 1).val = t.val % 8 :=
  (by decide +kernel : ∀ t : Fin grid0.N,
    win0_0.index t (0 : Fin 2) = t.val / 8 ∧ win0_0.index t (1 : Fin 2) = 0
    ∧ win0_1.index t (0 : Fin 2) = t.val % 8 ∧ win0_1.index t (1 : Fin 2) = 0
    ∧ win0_2.index t (0 : Fin 2) = t.val / 8 ∧ win0_2.index t (1 : Fin 2) = 0
    ∧ win0_3.index t (0 : Fin 2) = 0 ∧ win0_3.index t (1 : Fin 2) = t.val % 8
    ∧ (grid0.coords t 0).val = t.val / 8 ∧ (grid0.coords t 1).val = t.val % 8)

theorem blk0_0_apply (c : Dev nD) (t : Fin cfg0.N) (r : Fin 1024) (k : Fin 16) (hr : 1024 * (t.val / 8) + r.val < 8192) :
    (blk0 V c 0 t : Vec Ideal S1024x16 .f32) (ix2 r k)
      = (V c main_v6 : Vec Ideal S8192x16 .f32) (ix2 (⟨1024 * (t.val / 8) + r.val, hr⟩ : Fin 8192) k) := by
  obtain ⟨e0, e1, -⟩ := idx0_facts t
  show (V c main_v6 : Vec Ideal S8192x16 .f32) (((cfg0.win 0).blk t).view.emb (ix2 r k)) = _
  refine congrArg _ (funext fun a => Fin.ext ?_)
  match a with
  | ⟨0, _⟩ => show win0_0.index t (0 : Fin 2) * 1024 + 1 * r.val = 1024 * (t.val / 8) + r.val; omega
  | ⟨1, _⟩ => show win0_0.index t (1 : Fin 2) * 16 + 1 * k.val = k.val; omega

theorem blk0_1_apply (c : Dev nD) (t : Fin cfg0.N) (r : Fin 1024) (k : Fin 16) (hr : 1024 * (t.val % 8) + r.val < 8192) :
    (blk0 V c 1 t : Vec Ideal S1024x16 .f32) (ix2 r k)
      = (V c main_v13 : Vec Ideal S8192x16 .f32) (ix2 (⟨1024 * (t.val % 8) + r.val, hr⟩ : Fin 8192) k) := by
  obtain ⟨-, -, e2, e3, -⟩ := idx0_facts t
  show (V c main_v13 : Vec Ideal S8192x16 .f32) (((cfg0.win 1).blk t).view.emb (ix2 r k)) = _
  refine congrArg _ (funext fun a => Fin.ext ?_)
  match a with
  | ⟨0, _⟩ => show win0_1.index t (0 : Fin 2) * 1024 + 1 * r.val = 1024 * (t.val % 8) + r.val; omega
  | ⟨1, _⟩ => show win0_1.index t (1 : Fin 2) * 16 + 1 * k.val = k.val; omega

theorem blk0_2_apply (c : Dev nD) (g1 : FVec Ideal S8192 .f32)
    (hbx : (V c main_v53 : Vec Ideal S8192x1 .f32) = broadcastInDim S8192x1 ![0] bcast_S8192_S8192x1_0 g1)
    (t : Fin cfg0.N) (r : Fin 1024) (hr : 1024 * (t.val / 8) + r.val < 8192) :
    (blk0 V c 2 t : Vec Ideal S1024x1 .f32) (ix2 r (0 : Fin 1)) = g1 (ix1 (⟨1024 * (t.val / 8) + r.val, hr⟩ : Fin 8192)) := by
  obtain ⟨-, -, -, -, e4, e5, -⟩ := idx0_facts t
  show (V c main_v53 : Vec Ideal S8192x1 .f32) (((cfg0.win 2).blk t).view.emb (ix2 r (0 : Fin 1))) = _
  rw [hbx]
  refine broadcastInDim_apply _ bcast_S8192_S8192x1_0 g1 _ _ (fun a => ?_)
  match a with
  | ⟨0, _⟩ =>
    show 1024 * (t.val / 8) + r.val = if (8192 : ℕ) = 1 then 0 else win0_2.index t (0 : Fin 2) * 1024 + 1 * r.val
    rw [if_neg (by decide)]; omega

theorem blk0_3_apply (c : Dev nD) (g2 : FVec Ideal S8192 .f32)
    (hby : (V c main_v54 : Vec Ideal S1x8192 .f32) = broadcastInDim S1x8192 ![1] bcast_S8192_S1x8192_1 g2)
    (t : Fin cfg0.N) (r : Fin 1024) (hr : 1024 * (t.val % 8) + r.val < 8192) :
    (blk0 V c 3 t : Vec Ideal S1x1024 .f32) (ix2 (0 : Fin 1) r) = g2 (ix1 (⟨1024 * (t.val % 8) + r.val, hr⟩ : Fin 8192)) := by
  obtain ⟨-, -, -, -, -, -, e6, e7, -⟩ := idx0_facts t
  show (V c main_v54 : Vec Ideal S1x8192 .f32) (((cfg0.win 3).blk t).view.emb (ix2 (0 : Fin 1) r)) = _
  rw [hby]
  refine broadcastInDim_apply _ bcast_S8192_S1x8192_1 g2 _ _ (fun a => ?_)
  match a with
  | ⟨0, _⟩ =>
    show 1024 * (t.val % 8) + r.val = if (8192 : ℕ) = 1 then 0 else win0_3.index t (1 : Fin 2) * 1024 + 1 * r.val
    rw [if_neg (by decide)]; omega

/-- The tile's pair term at (r, c') of point `t` is the pair term of the global indices. -/
theorem tile0_eq (c : Dev nD) (g1 g2 : FVec Ideal S8192 .f32)
    (hbx : (V c main_v53 : Vec Ideal S8192x1 .f32) = broadcastInDim S8192x1 ![0] bcast_S8192_S8192x1_0 g1)
    (hby : (V c main_v54 : Vec Ideal S1x8192 .f32) = broadcastInDim S1x8192 ![1] bcast_S8192_S1x8192_1 g2)
    (t : Fin cfg0.N) (r c' : Fin 1024) (hr : 1024 * (t.val / 8) + r.val < 8192) (hc : 1024 * (t.val % 8) + c'.val < 8192) :
    tileVal (blk0 V c 0 t) (blk0 V c 1 t) (blk0 V c 2 t) (blk0 V c 3 t) r c'
      = Cert.Spec.pair (V c main_v6) (V c main_v13) g1 g2 ⟨1024 * (t.val / 8) + r.val, hr⟩ ⟨1024 * (t.val % 8) + c'.val, hc⟩ := by
  unfold tileVal Cert.Spec.pair Cert.Spec.sq Cert.Spec.dot
  simp only [fun k => blk0_0_apply V c t r k hr, fun k => blk0_1_apply V c t c' k hc, blk0_2_apply V c g1 hbx t r hr,
    blk0_3_apply V c g2 hby t c' hc]

end Blocks0

/-! ## The 64 points add up to the sum over the square -/

section Acc0
variable (V : (c : Dev nD) → (b : Ref sig .tc) → Buf (Elt Ideal) ((c : Thread nD τ).loc b))

/-- The pair term of the square's entry (R, C) where the row index is below the column index, 0 elsewhere. -/
def upperTerm (X Y : Cert.Spec.Pts) (g1 g2 : Cert.Spec.Bias) (R C : Fin 8192) : EReal :=
  if R.val < C.val then Cert.Spec.pair X Y g1 g2 R C else 0

/-- What point `t` adds to the accumulator: its tile of the square. -/
theorem point0_eq (c : Dev nD) (g1 g2 : FVec Ideal S8192 .f32)
    (hbx : (V c main_v53 : Vec Ideal S8192x1 .f32) = broadcastInDim S8192x1 ![0] bcast_S8192_S8192x1_0 g1)
    (hby : (V c main_v54 : Vec Ideal S1x8192 .f32) = broadcastInDim S1x8192 ![1] bcast_S8192_S1x8192_1 g2)
    (t : Fin cfg0.N) (ht : t.val < 8 * 8) (prev : Vec Ideal S1x1 .f32) :
    stepAt0 V c t prev (ix2 (0 : Fin 1) (0 : Fin 1))
      = prev (ix2 (0 : Fin 1) (0 : Fin 1)) + ∑ r : Fin 1024, ∑ c' : Fin 1024,
          upperTerm (V c main_v6) (V c main_v13) g1 g2
            ⟨1024 * (t.val / 8) + r.val, Cert.LibTileSum.row_lt (B := 8) (S := 1024) (N := 8192) rfl ⟨t.val, ht⟩ r⟩
            ⟨1024 * (t.val % 8) + c'.val, Cert.LibTileSum.col_lt (B := 8) (S := 1024) (N := 8192) rfl ⟨t.val, ht⟩ c'⟩ := by
  obtain ⟨-, -, -, -, -, -, -, -, e8, e9⟩ := idx0_facts t
  unfold stepAt0
  refine (step0_apply (grid0.coords t) _ _ _ _ prev).trans ?_
  refine congrArg (prev (ix2 (0 : Fin 1) (0 : Fin 1)) + ·) (Finset.sum_congr rfl fun r _ => Finset.sum_congr rfl fun c' _ => ?_)
  rw [tile0_eq V c g1 g2 hbx hby t r c' (Cert.LibTileSum.row_lt (B := 8) (S := 1024) (N := 8192) rfl ⟨t.val, ht⟩ r)
    (Cert.LibTileSum.col_lt (B := 8) (S := 1024) (N := 8192) rfl ⟨t.val, ht⟩ c')]
  unfold upperTerm
  refine if_congr ?_ rfl rfl
  show 1024 * (grid0.coords t 0).val + r.val < 1024 * (grid0.coords t 1).val + c'.val ↔ 1024 * (t.val / 8) + r.val < 1024 * (t.val % 8) + c'.val
  rw [e8, e9]

/-- The accumulator after point `n` holds the tiles of the points up to `n`. -/
theorem acc0_sum (c : Dev nD) (g1 g2 : FVec Ideal S8192 .f32)
    (hbx : (V c main_v53 : Vec Ideal S8192x1 .f32) = broadcastInDim S8192x1 ![0] bcast_S8192_S8192x1_0 g1)
    (hby : (V c main_v54 : Vec Ideal S1x8192 .f32) = broadcastInDim S1x8192 ![1] bcast_S8192_S1x8192_1 g2)
    (n : ℕ) (h : n < cfg0.N) (hn : n < 8 * 8) :
    accAt0 V c n h (ix2 (0 : Fin 1) (0 : Fin 1))
      = ∑ m : Fin (n + 1), ∑ r : Fin 1024, ∑ c' : Fin 1024,
          upperTerm (V c main_v6) (V c main_v13) g1 g2
            ⟨1024 * (m.val / 8) + r.val, Cert.LibTileSum.row_lt (B := 8) (S := 1024) (N := 8192) rfl ⟨m.val, by omega⟩ r⟩
            ⟨1024 * (m.val % 8) + c'.val, Cert.LibTileSum.col_lt (B := 8) (S := 1024) (N := 8192) rfl ⟨m.val, by omega⟩ c'⟩ := by
  induction n with
  | zero =>
    rw [accAt0_zero, point0_eq V c g1 g2 hbx hby ⟨0, h⟩ hn, pay2_0_apply, zero_add, Fin.sum_univ_one]
    rfl
  | succ n ih =>
    rw [accAt0_succ, point0_eq V c g1 g2 hbx hby ⟨n + 1, h⟩ hn, ih (Nat.lt_of_succ_lt h) (by omega), Fin.sum_univ_castSucc (n := n + 1)]
    rfl

/-- THE FIRST REGION'S RESULT is the dense term over the pairs with row index below column index. -/
theorem ker_upper (c : Dev nD) (g1 g2 : FVec Ideal S8192 .f32)
    (hbx : (V c main_v53 : Vec Ideal S8192x1 .f32) = broadcastInDim S8192x1 ![0] bcast_S8192_S8192x1_0 g1)
    (hby : (V c main_v54 : Vec Ideal S1x8192 .f32) = broadcastInDim S1x8192 ![1] bcast_S8192_S1x8192_1 g2) :
    result0 (F := Ideal) V c = fun _ => Cert.Spec.denseUpper (V c main_v6) (V c main_v13) g1 g2 := by
  funext j
  obtain rfl : j = ix2 (0 : Fin 1) (0 : Fin 1) := by
    funext a; apply Fin.ext
    match a with
    | ⟨0, _⟩ => have h0 : (j 0).val < 1 := (j 0).isLt; show (j 0).val = 0; omega
    | ⟨1, _⟩ => have h1 : (j 1).val < 1 := (j 1).isLt; show (j 1).val = 0; omega
  unfold result0
  rw [acc0_sum V c g1 g2 hbx hby 63 lastPt0 (by decide)]
  exact Cert.LibTileSum.sum_tiles 8 1024 8192 rfl (upperTerm (V c main_v6) (V c main_v13) g1 g2)

end Acc0

/-! ## The second region's blocks -/

section Blocks1
variable (V : (c : Dev nD) → (b : Ref sig .tc) → Buf (Elt Ideal) ((c : Thread nD τ).loc b))

/-- The printed index maps and the grid's coordinates, decided over the 64 points: point `t` is in tile-row `t / 8` and
    tile-column `t % 8`. -/
theorem idx1_facts : ∀ t : Fin cfg1.N,
    win1_0.index t (0 : Fin 2) = t.val / 8 ∧ win1_0.index t (1 : Fin 2) = 0
    ∧ win1_1.index t (0 : Fin 2) = t.val % 8 ∧ win1_1.index t (1 : Fin 2) = 0
    ∧ win1_2.index t (0 : Fin 2) = t.val / 8 ∧ win1_2.index t (1 : Fin 2) = 0
    ∧ win1_3.index t (0 : Fin 2) = 0 ∧ win1_3.index t (1 : Fin 2) = t.val % 8
    ∧ (grid1.coords t 0).val = t.val / 8 ∧ (grid1.coords t 1).val = t.val % 8 :=
  (by decide +kernel : ∀ t : Fin grid1.N,
    win1_0.index t (0 : Fin 2) = t.val / 8 ∧ win1_0.index t (1 : Fin 2) = 0
    ∧ win1_1.index t (0 : Fin 2) = t.val % 8 ∧ win1_1.index t (1 : Fin 2) = 0
    ∧ win1_2.index t (0 : Fin 2) = t.val / 8 ∧ win1_2.index t (1 : Fin 2) = 0
    ∧ win1_3.index t (0 : Fin 2) = 0 ∧ win1_3.index t (1 : Fin 2) = t.val % 8
    ∧ (grid1.coords t 0).val = t.val / 8 ∧ (grid1.coords t 1).val = t.val % 8)

theorem blk1_0_apply (c : Dev nD) (t : Fin cfg1.N) (r : Fin 1024) (k : Fin 16) (hr : 1024 * (t.val / 8) + r.val < 8192) :
    (blk1 V c 0 t : Vec Ideal S1024x16 .f32) (ix2 r k)
      = (V c main_v6 : Vec Ideal S8192x16 .f32) (ix2 (⟨1024 * (t.val / 8) + r.val, hr⟩ : Fin 8192) k) := by
  obtain ⟨e0, e1, -⟩ := idx1_facts t
  show (V c main_v6 : Vec Ideal S8192x16 .f32) (((cfg1.win 0).blk t).view.emb (ix2 r k)) = _
  refine congrArg _ (funext fun a => Fin.ext ?_)
  match a with
  | ⟨0, _⟩ => show win1_0.index t (0 : Fin 2) * 1024 + 1 * r.val = 1024 * (t.val / 8) + r.val; omega
  | ⟨1, _⟩ => show win1_0.index t (1 : Fin 2) * 16 + 1 * k.val = k.val; omega

theorem blk1_1_apply (c : Dev nD) (t : Fin cfg1.N) (r : Fin 1024) (k : Fin 16) (hr : 1024 * (t.val % 8) + r.val < 8192) :
    (blk1 V c 1 t : Vec Ideal S1024x16 .f32) (ix2 r k)
      = (V c main_v22 : Vec Ideal S8192x16 .f32) (ix2 (⟨1024 * (t.val % 8) + r.val, hr⟩ : Fin 8192) k) := by
  obtain ⟨-, -, e2, e3, -⟩ := idx1_facts t
  show (V c main_v22 : Vec Ideal S8192x16 .f32) (((cfg1.win 1).blk t).view.emb (ix2 r k)) = _
  refine congrArg _ (funext fun a => Fin.ext ?_)
  match a with
  | ⟨0, _⟩ => show win1_1.index t (0 : Fin 2) * 1024 + 1 * r.val = 1024 * (t.val % 8) + r.val; omega
  | ⟨1, _⟩ => show win1_1.index t (1 : Fin 2) * 16 + 1 * k.val = k.val; omega

theorem blk1_2_apply (c : Dev nD) (g1 : FVec Ideal S8192 .f32)
    (hbx : (V c main_v57 : Vec Ideal S8192x1 .f32) = broadcastInDim S8192x1 ![0] bcast_S8192_S8192x1_0 g1)
    (t : Fin cfg1.N) (r : Fin 1024) (hr : 1024 * (t.val / 8) + r.val < 8192) :
    (blk1 V c 2 t : Vec Ideal S1024x1 .f32) (ix2 r (0 : Fin 1)) = g1 (ix1 (⟨1024 * (t.val / 8) + r.val, hr⟩ : Fin 8192)) := by
  obtain ⟨-, -, -, -, e4, e5, -⟩ := idx1_facts t
  show (V c main_v57 : Vec Ideal S8192x1 .f32) (((cfg1.win 2).blk t).view.emb (ix2 r (0 : Fin 1))) = _
  rw [hbx]
  refine broadcastInDim_apply _ bcast_S8192_S8192x1_0 g1 _ _ (fun a => ?_)
  match a with
  | ⟨0, _⟩ =>
    show 1024 * (t.val / 8) + r.val = if (8192 : ℕ) = 1 then 0 else win1_2.index t (0 : Fin 2) * 1024 + 1 * r.val
    rw [if_neg (by decide)]; omega

theorem blk1_3_apply (c : Dev nD) (g2 : FVec Ideal S8192 .f32)
    (hby : (V c main_v58 : Vec Ideal S1x8192 .f32) = broadcastInDim S1x8192 ![1] bcast_S8192_S1x8192_1 g2)
    (t : Fin cfg1.N) (r : Fin 1024) (hr : 1024 * (t.val % 8) + r.val < 8192) :
    (blk1 V c 3 t : Vec Ideal S1x1024 .f32) (ix2 (0 : Fin 1) r) = g2 (ix1 (⟨1024 * (t.val % 8) + r.val, hr⟩ : Fin 8192)) := by
  obtain ⟨-, -, -, -, -, -, e6, e7, -⟩ := idx1_facts t
  show (V c main_v58 : Vec Ideal S1x8192 .f32) (((cfg1.win 3).blk t).view.emb (ix2 (0 : Fin 1) r)) = _
  rw [hby]
  refine broadcastInDim_apply _ bcast_S8192_S1x8192_1 g2 _ _ (fun a => ?_)
  match a with
  | ⟨0, _⟩ =>
    show 1024 * (t.val % 8) + r.val = if (8192 : ℕ) = 1 then 0 else win1_3.index t (1 : Fin 2) * 1024 + 1 * r.val
    rw [if_neg (by decide)]; omega

/-- The tile's pair term at (r, c') of point `t` is the pair term of the global indices. -/
theorem tile1_eq (c : Dev nD) (g1 g2 : FVec Ideal S8192 .f32)
    (hbx : (V c main_v57 : Vec Ideal S8192x1 .f32) = broadcastInDim S8192x1 ![0] bcast_S8192_S8192x1_0 g1)
    (hby : (V c main_v58 : Vec Ideal S1x8192 .f32) = broadcastInDim S1x8192 ![1] bcast_S8192_S1x8192_1 g2)
    (t : Fin cfg1.N) (r c' : Fin 1024) (hr : 1024 * (t.val / 8) + r.val < 8192) (hc : 1024 * (t.val % 8) + c'.val < 8192) :
    tileVal (blk1 V c 0 t) (blk1 V c 1 t) (blk1 V c 2 t) (blk1 V c 3 t) r c'
      = Cert.Spec.pair (V c main_v6) (V c main_v22) g1 g2 ⟨1024 * (t.val / 8) + r.val, hr⟩ ⟨1024 * (t.val % 8) + c'.val, hc⟩ := by
  unfold tileVal Cert.Spec.pair Cert.Spec.sq Cert.Spec.dot
  simp only [fun k => blk1_0_apply V c t r k hr, fun k => blk1_1_apply V c t c' k hc, blk1_2_apply V c g1 hbx t r hr,
    blk1_3_apply V c g2 hby t c' hc]

end Blocks1

/-! ## The second region: every pair term, no mask -/

section Acc1
variable (V : (c : Dev nD) → (b : Ref sig .tc) → Buf (Elt Ideal) ((c : Thread nD τ).loc b))

/-- What point `t` adds to the accumulator: its tile of the square. -/
theorem point1_eq (c : Dev nD) (g1 g2 : FVec Ideal S8192 .f32)
    (hbx : (V c main_v57 : Vec Ideal S8192x1 .f32) = broadcastInDim S8192x1 ![0] bcast_S8192_S8192x1_0 g1)
    (hby : (V c main_v58 : Vec Ideal S1x8192 .f32) = broadcastInDim S1x8192 ![1] bcast_S8192_S1x8192_1 g2)
    (t : Fin cfg1.N) (ht : t.val < 8 * 8) (prev : Vec Ideal S1x1 .f32) :
    stepAt1 V c t prev (ix2 (0 : Fin 1) (0 : Fin 1))
      = prev (ix2 (0 : Fin 1) (0 : Fin 1)) + ∑ r : Fin 1024, ∑ c' : Fin 1024,
          Cert.Spec.pair (V c main_v6) (V c main_v22) g1 g2
            ⟨1024 * (t.val / 8) + r.val, Cert.LibTileSum.row_lt (B := 8) (S := 1024) (N := 8192) rfl ⟨t.val, ht⟩ r⟩
            ⟨1024 * (t.val % 8) + c'.val, Cert.LibTileSum.col_lt (B := 8) (S := 1024) (N := 8192) rfl ⟨t.val, ht⟩ c'⟩ := by
  unfold stepAt1
  refine (step1_apply (grid1.coords t) _ _ _ _ prev).trans ?_
  refine congrArg (prev (ix2 (0 : Fin 1) (0 : Fin 1)) + ·) (Finset.sum_congr rfl fun r _ => Finset.sum_congr rfl fun c' _ => ?_)
  rw [tile1_eq V c g1 g2 hbx hby t r c' (Cert.LibTileSum.row_lt (B := 8) (S := 1024) (N := 8192) rfl ⟨t.val, ht⟩ r)
    (Cert.LibTileSum.col_lt (B := 8) (S := 1024) (N := 8192) rfl ⟨t.val, ht⟩ c')]

/-- The accumulator after point `n` holds the tiles of the points up to `n`. -/
theorem acc1_sum (c : Dev nD) (g1 g2 : FVec Ideal S8192 .f32)
    (hbx : (V c main_v57 : Vec Ideal S8192x1 .f32) = broadcastInDim S8192x1 ![0] bcast_S8192_S8192x1_0 g1)
    (hby : (V c main_v58 : Vec Ideal S1x8192 .f32) = broadcastInDim S1x8192 ![1] bcast_S8192_S1x8192_1 g2)
    (n : ℕ) (h : n < cfg1.N) (hn : n < 8 * 8) :
    accAt1 V c n h (ix2 (0 : Fin 1) (0 : Fin 1))
      = ∑ m : Fin (n + 1), ∑ r : Fin 1024, ∑ c' : Fin 1024,
          Cert.Spec.pair (V c main_v6) (V c main_v22) g1 g2
            ⟨1024 * (m.val / 8) + r.val, Cert.LibTileSum.row_lt (B := 8) (S := 1024) (N := 8192) rfl ⟨m.val, by omega⟩ r⟩
            ⟨1024 * (m.val % 8) + c'.val, Cert.LibTileSum.col_lt (B := 8) (S := 1024) (N := 8192) rfl ⟨m.val, by omega⟩ c'⟩ := by
  induction n with
  | zero =>
    rw [accAt1_zero, point1_eq V c g1 g2 hbx hby ⟨0, h⟩ hn, pay2_1_apply, zero_add, Fin.sum_univ_one]
    rfl
  | succ n ih =>
    rw [accAt1_succ, point1_eq V c g1 g2 hbx hby ⟨n + 1, h⟩ hn, ih (Nat.lt_of_succ_lt h) (by omega), Fin.sum_univ_castSucc (n := n + 1)]
    rfl

/-- THE SECOND REGION'S RESULT is the dense term over all pairs. -/
theorem ker_all (c : Dev nD) (g1 g2 : FVec Ideal S8192 .f32)
    (hbx : (V c main_v57 : Vec Ideal S8192x1 .f32) = broadcastInDim S8192x1 ![0] bcast_S8192_S8192x1_0 g1)
    (hby : (V c main_v58 : Vec Ideal S1x8192 .f32) = broadcastInDim S1x8192 ![1] bcast_S8192_S1x8192_1 g2) :
    result1 (F := Ideal) V c = fun _ => Cert.Spec.denseAll (V c main_v6) (V c main_v22) g1 g2 := by
  funext j
  obtain rfl : j = ix2 (0 : Fin 1) (0 : Fin 1) := by
    funext a; apply Fin.ext
    match a with
    | ⟨0, _⟩ => have h0 : (j 0).val < 1 := (j 0).isLt; show (j 0).val = 0; omega
    | ⟨1, _⟩ => have h1 : (j 1).val < 1 := (j 1).isLt; show (j 1).val = 0; omega
  unfold result1
  rw [acc1_sum V c g1 g2 hbx hby 63 lastPt1 (by decide)]
  exact Cert.LibTileSum.sum_tiles 8 1024 8192 rfl (Cert.Spec.pair (V c main_v6) (V c main_v22) g1 g2)

end Acc1

end Cert.KernelIdeal.Hand

end
-- ==== Proof.RefDense.lean ====
/-
  The reference's two dense terms are the specification's two functions.

  Each host operation is read at an index: the row sums of squares are the squared norms, the matrix product with the
  transposed second point set is the inner product, the keepdims broadcasts read a vector at the row or at the column
  coordinate, the comparison of the two coordinate arrays is the comparison of the coordinates, and the sum over both
  axes from the initial value 0 is the double sum over rows and columns.
-/
import proofs.«117720_j19447611916775_1_alg».proof.Proof.Gen.ReferenceIdeal.Read
import proofs.«117720_j19447611916775_1_alg».proof.Proof.Spec

noncomputable section

namespace Cert.ReferenceIdeal.RefDense

open Cert.ReferenceIdeal Cert.ReferenceIdeal.Gen Idealize.ShloMosaic Idealize.ShloMosaic.ValueIdx

/-- The row sum of squares at row `r` is the squared norm of row `r`. -/
theorem rowsq_apply (X : FVec Ideal S8192x16 .f32) (r : Fin 8192) :
    Host.reduceAdd (F := Ideal) (mulf X X) (constant (F := Ideal) S_ .f32 0x00000000#32) reducesTo_S8192x16_S8192_d1 h_S_ (ix1 r)
      = Cert.Spec.sq X r := by
  simp only [Host.reduceAdd, Ideal.hostReduceAdd_def]
  rw [Ideal.hostReduceAdd_single reducesTo_S8192x16_S8192_d1 (by decide)]
  rw [constant_apply, Ideal.ofBits_zero_f32, zero_add]
  unfold Cert.Spec.sq
  refine Finset.sum_congr rfl fun k _ => ?_
  rw [mulf_apply]
  have e : (Shape.Reduces.lift (s := S8192x16) (t := S8192) (a := 1) (by decide) (ix1 r) k) = ix2 r k :=
    funext fun a => Fin.ext (by match a with | ⟨0, _⟩ => rfl | ⟨1, _⟩ => rfl)
  rw [e]
  rfl

/-- A vector broadcast to a column and then across the square is read at the row coordinate. -/
theorem bcast_row_apply {α : Type} (v : S8192.Idx → α) (r c : Fin 8192) :
    broadcastInDim S8192x8192 ![0, 1] bcast_S8192x1_S8192x8192_0_1 (broadcastInDim S8192x1 ![0] bcast_S8192_S8192x1_0 v) (ix2 r c)
      = v (ix1 r) := by
  rw [broadcastInDim_apply _ bcast_S8192x1_S8192x8192_0_1 _ (ix2 r c) (ix2 r (0 : Fin 1)) (fun a => match a with
    | ⟨0, _⟩ => by show r.val = if (8192 : Nat) = 1 then 0 else r.val; rw [if_neg (by decide)]
    | ⟨1, _⟩ => by show 0 = if (1 : Nat) = 1 then 0 else c.val; rw [if_pos rfl])]
  exact broadcastInDim_apply _ bcast_S8192_S8192x1_0 v (ix2 r (0 : Fin 1)) (ix1 r) (fun a => match a with
    | ⟨0, _⟩ => by show r.val = if (8192 : Nat) = 1 then 0 else r.val; rw [if_neg (by decide)])

/-- A vector broadcast to a row and then down the square is read at the column coordinate. -/
theorem bcast_col_apply {α : Type} (v : S8192.Idx → α) (r c : Fin 8192) :
    broadcastInDim S8192x8192 ![0, 1] bcast_S1x8192_S8192x8192_0_1 (broadcastInDim S1x8192 ![1] bcast_S8192_S1x8192_1 v) (ix2 r c)
      = v (ix1 c) := by
  rw [broadcastInDim_apply _ bcast_S1x8192_S8192x8192_0_1 _ (ix2 r c) (ix2 (0 : Fin 1) c) (fun a => match a with
    | ⟨0, _⟩ => by show 0 = if (1 : Nat) = 1 then 0 else r.val; rw [if_pos rfl]
    | ⟨1, _⟩ => by show c.val = if (8192 : Nat) = 1 then 0 else c.val; rw [if_neg (by decide)])]
  exact broadcastInDim_apply _ bcast_S8192_S1x8192_1 v (ix2 (0 : Fin 1) c) (ix1 c) (fun a => match a with
    | ⟨0, _⟩ => by show c.val = if (8192 : Nat) = 1 then 0 else c.val; rw [if_neg (by decide)])

/-- A scalar broadcast over the square is read at the scalar's one index. -/
theorem bcast_scalar_apply {α : Type} (z : S_.Idx → α) (r c : Fin 8192) :
    broadcastInDim S8192x8192 ![] bcast_S_S8192x8192 z (ix2 r c) = z ix0 :=
  broadcastInDim_apply _ bcast_S_S8192x8192 z (ix2 r c) ix0 (fun a => a.elim0)

/-- The matrix product with the transposed second point set at (r, c) is the inner product of row `r` with row `c`. -/
theorem dot_apply (X Y : FVec Ideal S8192x16 .f32) (r c : Fin 8192) :
    Host.dotGeneral (F := Ideal) dot_S8192x16_S16x8192_S8192x8192_1_0_0_1_n_n none X
        (transpose S16x8192 [1, 0] Y transposes_S8192x16_S16x8192_1_0) (ix2 r c)
      = Cert.Spec.dot X Y r c := by
  simp only [Host.dotGeneral]
  rw [Ideal.dotGeneral_apply, ← Equiv.sum_comp (ValueIdx.contrEquiv1 dot_S8192x16_S16x8192_S8192x8192_1_0_0_1_n_n 16 rfl rfl).symm]
  unfold Cert.Spec.dot
  refine Finset.sum_congr rfl fun k _ => ?_
  have hk := ValueIdx.contrEquiv1_symm_val dot_S8192x16_S16x8192_S8192x8192_1_0_0_1_n_n 16 rfl rfl k
  have el : dot_S8192x16_S16x8192_S8192x8192_1_0_0_1_n_n.lhsIdx (ix2 r c) ((ValueIdx.contrEquiv1 dot_S8192x16_S16x8192_S8192x8192_1_0_0_1_n_n 16 rfl rfl).symm k) = ix2 r k := funext fun a => Fin.ext (by
    match a with
    | ⟨0, _⟩ => exact Read.lhs_main_v45_0 _ _
    | ⟨1, _⟩ => exact (Read.lhs_main_v45_1 _ _).trans hk)
  have er : dot_S8192x16_S16x8192_S8192x8192_1_0_0_1_n_n.rhsIdx (ix2 r c) ((ValueIdx.contrEquiv1 dot_S8192x16_S16x8192_S8192x8192_1_0_0_1_n_n 16 rfl rfl).symm k) = ix2 k c := funext fun a => Fin.ext (by
    match a with
    | ⟨0, _⟩ => exact (Read.rhs_main_v45_0 _ _).trans hk
    | ⟨1, _⟩ => exact Read.rhs_main_v45_1 _ _)
  rw [el, er]
  rw [transpose_apply [1, 0] Y transposes_S8192x16_S16x8192_1_0 (ix2 k c) (ix2 c k) (fun b => match b with
    | ⟨0, _⟩ => rfl
    | ⟨1, _⟩ => rfl)]

/-- A coordinate below 8192, as a 32-bit word read signed, is the coordinate. -/
theorem toInt_ofNat_coord (n : Nat) (h : n < 8192) : (BitVec.ofNat 32 n).toInt = (n : Int) := by
  have h1 : (BitVec.ofNat 32 n).toNat = n := by rw [BitVec.toNat_ofNat]; exact Nat.mod_eq_of_lt (by omega)
  rw [BitVec.toInt_eq_toNat_of_lt (by rw [h1]; omega), h1]

/-- The comparison "row coordinate + 0 ≥ column coordinate" of the two coordinate arrays, as signed 32-bit words, is
    the comparison of the coordinates. -/
theorem mask_apply (r c : Fin 8192) :
    cmpi .sge (addi (iotaInDim S8192x8192 32 0) (broadcastInDim S8192x8192 ![] bcast_S_S8192x8192 (constantI S_ 32 0#32)))
        (iotaInDim S8192x8192 32 1) (ix2 r c)
      = if r.val < c.val then 0#1 else 1#1 := by
  show IntOp.cmpi .sge (IntOp.addi (BitVec.ofNat 32 r.val)
      (broadcastInDim S8192x8192 ![] bcast_S_S8192x8192 (constantI S_ 32 0#32) (ix2 r c))) (BitVec.ofNat 32 c.val) = _
  rw [bcast_scalar_apply]
  show BitVec.ofBool ((BitVec.ofNat 32 c.val).sle (BitVec.ofNat 32 r.val + 0#32)) = _
  rw [BitVec.add_zero]
  have hs : (BitVec.ofNat 32 c.val).sle (BitVec.ofNat 32 r.val) = decide (c.val ≤ r.val) := by
    unfold BitVec.sle
    rw [toInt_ofNat_coord _ c.isLt, toInt_ofNat_coord _ r.isLt]
    exact decide_eq_decide.2 Int.ofNat_le
  rw [hs]
  by_cases h : r.val < c.val
  · rw [if_pos h, decide_eq_false (by omega)]; rfl
  · rw [if_neg h, decide_eq_true (by omega)]; rfl

theorem hostExp_apply {s : Shape} (x : FVec Ideal s .f32) (i : s.Idx) : Host.exp x i = Ideal.exp (x i) := rfl
theorem hostSqrt_apply {s : Shape} (x : FVec Ideal s .f32) (i : s.Idx) : Host.sqrt x i = Ideal.sqrt (x i) := rfl

/-- The exponential term at (r, c) is the contribution of the pair (r, c). -/
theorem pair_apply (X Y : FVec Ideal S8192x16 .f32) (g1 g2 : FVec Ideal S8192 .f32) (r c : Fin 8192) :
    Host.exp (F := Ideal) (subf (addf (broadcastInDim S8192x8192 ![0, 1] bcast_S8192x1_S8192x8192_0_1 (broadcastInDim S8192x1 ![0] bcast_S8192_S8192x1_0 g1)) (broadcastInDim S8192x8192 ![0, 1] bcast_S1x8192_S8192x8192_0_1 (broadcastInDim S1x8192 ![1] bcast_S8192_S1x8192_1 g2))) (Host.sqrt (F := Ideal) (maximumf (subf (addf (broadcastInDim S8192x8192 ![0, 1] bcast_S8192x1_S8192x8192_0_1 (broadcastInDim S8192x1 ![0] bcast_S8192_S8192x1_0 (Host.reduceAdd (F := Ideal) (mulf X X) (constant (F := Ideal) S_ .f32 0x00000000#32) reducesTo_S8192x16_S8192_d1 h_S_))) (broadcastInDim S8192x8192 ![0, 1] bcast_S1x8192_S8192x8192_0_1 (broadcastInDim S1x8192 ![1] bcast_S8192_S1x8192_1 (Host.reduceAdd (F := Ideal) (mulf Y Y) (constant (F := Ideal) S_ .f32 0x00000000#32) reducesTo_S8192x16_S8192_d1 h_S_)))) (mulf (broadcastInDim S8192x8192 ![] bcast_S_S8192x8192 (constant (F := Ideal) S_ .f32 0x40000000#32)) (Host.dotGeneral (F := Ideal) dot_S8192x16_S16x8192_S8192x8192_1_0_0_1_n_n none X (transpose S16x8192 [1, 0] Y transposes_S8192x16_S16x8192_1_0)))) (broadcastInDim S8192x8192 ![] bcast_S_S8192x8192 (constant (F := Ideal) S_ .f32 0x00000000#32))))) (ix2 r c)
      = Cert.Spec.pair X Y g1 g2 r c := by
  rw [hostExp_apply, subf_apply, addf_apply, bcast_row_apply, bcast_col_apply, hostSqrt_apply, maximumf_apply, subf_apply,
    addf_apply, bcast_row_apply, bcast_col_apply, rowsq_apply, rowsq_apply, mulf_apply, bcast_scalar_apply, bcast_scalar_apply,
    dot_apply, constant_apply, constant_apply, Ideal.ofBits_zero_f32]
  rfl

/-- The sum over both axes from the initial value 0 is the double sum over the rows and the columns. -/
theorem total_apply (v : FVec Ideal S8192x8192 .f32) (i : S_.Idx) :
    Host.reduceAdd (F := Ideal) v (constant (F := Ideal) S_ .f32 0x00000000#32) reducesTo_S8192x8192_S_d0_1 h_S_ i
      = ∑ r : Fin 8192, ∑ c : Fin 8192, v (ix2 r c) := by
  simp only [Host.reduceAdd, Ideal.hostReduceAdd_def]
  rw [Ideal.hostReduceAdd_total reducesTo_S8192x8192_S_d0_1 (fun b => b.elim0), constant_apply, Ideal.ofBits_zero_f32, zero_add,
    sum_idx2]

/-- The reference's sum over all pairs is the dense term over all pairs. -/
theorem all_eq (X Y : FVec Ideal S8192x16 .f32) (g1 g2 : FVec Ideal S8192 .f32) :
    (Host.reduceAdd (F := Ideal) (Host.exp (F := Ideal) (subf (addf (broadcastInDim S8192x8192 ![0, 1] bcast_S8192x1_S8192x8192_0_1 (broadcastInDim S8192x1 ![0] bcast_S8192_S8192x1_0 g1)) (broadcastInDim S8192x8192 ![0, 1] bcast_S1x8192_S8192x8192_0_1 (broadcastInDim S1x8192 ![1] bcast_S8192_S1x8192_1 g2))) (Host.sqrt (F := Ideal) (maximumf (subf (addf (broadcastInDim S8192x8192 ![0, 1] bcast_S8192x1_S8192x8192_0_1 (broadcastInDim S8192x1 ![0] bcast_S8192_S8192x1_0 (Host.reduceAdd (F := Ideal) (mulf X X) (constant (F := Ideal) S_ .f32 0x00000000#32) reducesTo_S8192x16_S8192_d1 h_S_))) (broadcastInDim S8192x8192 ![0, 1] bcast_S1x8192_S8192x8192_0_1 (broadcastInDim S1x8192 ![1] bcast_S8192_S1x8192_1 (Host.reduceAdd (F := Ideal) (mulf Y Y) (constant (F := Ideal) S_ .f32 0x00000000#32) reducesTo_S8192x16_S8192_d1 h_S_)))) (mulf (broadcastInDim S8192x8192 ![] bcast_S_S8192x8192 (constant (F := Ideal) S_ .f32 0x40000000#32)) (Host.dotGeneral (F := Ideal) dot_S8192x16_S16x8192_S8192x8192_1_0_0_1_n_n none X (transpose S16x8192 [1, 0] Y transposes_S8192x16_S16x8192_1_0)))) (broadcastInDim S8192x8192 ![] bcast_S_S8192x8192 (constant (F := Ideal) S_ .f32 0x00000000#32)))))) (constant (F := Ideal) S_ .f32 0x00000000#32) reducesTo_S8192x8192_S_d0_1 h_S_)
      = fun _ => Cert.Spec.denseAll X Y g1 g2 := by
  funext i
  rw [total_apply]
  unfold Cert.Spec.denseAll
  exact Finset.sum_congr rfl fun r _ => Finset.sum_congr rfl fun c _ => pair_apply X Y g1 g2 r c

/-- The reference's masked sum is the dense term over the pairs with r < c: the mask puts the zero where the row
    coordinate is at least the column coordinate and keeps the pair's contribution elsewhere. -/
theorem upper_eq (X Y : FVec Ideal S8192x16 .f32) (g1 g2 : FVec Ideal S8192 .f32) :
    (Host.reduceAdd (F := Ideal) (select (cmpi .sge (addi (iotaInDim S8192x8192 32 0) (broadcastInDim S8192x8192 ![] bcast_S_S8192x8192 (constantI S_ 32 0#32))) (iotaInDim S8192x8192 32 1)) (broadcastInDim S8192x8192 ![] bcast_S_S8192x8192 (constant (F := Ideal) S_ .f32 0x00000000#32)) (Host.exp (F := Ideal) (subf (addf (broadcastInDim S8192x8192 ![0, 1] bcast_S8192x1_S8192x8192_0_1 (broadcastInDim S8192x1 ![0] bcast_S8192_S8192x1_0 g1)) (broadcastInDim S8192x8192 ![0, 1] bcast_S1x8192_S8192x8192_0_1 (broadcastInDim S1x8192 ![1] bcast_S8192_S1x8192_1 g2))) (Host.sqrt (F := Ideal) (maximumf (subf (addf (broadcastInDim S8192x8192 ![0, 1] bcast_S8192x1_S8192x8192_0_1 (broadcastInDim S8192x1 ![0] bcast_S8192_S8192x1_0 (Host.reduceAdd (F := Ideal) (mulf X X) (constant (F := Ideal) S_ .f32 0x00000000#32) reducesTo_S8192x16_S8192_d1 h_S_))) (broadcastInDim S8192x8192 ![0, 1] bcast_S1x8192_S8192x8192_0_1 (broadcastInDim S1x8192 ![1] bcast_S8192_S1x8192_1 (Host.reduceAdd (F := Ideal) (mulf Y Y) (constant (F := Ideal) S_ .f32 0x00000000#32) reducesTo_S8192x16_S8192_d1 h_S_)))) (mulf (broadcastInDim S8192x8192 ![] bcast_S_S8192x8192 (constant (F := Ideal) S_ .f32 0x40000000#32)) (Host.dotGeneral (F := Ideal) dot_S8192x16_S16x8192_S8192x8192_1_0_0_1_n_n none X (transpose S16x8192 [1, 0] Y transposes_S8192x16_S16x8192_1_0)))) (broadcastInDim S8192x8192 ![] bcast_S_S8192x8192 (constant (F := Ideal) S_ .f32 0x00000000#32))))))) (constant (F := Ideal) S_ .f32 0x00000000#32) reducesTo_S8192x8192_S_d0_1 h_S_)
      = fun _ => Cert.Spec.denseUpper X Y g1 g2 := by
  funext i
  rw [total_apply]
  unfold Cert.Spec.denseUpper
  refine Finset.sum_congr rfl fun r _ => Finset.sum_congr rfl fun c _ => ?_
  rw [select_apply, mask_apply, bcast_scalar_apply, constant_apply, Ideal.ofBits_zero_f32, pair_apply]
  by_cases h : r.val < c.val
  · rw [if_pos h, if_pos h, select_zero]
  · rw [if_neg h, if_neg h, select_one]

end Cert.ReferenceIdeal.RefDense

end
-- ==== Proof.Alg.lean ====
/-
  The two idealized programs end with equal results.

  Both results are the shared tail of the arguments and of two dense values.  On the kernel's side each dense value is
  what its region's accumulator holds after the last of the 64 tiles, which is the sum over all pairs (for the first
  term, over the pairs with row index below column index) of the pair's contribution; on the reference's side it is
  the same sum taken over the whole 8192 × 8192 matrix at once.  Sums of extended reals may be regrouped freely, so no
  finiteness of the inputs is used.
-/
import proofs.«117720_j19447611916775_1_alg».proof.Defs
import proofs.«117720_j19447611916775_1_alg».proof.Proof.KerTail
import proofs.«117720_j19447611916775_1_alg».proof.Proof.Entry
import proofs.«117720_j19447611916775_1_alg».proof.Proof.KerDense
import proofs.«117720_j19447611916775_1_alg».proof.Proof.RefDense
import proofs.«117720_j19447611916775_1_alg».proof.Proof.Gen.KernelIdeal
import proofs.«117720_j19447611916775_1_alg».proof.Proof.Gen.ReferenceIdeal
import proofs.«117720_j19447611916775_1_alg».proof.Proof.Gen.Pre_finite_inputs

set_option maxRecDepth 16384

noncomputable section

namespace Cert.Proof.Alg

open Idealize.ShloMosaic Idealize.ShloMosaic.TcCoe Idealize.SL.Sem
open Cert.ReferenceIdeal.Hand (rowsA rowsB rowsC biasA biasB biasC biasD tail denseUpperOps denseAllOps)
open Cert.KernelIdeal Cert.KernelIdeal.Gen Cert.KernelIdeal.Hand

/-- The reference's two dense terms are the two sums of pair contributions. -/
theorem ref_upper (X Y : FVec Ideal Cert.ReferenceIdeal.S8192x16 .f32) (g1 g2 : FVec Ideal Cert.ReferenceIdeal.S8192 .f32) :
    denseUpperOps (F := Ideal) X Y g1 g2 = fun _ => Cert.Spec.denseUpper X Y g1 g2 := by
  unfold denseUpperOps; exact Cert.ReferenceIdeal.RefDense.upper_eq X Y g1 g2
theorem ref_all (X Y : FVec Ideal Cert.ReferenceIdeal.S8192x16 .f32) (g1 g2 : FVec Ideal Cert.ReferenceIdeal.S8192 .f32) :
    denseAllOps (F := Ideal) X Y g1 g2 = fun _ => Cert.Spec.denseAll X Y g1 g2 := by
  unfold denseAllOps; exact Cert.ReferenceIdeal.RefDense.all_eq X Y g1 g2

variable (m : (ℓ : Loc Cert.KernelIdeal.nD Cert.KernelIdeal.τ Cert.KernelIdeal.sig) → Buf (Elt Ideal) ℓ) (c : Dev Cert.KernelIdeal.nD)

/-- The common result, from the kernel's launch memory. -/
def value : Buf (Elt Ideal) ((c.tc : Thread Cert.KernelIdeal.nD Cert.KernelIdeal.τ).loc Cert.KernelIdeal.main_v155) :=
  tail (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))
    (fun _ => Cert.Spec.denseUpper (rowsA (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg7))) (rowsB (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg8)))
      (biasA (F := Ideal) (m ((c.tc : Thread Cert.KernelIdeal.nD Cert.KernelIdeal.τ).loc Cert.KernelIdeal.main_arg4)) (m ((c.tc : Thread Cert.KernelIdeal.nD Cert.KernelIdeal.τ).loc Cert.KernelIdeal.main_arg7))) (biasB (F := Ideal) (m ((c.tc : Thread Cert.KernelIdeal.nD Cert.KernelIdeal.τ).loc Cert.KernelIdeal.main_arg4)) (m ((c.tc : Thread Cert.KernelIdeal.nD Cert.KernelIdeal.τ).loc Cert.KernelIdeal.main_arg8))))
    (fun _ => Cert.Spec.denseAll (rowsA (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg7))) (rowsC (F := Ideal) (m ((c.tc : Thread Cert.KernelIdeal.nD Cert.KernelIdeal.τ).loc Cert.KernelIdeal.main_arg2)) (m ((c.tc : Thread Cert.KernelIdeal.nD Cert.KernelIdeal.τ).loc Cert.KernelIdeal.main_arg9)))
      (biasC (F := Ideal) (m ((c.tc : Thread Cert.KernelIdeal.nD Cert.KernelIdeal.τ).loc Cert.KernelIdeal.main_arg3)) (m ((c.tc : Thread Cert.KernelIdeal.nD Cert.KernelIdeal.τ).loc Cert.KernelIdeal.main_arg7))) (biasD (F := Ideal) (m ((c.tc : Thread Cert.KernelIdeal.nD Cert.KernelIdeal.τ).loc Cert.KernelIdeal.main_arg3)) (m ((c.tc : Thread Cert.KernelIdeal.nD Cert.KernelIdeal.τ).loc Cert.KernelIdeal.main_arg9))))

/-- The first region leaves the sum over the pairs with row index below column index. -/
theorem first_dense : result0 (F := Ideal) (E1 m) c = fun _ => Cert.Spec.denseUpper (rowsA (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg7))) (rowsB (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg8)))
      (biasA (F := Ideal) (m ((c.tc : Thread Cert.KernelIdeal.nD Cert.KernelIdeal.τ).loc Cert.KernelIdeal.main_arg4)) (m ((c.tc : Thread Cert.KernelIdeal.nD Cert.KernelIdeal.τ).loc Cert.KernelIdeal.main_arg7))) (biasB (F := Ideal) (m ((c.tc : Thread Cert.KernelIdeal.nD Cert.KernelIdeal.τ).loc Cert.KernelIdeal.main_arg4)) (m ((c.tc : Thread Cert.KernelIdeal.nD Cert.KernelIdeal.τ).loc Cert.KernelIdeal.main_arg8))) := by
  have h := ker_upper (E1 m) c (biasA (F := Ideal) (m ((c.tc : Thread Cert.KernelIdeal.nD Cert.KernelIdeal.τ).loc Cert.KernelIdeal.main_arg4)) (m ((c.tc : Thread Cert.KernelIdeal.nD Cert.KernelIdeal.τ).loc Cert.KernelIdeal.main_arg7))) (biasB (F := Ideal) (m ((c.tc : Thread Cert.KernelIdeal.nD Cert.KernelIdeal.τ).loc Cert.KernelIdeal.main_arg4)) (m ((c.tc : Thread Cert.KernelIdeal.nD Cert.KernelIdeal.τ).loc Cert.KernelIdeal.main_arg8))) (entry0_bx m c) (entry0_by m c)
  rw [entry0_x, entry0_y] at h
  exact h

/-- The second region leaves the sum over all pairs. -/
theorem second_dense : result1 (F := Ideal) (E3 m) c = fun _ => Cert.Spec.denseAll (rowsA (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg7))) (rowsC (F := Ideal) (m ((c.tc : Thread Cert.KernelIdeal.nD Cert.KernelIdeal.τ).loc Cert.KernelIdeal.main_arg2)) (m ((c.tc : Thread Cert.KernelIdeal.nD Cert.KernelIdeal.τ).loc Cert.KernelIdeal.main_arg9)))
      (biasC (F := Ideal) (m ((c.tc : Thread Cert.KernelIdeal.nD Cert.KernelIdeal.τ).loc Cert.KernelIdeal.main_arg3)) (m ((c.tc : Thread Cert.KernelIdeal.nD Cert.KernelIdeal.τ).loc Cert.KernelIdeal.main_arg7))) (biasD (F := Ideal) (m ((c.tc : Thread Cert.KernelIdeal.nD Cert.KernelIdeal.τ).loc Cert.KernelIdeal.main_arg3)) (m ((c.tc : Thread Cert.KernelIdeal.nD Cert.KernelIdeal.τ).loc Cert.KernelIdeal.main_arg9))) := by
  have h := ker_all (E3 m) c (biasC (F := Ideal) (m ((c.tc : Thread Cert.KernelIdeal.nD Cert.KernelIdeal.τ).loc Cert.KernelIdeal.main_arg3)) (m ((c.tc : Thread Cert.KernelIdeal.nD Cert.KernelIdeal.τ).loc Cert.KernelIdeal.main_arg7))) (biasD (F := Ideal) (m ((c.tc : Thread Cert.KernelIdeal.nD Cert.KernelIdeal.τ).loc Cert.KernelIdeal.main_arg3)) (m ((c.tc : Thread Cert.KernelIdeal.nD Cert.KernelIdeal.τ).loc Cert.KernelIdeal.main_arg9))) (entry1_bx m c) (entry1_by m c)
  rw [entry1_x, entry1_y] at h
  exact h

/-- The kernel's result buffer ends at the common result. -/
theorem kernel_value : B9 (F := Ideal) m c (Proc.devRef .tc main_v155) = value m c := by
  show StableHlo.after hostOps2_4 (StableHlo.after hostOps2_3 (StableHlo.after hostOps2_2 (StableHlo.after hostOps2_1 (StableHlo.after hostOps2 (B4 m c)))))
    (Proc.devRef .tc main_v155) = _
  rw [closing_value, dense0_found m c _ (first_dense m c), dense1_found m c _ (second_dense m c),
    B4_untouched m c main_arg0 (by decide) (by decide) (by decide) (by decide),
    B4_untouched m c main_arg1 (by decide) (by decide) (by decide) (by decide),
    B4_untouched m c main_arg2 (by decide) (by decide) (by decide) (by decide),
    B4_untouched m c main_arg3 (by decide) (by decide) (by decide) (by decide),
    B4_untouched m c main_arg4 (by decide) (by decide) (by decide) (by decide),
    B4_untouched m c main_arg5 (by decide) (by decide) (by decide) (by decide),
    B4_untouched m c main_arg6 (by decide) (by decide) (by decide) (by decide)]
  rfl

/-- THE CLAIM: from memories agreeing on the arguments both idealized programs run to the end, leave their arguments as
    launched, and end with equal results. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => value m c, ?_, ?_⟩
  · exact (θ_run Cert.KernelIdeal.defs _ _).mono (fun r h c =>
      ⟨(h c _ (mem_uc main_v155 (by decide))).trans (kernel_value m c),
       (h c _ (mem_uc main_arg0 (by decide))).trans (B9_main_arg0 m c), (h c _ (mem_uc main_arg1 (by decide))).trans (B9_main_arg1 m c),
       (h c _ (mem_uc main_arg2 (by decide))).trans (B9_main_arg2 m c), (h c _ (mem_uc main_arg3 (by decide))).trans (B9_main_arg3 m c),
       (h c _ (mem_uc main_arg4 (by decide))).trans (B9_main_arg4 m c), (h c _ (mem_uc main_arg5 (by decide))).trans (B9_main_arg5 m c),
       (h c _ (mem_uc main_arg6 (by decide))).trans (B9_main_arg6 m c), (h c _ (mem_uc main_arg7 (by decide))).trans (B9_main_arg7 m c),
       (h c _ (mem_uc main_arg8 (by decide))).trans (B9_main_arg8 m c), (h c _ (mem_uc main_arg9 (by decide))).trans (B9_main_arg9 m c)⟩)
      (run_all (F := Ideal) m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7, e8, e9⟩ := hagree c
    rw [Cert.ReferenceIdeal.Hand.result_eq, e0, e1, e2, e3, e4, e5, e6, e7, e8, e9, ref_upper, ref_all]
    rfl

end Cert.Proof.Alg

end
-- ==== Proof.lean ====
/-
  The certificate of one kernel against its reference: a loss over two point sets and a set of edges.

  Both programs gather rows of three point sets and entries of two bias vectors at integer positions, form two dense
  terms — the sum over all pairs (r, c) of exp (bias_r + bias_c − ‖x_r − y_c‖), the first restricted to r < c — and two
  edge terms, and combine them into one number.  The kernel forms each dense term in 64 tiles of 1024 × 1024 pairs,
  adding every tile's sum into a one-entry accumulator that it copies out at the last tile; the reference sums the
  whole 8192 × 8192 matrix at once.  Every host operation outside the two dense terms is the same on both sides.

  The frames of the two kernel programs are in Run.lean and KRun.lean (the same text at the two float instances): the
  program as nine segments, each dense term's region run tile by tile.  The reference has no kernel and its frame is its
  generated run with the result dropped.  The idealization rewrote no operation, so nothing is owed for it.  The equality of
  the two results is in Alg.lean: both are one shared function of the arguments and of the two dense values, and each
  dense value is the same sum of pair contributions on both sides.
-/
import proofs.«117720_j19447611916775_1_alg».proof.Defs
import proofs.«117720_j19447611916775_1_alg».proof.Proof.Gen.Kernel
import proofs.«117720_j19447611916775_1_alg».proof.Proof.Gen.KernelIdeal
import proofs.«117720_j19447611916775_1_alg».proof.Proof.Gen.ReferenceIdeal
import proofs.«117720_j19447611916775_1_alg».proof.Proof.Gen.ReferenceIdeal.Run
import proofs.«117720_j19447611916775_1_alg».proof.Proof.Gen.ReferenceIdeal.Read
import proofs.«117720_j19447611916775_1_alg».proof.Proof.Gen.Pre_finite_inputs
import proofs.«117720_j19447611916775_1_alg».proof.Proof.Run
import proofs.«117720_j19447611916775_1_alg».proof.Proof.KRun
import proofs.«117720_j19447611916775_1_alg».proof.Proof.Alg
import Idealize.ShloMosaic.Adequacy
import Idealize.ShloMosaic.Init

noncomputable section

namespace Cert.Proof

open Idealize.ShloMosaic Idealize.SL.Sem

/-- The word-level kernel runs to the end and leaves its arguments as launched. -/
theorem frame_kernel : Cert.frame_Kernel (hKernel := Cert.Kernel.Gen.facts) (hPre_finite_inputs := Cert.Pre_finite_inputs.Gen.facts) :=
  fun m ρ _ => Cert.Kernel.Hand.frame_all m ρ

/-- So does the idealized kernel. -/
theorem frame_kernelIdeal : Cert.frame_KernelIdeal (hKernelIdeal := Cert.KernelIdeal.Gen.facts) (hPre_finite_inputs := Cert.Pre_finite_inputs.Gen.facts) :=
  fun m ρ _ => Cert.KernelIdeal.Hand.frame_all m ρ

/-- The reference is host operations only: its run, with the result dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, Cert.Proof.Alg.algebraic⟩

end Cert.Proof

end
